-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x384 : Shape := ⟨2, ![64, 384]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x384 : S_.BroadcastsInDim S64x384 (![] : Fin 0 → Fin S64x384.rank)
  reducesTo_S64x384_S_d0_1 : S64x384.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S128 .f32) (main_arg21 : FVec F S64x384 .f32) (main_arg22 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S64x384 .f32 := Host.absf main_arg21
  let main_cst_36 : FVec F S_ .f32 := constant S_ .f32 0x7F800000#32
  let main_v95 : FVec F S64x384 .f32 := broadcastInDim S64x384 ![] bcast_S_S64x384 main_cst_36
  let main_v96 : IVec S64x384 1 := cmpf .olt main_v94 main_v95
  let main_c_37 : IVec S_ 1 := constantI S_ 1 1#1
  let main_v97 : IVec S_ 1 := (fun x v => Host.reduce IntOp.andi x v reducesTo_S64x384_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128x128 .f32) (main_arg18 : FVec F S128 .f32) (main_arg19 : FVec F S128 .f32) (main_arg20 : FVec F S128 .f32) (main_arg21 : FVec F S64x384 .f32) (main_arg22 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S64x384 .f32) (main_arg22 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S64x384 .f32) (main_arg22 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S64x384 .f32) (main_arg22 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S64x384 .f32) (main_arg22 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x384 : Shape := ⟨2, ![64, 384]⟩
abbrev S64 : Shape := ⟨1, ![64]⟩
abbrev S1x600000 : Shape := ⟨2, ![1, 600000]⟩
abbrev S600000 : Shape := ⟨1, ![600000]⟩
abbrev S_ : Shape := ⟨0, ![]⟩
abbrev S512 : Shape := ⟨1, ![512]⟩
abbrev S50000x1 : Shape := ⟨2, ![50000, 1]⟩
abbrev S512x1 : Shape := ⟨2, ![512, 1]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S512x128 : Shape := ⟨2, ![512, 128]⟩
abbrev S512x384 : Shape := ⟨2, ![512, 384]⟩
abbrev S384x64 : Shape := ⟨2, ![384, 64]⟩
abbrev S1x64 : Shape := ⟨2, ![1, 64]⟩
abbrev S512x64 : Shape := ⟨2, ![512, 64]⟩

abbrev nBuf : Space → Nat
  | .hbm => 136
  | .vmem => 70
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S64x384, .f32⟩
  | 22 => ⟨S64, .f32⟩
  | 23 => ⟨S1x600000, .i32⟩
  | 24 => ⟨S600000, .i32⟩
  | 25 => ⟨S1x600000, .i32⟩
  | 26 => ⟨S600000, .i32⟩
  | 27 => ⟨S_, .f32⟩
  | 28 => ⟨S50000, .f32⟩
  | 29 => ⟨S_, .f32⟩
  | 30 => ⟨S512, .f32⟩
  | 31 => ⟨S50000x1, .i32⟩
  | 32 => ⟨S512, .f32⟩
  | 33 => ⟨S_, .f32⟩
  | 34 => ⟨S512, .f32⟩
  | 35 => ⟨S512, .f32⟩
  | 36 => ⟨S512x1, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S128x128, .f32⟩
  | 51 => ⟨S128x128, .bf16⟩
  | 52 => ⟨S128x128, .f32⟩
  | 53 => ⟨S128x128, .bf16⟩
  | 54 => ⟨S1x128, .f32⟩
  | 55 => ⟨S1x128, .f32⟩
  | 56 => ⟨S50000x128, .f32⟩
  | 57 => ⟨S1x128, .f32⟩
  | 58 => ⟨S1x128, .f32⟩
  | 59 => ⟨S1x128, .f32⟩
  | 60 => ⟨S1x128, .f32⟩
  | 61 => ⟨S50000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .f32⟩
  | 72 => ⟨S50000x128, .f32⟩
  | 73 => ⟨S600000x1, .i32⟩
  | 74 => ⟨S50000x128, .f32⟩
  | 75 => ⟨S128x128, .f32⟩
  | 76 => ⟨S128x128, .bf16⟩
  | 77 => ⟨S128x128, .f32⟩
  | 78 => ⟨S128x128, .bf16⟩
  | 79 => ⟨S1x128, .f32⟩
  | 80 => ⟨S1x128, .f32⟩
  | 81 => ⟨S50000x128, .f32⟩
  | 82 => ⟨S1x128, .f32⟩
  | 83 => ⟨S1x128, .f32⟩
  | 84 => ⟨S1x128, .f32⟩
  | 85 => ⟨S1x128, .f32⟩
  | 86 => ⟨S50000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S128x128, .f32⟩
  | 101 => ⟨S128x128, .bf16⟩
  | 102 => ⟨S128x128, .f32⟩
  | 103 => ⟨S128x128, .bf16⟩
  | 104 => ⟨S1x128, .f32⟩
  | 105 => ⟨S1x128, .f32⟩
  | 106 => ⟨S50000x128, .f32⟩
  | 107 => ⟨S1x128, .f32⟩
  | 108 => ⟨S1x128, .f32⟩
  | 109 => ⟨S1x128, .f32⟩
  | 110 => ⟨S1x128, .f32⟩
  | 111 => ⟨S50000x128, .f32⟩
  | 112 => ⟨S_, .f32⟩
  | 113 => ⟨S512x128, .f32⟩
  | 114 => ⟨S50000x1, .i32⟩
  | 115 => ⟨S512x128, .f32⟩
  | 116 => ⟨S512x128, .f32⟩
  | 117 => ⟨S512x128, .f32⟩
  | 118 => ⟨S_, .f32⟩
  | 119 => ⟨S512x128, .f32⟩
  | 120 => ⟨S50000x1, .i32⟩
  | 121 => ⟨S512x128, .f32⟩
  | 122 => ⟨S512x128, .f32⟩
  | 123 => ⟨S512x128, .f32⟩
  | 124 => ⟨S_, .f32⟩
  | 125 => ⟨S512x128, .f32⟩
  | 126 => ⟨S50000x1, .i32⟩
  | 127 => ⟨S512x128, .f32⟩
  | _ => ⟨S50000x128, .f32⟩

abbrev hbmTy0_1 (i : Nat) : BufTy := match i % 128 with
  | 0 => ⟨S512x128, .f32⟩
  | 1 => ⟨S512x128, .f32⟩
  | 2 => ⟨S512x384, .f32⟩
  | 3 => ⟨S512x384, .bf16⟩
  | 4 => ⟨S384x64, .f32⟩
  | 5 => ⟨S384x64, .bf16⟩
  | 6 => ⟨S1x64, .f32⟩
  | 7 => ⟨S512x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .bf16⟩
  | .local _ .vmem, ⟨49, _⟩ => ⟨S1x128, .f32⟩
  | .local _ .vmem, ⟨50, _⟩ => ⟨S128x128, .bf16⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S512x384, .bf16⟩
  | .local _ .vmem, ⟨67, _⟩ => ⟨S384x64, .bf16⟩
  | .local _ .vmem, ⟨68, _⟩ => ⟨S1x64, .f32⟩
  | .local _ .vmem, ⟨69, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47_0 : Ref sig .tc := ⟨.hbm, 81, rfl⟩
abbrev main_v47_1 : Ref sig .tc := ⟨.hbm, 82, rfl⟩
abbrev main_v47_2 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_7 : Ref sig .tc := ⟨.hbm, 87, rfl⟩
abbrev main_v51 : Ref sig .tc := ⟨.hbm, 88, rfl⟩
abbrev main_v52 : Ref sig .tc := ⟨.hbm, 89, rfl⟩
abbrev main_c_8 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_9 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67_0 : Ref sig .tc := ⟨.hbm, 106, rfl⟩
abbrev main_v67_1 : Ref sig .tc := ⟨.hbm, 107, rfl⟩
abbrev main_v67_2 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_10 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_12 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg1_0 : Ref sig .tc := ⟨.vmem, 67, rfl⟩
abbrev cc6_stg2_0 : Ref sig .tc := ⟨.vmem, 68, rfl⟩
abbrev cc6_stg3_0 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem1_0 : DmaSem sig := 61
abbrev cc6_sem2_0 : DmaSem sig := 62
abbrev cc6_sem3_0 : DmaSem sig := 63

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_26 : BitVec 32 := 0#32
  let v43 : BitVec 1 := Scalar.cmpi .ne v42 c0_i32_26
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_26 : BitVec 32 := 0#32
  let v44 : BitVec 1 := Scalar.cmpi .ne v43 c0_i32_26
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_26 : BitVec 32 := 0#32
  let v44 : BitVec 1 := Scalar.cmpi .ne v43 c0_i32_26
  v44

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x384 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S384x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S512x128 : S_.BroadcastsInDim S512x128 (![] : Fin 0 → Fin S512x128.rank)
  bcast_S512x1_S512x128_0_1 : S512x1.BroadcastsInDim S512x128 (![0, 1] : Fin 2 → Fin S512x128.rank)
  concatenates_S512x128_S512x128_S512x128_S512x384_d1 : Shape.Concatenates [S512x128, S512x128, S512x128] S512x384 1
  transposes_S64x384_S384x64_1_0 : S64x384.Transposes [1, 0] S384x64
  shapeCasts_S64_S1x64 : S64.ShapeCasts S1x64
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  scatter_S512_S50000x1_S50000_n_0_0_1_wf : ScatterDims.WF S512 S50000x1 S50000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x384_S384x64_S512x64_1_0_0_1_n_n_wf : DotDims.WF S512x384 S384x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x384.size a ≤ S512x384.size a
  hwx6_0 : ∀ i : grid6.Coords, EltTy.bits .bf16 = 32 ∨ (Rect.block (s := S512x384) S512x384.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x64.size a ≤ S384x64.size a
  hwx6_1 : ∀ i : grid6.Coords, EltTy.bits .bf16 = 32 ∨ (Rect.block (s := S384x64) S384x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x64.size a ≤ S512x64.size a
  hwx6_3 : ∀ i : grid6.Coords, EltTy.bits .f32 = 32 ∨ (Rect.block (s := S512x64) S512x64.size (cc6_transform_3 i) (hinb6_3 i)).WholeWords (EltTy.packing .f32)

variable [Facts₀]

def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x64_S512x64_1_0_0_1_n_n : DotDims S512x384 S384x64 S512x64 where
  lhsContracting := [1]
  rhsContracting := [0]
  lhsNonContracting := [0]
  rhsNonContracting := [1]
  lhsBatch := []
  rhsBatch := []
  wf := dot_S512x384_S384x64_S512x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v47_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v50) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v67_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v67_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v67_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67_1) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67_2) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S512x384.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v89) S384x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S512x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x384 : Shape := ⟨2, ![64, 384]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S512 : Shape := ⟨1, ![512]⟩
abbrev S50000x1 : Shape := ⟨2, ![50000, 1]⟩
abbrev S512x1 : Shape := ⟨2, ![512, 1]⟩
abbrev S512x128 : Shape := ⟨2, ![512, 128]⟩
abbrev S512x384 : Shape := ⟨2, ![512, 384]⟩
abbrev S384x64 : Shape := ⟨2, ![384, 64]⟩
abbrev S512x64 : Shape := ⟨2, ![512, 64]⟩
abbrev S1x64 : Shape := ⟨2, ![1, 64]⟩

abbrev nBuf : Space → Nat
  | .hbm => 293
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S64x384, .f32⟩
  | 22 => ⟨S64, .f32⟩
  | 23 => ⟨S1x600000, .i32⟩
  | 24 => ⟨S600000, .i32⟩
  | 25 => ⟨S1x600000, .i32⟩
  | 26 => ⟨S600000, .i32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S_, .f32⟩
  | 37 => ⟨S50000x128, .f32⟩
  | 38 => ⟨S600000x1, .i32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S128x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S_, .i32⟩
  | 60 => ⟨S_, .f32⟩
  | 61 => ⟨S128, .f32⟩
  | 62 => ⟨S1x128, .f32⟩
  | 63 => ⟨S_, .f32⟩
  | 64 => ⟨S1x128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S_, .f32⟩
  | 71 => ⟨S_, .f32⟩
  | 72 => ⟨S_, .f32⟩
  | 73 => ⟨S128, .f32⟩
  | 74 => ⟨S128, .f32⟩
  | 75 => ⟨S128, .f32⟩
  | 76 => ⟨S_, .f32⟩
  | 77 => ⟨S_, .i1⟩
  | 78 => ⟨S_, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S50000x128, .f32⟩
  | 115 => ⟨S128x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S128x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S50000x128, .f32⟩
  | 61 => ⟨S128x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S128x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000, .f32⟩
  | 123 => ⟨S_, .f32⟩
  | 124 => ⟨S512, .f32⟩
  | 125 => ⟨S50000x1, .i32⟩
  | 126 => ⟨S512, .f32⟩
  | 127 => ⟨S_, .f32⟩
  | _ => ⟨S50000x128, .f32⟩

abbrev hbmTy0_2 (i : Nat) : BufTy := match i % 128 with
  | 0 => ⟨S512, .f32⟩
  | 1 => ⟨S512, .f32⟩
  | 2 => ⟨S512x1, .f32⟩
  | 3 => ⟨S_, .f32⟩
  | 4 => ⟨S512x128, .f32⟩
  | 5 => ⟨S50000x1, .i32⟩
  | 6 => ⟨S512x128, .f32⟩
  | 7 => ⟨S512x128, .f32⟩
  | 8 => ⟨S512x128, .f32⟩
  | 9 => ⟨S_, .f32⟩
  | 10 => ⟨S512x128, .f32⟩
  | 11 => ⟨S50000x1, .i32⟩
  | 12 => ⟨S512x128, .f32⟩
  | 13 => ⟨S512x128, .f32⟩
  | 14 => ⟨S512x128, .f32⟩
  | 15 => ⟨S_, .f32⟩
  | 16 => ⟨S512x128, .f32⟩
  | 17 => ⟨S50000x1, .i32⟩
  | 18 => ⟨S512x128, .f32⟩
  | 19 => ⟨S512x128, .f32⟩
  | 20 => ⟨S512x128, .f32⟩
  | 21 => ⟨S512x384, .f32⟩
  | 22 => ⟨S384x64, .f32⟩
  | 23 => ⟨S512x64, .f32⟩
  | 24 => ⟨S1x64, .f32⟩
  | 25 => ⟨S512x64, .f32⟩
  | 26 => ⟨S512x64, .f32⟩
  | 27 => ⟨S512x64, .f32⟩
  | 28 => ⟨S_, .f32⟩
  | 29 => ⟨S512, .f32⟩
  | 30 => ⟨S512x1, .f32⟩
  | 31 => ⟨S512x1, .f32⟩
  | 32 => ⟨S_, .f32⟩
  | 33 => ⟨S512x1, .f32⟩
  | 34 => ⟨S512x1, .f32⟩
  | 35 => ⟨S512x64, .f32⟩
  | 36 => ⟨S512x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call0_cst : Ref sig .tc := ⟨.hbm, 46, rfl⟩
abbrev main_call0_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_c_3 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_cst_3 : Ref sig .tc := ⟨.hbm, 76, rfl⟩
abbrev main_call1_v12 : Ref sig .tc := ⟨.hbm, 77, rfl⟩
abbrev main_call1_cst_4 : Ref sig .tc := ⟨.hbm, 78, rfl⟩
abbrev main_call1_call0_v0 : Ref sig .tc := ⟨.hbm, 79, rfl⟩
abbrev main_call1_call0_v1 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_4 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_call2_cst : Ref sig .tc := ⟨.hbm, 98, rfl⟩
abbrev main_call2_v0 : Ref sig .tc := ⟨.hbm, 99, rfl⟩
abbrev main_v45 : Ref sig .tc := ⟨.hbm, 100, rfl⟩
abbrev main_c_5 : Ref sig .tc := ⟨.hbm, 101, rfl⟩
abbrev main_v46 : Ref sig .tc := ⟨.hbm, 102, rfl⟩
abbrev main_v47 : Ref sig .tc := ⟨.hbm, 103, rfl⟩
abbrev main_c_6 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_7 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_call3_cst : Ref sig .tc := ⟨.hbm, 120, rfl⟩
abbrev main_call3_v0 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_8 : Ref sig .tc := ⟨.hbm, 128, rfl⟩
abbrev main_v68 : Ref sig .tc := ⟨.hbm, 129, rfl⟩
abbrev main_cst_9 : Ref sig .tc := ⟨.hbm, 130, rfl⟩
abbrev main_v69 : Ref sig .tc := ⟨.hbm, 131, rfl⟩
abbrev main_v70 : Ref sig .tc := ⟨.hbm, 132, rfl⟩
abbrev main_c_10 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_cst_1 : Ref sig .tc := ⟨.hbm, 144, rfl⟩
abbrev main_call4_v8 : Ref sig .tc := ⟨.hbm, 145, rfl⟩
abbrev main_call4_cst_2 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_cst_3 : Ref sig .tc := ⟨.hbm, 150, rfl⟩
abbrev main_call4_v12 : Ref sig .tc := ⟨.hbm, 151, rfl⟩
abbrev main_call4_cst_4 : Ref sig .tc := ⟨.hbm, 152, rfl⟩
abbrev main_call4_call0_v0 : Ref sig .tc := ⟨.hbm, 153, rfl⟩
abbrev main_call4_call0_v1 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_cst_11 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_call5_cst : Ref sig .tc := ⟨.hbm, 172, rfl⟩
abbrev main_call5_v0 : Ref sig .tc := ⟨.hbm, 173, rfl⟩
abbrev main_v87 : Ref sig .tc := ⟨.hbm, 174, rfl⟩
abbrev main_c_12 : Ref sig .tc := ⟨.hbm, 175, rfl⟩
abbrev main_v88 : Ref sig .tc := ⟨.hbm, 176, rfl⟩
abbrev main_v89 : Ref sig .tc := ⟨.hbm, 177, rfl⟩
abbrev main_c_13 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_14 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_call6_cst : Ref sig .tc := ⟨.hbm, 194, rfl⟩
abbrev main_call6_v0 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_cst_15 : Ref sig .tc := ⟨.hbm, 202, rfl⟩
abbrev main_v110 : Ref sig .tc := ⟨.hbm, 203, rfl⟩
abbrev main_cst_16 : Ref sig .tc := ⟨.hbm, 204, rfl⟩
abbrev main_v111 : Ref sig .tc := ⟨.hbm, 205, rfl⟩
abbrev main_v112 : Ref sig .tc := ⟨.hbm, 206, rfl⟩
abbrev main_c_17 : Ref sig .tc := ⟨.hbm, 207, rfl⟩
abbrev main_call7_cst : Ref sig .tc := ⟨.hbm, 208, rfl⟩
abbrev main_call7_v0 : Ref sig .tc := ⟨.hbm, 209, rfl⟩
abbrev main_call7_v1 : Ref sig .tc := ⟨.hbm, 210, rfl⟩
abbrev main_call7_cst_0 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_call7_v5 : Ref sig .tc := ⟨.hbm, 215, rfl⟩
abbrev main_call7_v6 : Ref sig .tc := ⟨.hbm, 216, rfl⟩
abbrev main_call7_v7 : Ref sig .tc := ⟨.hbm, 217, rfl⟩
abbrev main_call7_cst_1 : Ref sig .tc := ⟨.hbm, 218, rfl⟩
abbrev main_call7_v8 : Ref sig .tc := ⟨.hbm, 219, rfl⟩
abbrev main_call7_cst_2 : Ref sig .tc := ⟨.hbm, 220, rfl⟩
abbrev main_call7_v9 : Ref sig .tc := ⟨.hbm, 221, rfl⟩
abbrev main_call7_v10 : Ref sig .tc := ⟨.hbm, 222, rfl⟩
abbrev main_call7_v11 : Ref sig .tc := ⟨.hbm, 223, rfl⟩
abbrev main_call7_cst_3 : Ref sig .tc := ⟨.hbm, 224, rfl⟩
abbrev main_call7_v12 : Ref sig .tc := ⟨.hbm, 225, rfl⟩
abbrev main_call7_cst_4 : Ref sig .tc := ⟨.hbm, 226, rfl⟩
abbrev main_call7_call0_v0 : Ref sig .tc := ⟨.hbm, 227, rfl⟩
abbrev main_call7_call0_v1 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_cst_18 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_call8_cst : Ref sig .tc := ⟨.hbm, 246, rfl⟩
abbrev main_call8_v0 : Ref sig .tc := ⟨.hbm, 247, rfl⟩
abbrev main_v129 : Ref sig .tc := ⟨.hbm, 248, rfl⟩
abbrev main_cst_19 : Ref sig .tc := ⟨.hbm, 249, rfl⟩
abbrev main_v130 : Ref sig .tc := ⟨.hbm, 250, rfl⟩
abbrev main_cst_20 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_cst_21 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_cst_22 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_cst_23 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_cst_24 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_call9_v0 : Ref sig .tc := ⟨.hbm, 283, rfl⟩
abbrev main_call9_cst : Ref sig .tc := ⟨.hbm, 284, rfl⟩
abbrev main_call9_v1 : Ref sig .tc := ⟨.hbm, 285, rfl⟩
abbrev main_call9_v2 : Ref sig .tc := ⟨.hbm, 286, rfl⟩
abbrev main_v158 : Ref sig .tc := ⟨.hbm, 287, rfl⟩
abbrev main_cst_25 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  concatenates_S512x128_S512x128_S512x128_S512x384_d1 : Shape.Concatenates [S512x128, S512x128, S512x128] S512x384 1
  transposes_S64x384_S384x64_1_0 : S64x384.Transposes [1, 0] S384x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  reducesTo_S512x64_S512_d1 : S512x64.ReducesTo [1] S512
  bcast_S_S512x1 : S_.BroadcastsInDim S512x1 (![] : Fin 0 → Fin S512x1.rank)
  bcast_S512x1_S512x64_0_1 : S512x1.BroadcastsInDim S512x64 (![0, 1] : Fin 2 → Fin S512x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x384_S384x64_S512x64_1_0_0_1_n_n_wf : DotDims.WF S512x384 S384x64 S512x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x64_S512x64_1_0_0_1_n_n : DotDims S512x384 S384x64 S512x64 where
  lhsContracting := [1]
  rhsContracting := [0]
  lhsNonContracting := [0]
  rhsNonContracting := [1]
  lhsBatch := []
  rhsBatch := []
  wf := dot_S512x384_S384x64_S512x64_1_0_0_1_n_n_wf

class Facts : Prop extends Facts₀ where

variable [Facts]
-- ==== Proof.Preserves.lean ====
/-
  The idealised kernel program is the kernel program's sanctioned idealisation: the one rewrite applied, six times,
  reads the reciprocal 1/50000 that the kernel multiplies its column sums by as that rational, the value its table
  gives the name.
-/
import proofs.«177104_j19121194402280_1_alg».proof.Defs

noncomputable section

namespace Cert.Proof.Parts

open Idealize.ShloMosaic

/-- The table gives the name the value 1/50000, and the printed constant is that value at the ideal instance. -/
theorem inv_50000_statement :
    IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

theorem preserves : Cert.preserves_Kernel_KernelIdeal :=
  ⟨inv_50000_statement, inv_50000_statement, inv_50000_statement, inv_50000_statement, inv_50000_statement,
    inv_50000_statement⟩

end Cert.Proof.Parts

end
-- ==== Proof.Region0.lean ====
/-
  The perceptron-and-statistics step of a layer (the first pallas_call of each layer), at the contents V the region
  finds: over ten row blocks of 5000 rows, the block of the output is
      max ((x + a) · Wa + ba) 0 · Wb + bb
  of the blocks x, a of the two row-blocked inputs (each matrix product taken on a left operand rounded to bf16
  against bf16 weights, accumulated in f32), and two scratch rows of 128 entries carry, from point to point, the
  column sums s and the column sums of squares q of the blocks stored so far: zeroed at the first point, added to at
  every point, and at the last point turned into the mean row  s · κ  and the variance row  q · κ − (s · κ)²,
  κ the named constant that stands for 1/50000, stored into the two one-row outputs.  Those two outputs are stored at
  the last point only, so at the other points their buffers are handed back as found.  The region's invariant owns
  the two scratch rows at these named partial sums, split out of the scoped buffers.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-block rectangle of rank two. -/
theorem off00 : (![0, 0] : Fin 2 → ℕ) = fun _ => 0 := by
  funext a; fin_cases a <;> rfl

section Whole

variable {κ : Kind} {sp : Space} {sh : Shape} {e : EltTy}

/-- A load through the whole-shape rectangle reads the contents. -/
theorem readAt_whole0 (v : View sig κ sp sh e) (f : v.ty.Contents (Elt F)) {off : Fin sh.rank → ℕ} (h : off = fun _ => 0)
    (inb : ∀ a, off a + sh.size a ≤ sh.size a) :
    v.readAt (Elt F) (Rect.unit off sh.size inb).toLoadRect f = v.read (Elt F) f :=
  (View.readAt_eq_ld v f (Rect.unit off sh.size inb)).trans (View.ld_unit_zero h inb _)

/-- A store through the whole-shape rectangle, made last, leaves its payload, whatever was stored before it. -/
theorem read_store_whole0 (v : View sig κ sp sh e) (f : v.ty.Contents (Elt F)) {off : Fin sh.rank → ℕ} (h : off = fun _ => 0)
    (inb : ∀ a, off a + sh.size a ≤ sh.size a) (w : sh.Idx → Elt F e) (L : List (View.Piece (Elt F) sh e)) :
    v.read (Elt F) (v.writes (Elt F) f (⟨Rect.unit off sh.size inb, w⟩ :: L)) = w :=
  (View.read_writes_eq_canon v f _ (fun y => ⟨_, List.mem_cons_self, View.mem_set_unit_zero h inb y⟩)).trans
    (View.canon_cons_unit_zero h inb w L)

end Whole

/-- Whole-block loads of the three block shapes read the buffer's contents. -/
theorem readAt_B0 {κ : Kind} {sp : Space} (v : View sig κ sp S5000x128 .f32) (f : v.ty.Contents (Elt F)) :
    v.readAt (Elt F) (Rect.unit (s := S5000x128) ![0, 0] ![5000, 128] inb_S5000x128_S5000x128_0_0).toLoadRect f = v.read (Elt F) f :=
  readAt_whole0 v f off00 _
theorem readAt_R0 {κ : Kind} {sp : Space} (v : View sig κ sp S1x128 .f32) (f : v.ty.Contents (Elt F)) :
    v.readAt (Elt F) (Rect.unit (s := S1x128) ![0, 0] ![1, 128] inb_S1x128_S1x128_0_0).toLoadRect f = v.read (Elt F) f :=
  readAt_whole0 v f off00 _
theorem readAt_W0 {κ : Kind} {sp : Space} (v : View sig κ sp S128x128 .bf16) (f : v.ty.Contents (Elt F)) :
    v.readAt (Elt F) (Rect.unit (s := S128x128) ![0, 0] ![128, 128] inb_S128x128_S128x128_0_0).toLoadRect f = v.read (Elt F) f :=
  readAt_whole0 v f off00 _

/-- A whole-row load of what ONE whole-row store left reads the stored row. -/
theorem readCov_R0 {κ : Kind} {sp : Space} (v : View sig κ sp S1x128 .f32) (w : S1x128.Idx → Elt F .f32) :
    v.readCov [(⟨Rect.unit (s := S1x128) ![0, 0] ![1, 128] inb_S1x128_S1x128_0_0, w⟩ : View.Piece (Elt F) S1x128 .f32)]
      (Rect.unit (s := S1x128) ![0, 0] ![1, 128] inb_S1x128_S1x128_0_0).toLoadRect = w :=
  View.readCov_unit_zero v off00 _ w

/-- The first conditional's test (the grid coordinate is 0), as the body computes it. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's test (the grid coordinate is 9). -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-- The block the body stores into output window 6: the two-layer perceptron of the sum of the two input blocks. -/
def blk0_6 (x0 x1 : Vec F S5000x128 .f32) (x2 : Vec F S128x128 .bf16) (x3 : Vec F S1x128 .f32) (x4 : Vec F S128x128 .bf16) (x5 : Vec F S1x128 .f32) :
    Vec F S5000x128 .f32 := k0_pay6 x0 x1 x2 x3 x4 x5
/-- The running column sums after a point: the row found plus the column sums of the point's block. -/
def sum0 (x0 x1 : Vec F S5000x128 .f32) (x2 : Vec F S128x128 .bf16) (x3 : Vec F S1x128 .f32) (x4 : Vec F S128x128 .bf16) (x5 : Vec F S1x128 .f32)
    (s : Vec F S1x128 .f32) : Vec F S1x128 .f32 := k0_pay7 x0 x1 x2 x3 x4 x5 s
/-- The running column sums of squares after a point. -/
def sq0 (x0 x1 : Vec F S5000x128 .f32) (x2 : Vec F S128x128 .bf16) (x3 : Vec F S1x128 .f32) (x4 : Vec F S128x128 .bf16) (x5 : Vec F S1x128 .f32)
    (q : Vec F S1x128 .f32) : Vec F S1x128 .f32 := k0_pay1 (k0_pay6 x0 x1 x2 x3 x4 x5) q
/-- The mean row from the accumulated sums, and the variance row from both accumulated rows. -/
def mean0 (s : Vec F S1x128 .f32) : Vec F S1x128 .f32 := k0_pay2 s
def var0 (s q : Vec F S1x128 .f32) : Vec F S1x128 .f32 := k0_pay3 s q

set_option maxHeartbeats 2000000 in
/-- The body at the first point: both accumulator rows, whatever they held, are zeroed first; then as at any point
    the inputs are read whole and left in place, output window 6's block is stored whole, and both rows are read and
    stored back with the block's column sums added. Output windows 7 and 8 are not touched. -/
theorem sound_kernel0_first (c : Dev nD) (E : Set ℕ) (i : grid0.Coords) (hc0 : cond0_0 i) (hc1 : ¬cond0_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk0_6 x0 x1 x2 x3 x4 x5)
            ∗ owns (c : Thread nD τ) arg10 fullShare (sum0 x0 x1 x2 x3 x4 x5 k0_pay4) ∗ owns (c : Thread nD τ) arg11 fullShare (sq0 x0 x1 x2 x3 x4 x5 k0_pay5)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk0_6, sum0, sq0, mean0, var0]
  isplitl [HS]
  · iexists _; isplitr
    swap; · iexact HS
    ipureintro
    sl_unfold_run_names; (try dsimp only); rw [read_store_whole0 _ _ off00]
    simp only [readCov_R0, readAt_B0, readAt_R0, readAt_W0, blk0_6, sum0, sq0, mean0, var0]
  iexists _; isplitr
  swap; · iexact HQ
  ipureintro
  sl_unfold_run_names; (try dsimp only); rw [read_store_whole0 _ _ off00]
  simp only [readCov_R0, readAt_B0, readAt_R0, readAt_W0, blk0_6, sum0, sq0, mean0, var0]

set_option maxHeartbeats 2000000 in
/-- The body at a point that is neither the first nor the last: the inputs are read whole and left in place, output
    window 6's block is stored whole, both accumulator rows are read and stored back with the block's column sums
    added; output windows 7 and 8 are not touched. -/
theorem sound_kernel0_mid (c : Dev nD) (E : Set ℕ) (i : grid0.Coords) (hc0 : ¬cond0_0 i) (hc1 : ¬cond0_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk0_6 x0 x1 x2 x3 x4 x5)
            ∗ owns (c : Thread nD τ) arg10 fullShare (sum0 x0 x1 x2 x3 x4 x5 s) ∗ owns (c : Thread nD τ) arg11 fullShare (sq0 x0 x1 x2 x3 x4 x5 q)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk0_6, sum0, sq0, mean0, var0]
  isplitl [HS]
  · iexists _; isplitr
    swap; · iexact HS
    ipureintro
    sl_unfold_run_names; (try dsimp only); rw [read_store_whole0 _ _ off00]
    simp only [readCov_R0, readAt_B0, readAt_R0, readAt_W0, blk0_6, sum0, sq0, mean0, var0]
  iexists _; isplitr
  swap; · iexact HQ
  ipureintro
  sl_unfold_run_names; (try dsimp only); rw [read_store_whole0 _ _ off00]
  simp only [readCov_R0, readAt_B0, readAt_R0, readAt_W0, blk0_6, sum0, sq0, mean0, var0]

set_option maxHeartbeats 2000000 in
/-- The body at the last point: as at a middle point, and then both accumulator rows are read back and the mean row
    and the variance row are stored whole into output windows 7 and 8. -/
theorem sound_kernel0_last (c : Dev nD) (E : Set ℕ) (i : grid0.Coords) (hc0 : ¬cond0_0 i) (hc1 : cond0_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk0_6 x0 x1 x2 x3 x4 x5)
            ∗ owns (c : Thread nD τ) arg8 fullShare (mean0 (sum0 x0 x1 x2 x3 x4 x5 s))
            ∗ owns (c : Thread nD τ) arg9 fullShare (var0 (sum0 x0 x1 x2 x3 x4 x5 s) (sq0 x0 x1 x2 x3 x4 x5 q))
            ∗ owns (c : Thread nD τ) arg10 fullShare (sum0 x0 x1 x2 x3 x4 x5 s) ∗ owns (c : Thread nD τ) arg11 fullShare (sq0 x0 x1 x2 x3 x4 x5 q)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk0_6, sum0, sq0, mean0, var0]
  isplitl [H7]
  · iexists _; isplitr
    swap; · iexact H7
    ipureintro
    sl_unfold_run_names; (try dsimp only); rw [read_store_whole0 _ _ off00]
    simp only [readCov_R0, readAt_B0, readAt_R0, readAt_W0, blk0_6, sum0, sq0, mean0, var0]
  isplitl [H8]
  · iexists _; isplitr
    swap; · iexact H8
    ipureintro
    sl_unfold_run_names; (try dsimp only); rw [read_store_whole0 _ _ off00]
    simp only [readCov_R0, readAt_B0, readAt_R0, readAt_W0, blk0_6, sum0, sq0, mean0, var0]
  isplitl [HS]
  · iexists _; isplitr
    swap; · iexact HS
    ipureintro
    sl_unfold_run_names; (try dsimp only); rw [read_store_whole0 _ _ off00]
    simp only [readCov_R0, readAt_B0, readAt_R0, readAt_W0, blk0_6, sum0, sq0, mean0, var0]
  iexists _; isplitr
  swap; · iexact HQ
  ipureintro
  sl_unfold_run_names; (try dsimp only); rw [read_store_whole0 _ _ off00]
  simp only [readCov_R0, readAt_B0, readAt_R0, readAt_W0, blk0_6, sum0, sq0, mean0, var0]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the point's stores hold, over the region-entry contents -/

/-- Output window 6's block at point t. -/
def blkAt0 (c : Dev nD) (t : Fin cfg0.N) : Vec F S5000x128 .f32 := blk0_6 (iblk0 V c 0 t) (iblk0 V c 1 t) (iblk0 V c 2 t) (iblk0 V c 3 t) (iblk0 V c 4 t) (iblk0 V c 5 t)
/-- The accumulator rows after point t, from what they held before it. -/
def sumAt0 (c : Dev nD) (t : Fin cfg0.N) (s : Vec F S1x128 .f32) : Vec F S1x128 .f32 := sum0 (iblk0 V c 0 t) (iblk0 V c 1 t) (iblk0 V c 2 t) (iblk0 V c 3 t) (iblk0 V c 4 t) (iblk0 V c 5 t) s
def sqAt0 (c : Dev nD) (t : Fin cfg0.N) (q : Vec F S1x128 .f32) : Vec F S1x128 .f32 := sq0 (iblk0 V c 0 t) (iblk0 V c 1 t) (iblk0 V c 2 t) (iblk0 V c 3 t) (iblk0 V c 4 t) (iblk0 V c 5 t) q

/-- THE ACCUMULATION: the two accumulator rows after the body at position n — the column sums, and the column sums
    of squares, of the blocks stored at points 0 … n, added in that order onto the zero rows. -/
def accAt0 (c : Dev nD) : (n : ℕ) → n < cfg0.N → Vec F S1x128 .f32 × Vec F S1x128 .f32
  | 0, hn => (sumAt0 V c ⟨0, hn⟩ k0_pay4, sqAt0 V c ⟨0, hn⟩ k0_pay5)
  | n + 1, hn => (sumAt0 V c ⟨n + 1, hn⟩ (accAt0 c n (Nat.lt_of_succ_lt hn)).1, sqAt0 V c ⟨n + 1, hn⟩ (accAt0 c n (Nat.lt_of_succ_lt hn)).2)

theorem accAt0_zero (c : Dev nD) (t : Fin cfg0.N) (h : t.val = 0) :
    accAt0 V c t.val t.isLt = (sumAt0 V c t k0_pay4, sqAt0 V c t k0_pay5) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = (sumAt0 V c t (accAt0 V c (t.val - 1) (Nat.lt_of_le_of_lt (Nat.sub_le _ _) t.isLt)).1,
      sqAt0 V c t (accAt0 V c (t.val - 1) (Nat.lt_of_le_of_lt (Nat.sub_le _ _) t.isLt)).2) := by
  obtain ⟨n, hn⟩ := t
  cases n with
  | zero => exact absurd rfl h
  | succ n => rfl

/-! ## The region's invariant -/

/-- The kernel's two scratch rows, whole scoped buffers of its own. -/
abbrev scM0_0 : Memref sig .tc .vmem S1x128 .f32 := Memref.whole cc0_scratch0
abbrev scM0_1 : Memref sig .tc .vmem S1x128 .f32 := Memref.whole cc0_scratch1

/-- The class invariant with the two scratch rows split out of the scoped rest and owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1]) ∗ (∃ r, prngReg c r)) := by
  unfold Pipeline.ΦA; rw [scopedRest0_split]; simp only [scM0_0, scM0_1, owns_whole]; try rfl

/-- The invariant before position n: before the first point the class's (both scratch rows at anything); afterwards
    the scratch rows at the accumulated sums of the points so far, the rest of the scoped buffers unopened, and the
    generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2)
      ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega)).1 ∗ owns (c : Thread nD τ) scM0_1 fullShare (accAt0 V c (n - 1) (by omega)).2)
      ∗ Pipeline.scopedRestBut spec0 c [cc0_scratch0, cc0_scratch1]) ∗ (∃ r, prngReg c r)) := by
  cases n with
  | zero => exact absurd rfl hz
  | succ n => rfl

/-! ## The proof data -/

/-- The proof data of this region on core c: the arrays as the region finds them; after the body at point t each
    input's buffer at its block, output window 6's at the point's block, output windows 7 and 8 at the mean and
    variance rows of the sums accumulated through t (consulted at the last point only: elsewhere the two windows are
    idle and not written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => blkAt0 V c t
    | ⟨7, _⟩ => mean0 (accAt0 V c t.val t.isLt).1
    | ⟨8, _⟩ => var0 (accAt0 V c t.val t.isLt).1 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = blkAt0 V c t := by dsimp only [dat0]
theorem after0_7 (c : Dev nD) (t : Fin cfg0.N) : (dat0 V c).after 7 t = mean0 (accAt0 V c t.val t.isLt).1 := by dsimp only [dat0]
theorem after0_8 (c : Dev nD) (t : Fin cfg0.N) : (dat0 V c).after 8 t = var0 (accAt0 V c t.val t.isLt).1 (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Off the last point the configuration calls output windows 7 and 8 idle, and the pipeline does not write them back; -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- at the last point it calls them live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns: each window's buffer at what the body leaves — for windows 7 and 8 off the last point, as found. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
/-- The body at any point. The inputs' buffers hold their blocks; the point is the first, the last or neither, which
    decides both conditionals, so that case's triple applies. The invariant hands the body the two scratch rows — at
    anything at the first point, at the sums accumulated so far afterwards — and takes them back at this point's
    sums; the rest of the scoped buffers, the generator register and what the core owes pass through unread, and
    off the last point so do the buffers of windows 7 and 8. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 7 t (idleAt0_7 t hc1) (noFlush0_7 t hc1),
      Dat.leavesExact_idle (dat0 V c) 8 t (idleAt0_8 t hc1) (noFlush0_8 t hc1)]
    rw [accAt0_zero V c t h0]
    rw [PhiS0_castSucc V c t, PhiS0_zero V c _ _ h0, PhiA0_eq]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (sound_kernel0_first c Set.univ (grid0.coords t) hc0 hc1 _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ Hrest Hg]
    · isplitl [HS HQ Hrest]
      · isplitl [HS HQ]
        · isplitl [HS]; · iexact HS
          iexact HQ
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond0_0 (grid0.coords t) := fun h => h0 ((hcond0_0 t).mp h)
    by_cases h9 : t.val = 9
    · have hc1 : cond0_1 (grid0.coords t) := (hcond0_1 t).mpr h9
      rw [show (dat0 V c).leavesExact 7 t = owns (c : Thread nD τ) (st0_7 t) fullShare ((dat0 V c).after 7 t) from by
        unfold Dat.leavesExact; rw [liveAt0_7 t hc1], after0_7]
      rw [show (dat0 V c).leavesExact 8 t = owns (c : Thread nD τ) (st0_8 t) fullShare ((dat0 V c).after 8 t) from by
        unfold Dat.leavesExact; rw [liveAt0_8 t hc1], after0_8]
      rw [accAt0_pos V c t h0]
      rw [PhiS0_castSucc V c t, PhiS0_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_last c Set.univ (grid0.coords t) hc0 hc1 _ _ _ _ _ _ _ _ _ _ _ _ _ _ _ _ _ _ _ _ _ _ (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond0_1 (grid0.coords t) := fun h => h9 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      rw [accAt0_pos V c t h0]
      rw [PhiS0_castSucc V c t, PhiS0_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (sound_kernel0_mid c Set.univ (grid0.coords t) hc0 hc1 _ _ _ _ _ _ _ _ _ _ _ _ _ _ _ _ _ _ _ _ _ _ (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the region's entry hands over — the generator register at some state, whatever else rides beside it, and
    the scoped buffers no window stages — is the invariant before the first point. -/
theorem Phi0_in (c : Dev nD) (Pf : sProp 𝕄) :
    iprop((∃ r, prngReg c r) ∗ Pf ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- After the last point the invariant gives the generator register and the scoped buffers back: the scratch rows'
    named contents are forgotten and the rows rejoin the scoped rest. The kernel has no semaphore of its own. -/
theorem Phi0_out (c : Dev nD) :
    (dat0 V c).Φ (Fin.last cfg0.N)
      ⊢ iprop((∃ r, prngReg c r) ∗ Pipeline.ownSems0 (fun k : PEmpty => k.elim) c ∗ Pipeline.scopedRest spec0 c) := by
  rw [Pipeline.ownSems0_none, show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), scopedRest0_split]
  simp only [scM0_0, scM0_1, owns_whole]
  iintro ⟨⟨⟨HS, HQ⟩, Hrest⟩, Hg⟩
  isplitl [Hg]; · iexact Hg
  isplitr; · iempintro
  isplitl [HS HQ]
  · isplitl [HS]
    · iexists _; iexact HS
    iexists _; iexact HQ
  iexact Hrest

end Cert.KernelIdeal.Hand

end
-- ==== Proof.Region1.lean ====
/-
  The normalise-and-rectify step of a layer (the second pallas_call of each layer), at the contents V the region
  finds: over ten row blocks of 5000 rows, every entry of the block becomes
      max (g · (x − mean) · rsqrt (var + ε) + β) 0,
  with mean, var, g, β rows of 128 entries shared by all blocks.  The body loads its five input blocks whole,
  computes that one payload and stores it over the whole output block, so what a point leaves in the output's
  buffer is the payload of that point's input blocks, and the inputs are left in place.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rB : Rect S5000x128 := Rect.unit (s := S5000x128) ![0, 0] S5000x128.size inb_S5000x128_S5000x128_0_0
abbrev rR : Rect S1x128 := Rect.unit (s := S1x128) ![0, 0] S1x128.size inb_S1x128_S1x128_0_0

/-- The output block after the body: the one whole-block store of the payload of the five input blocks. -/
def out1_5 (x0 : Vec F S5000x128 .f32) (x1 x2 x3 x4 : Vec F S1x128 .f32) : Vec F S5000x128 .f32 :=
  View.canon [⟨rB, k1_pay1 (View.ld x1 rR) (View.ld x2 rR) (View.ld x3 rR) (View.ld x4 rR) (View.ld x0 rB)⟩]

theorem cover1_5 (p0 : Vec F S5000x128 .f32) (y : S5000x128.Idx) :
    ∃ pc ∈ ([⟨rB, p0⟩] : List (View.Piece (Elt F) S5000x128 .f32)), y ∈ pc.1.set :=
  View.cover_of_tiled [⟨rB, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this region on core c: the arrays as the region finds them; after the body at point t each
    input's buffer at its block and the output's at the payload of the input blocks; the class invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  The perceptron-and-statistics step of a layer (the first pallas_call of layer 2: the same kernel text as the first layer's, on that layer's operands), at the contents V the region
  finds: over ten row blocks of 5000 rows, the block of the output is
      max ((x + a) · Wa + ba) 0 · Wb + bb
  of the blocks x, a of the two row-blocked inputs (each matrix product taken on a left operand rounded to bf16
  against bf16 weights, accumulated in f32), and two scratch rows of 128 entries carry, from point to point, the
  column sums s and the column sums of squares q of the blocks stored so far: zeroed at the first point, added to at
  every point, and at the last point turned into the mean row  s · κ  and the variance row  q · κ − (s · κ)²,
  κ the named constant that stands for 1/50000, stored into the two one-row outputs.  Those two outputs are stored at
  the last point only, so at the other points their buffers are handed back as found.  The region's invariant owns
  the two scratch rows at these named partial sums, split out of the scoped buffers.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import proofs.«177104_j19121194402280_1_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's test (the grid coordinate is 0), as the body computes it. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second conditional's test (the grid coordinate is 9). -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-- The block the body stores into output window 6: the two-layer perceptron of the sum of the two input blocks. -/
def blk2_6 (x0 x1 : Vec F S5000x128 .f32) (x2 : Vec F S128x128 .bf16) (x3 : Vec F S1x128 .f32) (x4 : Vec F S128x128 .bf16) (x5 : Vec F S1x128 .f32) :
    Vec F S5000x128 .f32 := k2_pay7 x0 x1 x2 x3 x4 x5
/-- The running column sums after a point: the row found plus the column sums of the point's block. -/
def sum2 (x0 x1 : Vec F S5000x128 .f32) (x2 : Vec F S128x128 .bf16) (x3 : Vec F S1x128 .f32) (x4 : Vec F S128x128 .bf16) (x5 : Vec F S1x128 .f32)
    (s : Vec F S1x128 .f32) : Vec F S1x128 .f32 := k2_pay1 (k2_pay8 x0 x1 x2 x3 x4 x5 s)
/-- The running column sums of squares after a point. -/
def sq2 (x0 x1 : Vec F S5000x128 .f32) (x2 : Vec F S128x128 .bf16) (x3 : Vec F S1x128 .f32) (x4 : Vec F S128x128 .bf16) (x5 : Vec F S1x128 .f32)
    (q : Vec F S1x128 .f32) : Vec F S1x128 .f32 := k2_pay2 (k2_pay7 x0 x1 x2 x3 x4 x5) q
/-- The mean row from the accumulated sums, and the variance row from both accumulated rows. -/
def mean2 (s : Vec F S1x128 .f32) : Vec F S1x128 .f32 := k2_pay3 s
def var2 (s q : Vec F S1x128 .f32) : Vec F S1x128 .f32 := k2_pay4 s q

set_option maxHeartbeats 2000000 in
/-- The body at the first point: both accumulator rows, whatever they held, are zeroed first; then as at any point
    the inputs are read whole and left in place, output window 6's block is stored whole, and both rows are read and
    stored back with the block's column sums added. Output windows 7 and 8 are not touched. -/
theorem sound_kernel2_first (c : Dev nD) (E : Set ℕ) (i : grid2.Coords) (hc0 : cond2_0 i) (hc1 : ¬cond2_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk2_6 x0 x1 x2 x3 x4 x5)
            ∗ owns (c : Thread nD τ) arg10 fullShare (sum2 x0 x1 x2 x3 x4 x5 k2_pay5) ∗ owns (c : Thread nD τ) arg11 fullShare (sq2 x0 x1 x2 x3 x4 x5 k2_pay6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk2_6, sum2, sq2, mean2, var2]
  isplitl [HS]
  · iexists _; isplitr
    swap; · iexact HS
    ipureintro
    sl_unfold_run_names; (try dsimp only); rw [read_store_whole0 _ _ off00]
    simp only [readCov_R0, readAt_B0, readAt_R0, readAt_W0, blk2_6, sum2, sq2, mean2, var2]
  iexists _; isplitr
  swap; · iexact HQ
  ipureintro
  sl_unfold_run_names; (try dsimp only); rw [read_store_whole0 _ _ off00]
  simp only [readCov_R0, readAt_B0, readAt_R0, readAt_W0, blk2_6, sum2, sq2, mean2, var2]

set_option maxHeartbeats 2000000 in
/-- The body at a point that is neither the first nor the last: the inputs are read whole and left in place, output
    window 6's block is stored whole, both accumulator rows are read and stored back with the block's column sums
    added; output windows 7 and 8 are not touched. -/
theorem sound_kernel2_mid (c : Dev nD) (E : Set ℕ) (i : grid2.Coords) (hc0 : ¬cond2_0 i) (hc1 : ¬cond2_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk2_6 x0 x1 x2 x3 x4 x5)
            ∗ owns (c : Thread nD τ) arg10 fullShare (sum2 x0 x1 x2 x3 x4 x5 s) ∗ owns (c : Thread nD τ) arg11 fullShare (sq2 x0 x1 x2 x3 x4 x5 q)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk2_6, sum2, sq2, mean2, var2]
  isplitl [HS]
  · iexists _; isplitr
    swap; · iexact HS
    ipureintro
    sl_unfold_run_names; (try dsimp only); rw [read_store_whole0 _ _ off00]
    simp only [readCov_R0, readAt_B0, readAt_R0, readAt_W0, blk2_6, sum2, sq2, mean2, var2]
  iexists _; isplitr
  swap; · iexact HQ
  ipureintro
  sl_unfold_run_names; (try dsimp only); rw [read_store_whole0 _ _ off00]
  simp only [readCov_R0, readAt_B0, readAt_R0, readAt_W0, blk2_6, sum2, sq2, mean2, var2]

set_option maxHeartbeats 2000000 in
/-- The body at the last point: as at a middle point, and then both accumulator rows are read back and the mean row
    and the variance row are stored whole into output windows 7 and 8. -/
theorem sound_kernel2_last (c : Dev nD) (E : Set ℕ) (i : grid2.Coords) (hc0 : ¬cond2_0 i) (hc1 : cond2_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk2_6 x0 x1 x2 x3 x4 x5)
            ∗ owns (c : Thread nD τ) arg8 fullShare (mean2 (sum2 x0 x1 x2 x3 x4 x5 s))
            ∗ owns (c : Thread nD τ) arg9 fullShare (var2 (sum2 x0 x1 x2 x3 x4 x5 s) (sq2 x0 x1 x2 x3 x4 x5 q))
            ∗ owns (c : Thread nD τ) arg10 fullShare (sum2 x0 x1 x2 x3 x4 x5 s) ∗ owns (c : Thread nD τ) arg11 fullShare (sq2 x0 x1 x2 x3 x4 x5 q)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk2_6, sum2, sq2, mean2, var2]
  isplitl [H7]
  · iexists _; isplitr
    swap; · iexact H7
    ipureintro
    sl_unfold_run_names; (try dsimp only); rw [read_store_whole0 _ _ off00]
    simp only [readCov_R0, readAt_B0, readAt_R0, readAt_W0, blk2_6, sum2, sq2, mean2, var2]
  isplitl [H8]
  · iexists _; isplitr
    swap; · iexact H8
    ipureintro
    sl_unfold_run_names; (try dsimp only); rw [read_store_whole0 _ _ off00]
    simp only [readCov_R0, readAt_B0, readAt_R0, readAt_W0, blk2_6, sum2, sq2, mean2, var2]
  isplitl [HS]
  · iexists _; isplitr
    swap; · iexact HS
    ipureintro
    sl_unfold_run_names; (try dsimp only); rw [read_store_whole0 _ _ off00]
    simp only [readCov_R0, readAt_B0, readAt_R0, readAt_W0, blk2_6, sum2, sq2, mean2, var2]
  iexists _; isplitr
  swap; · iexact HQ
  ipureintro
  sl_unfold_run_names; (try dsimp only); rw [read_store_whole0 _ _ off00]
  simp only [readCov_R0, readAt_B0, readAt_R0, readAt_W0, blk2_6, sum2, sq2, mean2, var2]

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds its block at every point, fetched there or not, for any proof data
    whose array is the region-entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the point's stores hold, over the region-entry contents -/

/-- Output window 6's block at point t. -/
def blkAt2 (c : Dev nD) (t : Fin cfg2.N) : Vec F S5000x128 .f32 := blk2_6 (iblk2 V c 0 t) (iblk2 V c 1 t) (iblk2 V c 2 t) (iblk2 V c 3 t) (iblk2 V c 4 t) (iblk2 V c 5 t)
/-- The accumulator rows after point t, from what they held before it. -/
def sumAt2 (c : Dev nD) (t : Fin cfg2.N) (s : Vec F S1x128 .f32) : Vec F S1x128 .f32 := sum2 (iblk2 V c 0 t) (iblk2 V c 1 t) (iblk2 V c 2 t) (iblk2 V c 3 t) (iblk2 V c 4 t) (iblk2 V c 5 t) s
def sqAt2 (c : Dev nD) (t : Fin cfg2.N) (q : Vec F S1x128 .f32) : Vec F S1x128 .f32 := sq2 (iblk2 V c 0 t) (iblk2 V c 1 t) (iblk2 V c 2 t) (iblk2 V c 3 t) (iblk2 V c 4 t) (iblk2 V c 5 t) q

/-- THE ACCUMULATION: the two accumulator rows after the body at position n — the column sums, and the column sums
    of squares, of the blocks stored at points 0 … n, added in that order onto the zero rows. -/
def accAt2 (c : Dev nD) : (n : ℕ) → n < cfg2.N → Vec F S1x128 .f32 × Vec F S1x128 .f32
  | 0, hn => (sumAt2 V c ⟨0, hn⟩ k2_pay5, sqAt2 V c ⟨0, hn⟩ k2_pay6)
  | n + 1, hn => (sumAt2 V c ⟨n + 1, hn⟩ (accAt2 c n (Nat.lt_of_succ_lt hn)).1, sqAt2 V c ⟨n + 1, hn⟩ (accAt2 c n (Nat.lt_of_succ_lt hn)).2)

theorem accAt2_zero (c : Dev nD) (t : Fin cfg2.N) (h : t.val = 0) :
    accAt2 V c t.val t.isLt = (sumAt2 V c t k2_pay5, sqAt2 V c t k2_pay6) := by
  obtain ⟨n, hn⟩ := t
  cases n with
  | zero => rfl
  | succ n => exact absurd h (Nat.succ_ne_zero n)

theorem accAt2_pos (c : Dev nD) (t : Fin cfg2.N) (h : t.val ≠ 0) :
    accAt2 V c t.val t.isLt = (sumAt2 V c t (accAt2 V c (t.val - 1) (Nat.lt_of_le_of_lt (Nat.sub_le _ _) t.isLt)).1,
      sqAt2 V c t (accAt2 V c (t.val - 1) (Nat.lt_of_le_of_lt (Nat.sub_le _ _) t.isLt)).2) := by
  obtain ⟨n, hn⟩ := t
  cases n with
  | zero => exact absurd rfl h
  | succ n => rfl

/-! ## The region's invariant -/

/-- The kernel's two scratch rows, whole scoped buffers of its own. -/
abbrev scM2_0 : Memref sig .tc .vmem S1x128 .f32 := Memref.whole cc2_scratch0
abbrev scM2_1 : Memref sig .tc .vmem S1x128 .f32 := Memref.whole cc2_scratch1

/-- The class invariant with the two scratch rows split out of the scoped rest and owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-- The invariant before position n: before the first point the class's (both scratch rows at anything); afterwards
    the scratch rows at the accumulated sums of the points so far, the rest of the scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2)
      ∗ Pipeline.scopedRestBut spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2)
      ∗ Pipeline.scopedRestBut spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega)).1 ∗ owns (c : Thread nD τ) scM2_1 fullShare (accAt2 V c (n - 1) (by omega)).2)
      ∗ Pipeline.scopedRestBut spec2 c [cc2_scratch0, cc2_scratch1]) ∗ (∃ r, prngReg c r)) := by
  cases n with
  | zero => exact absurd rfl hz
  | succ n => rfl

/-! ## The proof data -/

/-- The proof data of this region on core c: the arrays as the region finds them; after the body at point t each
    input's buffer at its block, output window 6's at the point's block, output windows 7 and 8 at the mean and
    variance rows of the sums accumulated through t (consulted at the last point only: elsewhere the two windows are
    idle and not written back); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => blkAt2 V c t
    | ⟨7, _⟩ => mean2 (accAt2 V c t.val t.isLt).1
    | ⟨8, _⟩ => var2 (accAt2 V c t.val t.isLt).1 (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = blkAt2 V c t := by dsimp only [dat2]
theorem after2_7 (c : Dev nD) (t : Fin cfg2.N) : (dat2 V c).after 7 t = mean2 (accAt2 V c t.val t.isLt).1 := by dsimp only [dat2]
theorem after2_8 (c : Dev nD) (t : Fin cfg2.N) : (dat2 V c).after 8 t = var2 (accAt2 V c t.val t.isLt).1 (accAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last point the configuration calls output windows 7 and 8 idle, and the pipeline does not write them back; -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- at the last point it calls them live. -/
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: each window's buffer at what the body leaves — for windows 7 and 8 off the last point, as found. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
/-- The body at any point. The inputs' buffers hold their blocks; the point is the first, the last or neither, which
    decides both conditionals, so that case's triple applies. The invariant hands the body the two scratch rows — at
    anything at the first point, at the sums accumulated so far afterwards — and takes them back at this point's
    sums; the rest of the scoped buffers, the generator register and what the core owes pass through unread, and
    off the last point so do the buffers of windows 7 and 8. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1),
      Dat.leavesExact_idle (dat2 V c) 8 t (idleAt2_8 t hc1) (noFlush2_8 t hc1)]
    rw [accAt2_zero V c t h0]
    rw [PhiS2_castSucc V c t, PhiS2_zero V c _ _ h0, PhiA2_eq]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (sound_kernel2_first c Set.univ (grid2.coords t) hc0 hc1 _ _ _ _ _ _ _ _ _ _ _ _ _ _ _ _ _ _ _ _ _ _ (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ Hrest Hg]
    · isplitl [HS HQ Hrest]
      · isplitl [HS HQ]
        · isplitl [HS]; · iexact HS
          iexact HQ
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond2_0 (grid2.coords t) := fun h => h0 ((hcond2_0 t).mp h)
    by_cases h9 : t.val = 9
    · have hc1 : cond2_1 (grid2.coords t) := (hcond2_1 t).mpr h9
      rw [show (dat2 V c).leavesExact 7 t = owns (c : Thread nD τ) (st2_7 t) fullShare ((dat2 V c).after 7 t) from by
        unfold Dat.leavesExact; rw [liveAt2_7 t hc1], after2_7]
      rw [show (dat2 V c).leavesExact 8 t = owns (c : Thread nD τ) (st2_8 t) fullShare ((dat2 V c).after 8 t) from by
        unfold Dat.leavesExact; rw [liveAt2_8 t hc1], after2_8]
      rw [accAt2_pos V c t h0]
      rw [PhiS2_castSucc V c t, PhiS2_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_last c Set.univ (grid2.coords t) hc0 hc1 _ _ _ _ _ _ _ _ _ _ _ _ _ _ _ _ _ _ _ _ _ _ (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h9 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      rw [accAt2_pos V c t h0]
      rw [PhiS2_castSucc V c t, PhiS2_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (sound_kernel2_mid c Set.univ (grid2.coords t) hc0 hc1 _ _ _ _ _ _ _ _ _ _ _ _ _ _ _ _ _ _ _ _ _ _ (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the invariant -/

/-- What the region's entry hands over — the generator register at some state, whatever else rides beside it, and
    the scoped buffers no window stages — is the invariant before the first point. -/
theorem Phi2_in (c : Dev nD) (Pf : sProp 𝕄) :
    iprop((∃ r, prngReg c r) ∗ Pf ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the invariant gives the generator register and the scoped buffers back: the scratch rows'
    named contents are forgotten and the rows rejoin the scoped rest. The kernel has no semaphore of its own. -/
theorem Phi2_out (c : Dev nD) :
    (dat2 V c).Φ (Fin.last cfg2.N)
      ⊢ iprop((∃ r, prngReg c r) ∗ Pipeline.ownSems0 (fun k : PEmpty => k.elim) c ∗ Pipeline.scopedRest spec2 c) := by
  rw [Pipeline.ownSems0_none, show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), scopedRest2_split]
  simp only [scM2_0, scM2_1, owns_whole]
  iintro ⟨⟨⟨HS, HQ⟩, Hrest⟩, Hg⟩
  isplitl [Hg]; · iexact Hg
  isplitr; · iempintro
  isplitl [HS HQ]
  · isplitl [HS]
    · iexists _; iexact HS
    iexists _; iexact HQ
  iexact Hrest

end Cert.KernelIdeal.Hand

end
-- ==== Proof.Region3.lean ====
/-
  The normalise-and-rectify step of a layer (pallas_call 3), at the contents V the region finds: over ten row
  blocks of 5000 rows, every entry of the block becomes
      max (g · (x − mean) · rsqrt (var + ε) + β) 0,
  with mean, var, g, β rows of 128 entries shared by all blocks.  The body loads its five input blocks whole,
  computes that one payload and stores it over the whole output block, so what a point leaves in the output's
  buffer is the payload of that point's input blocks, and the inputs are left in place.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one whole-block store of the payload of the input blocks. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k3_pay1 (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0)) (View.ld x0 (Rect.unit (s := S5000x128) ![0, 0] S5000x128.size inb_S5000x128_S5000x128_0_0))⟩]

theorem cover3_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers, the inputs' at read contents and the output's at anything, runs to the
    continuation holding the inputs' as they were and the output's at the payload of the inputs. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this region on core c: the arrays as the region finds them; after the body at point t each
    input's buffer at its block and the output's at the payload of the input blocks; the class invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region4.lean ====
/-
  The perceptron-and-statistics step of a layer (the first pallas_call of layer 3: the same kernel text as the first layer's, on that layer's operands), at the contents V the region
  finds: over ten row blocks of 5000 rows, the block of the output is
      max ((x + a) · Wa + ba) 0 · Wb + bb
  of the blocks x, a of the two row-blocked inputs (each matrix product taken on a left operand rounded to bf16
  against bf16 weights, accumulated in f32), and two scratch rows of 128 entries carry, from point to point, the
  column sums s and the column sums of squares q of the blocks stored so far: zeroed at the first point, added to at
  every point, and at the last point turned into the mean row  s · κ  and the variance row  q · κ − (s · κ)²,
  κ the named constant that stands for 1/50000, stored into the two one-row outputs.  Those two outputs are stored at
  the last point only, so at the other points their buffers are handed back as found.  The region's invariant owns
  the two scratch rows at these named partial sums, split out of the scoped buffers.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import proofs.«177104_j19121194402280_1_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's test (the grid coordinate is 0), as the body computes it. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The second conditional's test (the grid coordinate is 9). -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-- The block the body stores into output window 6: the two-layer perceptron of the sum of the two input blocks. -/
def blk4_6 (x0 x1 : Vec F S5000x128 .f32) (x2 : Vec F S128x128 .bf16) (x3 : Vec F S1x128 .f32) (x4 : Vec F S128x128 .bf16) (x5 : Vec F S1x128 .f32) :
    Vec F S5000x128 .f32 := k4_pay7 x0 x1 x2 x3 x4 x5
/-- The running column sums after a point: the row found plus the column sums of the point's block. -/
def sum4 (x0 x1 : Vec F S5000x128 .f32) (x2 : Vec F S128x128 .bf16) (x3 : Vec F S1x128 .f32) (x4 : Vec F S128x128 .bf16) (x5 : Vec F S1x128 .f32)
    (s : Vec F S1x128 .f32) : Vec F S1x128 .f32 := k4_pay1 (k4_pay8 x0 x1 x2 x3 x4 x5 s)
/-- The running column sums of squares after a point. -/
def sq4 (x0 x1 : Vec F S5000x128 .f32) (x2 : Vec F S128x128 .bf16) (x3 : Vec F S1x128 .f32) (x4 : Vec F S128x128 .bf16) (x5 : Vec F S1x128 .f32)
    (q : Vec F S1x128 .f32) : Vec F S1x128 .f32 := k4_pay2 (k4_pay7 x0 x1 x2 x3 x4 x5) q
/-- The mean row from the accumulated sums, and the variance row from both accumulated rows. -/
def mean4 (s : Vec F S1x128 .f32) : Vec F S1x128 .f32 := k4_pay3 s
def var4 (s q : Vec F S1x128 .f32) : Vec F S1x128 .f32 := k4_pay4 s q

set_option maxHeartbeats 2000000 in
/-- The body at the first point: both accumulator rows, whatever they held, are zeroed first; then as at any point
    the inputs are read whole and left in place, output window 6's block is stored whole, and both rows are read and
    stored back with the block's column sums added. Output windows 7 and 8 are not touched. -/
theorem sound_kernel4_first (c : Dev nD) (E : Set ℕ) (i : grid4.Coords) (hc0 : cond4_0 i) (hc1 : ¬cond4_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk4_6 x0 x1 x2 x3 x4 x5)
            ∗ owns (c : Thread nD τ) arg10 fullShare (sum4 x0 x1 x2 x3 x4 x5 k4_pay5) ∗ owns (c : Thread nD τ) arg11 fullShare (sq4 x0 x1 x2 x3 x4 x5 k4_pay6)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  simp only [cc4__gin_mlp_kernel_eq_skeleton]; unfold cc4__gin_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk4_6, sum4, sq4, mean4, var4]
  isplitl [HS]
  · iexists _; isplitr
    swap; · iexact HS
    ipureintro
    sl_unfold_run_names; (try dsimp only); rw [read_store_whole0 _ _ off00]
    simp only [readCov_R0, readAt_B0, readAt_R0, readAt_W0, blk4_6, sum4, sq4, mean4, var4]
  iexists _; isplitr
  swap; · iexact HQ
  ipureintro
  sl_unfold_run_names; (try dsimp only); rw [read_store_whole0 _ _ off00]
  simp only [readCov_R0, readAt_B0, readAt_R0, readAt_W0, blk4_6, sum4, sq4, mean4, var4]

set_option maxHeartbeats 2000000 in
/-- The body at a point that is neither the first nor the last: the inputs are read whole and left in place, output
    window 6's block is stored whole, both accumulator rows are read and stored back with the block's column sums
    added; output windows 7 and 8 are not touched. -/
theorem sound_kernel4_mid (c : Dev nD) (E : Set ℕ) (i : grid4.Coords) (hc0 : ¬cond4_0 i) (hc1 : ¬cond4_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk4_6 x0 x1 x2 x3 x4 x5)
            ∗ owns (c : Thread nD τ) arg10 fullShare (sum4 x0 x1 x2 x3 x4 x5 s) ∗ owns (c : Thread nD τ) arg11 fullShare (sq4 x0 x1 x2 x3 x4 x5 q)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  simp only [cc4__gin_mlp_kernel_eq_skeleton]; unfold cc4__gin_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk4_6, sum4, sq4, mean4, var4]
  isplitl [HS]
  · iexists _; isplitr
    swap; · iexact HS
    ipureintro
    sl_unfold_run_names; (try dsimp only); rw [read_store_whole0 _ _ off00]
    simp only [readCov_R0, readAt_B0, readAt_R0, readAt_W0, blk4_6, sum4, sq4, mean4, var4]
  iexists _; isplitr
  swap; · iexact HQ
  ipureintro
  sl_unfold_run_names; (try dsimp only); rw [read_store_whole0 _ _ off00]
  simp only [readCov_R0, readAt_B0, readAt_R0, readAt_W0, blk4_6, sum4, sq4, mean4, var4]

set_option maxHeartbeats 2000000 in
/-- The body at the last point: as at a middle point, and then both accumulator rows are read back and the mean row
    and the variance row are stored whole into output windows 7 and 8. -/
theorem sound_kernel4_last (c : Dev nD) (E : Set ℕ) (i : grid4.Coords) (hc0 : ¬cond4_0 i) (hc1 : cond4_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk4_6 x0 x1 x2 x3 x4 x5)
            ∗ owns (c : Thread nD τ) arg8 fullShare (mean4 (sum4 x0 x1 x2 x3 x4 x5 s))
            ∗ owns (c : Thread nD τ) arg9 fullShare (var4 (sum4 x0 x1 x2 x3 x4 x5 s) (sq4 x0 x1 x2 x3 x4 x5 q))
            ∗ owns (c : Thread nD τ) arg10 fullShare (sum4 x0 x1 x2 x3 x4 x5 s) ∗ owns (c : Thread nD τ) arg11 fullShare (sq4 x0 x1 x2 x3 x4 x5 q)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  simp only [cc4__gin_mlp_kernel_eq_skeleton]; unfold cc4__gin_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk4_6, sum4, sq4, mean4, var4]
  isplitl [H7]
  · iexists _; isplitr
    swap; · iexact H7
    ipureintro
    sl_unfold_run_names; (try dsimp only); rw [read_store_whole0 _ _ off00]
    simp only [readCov_R0, readAt_B0, readAt_R0, readAt_W0, blk4_6, sum4, sq4, mean4, var4]
  isplitl [H8]
  · iexists _; isplitr
    swap; · iexact H8
    ipureintro
    sl_unfold_run_names; (try dsimp only); rw [read_store_whole0 _ _ off00]
    simp only [readCov_R0, readAt_B0, readAt_R0, readAt_W0, blk4_6, sum4, sq4, mean4, var4]
  isplitl [HS]
  · iexists _; isplitr
    swap; · iexact HS
    ipureintro
    sl_unfold_run_names; (try dsimp only); rw [read_store_whole0 _ _ off00]
    simp only [readCov_R0, readAt_B0, readAt_R0, readAt_W0, blk4_6, sum4, sq4, mean4, var4]
  iexists _; isplitr
  swap; · iexact HQ
  ipureintro
  sl_unfold_run_names; (try dsimp only); rw [read_store_whole0 _ _ off00]
  simp only [readCov_R0, readAt_B0, readAt_R0, readAt_W0, blk4_6, sum4, sq4, mean4, var4]

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current buffer holds its block at every point, fetched there or not, for any proof data
    whose array is the region-entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## What the point's stores hold, over the region-entry contents -/

/-- Output window 6's block at point t. -/
def blkAt4 (c : Dev nD) (t : Fin cfg4.N) : Vec F S5000x128 .f32 := blk4_6 (iblk4 V c 0 t) (iblk4 V c 1 t) (iblk4 V c 2 t) (iblk4 V c 3 t) (iblk4 V c 4 t) (iblk4 V c 5 t)
/-- The accumulator rows after point t, from what they held before it. -/
def sumAt4 (c : Dev nD) (t : Fin cfg4.N) (s : Vec F S1x128 .f32) : Vec F S1x128 .f32 := sum4 (iblk4 V c 0 t) (iblk4 V c 1 t) (iblk4 V c 2 t) (iblk4 V c 3 t) (iblk4 V c 4 t) (iblk4 V c 5 t) s
def sqAt4 (c : Dev nD) (t : Fin cfg4.N) (q : Vec F S1x128 .f32) : Vec F S1x128 .f32 := sq4 (iblk4 V c 0 t) (iblk4 V c 1 t) (iblk4 V c 2 t) (iblk4 V c 3 t) (iblk4 V c 4 t) (iblk4 V c 5 t) q

/-- THE ACCUMULATION: the two accumulator rows after the body at position n — the column sums, and the column sums
    of squares, of the blocks stored at points 0 … n, added in that order onto the zero rows. -/
def accAt4 (c : Dev nD) : (n : ℕ) → n < cfg4.N → Vec F S1x128 .f32 × Vec F S1x128 .f32
  | 0, hn => (sumAt4 V c ⟨0, hn⟩ k4_pay5, sqAt4 V c ⟨0, hn⟩ k4_pay6)
  | n + 1, hn => (sumAt4 V c ⟨n + 1, hn⟩ (accAt4 c n (Nat.lt_of_succ_lt hn)).1, sqAt4 V c ⟨n + 1, hn⟩ (accAt4 c n (Nat.lt_of_succ_lt hn)).2)

theorem accAt4_zero (c : Dev nD) (t : Fin cfg4.N) (h : t.val = 0) :
    accAt4 V c t.val t.isLt = (sumAt4 V c t k4_pay5, sqAt4 V c t k4_pay6) := by
  obtain ⟨n, hn⟩ := t
  cases n with
  | zero => rfl
  | succ n => exact absurd h (Nat.succ_ne_zero n)

theorem accAt4_pos (c : Dev nD) (t : Fin cfg4.N) (h : t.val ≠ 0) :
    accAt4 V c t.val t.isLt = (sumAt4 V c t (accAt4 V c (t.val - 1) (Nat.lt_of_le_of_lt (Nat.sub_le _ _) t.isLt)).1,
      sqAt4 V c t (accAt4 V c (t.val - 1) (Nat.lt_of_le_of_lt (Nat.sub_le _ _) t.isLt)).2) := by
  obtain ⟨n, hn⟩ := t
  cases n with
  | zero => exact absurd rfl h
  | succ n => rfl

/-! ## The region's invariant -/

/-- The kernel's two scratch rows, whole scoped buffers of its own. -/
abbrev scM4_0 : Memref sig .tc .vmem S1x128 .f32 := Memref.whole cc4_scratch0
abbrev scM4_1 : Memref sig .tc .vmem S1x128 .f32 := Memref.whole cc4_scratch1

/-- The class invariant with the two scratch rows split out of the scoped rest and owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- The invariant before position n: before the first point the class's (both scratch rows at anything); afterwards
    the scratch rows at the accumulated sums of the points so far, the rest of the scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2)
      ∗ Pipeline.scopedRestBut spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn).1 ∗ owns (c : Thread nD τ) scM4_1 fullShare (accAt4 V c n hn).2)
      ∗ Pipeline.scopedRestBut spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega)).1 ∗ owns (c : Thread nD τ) scM4_1 fullShare (accAt4 V c (n - 1) (by omega)).2)
      ∗ Pipeline.scopedRestBut spec4 c [cc4_scratch0, cc4_scratch1]) ∗ (∃ r, prngReg c r)) := by
  cases n with
  | zero => exact absurd rfl hz
  | succ n => rfl

/-! ## The proof data -/

/-- The proof data of this region on core c: the arrays as the region finds them; after the body at point t each
    input's buffer at its block, output window 6's at the point's block, output windows 7 and 8 at the mean and
    variance rows of the sums accumulated through t (consulted at the last point only: elsewhere the two windows are
    idle and not written back); the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => blkAt4 V c t
    | ⟨7, _⟩ => mean4 (accAt4 V c t.val t.isLt).1
    | ⟨8, _⟩ => var4 (accAt4 V c t.val t.isLt).1 (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = blkAt4 V c t := by dsimp only [dat4]
theorem after4_7 (c : Dev nD) (t : Fin cfg4.N) : (dat4 V c).after 7 t = mean4 (accAt4 V c t.val t.isLt).1 := by dsimp only [dat4]
theorem after4_8 (c : Dev nD) (t : Fin cfg4.N) : (dat4 V c).after 8 t = var4 (accAt4 V c t.val t.isLt).1 (accAt4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Off the last point the configuration calls output windows 7 and 8 idle, and the pipeline does not write them back; -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
/-- at the last point it calls them live. -/
theorem liveAt4_7 : ∀ t : Fin cfg4.N, cond4_1 (grid4.coords t) → cfg4.idle 7 (grid4.coords t) = false := by decide +kernel
theorem liveAt4_8 : ∀ t : Fin cfg4.N, cond4_1 (grid4.coords t) → cfg4.idle 8 (grid4.coords t) = false := by decide +kernel

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns: each window's buffer at what the body leaves — for windows 7 and 8 off the last point, as found. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4000000 in
/-- The body at any point. The inputs' buffers hold their blocks; the point is the first, the last or neither, which
    decides both conditionals, so that case's triple applies. The invariant hands the body the two scratch rows — at
    anything at the first point, at the sums accumulated so far afterwards — and takes them back at this point's
    sums; the rest of the scoped buffers, the generator register and what the core owes pass through unread, and
    off the last point so do the buffers of windows 7 and 8. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  rw [show (dat4 V c).leavesExact 6 t = owns (c : Thread nD τ) (st4_6 t) fullShare ((dat4 V c).after 6 t) from by
    unfold Dat.leavesExact; rw [liveAt4_6 t], after4_6]
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 7 t (idleAt4_7 t hc1) (noFlush4_7 t hc1),
      Dat.leavesExact_idle (dat4 V c) 8 t (idleAt4_8 t hc1) (noFlush4_8 t hc1)]
    rw [accAt4_zero V c t h0]
    rw [PhiS4_castSucc V c t, PhiS4_zero V c _ _ h0, PhiA4_eq]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (sound_kernel4_first c Set.univ (grid4.coords t) hc0 hc1 _ _ _ _ _ _ _ _ _ _ _ _ _ _ _ _ _ _ _ _ _ _ (iblk4 V c 0 t) (iblk4 V c 1 t) (iblk4 V c 2 t) (iblk4 V c 3 t) (iblk4 V c 4 t) (iblk4 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ Hrest Hg]
    · isplitl [HS HQ Hrest]
      · isplitl [HS HQ]
        · isplitl [HS]; · iexact HS
          iexact HQ
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond4_0 (grid4.coords t) := fun h => h0 ((hcond4_0 t).mp h)
    by_cases h9 : t.val = 9
    · have hc1 : cond4_1 (grid4.coords t) := (hcond4_1 t).mpr h9
      rw [show (dat4 V c).leavesExact 7 t = owns (c : Thread nD τ) (st4_7 t) fullShare ((dat4 V c).after 7 t) from by
        unfold Dat.leavesExact; rw [liveAt4_7 t hc1], after4_7]
      rw [show (dat4 V c).leavesExact 8 t = owns (c : Thread nD τ) (st4_8 t) fullShare ((dat4 V c).after 8 t) from by
        unfold Dat.leavesExact; rw [liveAt4_8 t hc1], after4_8]
      rw [accAt4_pos V c t h0]
      rw [PhiS4_castSucc V c t, PhiS4_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_last c Set.univ (grid4.coords t) hc0 hc1 _ _ _ _ _ _ _ _ _ _ _ _ _ _ _ _ _ _ _ _ _ _ (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond4_1 (grid4.coords t) := fun h => h9 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      rw [accAt4_pos V c t h0]
      rw [PhiS4_castSucc V c t, PhiS4_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (sound_kernel4_mid c Set.univ (grid4.coords t) hc0 hc1 _ _ _ _ _ _ _ _ _ _ _ _ _ _ _ _ _ _ _ _ _ _ (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the region's entry hands over — the generator register at some state, whatever else rides beside it, and
    the scoped buffers no window stages — is the invariant before the first point. -/
theorem Phi4_in (c : Dev nD) (Pf : sProp 𝕄) :
    iprop((∃ r, prngReg c r) ∗ Pf ∗ Pipeline.scopedRest spec4 c) ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

/-- After the last point the invariant gives the generator register and the scoped buffers back: the scratch rows'
    named contents are forgotten and the rows rejoin the scoped rest. The kernel has no semaphore of its own. -/
theorem Phi4_out (c : Dev nD) :
    (dat4 V c).Φ (Fin.last cfg4.N)
      ⊢ iprop((∃ r, prngReg c r) ∗ Pipeline.ownSems0 (fun k : PEmpty => k.elim) c ∗ Pipeline.scopedRest spec4 c) := by
  rw [Pipeline.ownSems0_none, show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), scopedRest4_split]
  simp only [scM4_0, scM4_1, owns_whole]
  iintro ⟨⟨⟨HS, HQ⟩, Hrest⟩, Hg⟩
  isplitl [Hg]; · iexact Hg
  isplitr; · iempintro
  isplitl [HS HQ]
  · isplitl [HS]
    · iexists _; iexact HS
    iexists _; iexact HQ
  iexact Hrest

end Cert.KernelIdeal.Hand

end
-- ==== Proof.Region5.lean ====
/-
  The normalise-and-rectify step of a layer (pallas_call 5), at the contents V the region finds: over ten row
  blocks of 5000 rows, every entry of the block becomes
      max (g · (x − mean) · rsqrt (var + ε) + β) 0,
  with mean, var, g, β rows of 128 entries shared by all blocks.  The body loads its five input blocks whole,
  computes that one payload and stores it over the whole output block, so what a point leaves in the output's
  buffer is the payload of that point's input blocks, and the inputs are left in place.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: the one whole-block store of the payload of the input blocks. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k5_pay1 (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0)) (View.ld x0 (Rect.unit (s := S5000x128) ![0, 0] S5000x128.size inb_S5000x128_S5000x128_0_0))⟩]

theorem cover5_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers, the inputs' at read contents and the output's at anything, runs to the
    continuation holding the inputs' as they were and the output's at the payload of the inputs. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this region on core c: the arrays as the region finds them; after the body at point t each
    input's buffer at its block and the output's at the payload of the input blocks; the class invariant; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Region6.lean ====
/-
  The last pallas_call, at the contents V the region finds: one grid point, every array whole.  The pooled features
  (512 rows of 384) times the projection (384 by 64) plus the bias row gives out; each row of out is divided by
  max (sqrt (∑ out²), 1e-12), its Euclidean norm kept away from zero.  The body loads its three inputs whole, computes
  that one payload and stores it over the whole output, so the output's buffer ends at the payload of the inputs.
-/
import proofs.«177104_j19121194402280_1_alg».proof.Proof.Gen.KernelIdeal.Launch
import proofs.«177104_j19121194402280_1_alg».proof.Proof.Gen.KernelIdeal.Skeleton
import proofs.«177104_j19121194402280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: the one whole-block store of the payload of the input blocks. -/
def out6_3 (x0 : Vec F S512x384 .bf16) (x1 : Vec F S384x64 .bf16) (x2 : Vec F S1x64 .f32) : Vec F S512x64 .f32 :=
  View.canon [⟨(Rect.unit (s := S512x64) ![0, 0] S512x64.size inb_S512x64_S512x64_0_0), k6_pay1 (View.ld x0 (Rect.unit (s := S512x384) ![0, 0] S512x384.size inb_S512x384_S512x384_0_0)) (View.ld x1 (Rect.unit (s := S384x64) ![0, 0] S384x64.size inb_S384x64_S384x64_0_0)) (View.ld x2 (Rect.unit (s := S1x64) ![0, 0] S1x64.size inb_S1x64_S1x64_0_0))⟩]

theorem cover6_3 (p0 : Vec F S512x64 .f32) (y : S512x64.Idx) :
    ∃ pc ∈ ([⟨(Rect.unit (s := S512x64) ![0, 0] S512x64.size inb_S512x64_S512x64_0_0), p0⟩] : List (View.Piece (Elt F) S512x64 .f32)), y ∈ pc.1.set :=
  View.cover_of_tiled [⟨(Rect.unit (s := S512x64) ![0, 0] S512x64.size inb_S512x64_S512x64_0_0), p0⟩] S512x64.size (by rfl) y

set_option maxHeartbeats 1000000 in
/-- The body on whole staging buffers, the inputs' at read contents and the output's at anything, runs to the
    continuation holding the inputs' as they were and the output's at the payload of the inputs. -/
theorem sound_kernel6 (c : Dev nD) (E : Set ℕ) (i : grid6.Coords)
    (arg1 : Memref sig .tc .vmem S512x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S512x64 .f32) (harg4 : arg4.IsWhole)
    (x0 : Vec F S512x384 .bf16) (x1 : Vec F S384x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__pool_proj_kernel i arg1 harg1 arg2 harg2 arg3 harg3 arg4 harg4) K := by
  simp only [cc6__pool_proj_kernel_eq_skeleton]; unfold cc6__pool_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this region on core c: the arrays as the region finds them; after the body at point t each
    input's buffer at its block and the output's at the payload of the input blocks; the class invariant; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Assembly.lean ====
/-
  The run of the whole program.  The program is seven kernel regions among seven stretches of host operations:
  stretch 0, region 0, stretch 1, region 1, ..., stretch 6, region 6.  The contents of a core's buffers at the
  fifteen boundaries are a fold from the launch memory: a stretch rewrites the buffers its operations write, a
  region leaves its windows' arrays at what its write-backs make of them and every other buffer as it found it.
  Each region is entered from "every unscoped buffer at the boundary's contents, the generator register at some
  state, nothing owed" and left at the same statement over the next boundary's contents, so the fifteen
  statements chain, the program terminates, and every final memory holds each unscoped buffer at the last
  boundary's contents.  No stretch writes an argument array and no region has one among its outputs, so the fold
  read at an argument walks back to the launch memory.
-/
import proofs.«177104_j19121194402280_1_alg».proof.Proof.Region0
import proofs.«177104_j19121194402280_1_alg».proof.Proof.Region1
import proofs.«177104_j19121194402280_1_alg».proof.Proof.Region2
import proofs.«177104_j19121194402280_1_alg».proof.Proof.Region3
import proofs.«177104_j19121194402280_1_alg».proof.Proof.Region4
import proofs.«177104_j19121194402280_1_alg».proof.Proof.Region5
import proofs.«177104_j19121194402280_1_alg».proof.Proof.Region6
import proofs.«177104_j19121194402280_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-! ## The buffers' contents at each boundary: a fold through the program -/

/-- Core c's buffers at launch. -/
abbrev W0 : Dev nD → Valuation τ sig (Elt F) := fun c b => (s₀ m ρ).mem ((c : Dev nD), b)

/-- After stretch 0 (region 0's entry). -/
abbrev W1 : Dev nD → Valuation τ sig (Elt F) := fun c => StableHlo.after hostOps0 (W0 m ρ c)
/-- The same read at the core's references (what region 0's proof data take). -/
abbrev V1 : (c : Dev nD) → (b : Ref sig .tc) → Buf (Elt F) ((c : Thread nD τ).loc b) := fun c b => W1 m ρ c b
/-- At region 0's exit: its arrays at what the pipeline leaves (an input as entered, an output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference no operation of stretch 0 writes keeps its contents through it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After stretch 1 (region 1's entry). -/
abbrev W3 : Dev nD → Valuation τ sig (Elt F) := fun c => StableHlo.after hostOps1 (W2 m ρ c)
/-- The same read at the core's references (what region 1's proof data take). -/
abbrev V3 : (c : Dev nD) → (b : Ref sig .tc) → Buf (Elt F) ((c : Thread nD τ).loc b) := fun c b => W3 m ρ c b
/-- At region 1's exit: its arrays at what the pipeline leaves (an input as entered, an output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at
    entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference no operation of stretch 1 writes keeps its contents through it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After stretch 2 (region 2's entry). -/
abbrev W5 : Dev nD → Valuation τ sig (Elt F) := fun c => StableHlo.after hostOps2 (W4 m ρ c)
/-- The same read at the core's references (what region 2's proof data take). -/
abbrev V5 : (c : Dev nD) → (b : Ref sig .tc) → Buf (Elt F) ((c : Thread nD τ).loc b) := fun c b => W5 m ρ c b
/-- At region 2's exit: its arrays at what the pipeline leaves (an input as entered, an output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at
    entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference no operation of stretch 2 writes keeps its contents through it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- After stretch 3 (region 3's entry). -/
abbrev W7 : Dev nD → Valuation τ sig (Elt F) := fun c => StableHlo.after hostOps3 (W6 m ρ c)
/-- The same read at the core's references (what region 3's proof data take). -/
abbrev V7 : (c : Dev nD) → (b : Ref sig .tc) → Buf (Elt F) ((c : Thread nD τ).loc b) := fun c b => W7 m ρ c b
/-- At region 3's exit: its arrays at what the pipeline leaves (an input as entered, an output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at
    entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A reference no operation of stretch 3 writes keeps its contents through it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- After stretch 4 (region 4's entry). -/
abbrev W9 : Dev nD → Valuation τ sig (Elt F) := fun c => StableHlo.after hostOps4 (W8 m ρ c)
/-- The same read at the core's references (what region 4's proof data take). -/
abbrev V9 : (c : Dev nD) → (b : Ref sig .tc) → Buf (Elt F) ((c : Thread nD τ).loc b) := fun c b => W9 m ρ c b
/-- At region 4's exit: its arrays at what the pipeline leaves (an input as entered, an output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at
    entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A reference no operation of stretch 4 writes keeps its contents through it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- After stretch 5 (region 5's entry). -/
abbrev W11 : Dev nD → Valuation τ sig (Elt F) := fun c => StableHlo.after hostOps5 (W10 m ρ c)
/-- The same read at the core's references (what region 5's proof data take). -/
abbrev V11 : (c : Dev nD) → (b : Ref sig .tc) → Buf (Elt F) ((c : Thread nD τ).loc b) := fun c b => W11 m ρ c b
/-- At region 5's exit: its arrays at what the pipeline leaves (an input as entered, an output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the core's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at
    entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A reference no operation of stretch 5 writes keeps its contents through it. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- After stretch 6 (region 6's entry). -/
abbrev W13 : Dev nD → Valuation τ sig (Elt F) := fun c => StableHlo.after hostOps6 (W12 m ρ c)
/-- The same read at the core's references (what region 6's proof data take). -/
abbrev V13 : (c : Dev nD) → (b : Ref sig .tc) → Buf (Elt F) ((c : Thread nD τ).loc b) := fun c b => W13 m ρ c b
/-- At region 6's exit: its arrays at what the pipeline leaves (an input as entered, an output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the core's references (region 6's exit contents). -/
abbrev V14 : (c : Dev nD) → (b : Ref sig .tc) → Buf (Elt F) ((c : Thread nD τ).loc b) := fun c b => W14 m ρ c b
/-- At region 6's exit each of its arrays holds what the pipeline leaves, and every other buffer what it held at
    entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A reference no operation of stretch 6 writes keeps its contents through it. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## The arguments end as launched

No stretch writes an argument and no region has one among its outputs (a region reads it through an input window
or does not touch it), so the fold read at an argument's buffer walks back to the launch memory. -/

/-- A reference that no stretch writes and that is no region's array holds its launch contents at the end. -/
theorem W14_bypass (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) (h6 : r ∉ hostOps6_W) (a6 : ∀ w, Pipeline.arrRef spec6 w ≠ r) :
    W14 m ρ c (Proc.devRef .tc r) = m ((c : Thread nD τ).loc r) :=
  calc W14 m ρ c (Proc.devRef .tc r)
    _ = W13 m ρ c (Proc.devRef .tc r) := W14_of_ne m ρ c r a6
    _ = W12 m ρ c (Proc.devRef .tc r) := W13_of m ρ c r h6
    _ = W11 m ρ c (Proc.devRef .tc r) := W12_of_ne m ρ c r a5
    _ = W10 m ρ c (Proc.devRef .tc r) := W11_of m ρ c r h5
    _ = W9 m ρ c (Proc.devRef .tc r) := W10_of_ne m ρ c r a4
    _ = W8 m ρ c (Proc.devRef .tc r) := W9_of m ρ c r h4
    _ = W7 m ρ c (Proc.devRef .tc r) := W8_of_ne m ρ c r a3
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

/-- The first argument is region 0's first input window: the region leaves an input's array as it found it. -/
theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W14_main_arg1 (c : Dev nD) : W14 m ρ c (Proc.devRef .tc main_arg1) = m ((c : Thread nD τ).loc main_arg1) :=
  W14_bypass m ρ c main_arg1 (by decide) (by decide) (by decide) (by decide) (by decide) (by decide) (by decide) (by decide) (by decide) (by decide) (by decide) (by decide) (by decide) (by decide)
theorem W14_main_arg2 (c : Dev nD) : W14 m ρ c (Proc.devRef .tc main_arg2) = m ((c : Thread nD τ).loc main_arg2) :=
  W14_bypass m ρ c main_arg2 (by decide) (by decide) (by decide) (by decide) (by decide) (by decide) (by decide) (by decide) (by decide) (by decide) (by decide) (by decide) (by decide) (by decide)
theorem W14_main_arg3 (c : Dev nD) : W14 m ρ c (Proc.devRef .tc main_arg3) = m ((c : Thread nD τ).loc main_arg3) :=
  W14_bypass m ρ c main_arg3 (by decide) (by decide) (by decide) (by decide) (by decide) (by decide) (by decide) (by decide) (by decide) (by decide) (by decide) (by decide) (by decide) (by decide)
theorem W14_main_arg4 (c : Dev nD) : W14 m ρ c (Proc.devRef .tc main_arg4) = m ((c : Thread nD τ).loc main_arg4) :=
  W14_bypass m ρ c main_arg4 (by decide) (by decide) (by decide) (by decide) (by decide) (by decide) (by decide) (by decide) (by decide) (by decide) (by decide) (by decide) (by decide) (by decide)
theorem W14_main_arg5 (c : Dev nD) : W14 m ρ c (Proc.devRef .tc main_arg5) = m ((c : Thread nD τ).loc main_arg5) :=
  W14_bypass m ρ c main_arg5 (by decide) (by decide) (by decide) (by decide) (by decide) (by decide) (by decide) (by decide) (by decide) (by decide) (by decide) (by decide) (by decide) (by decide)
theorem W14_main_arg6 (c : Dev nD) : W14 m ρ c (Proc.devRef .tc main_arg6) = m ((c : Thread nD τ).loc main_arg6) :=
  W14_bypass m ρ c main_arg6 (by decide) (by decide) (by decide) (by decide) (by decide) (by decide) (by decide) (by decide) (by decide) (by decide) (by decide) (by decide) (by decide) (by decide)
theorem W14_main_arg7 (c : Dev nD) : W14 m ρ c (Proc.devRef .tc main_arg7) = m ((c : Thread nD τ).loc main_arg7) :=
  W14_bypass m ρ c main_arg7 (by decide) (by decide) (by decide) (by decide) (by decide) (by decide) (by decide) (by decide) (by decide) (by decide) (by decide) (by decide) (by decide) (by decide)
theorem W14_main_arg8 (c : Dev nD) : W14 m ρ c (Proc.devRef .tc main_arg8) = m ((c : Thread nD τ).loc main_arg8) :=
  W14_bypass m ρ c main_arg8 (by decide) (by decide) (by decide) (by decide) (by decide) (by decide) (by decide) (by decide) (by decide) (by decide) (by decide) (by decide) (by decide) (by decide)
theorem W14_main_arg9 (c : Dev nD) : W14 m ρ c (Proc.devRef .tc main_arg9) = m ((c : Thread nD τ).loc main_arg9) :=
  W14_bypass m ρ c main_arg9 (by decide) (by decide) (by decide) (by decide) (by decide) (by decide) (by decide) (by decide) (by decide) (by decide) (by decide) (by decide) (by decide) (by decide)
theorem W14_main_arg10 (c : Dev nD) : W14 m ρ c (Proc.devRef .tc main_arg10) = m ((c : Thread nD τ).loc main_arg10) :=
  W14_bypass m ρ c main_arg10 (by decide) (by decide) (by decide) (by decide) (by decide) (by decide) (by decide) (by decide) (by decide) (by decide) (by decide) (by decide) (by decide) (by decide)
theorem W14_main_arg11 (c : Dev nD) : W14 m ρ c (Proc.devRef .tc main_arg11) = m ((c : Thread nD τ).loc main_arg11) :=
  W14_bypass m ρ c main_arg11 (by decide) (by decide) (by decide) (by decide) (by decide) (by decide) (by decide) (by decide) (by decide) (by decide) (by decide) (by decide) (by decide) (by decide)
theorem W14_main_arg12 (c : Dev nD) : W14 m ρ c (Proc.devRef .tc main_arg12) = m ((c : Thread nD τ).loc main_arg12) :=
  W14_bypass m ρ c main_arg12 (by decide) (by decide) (by decide) (by decide) (by decide) (by decide) (by decide) (by decide) (by decide) (by decide) (by decide) (by decide) (by decide) (by decide)
theorem W14_main_arg13 (c : Dev nD) : W14 m ρ c (Proc.devRef .tc main_arg13) = m ((c : Thread nD τ).loc main_arg13) :=
  W14_bypass m ρ c main_arg13 (by decide) (by decide) (by decide) (by decide) (by decide) (by decide) (by decide) (by decide) (by decide) (by decide) (by decide) (by decide) (by decide) (by decide)
theorem W14_main_arg14 (c : Dev nD) : W14 m ρ c (Proc.devRef .tc main_arg14) = m ((c : Thread nD τ).loc main_arg14) :=
  W14_bypass m ρ c main_arg14 (by decide) (by decide) (by decide) (by decide) (by decide) (by decide) (by decide) (by decide) (by decide) (by decide) (by decide) (by decide) (by decide) (by decide)
theorem W14_main_arg15 (c : Dev nD) : W14 m ρ c (Proc.devRef .tc main_arg15) = m ((c : Thread nD τ).loc main_arg15) :=
  W14_bypass m ρ c main_arg15 (by decide) (by decide) (by decide) (by decide) (by decide) (by decide) (by decide) (by decide) (by decide) (by decide) (by decide) (by decide) (by decide) (by decide)
theorem W14_main_arg16 (c : Dev nD) : W14 m ρ c (Proc.devRef .tc main_arg16) = m ((c : Thread nD τ).loc main_arg16) :=
  W14_bypass m ρ c main_arg16 (by decide) (by decide) (by decide) (by decide) (by decide) (by decide) (by decide) (by decide) (by decide) (by decide) (by decide) (by decide) (by decide) (by decide)
theorem W14_main_arg17 (c : Dev nD) : W14 m ρ c (Proc.devRef .tc main_arg17) = m ((c : Thread nD τ).loc main_arg17) :=
  W14_bypass m ρ c main_arg17 (by decide) (by decide) (by decide) (by decide) (by decide) (by decide) (by decide) (by decide) (by decide) (by decide) (by decide) (by decide) (by decide) (by decide)
theorem W14_main_arg18 (c : Dev nD) : W14 m ρ c (Proc.devRef .tc main_arg18) = m ((c : Thread nD τ).loc main_arg18) :=
  W14_bypass m ρ c main_arg18 (by decide) (by decide) (by decide) (by decide) (by decide) (by decide) (by decide) (by decide) (by decide) (by decide) (by decide) (by decide) (by decide) (by decide)
theorem W14_main_arg19 (c : Dev nD) : W14 m ρ c (Proc.devRef .tc main_arg19) = m ((c : Thread nD τ).loc main_arg19) :=
  W14_bypass m ρ c main_arg19 (by decide) (by decide) (by decide) (by decide) (by decide) (by decide) (by decide) (by decide) (by decide) (by decide) (by decide) (by decide) (by decide) (by decide)
theorem W14_main_arg20 (c : Dev nD) : W14 m ρ c (Proc.devRef .tc main_arg20) = m ((c : Thread nD τ).loc main_arg20) :=
  W14_bypass m ρ c main_arg20 (by decide) (by decide) (by decide) (by decide) (by decide) (by decide) (by decide) (by decide) (by decide) (by decide) (by decide) (by decide) (by decide) (by decide)
theorem W14_main_arg21 (c : Dev nD) : W14 m ρ c (Proc.devRef .tc main_arg21) = m ((c : Thread nD τ).loc main_arg21) :=
  W14_bypass m ρ c main_arg21 (by decide) (by decide) (by decide) (by decide) (by decide) (by decide) (by decide) (by decide) (by decide) (by decide) (by decide) (by decide) (by decide) (by decide)
theorem W14_main_arg22 (c : Dev nD) : W14 m ρ c (Proc.devRef .tc main_arg22) = m ((c : Thread nD τ).loc main_arg22) :=
  W14_bypass m ρ c main_arg22 (by decide) (by decide) (by decide) (by decide) (by decide) (by decide) (by decide) (by decide) (by decide) (by decide) (by decide) (by decide) (by decide) (by decide)

/-- The program's result is region 6's output window: at the end its buffer holds what that pipeline's write-backs
    make of it. -/
theorem W14_main_v91 (c : Dev nD) : W14 m ρ c (Proc.devRef .tc main_v91) = (dat6 (V13 m ρ) c).arrAt 3 cfg6.N :=
  W14_arr m ρ c 3

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents: a literal match, so that the pinned
    configuration at a numeral reduces to the printed one. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what
    the core owes, which is nothing. -/
abbrev R (c : Dev nD) : sProp 𝕄 := iprop((∃ r, prngReg c r) ∗ ∃ W, owes (c : Thread nD τ) (0 : CellTallies nD τ sig Unit) W)
/-- A stretch as a segment over the unscoped references from the contents W, R riding along: it is left with
    those references at the contents after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at boundary 1's contents, left at boundary
    2's.  Its arrays are split out of the unscoped buffers at entry and put back at the exit contents; the
    generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi0_in (V1 m ρ) c _
  hout c := Phi0_out (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary
    4's.  Its arrays are split out of the unscoped buffers at entry and put back at the exit contents; the
    generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary
    6's.  Its arrays are split out of the unscoped buffers at entry and put back at the exit contents; the
    generator register goes into the region's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi2_in (V5 m ρ) c _
  hout c := Phi2_out (V5 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary
    8's.  Its arrays are split out of the unscoped buffers at entry and put back at the exit contents; the
    generator register goes into the region's invariant and comes back; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary
    10's.  Its arrays are split out of the unscoped buffers at entry and put back at the exit contents; the
    generator register goes into the region's invariant and comes back; nothing is owed; the kernel has no
    semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi4_in (V9 m ρ) c _
  hout c := Phi4_out (V9 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 11's contents, left at boundary
    12's.  Its arrays are split out of the unscoped buffers at entry and put back at the exit contents; the
    generator register goes into the region's invariant and comes back; nothing is owed; the kernel has no
    semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 13's contents, left at boundary
    14's.  Its arrays are split out of the unscoped buffers at entry and put back at the exit contents; the
    generator register goes into the region's invariant and comes back; nothing is owed; the kernel has no
    semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's fourteen segments in order: a host segment per stretch from its boundary's contents, a region
    per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- The program is the run of the segments: it is the chain of its items, and the segments' run is the chain of
    their fragments, which are those items. -/
theorem main_run (c : Dev nD) : main (F := F) c = Pipeline.Seg.run (segs m ρ) := by
  rw [main_chain c, Pipeline.Seg.run_eq_chain,
    show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]

set_option backward.isDefEq.respectTransparency.types false in
/-- From any memory with zero counters, every weakly fair execution of the program on the cores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The program runs to the end and every argument array ends holding its launch contents: each is an unscoped
    buffer, read at the last boundary, where it holds what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (Q := fun r => ∀ c : Dev nD, ∀ b ∈ Pipeline.ucRefs τ sig, r.2.mem ((c : Thread nD τ).1, b) = W14 m ρ c b) (fun r h c =>
    ⟨(h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c),
      (h c _ (mem_uc main_arg20 (by decide))).trans (W14_main_arg20 m ρ c),
      (h c _ (mem_uc main_arg21 (by decide))).trans (W14_main_arg21 m ρ c),
      (h c _ (mem_uc main_arg22 (by decide))).trans (W14_main_arg22 m ρ c)⟩) (run_all m ρ)

/-- The same run read at the result as well: the result's buffer ends at the last boundary's contents, and every
    argument array ends holding its launch contents. -/
theorem run_value : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (Q := fun r => ∀ c : Dev nD, ∀ b ∈ Pipeline.ucRefs τ sig, r.2.mem ((c : Thread nD τ).1, b) = W14 m ρ c b) (fun r h c =>
    ⟨h c _ (mem_uc main_v91 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c),
      (h c _ (mem_uc main_arg20 (by decide))).trans (W14_main_arg20 m ρ c),
      (h c _ (mem_uc main_arg21 (by decide))).trans (W14_main_arg21 m ρ c),
      (h c _ (mem_uc main_arg22 (by decide))).trans (W14_main_arg22 m ρ c)⟩) (run_all m ρ)

end Cert.KernelIdeal.Hand

end
-- ==== Proof.WRegion0.lean ====
/-
  The perceptron-and-statistics step of a layer (the first pallas_call of each layer), at the contents V the region
  finds: over ten row blocks of 5000 rows, the block of the output is
      max ((x + a) · Wa + ba) 0 · Wb + bb
  of the blocks x, a of the two row-blocked inputs (each matrix product taken on a left operand rounded to bf16
  against bf16 weights, accumulated in f32), and two scratch rows of 128 entries carry, from point to point, the
  column sums s and the column sums of squares q of the blocks stored so far: zeroed at the first point, added to at
  every point, and at the last point turned into the mean row  s · κ  and the variance row  q · κ − (s · κ)²,
  κ the named constant that stands for 1/50000, stored into the two one-row outputs.  Those two outputs are stored at
  the last point only, so at the other points their buffers are handed back as found.  The region's invariant owns
  the two scratch rows at these named partial sums, split out of the scoped buffers.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of rank two. -/
theorem off00 : (![0, 0] : Fin 2 → ℕ) = fun _ => 0 := by
  funext a; fin_cases a <;> rfl

section Whole

variable {κ : Kind} {sp : Space} {sh : Shape} {e : EltTy}

/-- A load through the whole-shape rectangle reads the contents. -/
theorem readAt_whole0 (v : View sig κ sp sh e) (f : v.ty.Contents (Elt F)) {off : Fin sh.rank → ℕ} (h : off = fun _ => 0)
    (inb : ∀ a, off a + sh.size a ≤ sh.size a) :
    v.readAt (Elt F) (Rect.unit off sh.size inb).toLoadRect f = v.read (Elt F) f :=
  (View.readAt_eq_ld v f (Rect.unit off sh.size inb)).trans (View.ld_unit_zero h inb _)

/-- A store through the whole-shape rectangle, made last, leaves its payload, whatever was stored before it. -/
theorem read_store_whole0 (v : View sig κ sp sh e) (f : v.ty.Contents (Elt F)) {off : Fin sh.rank → ℕ} (h : off = fun _ => 0)
    (inb : ∀ a, off a + sh.size a ≤ sh.size a) (w : sh.Idx → Elt F e) (L : List (View.Piece (Elt F) sh e)) :
    v.read (Elt F) (v.writes (Elt F) f (⟨Rect.unit off sh.size inb, w⟩ :: L)) = w :=
  (View.read_writes_eq_canon v f _ (fun y => ⟨_, List.mem_cons_self, View.mem_set_unit_zero h inb y⟩)).trans
    (View.canon_cons_unit_zero h inb w L)

end Whole

/-- Whole-block loads of the three block shapes read the buffer's contents. -/
theorem readAt_B0 {κ : Kind} {sp : Space} (v : View sig κ sp S5000x128 .f32) (f : v.ty.Contents (Elt F)) :
    v.readAt (Elt F) (Rect.unit (s := S5000x128) ![0, 0] ![5000, 128] inb_S5000x128_S5000x128_0_0).toLoadRect f = v.read (Elt F) f :=
  readAt_whole0 v f off00 _
theorem readAt_R0 {κ : Kind} {sp : Space} (v : View sig κ sp S1x128 .f32) (f : v.ty.Contents (Elt F)) :
    v.readAt (Elt F) (Rect.unit (s := S1x128) ![0, 0] ![1, 128] inb_S1x128_S1x128_0_0).toLoadRect f = v.read (Elt F) f :=
  readAt_whole0 v f off00 _
theorem readAt_W0 {κ : Kind} {sp : Space} (v : View sig κ sp S128x128 .bf16) (f : v.ty.Contents (Elt F)) :
    v.readAt (Elt F) (Rect.unit (s := S128x128) ![0, 0] ![128, 128] inb_S128x128_S128x128_0_0).toLoadRect f = v.read (Elt F) f :=
  readAt_whole0 v f off00 _

/-- A whole-row load of what ONE whole-row store left reads the stored row. -/
theorem readCov_R0 {κ : Kind} {sp : Space} (v : View sig κ sp S1x128 .f32) (w : S1x128.Idx → Elt F .f32) :
    v.readCov [(⟨Rect.unit (s := S1x128) ![0, 0] ![1, 128] inb_S1x128_S1x128_0_0, w⟩ : View.Piece (Elt F) S1x128 .f32)]
      (Rect.unit (s := S1x128) ![0, 0] ![1, 128] inb_S1x128_S1x128_0_0).toLoadRect = w :=
  View.readCov_unit_zero v off00 _ w

/-- The first conditional's test (the grid coordinate is 0), as the body computes it. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's test (the grid coordinate is 9). -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-- The block the body stores into output window 6: the two-layer perceptron of the sum of the two input blocks. -/
def blk0_6 (x0 x1 : Vec F S5000x128 .f32) (x2 : Vec F S128x128 .bf16) (x3 : Vec F S1x128 .f32) (x4 : Vec F S128x128 .bf16) (x5 : Vec F S1x128 .f32) :
    Vec F S5000x128 .f32 := k0_pay6 x0 x1 x2 x3 x4 x5
/-- The running column sums after a point: the row found plus the column sums of the point's block. -/
def sum0 (x0 x1 : Vec F S5000x128 .f32) (x2 : Vec F S128x128 .bf16) (x3 : Vec F S1x128 .f32) (x4 : Vec F S128x128 .bf16) (x5 : Vec F S1x128 .f32)
    (s : Vec F S1x128 .f32) : Vec F S1x128 .f32 := k0_pay7 x0 x1 x2 x3 x4 x5 s
/-- The running column sums of squares after a point. -/
def sq0 (x0 x1 : Vec F S5000x128 .f32) (x2 : Vec F S128x128 .bf16) (x3 : Vec F S1x128 .f32) (x4 : Vec F S128x128 .bf16) (x5 : Vec F S1x128 .f32)
    (q : Vec F S1x128 .f32) : Vec F S1x128 .f32 := k0_pay1 (k0_pay6 x0 x1 x2 x3 x4 x5) q
/-- The mean row from the accumulated sums, and the variance row from both accumulated rows. -/
def mean0 (s : Vec F S1x128 .f32) : Vec F S1x128 .f32 := k0_pay2 s
def var0 (s q : Vec F S1x128 .f32) : Vec F S1x128 .f32 := k0_pay3 s q

set_option maxHeartbeats 2000000 in
/-- The body at the first point: both accumulator rows, whatever they held, are zeroed first; then as at any point
    the inputs are read whole and left in place, output window 6's block is stored whole, and both rows are read and
    stored back with the block's column sums added. Output windows 7 and 8 are not touched. -/
theorem sound_kernel0_first (c : Dev nD) (E : Set ℕ) (i : grid0.Coords) (hc0 : cond0_0 i) (hc1 : ¬cond0_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk0_6 x0 x1 x2 x3 x4 x5)
            ∗ owns (c : Thread nD τ) arg10 fullShare (sum0 x0 x1 x2 x3 x4 x5 k0_pay4) ∗ owns (c : Thread nD τ) arg11 fullShare (sq0 x0 x1 x2 x3 x4 x5 k0_pay5)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk0_6, sum0, sq0, mean0, var0]
  isplitl [HS]
  · iexists _; isplitr
    swap; · iexact HS
    ipureintro
    sl_unfold_run_names; (try dsimp only); rw [read_store_whole0 _ _ off00]
    simp only [readCov_R0, readAt_B0, readAt_R0, readAt_W0, blk0_6, sum0, sq0, mean0, var0]
  iexists _; isplitr
  swap; · iexact HQ
  ipureintro
  sl_unfold_run_names; (try dsimp only); rw [read_store_whole0 _ _ off00]
  simp only [readCov_R0, readAt_B0, readAt_R0, readAt_W0, blk0_6, sum0, sq0, mean0, var0]

set_option maxHeartbeats 2000000 in
/-- The body at a point that is neither the first nor the last: the inputs are read whole and left in place, output
    window 6's block is stored whole, both accumulator rows are read and stored back with the block's column sums
    added; output windows 7 and 8 are not touched. -/
theorem sound_kernel0_mid (c : Dev nD) (E : Set ℕ) (i : grid0.Coords) (hc0 : ¬cond0_0 i) (hc1 : ¬cond0_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk0_6 x0 x1 x2 x3 x4 x5)
            ∗ owns (c : Thread nD τ) arg10 fullShare (sum0 x0 x1 x2 x3 x4 x5 s) ∗ owns (c : Thread nD τ) arg11 fullShare (sq0 x0 x1 x2 x3 x4 x5 q)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk0_6, sum0, sq0, mean0, var0]
  isplitl [HS]
  · iexists _; isplitr
    swap; · iexact HS
    ipureintro
    sl_unfold_run_names; (try dsimp only); rw [read_store_whole0 _ _ off00]
    simp only [readCov_R0, readAt_B0, readAt_R0, readAt_W0, blk0_6, sum0, sq0, mean0, var0]
  iexists _; isplitr
  swap; · iexact HQ
  ipureintro
  sl_unfold_run_names; (try dsimp only); rw [read_store_whole0 _ _ off00]
  simp only [readCov_R0, readAt_B0, readAt_R0, readAt_W0, blk0_6, sum0, sq0, mean0, var0]

set_option maxHeartbeats 2000000 in
/-- The body at the last point: as at a middle point, and then both accumulator rows are read back and the mean row
    and the variance row are stored whole into output windows 7 and 8. -/
theorem sound_kernel0_last (c : Dev nD) (E : Set ℕ) (i : grid0.Coords) (hc0 : ¬cond0_0 i) (hc1 : cond0_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk0_6 x0 x1 x2 x3 x4 x5)
            ∗ owns (c : Thread nD τ) arg8 fullShare (mean0 (sum0 x0 x1 x2 x3 x4 x5 s))
            ∗ owns (c : Thread nD τ) arg9 fullShare (var0 (sum0 x0 x1 x2 x3 x4 x5 s) (sq0 x0 x1 x2 x3 x4 x5 q))
            ∗ owns (c : Thread nD τ) arg10 fullShare (sum0 x0 x1 x2 x3 x4 x5 s) ∗ owns (c : Thread nD τ) arg11 fullShare (sq0 x0 x1 x2 x3 x4 x5 q)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk0_6, sum0, sq0, mean0, var0]
  isplitl [H7]
  · iexists _; isplitr
    swap; · iexact H7
    ipureintro
    sl_unfold_run_names; (try dsimp only); rw [read_store_whole0 _ _ off00]
    simp only [readCov_R0, readAt_B0, readAt_R0, readAt_W0, blk0_6, sum0, sq0, mean0, var0]
  isplitl [H8]
  · iexists _; isplitr
    swap; · iexact H8
    ipureintro
    sl_unfold_run_names; (try dsimp only); rw [read_store_whole0 _ _ off00]
    simp only [readCov_R0, readAt_B0, readAt_R0, readAt_W0, blk0_6, sum0, sq0, mean0, var0]
  isplitl [HS]
  · iexists _; isplitr
    swap; · iexact HS
    ipureintro
    sl_unfold_run_names; (try dsimp only); rw [read_store_whole0 _ _ off00]
    simp only [readCov_R0, readAt_B0, readAt_R0, readAt_W0, blk0_6, sum0, sq0, mean0, var0]
  iexists _; isplitr
  swap; · iexact HQ
  ipureintro
  sl_unfold_run_names; (try dsimp only); rw [read_store_whole0 _ _ off00]
  simp only [readCov_R0, readAt_B0, readAt_R0, readAt_W0, blk0_6, sum0, sq0, mean0, var0]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the point's stores hold, over the region-entry contents -/

/-- Output window 6's block at point t. -/
def blkAt0 (c : Dev nD) (t : Fin cfg0.N) : Vec F S5000x128 .f32 := blk0_6 (iblk0 V c 0 t) (iblk0 V c 1 t) (iblk0 V c 2 t) (iblk0 V c 3 t) (iblk0 V c 4 t) (iblk0 V c 5 t)
/-- The accumulator rows after point t, from what they held before it. -/
def sumAt0 (c : Dev nD) (t : Fin cfg0.N) (s : Vec F S1x128 .f32) : Vec F S1x128 .f32 := sum0 (iblk0 V c 0 t) (iblk0 V c 1 t) (iblk0 V c 2 t) (iblk0 V c 3 t) (iblk0 V c 4 t) (iblk0 V c 5 t) s
def sqAt0 (c : Dev nD) (t : Fin cfg0.N) (q : Vec F S1x128 .f32) : Vec F S1x128 .f32 := sq0 (iblk0 V c 0 t) (iblk0 V c 1 t) (iblk0 V c 2 t) (iblk0 V c 3 t) (iblk0 V c 4 t) (iblk0 V c 5 t) q

/-- THE ACCUMULATION: the two accumulator rows after the body at position n — the column sums, and the column sums
    of squares, of the blocks stored at points 0 … n, added in that order onto the zero rows. -/
def accAt0 (c : Dev nD) : (n : ℕ) → n < cfg0.N → Vec F S1x128 .f32 × Vec F S1x128 .f32
  | 0, hn => (sumAt0 V c ⟨0, hn⟩ k0_pay4, sqAt0 V c ⟨0, hn⟩ k0_pay5)
  | n + 1, hn => (sumAt0 V c ⟨n + 1, hn⟩ (accAt0 c n (Nat.lt_of_succ_lt hn)).1, sqAt0 V c ⟨n + 1, hn⟩ (accAt0 c n (Nat.lt_of_succ_lt hn)).2)

theorem accAt0_zero (c : Dev nD) (t : Fin cfg0.N) (h : t.val = 0) :
    accAt0 V c t.val t.isLt = (sumAt0 V c t k0_pay4, sqAt0 V c t k0_pay5) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = (sumAt0 V c t (accAt0 V c (t.val - 1) (Nat.lt_of_le_of_lt (Nat.sub_le _ _) t.isLt)).1,
      sqAt0 V c t (accAt0 V c (t.val - 1) (Nat.lt_of_le_of_lt (Nat.sub_le _ _) t.isLt)).2) := by
  obtain ⟨n, hn⟩ := t
  cases n with
  | zero => exact absurd rfl h
  | succ n => rfl

/-! ## The region's invariant -/

/-- The kernel's two scratch rows, whole scoped buffers of its own. -/
abbrev scM0_0 : Memref sig .tc .vmem S1x128 .f32 := Memref.whole cc0_scratch0
abbrev scM0_1 : Memref sig .tc .vmem S1x128 .f32 := Memref.whole cc0_scratch1

/-- The class invariant with the two scratch rows split out of the scoped rest and owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1]) ∗ (∃ r, prngReg c r)) := by
  unfold Pipeline.ΦA; rw [scopedRest0_split]; simp only [scM0_0, scM0_1, owns_whole]; try rfl

/-- The invariant before position n: before the first point the class's (both scratch rows at anything); afterwards
    the scratch rows at the accumulated sums of the points so far, the rest of the scoped buffers unopened, and the
    generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2)
      ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega)).1 ∗ owns (c : Thread nD τ) scM0_1 fullShare (accAt0 V c (n - 1) (by omega)).2)
      ∗ Pipeline.scopedRestBut spec0 c [cc0_scratch0, cc0_scratch1]) ∗ (∃ r, prngReg c r)) := by
  cases n with
  | zero => exact absurd rfl hz
  | succ n => rfl

/-! ## The proof data -/

/-- The proof data of this region on core c: the arrays as the region finds them; after the body at point t each
    input's buffer at its block, output window 6's at the point's block, output windows 7 and 8 at the mean and
    variance rows of the sums accumulated through t (consulted at the last point only: elsewhere the two windows are
    idle and not written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => blkAt0 V c t
    | ⟨7, _⟩ => mean0 (accAt0 V c t.val t.isLt).1
    | ⟨8, _⟩ => var0 (accAt0 V c t.val t.isLt).1 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = blkAt0 V c t := by dsimp only [dat0]
theorem after0_7 (c : Dev nD) (t : Fin cfg0.N) : (dat0 V c).after 7 t = mean0 (accAt0 V c t.val t.isLt).1 := by dsimp only [dat0]
theorem after0_8 (c : Dev nD) (t : Fin cfg0.N) : (dat0 V c).after 8 t = var0 (accAt0 V c t.val t.isLt).1 (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Off the last point the configuration calls output windows 7 and 8 idle, and the pipeline does not write them back; -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- at the last point it calls them live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns: each window's buffer at what the body leaves — for windows 7 and 8 off the last point, as found. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
/-- The body at any point. The inputs' buffers hold their blocks; the point is the first, the last or neither, which
    decides both conditionals, so that case's triple applies. The invariant hands the body the two scratch rows — at
    anything at the first point, at the sums accumulated so far afterwards — and takes them back at this point's
    sums; the rest of the scoped buffers, the generator register and what the core owes pass through unread, and
    off the last point so do the buffers of windows 7 and 8. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 7 t (idleAt0_7 t hc1) (noFlush0_7 t hc1),
      Dat.leavesExact_idle (dat0 V c) 8 t (idleAt0_8 t hc1) (noFlush0_8 t hc1)]
    rw [accAt0_zero V c t h0]
    rw [PhiS0_castSucc V c t, PhiS0_zero V c _ _ h0, PhiA0_eq]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (sound_kernel0_first c Set.univ (grid0.coords t) hc0 hc1 _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ Hrest Hg]
    · isplitl [HS HQ Hrest]
      · isplitl [HS HQ]
        · isplitl [HS]; · iexact HS
          iexact HQ
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond0_0 (grid0.coords t) := fun h => h0 ((hcond0_0 t).mp h)
    by_cases h9 : t.val = 9
    · have hc1 : cond0_1 (grid0.coords t) := (hcond0_1 t).mpr h9
      rw [show (dat0 V c).leavesExact 7 t = owns (c : Thread nD τ) (st0_7 t) fullShare ((dat0 V c).after 7 t) from by
        unfold Dat.leavesExact; rw [liveAt0_7 t hc1], after0_7]
      rw [show (dat0 V c).leavesExact 8 t = owns (c : Thread nD τ) (st0_8 t) fullShare ((dat0 V c).after 8 t) from by
        unfold Dat.leavesExact; rw [liveAt0_8 t hc1], after0_8]
      rw [accAt0_pos V c t h0]
      rw [PhiS0_castSucc V c t, PhiS0_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_last c Set.univ (grid0.coords t) hc0 hc1 _ _ _ _ _ _ _ _ _ _ _ _ _ _ _ _ _ _ _ _ _ _ (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond0_1 (grid0.coords t) := fun h => h9 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      rw [accAt0_pos V c t h0]
      rw [PhiS0_castSucc V c t, PhiS0_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (sound_kernel0_mid c Set.univ (grid0.coords t) hc0 hc1 _ _ _ _ _ _ _ _ _ _ _ _ _ _ _ _ _ _ _ _ _ _ (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the region's entry hands over — the generator register at some state, whatever else rides beside it, and
    the scoped buffers no window stages — is the invariant before the first point. -/
theorem Phi0_in (c : Dev nD) (Pf : sProp 𝕄) :
    iprop((∃ r, prngReg c r) ∗ Pf ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- After the last point the invariant gives the generator register and the scoped buffers back: the scratch rows'
    named contents are forgotten and the rows rejoin the scoped rest. The kernel has no semaphore of its own. -/
theorem Phi0_out (c : Dev nD) :
    (dat0 V c).Φ (Fin.last cfg0.N)
      ⊢ iprop((∃ r, prngReg c r) ∗ Pipeline.ownSems0 (fun k : PEmpty => k.elim) c ∗ Pipeline.scopedRest spec0 c) := by
  rw [Pipeline.ownSems0_none, show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), scopedRest0_split]
  simp only [scM0_0, scM0_1, owns_whole]
  iintro ⟨⟨⟨HS, HQ⟩, Hrest⟩, Hg⟩
  isplitl [Hg]; · iexact Hg
  isplitr; · iempintro
  isplitl [HS HQ]
  · isplitl [HS]
    · iexists _; iexact HS
    iexists _; iexact HQ
  iexact Hrest

end Cert.Kernel.Hand

end
-- ==== Proof.WRegion1.lean ====
/-
  The normalise-and-rectify step of a layer (the second pallas_call of each layer), at the contents V the region
  finds: over ten row blocks of 5000 rows, every entry of the block becomes
      max (g · (x − mean) · rsqrt (var + ε) + β) 0,
  with mean, var, g, β rows of 128 entries shared by all blocks.  The body loads its five input blocks whole,
  computes that one payload and stores it over the whole output block, so what a point leaves in the output's
  buffer is the payload of that point's input blocks, and the inputs are left in place.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rB : Rect S5000x128 := Rect.unit (s := S5000x128) ![0, 0] S5000x128.size inb_S5000x128_S5000x128_0_0
abbrev rR : Rect S1x128 := Rect.unit (s := S1x128) ![0, 0] S1x128.size inb_S1x128_S1x128_0_0

/-- The output block after the body: the one whole-block store of the payload of the five input blocks. -/
def out1_5 (x0 : Vec F S5000x128 .f32) (x1 x2 x3 x4 : Vec F S1x128 .f32) : Vec F S5000x128 .f32 :=
  View.canon [⟨rB, k1_pay1 (View.ld x1 rR) (View.ld x2 rR) (View.ld x3 rR) (View.ld x4 rR) (View.ld x0 rB)⟩]

theorem cover1_5 (p0 : Vec F S5000x128 .f32) (y : S5000x128.Idx) :
    ∃ pc ∈ ([⟨rB, p0⟩] : List (View.Piece (Elt F) S5000x128 .f32)), y ∈ pc.1.set :=
  View.cover_of_tiled [⟨rB, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this region on core c: the arrays as the region finds them; after the body at point t each
    input's buffer at its block and the output's at the payload of the input blocks; the class invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WRegion2.lean ====
/-
  The perceptron-and-statistics step of a layer (the first pallas_call of layer 2: the same kernel text as the first layer's, on that layer's operands), at the contents V the region
  finds: over ten row blocks of 5000 rows, the block of the output is
      max ((x + a) · Wa + ba) 0 · Wb + bb
  of the blocks x, a of the two row-blocked inputs (each matrix product taken on a left operand rounded to bf16
  against bf16 weights, accumulated in f32), and two scratch rows of 128 entries carry, from point to point, the
  column sums s and the column sums of squares q of the blocks stored so far: zeroed at the first point, added to at
  every point, and at the last point turned into the mean row  s · κ  and the variance row  q · κ − (s · κ)²,
  κ the named constant that stands for 1/50000, stored into the two one-row outputs.  Those two outputs are stored at
  the last point only, so at the other points their buffers are handed back as found.  The region's invariant owns
  the two scratch rows at these named partial sums, split out of the scoped buffers.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import proofs.«177104_j19121194402280_1_alg».proof.Proof.WRegion0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (the grid coordinate is 0), as the body computes it. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second conditional's test (the grid coordinate is 9). -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-- The block the body stores into output window 6: the two-layer perceptron of the sum of the two input blocks. -/
def blk2_6 (x0 x1 : Vec F S5000x128 .f32) (x2 : Vec F S128x128 .bf16) (x3 : Vec F S1x128 .f32) (x4 : Vec F S128x128 .bf16) (x5 : Vec F S1x128 .f32) :
    Vec F S5000x128 .f32 := k2_pay7 x0 x1 x2 x3 x4 x5
/-- The running column sums after a point: the row found plus the column sums of the point's block. -/
def sum2 (x0 x1 : Vec F S5000x128 .f32) (x2 : Vec F S128x128 .bf16) (x3 : Vec F S1x128 .f32) (x4 : Vec F S128x128 .bf16) (x5 : Vec F S1x128 .f32)
    (s : Vec F S1x128 .f32) : Vec F S1x128 .f32 := k2_pay1 (k2_pay8 x0 x1 x2 x3 x4 x5 s)
/-- The running column sums of squares after a point. -/
def sq2 (x0 x1 : Vec F S5000x128 .f32) (x2 : Vec F S128x128 .bf16) (x3 : Vec F S1x128 .f32) (x4 : Vec F S128x128 .bf16) (x5 : Vec F S1x128 .f32)
    (q : Vec F S1x128 .f32) : Vec F S1x128 .f32 := k2_pay2 (k2_pay7 x0 x1 x2 x3 x4 x5) q
/-- The mean row from the accumulated sums, and the variance row from both accumulated rows. -/
def mean2 (s : Vec F S1x128 .f32) : Vec F S1x128 .f32 := k2_pay3 s
def var2 (s q : Vec F S1x128 .f32) : Vec F S1x128 .f32 := k2_pay4 s q

set_option maxHeartbeats 2000000 in
/-- The body at the first point: both accumulator rows, whatever they held, are zeroed first; then as at any point
    the inputs are read whole and left in place, output window 6's block is stored whole, and both rows are read and
    stored back with the block's column sums added. Output windows 7 and 8 are not touched. -/
theorem sound_kernel2_first (c : Dev nD) (E : Set ℕ) (i : grid2.Coords) (hc0 : cond2_0 i) (hc1 : ¬cond2_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk2_6 x0 x1 x2 x3 x4 x5)
            ∗ owns (c : Thread nD τ) arg10 fullShare (sum2 x0 x1 x2 x3 x4 x5 k2_pay5) ∗ owns (c : Thread nD τ) arg11 fullShare (sq2 x0 x1 x2 x3 x4 x5 k2_pay6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk2_6, sum2, sq2, mean2, var2]
  isplitl [HS]
  · iexists _; isplitr
    swap; · iexact HS
    ipureintro
    sl_unfold_run_names; (try dsimp only); rw [read_store_whole0 _ _ off00]
    simp only [readCov_R0, readAt_B0, readAt_R0, readAt_W0, blk2_6, sum2, sq2, mean2, var2]
  iexists _; isplitr
  swap; · iexact HQ
  ipureintro
  sl_unfold_run_names; (try dsimp only); rw [read_store_whole0 _ _ off00]
  simp only [readCov_R0, readAt_B0, readAt_R0, readAt_W0, blk2_6, sum2, sq2, mean2, var2]

set_option maxHeartbeats 2000000 in
/-- The body at a point that is neither the first nor the last: the inputs are read whole and left in place, output
    window 6's block is stored whole, both accumulator rows are read and stored back with the block's column sums
    added; output windows 7 and 8 are not touched. -/
theorem sound_kernel2_mid (c : Dev nD) (E : Set ℕ) (i : grid2.Coords) (hc0 : ¬cond2_0 i) (hc1 : ¬cond2_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk2_6 x0 x1 x2 x3 x4 x5)
            ∗ owns (c : Thread nD τ) arg10 fullShare (sum2 x0 x1 x2 x3 x4 x5 s) ∗ owns (c : Thread nD τ) arg11 fullShare (sq2 x0 x1 x2 x3 x4 x5 q)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk2_6, sum2, sq2, mean2, var2]
  isplitl [HS]
  · iexists _; isplitr
    swap; · iexact HS
    ipureintro
    sl_unfold_run_names; (try dsimp only); rw [read_store_whole0 _ _ off00]
    simp only [readCov_R0, readAt_B0, readAt_R0, readAt_W0, blk2_6, sum2, sq2, mean2, var2]
  iexists _; isplitr
  swap; · iexact HQ
  ipureintro
  sl_unfold_run_names; (try dsimp only); rw [read_store_whole0 _ _ off00]
  simp only [readCov_R0, readAt_B0, readAt_R0, readAt_W0, blk2_6, sum2, sq2, mean2, var2]

set_option maxHeartbeats 2000000 in
/-- The body at the last point: as at a middle point, and then both accumulator rows are read back and the mean row
    and the variance row are stored whole into output windows 7 and 8. -/
theorem sound_kernel2_last (c : Dev nD) (E : Set ℕ) (i : grid2.Coords) (hc0 : ¬cond2_0 i) (hc1 : cond2_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk2_6 x0 x1 x2 x3 x4 x5)
            ∗ owns (c : Thread nD τ) arg8 fullShare (mean2 (sum2 x0 x1 x2 x3 x4 x5 s))
            ∗ owns (c : Thread nD τ) arg9 fullShare (var2 (sum2 x0 x1 x2 x3 x4 x5 s) (sq2 x0 x1 x2 x3 x4 x5 q))
            ∗ owns (c : Thread nD τ) arg10 fullShare (sum2 x0 x1 x2 x3 x4 x5 s) ∗ owns (c : Thread nD τ) arg11 fullShare (sq2 x0 x1 x2 x3 x4 x5 q)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk2_6, sum2, sq2, mean2, var2]
  isplitl [H7]
  · iexists _; isplitr
    swap; · iexact H7
    ipureintro
    sl_unfold_run_names; (try dsimp only); rw [read_store_whole0 _ _ off00]
    simp only [readCov_R0, readAt_B0, readAt_R0, readAt_W0, blk2_6, sum2, sq2, mean2, var2]
  isplitl [H8]
  · iexists _; isplitr
    swap; · iexact H8
    ipureintro
    sl_unfold_run_names; (try dsimp only); rw [read_store_whole0 _ _ off00]
    simp only [readCov_R0, readAt_B0, readAt_R0, readAt_W0, blk2_6, sum2, sq2, mean2, var2]
  isplitl [HS]
  · iexists _; isplitr
    swap; · iexact HS
    ipureintro
    sl_unfold_run_names; (try dsimp only); rw [read_store_whole0 _ _ off00]
    simp only [readCov_R0, readAt_B0, readAt_R0, readAt_W0, blk2_6, sum2, sq2, mean2, var2]
  iexists _; isplitr
  swap; · iexact HQ
  ipureintro
  sl_unfold_run_names; (try dsimp only); rw [read_store_whole0 _ _ off00]
  simp only [readCov_R0, readAt_B0, readAt_R0, readAt_W0, blk2_6, sum2, sq2, mean2, var2]

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds its block at every point, fetched there or not, for any proof data
    whose array is the region-entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the point's stores hold, over the region-entry contents -/

/-- Output window 6's block at point t. -/
def blkAt2 (c : Dev nD) (t : Fin cfg2.N) : Vec F S5000x128 .f32 := blk2_6 (iblk2 V c 0 t) (iblk2 V c 1 t) (iblk2 V c 2 t) (iblk2 V c 3 t) (iblk2 V c 4 t) (iblk2 V c 5 t)
/-- The accumulator rows after point t, from what they held before it. -/
def sumAt2 (c : Dev nD) (t : Fin cfg2.N) (s : Vec F S1x128 .f32) : Vec F S1x128 .f32 := sum2 (iblk2 V c 0 t) (iblk2 V c 1 t) (iblk2 V c 2 t) (iblk2 V c 3 t) (iblk2 V c 4 t) (iblk2 V c 5 t) s
def sqAt2 (c : Dev nD) (t : Fin cfg2.N) (q : Vec F S1x128 .f32) : Vec F S1x128 .f32 := sq2 (iblk2 V c 0 t) (iblk2 V c 1 t) (iblk2 V c 2 t) (iblk2 V c 3 t) (iblk2 V c 4 t) (iblk2 V c 5 t) q

/-- THE ACCUMULATION: the two accumulator rows after the body at position n — the column sums, and the column sums
    of squares, of the blocks stored at points 0 … n, added in that order onto the zero rows. -/
def accAt2 (c : Dev nD) : (n : ℕ) → n < cfg2.N → Vec F S1x128 .f32 × Vec F S1x128 .f32
  | 0, hn => (sumAt2 V c ⟨0, hn⟩ k2_pay5, sqAt2 V c ⟨0, hn⟩ k2_pay6)
  | n + 1, hn => (sumAt2 V c ⟨n + 1, hn⟩ (accAt2 c n (Nat.lt_of_succ_lt hn)).1, sqAt2 V c ⟨n + 1, hn⟩ (accAt2 c n (Nat.lt_of_succ_lt hn)).2)

theorem accAt2_zero (c : Dev nD) (t : Fin cfg2.N) (h : t.val = 0) :
    accAt2 V c t.val t.isLt = (sumAt2 V c t k2_pay5, sqAt2 V c t k2_pay6) := by
  obtain ⟨n, hn⟩ := t
  cases n with
  | zero => rfl
  | succ n => exact absurd h (Nat.succ_ne_zero n)

theorem accAt2_pos (c : Dev nD) (t : Fin cfg2.N) (h : t.val ≠ 0) :
    accAt2 V c t.val t.isLt = (sumAt2 V c t (accAt2 V c (t.val - 1) (Nat.lt_of_le_of_lt (Nat.sub_le _ _) t.isLt)).1,
      sqAt2 V c t (accAt2 V c (t.val - 1) (Nat.lt_of_le_of_lt (Nat.sub_le _ _) t.isLt)).2) := by
  obtain ⟨n, hn⟩ := t
  cases n with
  | zero => exact absurd rfl h
  | succ n => rfl

/-! ## The region's invariant -/

/-- The kernel's two scratch rows, whole scoped buffers of its own. -/
abbrev scM2_0 : Memref sig .tc .vmem S1x128 .f32 := Memref.whole cc2_scratch0
abbrev scM2_1 : Memref sig .tc .vmem S1x128 .f32 := Memref.whole cc2_scratch1

/-- The class invariant with the two scratch rows split out of the scoped rest and owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-- The invariant before position n: before the first point the class's (both scratch rows at anything); afterwards
    the scratch rows at the accumulated sums of the points so far, the rest of the scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2)
      ∗ Pipeline.scopedRestBut spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2)
      ∗ Pipeline.scopedRestBut spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega)).1 ∗ owns (c : Thread nD τ) scM2_1 fullShare (accAt2 V c (n - 1) (by omega)).2)
      ∗ Pipeline.scopedRestBut spec2 c [cc2_scratch0, cc2_scratch1]) ∗ (∃ r, prngReg c r)) := by
  cases n with
  | zero => exact absurd rfl hz
  | succ n => rfl

/-! ## The proof data -/

/-- The proof data of this region on core c: the arrays as the region finds them; after the body at point t each
    input's buffer at its block, output window 6's at the point's block, output windows 7 and 8 at the mean and
    variance rows of the sums accumulated through t (consulted at the last point only: elsewhere the two windows are
    idle and not written back); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => blkAt2 V c t
    | ⟨7, _⟩ => mean2 (accAt2 V c t.val t.isLt).1
    | ⟨8, _⟩ => var2 (accAt2 V c t.val t.isLt).1 (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = blkAt2 V c t := by dsimp only [dat2]
theorem after2_7 (c : Dev nD) (t : Fin cfg2.N) : (dat2 V c).after 7 t = mean2 (accAt2 V c t.val t.isLt).1 := by dsimp only [dat2]
theorem after2_8 (c : Dev nD) (t : Fin cfg2.N) : (dat2 V c).after 8 t = var2 (accAt2 V c t.val t.isLt).1 (accAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last point the configuration calls output windows 7 and 8 idle, and the pipeline does not write them back; -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- at the last point it calls them live. -/
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: each window's buffer at what the body leaves — for windows 7 and 8 off the last point, as found. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
/-- The body at any point. The inputs' buffers hold their blocks; the point is the first, the last or neither, which
    decides both conditionals, so that case's triple applies. The invariant hands the body the two scratch rows — at
    anything at the first point, at the sums accumulated so far afterwards — and takes them back at this point's
    sums; the rest of the scoped buffers, the generator register and what the core owes pass through unread, and
    off the last point so do the buffers of windows 7 and 8. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1),
      Dat.leavesExact_idle (dat2 V c) 8 t (idleAt2_8 t hc1) (noFlush2_8 t hc1)]
    rw [accAt2_zero V c t h0]
    rw [PhiS2_castSucc V c t, PhiS2_zero V c _ _ h0, PhiA2_eq]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (sound_kernel2_first c Set.univ (grid2.coords t) hc0 hc1 _ _ _ _ _ _ _ _ _ _ _ _ _ _ _ _ _ _ _ _ _ _ (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ Hrest Hg]
    · isplitl [HS HQ Hrest]
      · isplitl [HS HQ]
        · isplitl [HS]; · iexact HS
          iexact HQ
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond2_0 (grid2.coords t) := fun h => h0 ((hcond2_0 t).mp h)
    by_cases h9 : t.val = 9
    · have hc1 : cond2_1 (grid2.coords t) := (hcond2_1 t).mpr h9
      rw [show (dat2 V c).leavesExact 7 t = owns (c : Thread nD τ) (st2_7 t) fullShare ((dat2 V c).after 7 t) from by
        unfold Dat.leavesExact; rw [liveAt2_7 t hc1], after2_7]
      rw [show (dat2 V c).leavesExact 8 t = owns (c : Thread nD τ) (st2_8 t) fullShare ((dat2 V c).after 8 t) from by
        unfold Dat.leavesExact; rw [liveAt2_8 t hc1], after2_8]
      rw [accAt2_pos V c t h0]
      rw [PhiS2_castSucc V c t, PhiS2_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_last c Set.univ (grid2.coords t) hc0 hc1 _ _ _ _ _ _ _ _ _ _ _ _ _ _ _ _ _ _ _ _ _ _ (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h9 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      rw [accAt2_pos V c t h0]
      rw [PhiS2_castSucc V c t, PhiS2_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (sound_kernel2_mid c Set.univ (grid2.coords t) hc0 hc1 _ _ _ _ _ _ _ _ _ _ _ _ _ _ _ _ _ _ _ _ _ _ (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the invariant -/

/-- What the region's entry hands over — the generator register at some state, whatever else rides beside it, and
    the scoped buffers no window stages — is the invariant before the first point. -/
theorem Phi2_in (c : Dev nD) (Pf : sProp 𝕄) :
    iprop((∃ r, prngReg c r) ∗ Pf ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the invariant gives the generator register and the scoped buffers back: the scratch rows'
    named contents are forgotten and the rows rejoin the scoped rest. The kernel has no semaphore of its own. -/
theorem Phi2_out (c : Dev nD) :
    (dat2 V c).Φ (Fin.last cfg2.N)
      ⊢ iprop((∃ r, prngReg c r) ∗ Pipeline.ownSems0 (fun k : PEmpty => k.elim) c ∗ Pipeline.scopedRest spec2 c) := by
  rw [Pipeline.ownSems0_none, show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), scopedRest2_split]
  simp only [scM2_0, scM2_1, owns_whole]
  iintro ⟨⟨⟨HS, HQ⟩, Hrest⟩, Hg⟩
  isplitl [Hg]; · iexact Hg
  isplitr; · iempintro
  isplitl [HS HQ]
  · isplitl [HS]
    · iexists _; iexact HS
    iexists _; iexact HQ
  iexact Hrest

end Cert.Kernel.Hand

end
-- ==== Proof.WRegion3.lean ====
/-
  The normalise-and-rectify step of a layer (pallas_call 3), at the contents V the region finds: over ten row
  blocks of 5000 rows, every entry of the block becomes
      max (g · (x − mean) · rsqrt (var + ε) + β) 0,
  with mean, var, g, β rows of 128 entries shared by all blocks.  The body loads its five input blocks whole,
  computes that one payload and stores it over the whole output block, so what a point leaves in the output's
  buffer is the payload of that point's input blocks, and the inputs are left in place.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one whole-block store of the payload of the input blocks. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k3_pay1 (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0)) (View.ld x0 (Rect.unit (s := S5000x128) ![0, 0] S5000x128.size inb_S5000x128_S5000x128_0_0))⟩]

theorem cover3_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers, the inputs' at read contents and the output's at anything, runs to the
    continuation holding the inputs' as they were and the output's at the payload of the inputs. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this region on core c: the arrays as the region finds them; after the body at point t each
    input's buffer at its block and the output's at the payload of the input blocks; the class invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.WRegion4.lean ====
/-
  The perceptron-and-statistics step of a layer (the first pallas_call of layer 3: the same kernel text as the first layer's, on that layer's operands), at the contents V the region
  finds: over ten row blocks of 5000 rows, the block of the output is
      max ((x + a) · Wa + ba) 0 · Wb + bb
  of the blocks x, a of the two row-blocked inputs (each matrix product taken on a left operand rounded to bf16
  against bf16 weights, accumulated in f32), and two scratch rows of 128 entries carry, from point to point, the
  column sums s and the column sums of squares q of the blocks stored so far: zeroed at the first point, added to at
  every point, and at the last point turned into the mean row  s · κ  and the variance row  q · κ − (s · κ)²,
  κ the named constant that stands for 1/50000, stored into the two one-row outputs.  Those two outputs are stored at
  the last point only, so at the other points their buffers are handed back as found.  The region's invariant owns
  the two scratch rows at these named partial sums, split out of the scoped buffers.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import proofs.«177104_j19121194402280_1_alg».proof.Proof.WRegion0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (the grid coordinate is 0), as the body computes it. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The second conditional's test (the grid coordinate is 9). -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-- The block the body stores into output window 6: the two-layer perceptron of the sum of the two input blocks. -/
def blk4_6 (x0 x1 : Vec F S5000x128 .f32) (x2 : Vec F S128x128 .bf16) (x3 : Vec F S1x128 .f32) (x4 : Vec F S128x128 .bf16) (x5 : Vec F S1x128 .f32) :
    Vec F S5000x128 .f32 := k4_pay7 x0 x1 x2 x3 x4 x5
/-- The running column sums after a point: the row found plus the column sums of the point's block. -/
def sum4 (x0 x1 : Vec F S5000x128 .f32) (x2 : Vec F S128x128 .bf16) (x3 : Vec F S1x128 .f32) (x4 : Vec F S128x128 .bf16) (x5 : Vec F S1x128 .f32)
    (s : Vec F S1x128 .f32) : Vec F S1x128 .f32 := k4_pay1 (k4_pay8 x0 x1 x2 x3 x4 x5 s)
/-- The running column sums of squares after a point. -/
def sq4 (x0 x1 : Vec F S5000x128 .f32) (x2 : Vec F S128x128 .bf16) (x3 : Vec F S1x128 .f32) (x4 : Vec F S128x128 .bf16) (x5 : Vec F S1x128 .f32)
    (q : Vec F S1x128 .f32) : Vec F S1x128 .f32 := k4_pay2 (k4_pay7 x0 x1 x2 x3 x4 x5) q
/-- The mean row from the accumulated sums, and the variance row from both accumulated rows. -/
def mean4 (s : Vec F S1x128 .f32) : Vec F S1x128 .f32 := k4_pay3 s
def var4 (s q : Vec F S1x128 .f32) : Vec F S1x128 .f32 := k4_pay4 s q

set_option maxHeartbeats 2000000 in
/-- The body at the first point: both accumulator rows, whatever they held, are zeroed first; then as at any point
    the inputs are read whole and left in place, output window 6's block is stored whole, and both rows are read and
    stored back with the block's column sums added. Output windows 7 and 8 are not touched. -/
theorem sound_kernel4_first (c : Dev nD) (E : Set ℕ) (i : grid4.Coords) (hc0 : cond4_0 i) (hc1 : ¬cond4_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk4_6 x0 x1 x2 x3 x4 x5)
            ∗ owns (c : Thread nD τ) arg10 fullShare (sum4 x0 x1 x2 x3 x4 x5 k4_pay5) ∗ owns (c : Thread nD τ) arg11 fullShare (sq4 x0 x1 x2 x3 x4 x5 k4_pay6)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  simp only [cc4__gin_mlp_kernel_eq_skeleton]; unfold cc4__gin_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%dq, %fq, -, HQ⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk4_6, sum4, sq4, mean4, var4]
  isplitl [HS]
  · iexists _; isplitr
    swap; · iexact HS
    ipureintro
    sl_unfold_run_names; (try dsimp only); rw [read_store_whole0 _ _ off00]
    simp only [readCov_R0, readAt_B0, readAt_R0, readAt_W0, blk4_6, sum4, sq4, mean4, var4]
  iexists _; isplitr
  swap; · iexact HQ
  ipureintro
  sl_unfold_run_names; (try dsimp only); rw [read_store_whole0 _ _ off00]
  simp only [readCov_R0, readAt_B0, readAt_R0, readAt_W0, blk4_6, sum4, sq4, mean4, var4]

set_option maxHeartbeats 2000000 in
/-- The body at a point that is neither the first nor the last: the inputs are read whole and left in place, output
    window 6's block is stored whole, both accumulator rows are read and stored back with the block's column sums
    added; output windows 7 and 8 are not touched. -/
theorem sound_kernel4_mid (c : Dev nD) (E : Set ℕ) (i : grid4.Coords) (hc0 : ¬cond4_0 i) (hc1 : ¬cond4_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk4_6 x0 x1 x2 x3 x4 x5)
            ∗ owns (c : Thread nD τ) arg10 fullShare (sum4 x0 x1 x2 x3 x4 x5 s) ∗ owns (c : Thread nD τ) arg11 fullShare (sq4 x0 x1 x2 x3 x4 x5 q)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  simp only [cc4__gin_mlp_kernel_eq_skeleton]; unfold cc4__gin_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk4_6, sum4, sq4, mean4, var4]
  isplitl [HS]
  · iexists _; isplitr
    swap; · iexact HS
    ipureintro
    sl_unfold_run_names; (try dsimp only); rw [read_store_whole0 _ _ off00]
    simp only [readCov_R0, readAt_B0, readAt_R0, readAt_W0, blk4_6, sum4, sq4, mean4, var4]
  iexists _; isplitr
  swap; · iexact HQ
  ipureintro
  sl_unfold_run_names; (try dsimp only); rw [read_store_whole0 _ _ off00]
  simp only [readCov_R0, readAt_B0, readAt_R0, readAt_W0, blk4_6, sum4, sq4, mean4, var4]

set_option maxHeartbeats 2000000 in
/-- The body at the last point: as at a middle point, and then both accumulator rows are read back and the mean row
    and the variance row are stored whole into output windows 7 and 8. -/
theorem sound_kernel4_last (c : Dev nD) (E : Set ℕ) (i : grid4.Coords) (hc0 : ¬cond4_0 i) (hc1 : cond4_1 i)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x0 x1 : Vec F S5000x128 .f32) (x2 : Vec F S128x128 .bf16) (x3 : Vec F S1x128 .f32) (x4 : Vec F S128x128 .bf16) (x5 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (blk4_6 x0 x1 x2 x3 x4 x5)
            ∗ owns (c : Thread nD τ) arg8 fullShare (mean4 (sum4 x0 x1 x2 x3 x4 x5 s))
            ∗ owns (c : Thread nD τ) arg9 fullShare (var4 (sum4 x0 x1 x2 x3 x4 x5 s) (sq4 x0 x1 x2 x3 x4 x5 q))
            ∗ owns (c : Thread nD τ) arg10 fullShare (sum4 x0 x1 x2 x3 x4 x5 s) ∗ owns (c : Thread nD τ) arg11 fullShare (sq4 x0 x1 x2 x3 x4 x5 q)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  simp only [cc4__gin_mlp_kernel_eq_skeleton]; unfold cc4__gin_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  subst hf0 hf1 hf2 hf3 hf4 hf5 hfs hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names; (try dsimp only); rw [read_store_whole0 _ _ off00]
    simp only [readCov_R0, readAt_B0, readAt_R0, readAt_W0, blk4_6, sum4, sq4, mean4, var4]
  isplitl [H7]
  · iexists _; isplitr
    swap; · iexact H7
    ipureintro
    sl_unfold_run_names; (try dsimp only); rw [read_store_whole0 _ _ off00]
    simp only [readCov_R0, readAt_B0, readAt_R0, readAt_W0, blk4_6, sum4, sq4, mean4, var4]
  isplitl [H8]
  · iexists _; isplitr
    swap; · iexact H8
    ipureintro
    sl_unfold_run_names; (try dsimp only); rw [read_store_whole0 _ _ off00]
    simp only [readCov_R0, readAt_B0, readAt_R0, readAt_W0, blk4_6, sum4, sq4, mean4, var4]
  isplitl [HS]
  · iexists _; isplitr
    swap; · iexact HS
    ipureintro
    sl_unfold_run_names; (try dsimp only); rw [read_store_whole0 _ _ off00]
    simp only [readCov_R0, readAt_B0, readAt_R0, readAt_W0, blk4_6, sum4, sq4, mean4, var4]
  iexists _; isplitr
  swap; · iexact HQ
  ipureintro
  sl_unfold_run_names; (try dsimp only); rw [read_store_whole0 _ _ off00]
  simp only [readCov_R0, readAt_B0, readAt_R0, readAt_W0, blk4_6, sum4, sq4, mean4, var4]

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current buffer holds its block at every point, fetched there or not, for any proof data
    whose array is the region-entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## What the point's stores hold, over the region-entry contents -/

/-- Output window 6's block at point t. -/
def blkAt4 (c : Dev nD) (t : Fin cfg4.N) : Vec F S5000x128 .f32 := blk4_6 (iblk4 V c 0 t) (iblk4 V c 1 t) (iblk4 V c 2 t) (iblk4 V c 3 t) (iblk4 V c 4 t) (iblk4 V c 5 t)
/-- The accumulator rows after point t, from what they held before it. -/
def sumAt4 (c : Dev nD) (t : Fin cfg4.N) (s : Vec F S1x128 .f32) : Vec F S1x128 .f32 := sum4 (iblk4 V c 0 t) (iblk4 V c 1 t) (iblk4 V c 2 t) (iblk4 V c 3 t) (iblk4 V c 4 t) (iblk4 V c 5 t) s
def sqAt4 (c : Dev nD) (t : Fin cfg4.N) (q : Vec F S1x128 .f32) : Vec F S1x128 .f32 := sq4 (iblk4 V c 0 t) (iblk4 V c 1 t) (iblk4 V c 2 t) (iblk4 V c 3 t) (iblk4 V c 4 t) (iblk4 V c 5 t) q

/-- THE ACCUMULATION: the two accumulator rows after the body at position n — the column sums, and the column sums
    of squares, of the blocks stored at points 0 … n, added in that order onto the zero rows. -/
def accAt4 (c : Dev nD) : (n : ℕ) → n < cfg4.N → Vec F S1x128 .f32 × Vec F S1x128 .f32
  | 0, hn => (sumAt4 V c ⟨0, hn⟩ k4_pay5, sqAt4 V c ⟨0, hn⟩ k4_pay6)
  | n + 1, hn => (sumAt4 V c ⟨n + 1, hn⟩ (accAt4 c n (Nat.lt_of_succ_lt hn)).1, sqAt4 V c ⟨n + 1, hn⟩ (accAt4 c n (Nat.lt_of_succ_lt hn)).2)

theorem accAt4_zero (c : Dev nD) (t : Fin cfg4.N) (h : t.val = 0) :
    accAt4 V c t.val t.isLt = (sumAt4 V c t k4_pay5, sqAt4 V c t k4_pay6) := by
  obtain ⟨n, hn⟩ := t
  cases n with
  | zero => rfl
  | succ n => exact absurd h (Nat.succ_ne_zero n)

theorem accAt4_pos (c : Dev nD) (t : Fin cfg4.N) (h : t.val ≠ 0) :
    accAt4 V c t.val t.isLt = (sumAt4 V c t (accAt4 V c (t.val - 1) (Nat.lt_of_le_of_lt (Nat.sub_le _ _) t.isLt)).1,
      sqAt4 V c t (accAt4 V c (t.val - 1) (Nat.lt_of_le_of_lt (Nat.sub_le _ _) t.isLt)).2) := by
  obtain ⟨n, hn⟩ := t
  cases n with
  | zero => exact absurd rfl h
  | succ n => rfl

/-! ## The region's invariant -/

/-- The kernel's two scratch rows, whole scoped buffers of its own. -/
abbrev scM4_0 : Memref sig .tc .vmem S1x128 .f32 := Memref.whole cc4_scratch0
abbrev scM4_1 : Memref sig .tc .vmem S1x128 .f32 := Memref.whole cc4_scratch1

/-- The class invariant with the two scratch rows split out of the scoped rest and owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- The invariant before position n: before the first point the class's (both scratch rows at anything); afterwards
    the scratch rows at the accumulated sums of the points so far, the rest of the scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2)
      ∗ Pipeline.scopedRestBut spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn).1 ∗ owns (c : Thread nD τ) scM4_1 fullShare (accAt4 V c n hn).2)
      ∗ Pipeline.scopedRestBut spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega)).1 ∗ owns (c : Thread nD τ) scM4_1 fullShare (accAt4 V c (n - 1) (by omega)).2)
      ∗ Pipeline.scopedRestBut spec4 c [cc4_scratch0, cc4_scratch1]) ∗ (∃ r, prngReg c r)) := by
  cases n with
  | zero => exact absurd rfl hz
  | succ n => rfl

/-! ## The proof data -/

/-- The proof data of this region on core c: the arrays as the region finds them; after the body at point t each
    input's buffer at its block, output window 6's at the point's block, output windows 7 and 8 at the mean and
    variance rows of the sums accumulated through t (consulted at the last point only: elsewhere the two windows are
    idle and not written back); the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => blkAt4 V c t
    | ⟨7, _⟩ => mean4 (accAt4 V c t.val t.isLt).1
    | ⟨8, _⟩ => var4 (accAt4 V c t.val t.isLt).1 (accAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = blkAt4 V c t := by dsimp only [dat4]
theorem after4_7 (c : Dev nD) (t : Fin cfg4.N) : (dat4 V c).after 7 t = mean4 (accAt4 V c t.val t.isLt).1 := by dsimp only [dat4]
theorem after4_8 (c : Dev nD) (t : Fin cfg4.N) : (dat4 V c).after 8 t = var4 (accAt4 V c t.val t.isLt).1 (accAt4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Off the last point the configuration calls output windows 7 and 8 idle, and the pipeline does not write them back; -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
/-- at the last point it calls them live. -/
theorem liveAt4_7 : ∀ t : Fin cfg4.N, cond4_1 (grid4.coords t) → cfg4.idle 7 (grid4.coords t) = false := by decide +kernel
theorem liveAt4_8 : ∀ t : Fin cfg4.N, cond4_1 (grid4.coords t) → cfg4.idle 8 (grid4.coords t) = false := by decide +kernel

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns: each window's buffer at what the body leaves — for windows 7 and 8 off the last point, as found. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4000000 in
/-- The body at any point. The inputs' buffers hold their blocks; the point is the first, the last or neither, which
    decides both conditionals, so that case's triple applies. The invariant hands the body the two scratch rows — at
    anything at the first point, at the sums accumulated so far afterwards — and takes them back at this point's
    sums; the rest of the scoped buffers, the generator register and what the core owes pass through unread, and
    off the last point so do the buffers of windows 7 and 8. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  rw [show (dat4 V c).leavesExact 6 t = owns (c : Thread nD τ) (st4_6 t) fullShare ((dat4 V c).after 6 t) from by
    unfold Dat.leavesExact; rw [liveAt4_6 t], after4_6]
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 7 t (idleAt4_7 t hc1) (noFlush4_7 t hc1),
      Dat.leavesExact_idle (dat4 V c) 8 t (idleAt4_8 t hc1) (noFlush4_8 t hc1)]
    rw [accAt4_zero V c t h0]
    rw [PhiS4_castSucc V c t, PhiS4_zero V c _ _ h0, PhiA4_eq]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (sound_kernel4_first c Set.univ (grid4.coords t) hc0 hc1 _ _ _ _ _ _ _ _ _ _ _ _ _ _ _ _ _ _ _ _ _ _ (iblk4 V c 0 t) (iblk4 V c 1 t) (iblk4 V c 2 t) (iblk4 V c 3 t) (iblk4 V c 4 t) (iblk4 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ Hrest Hg]
    · isplitl [HS HQ Hrest]
      · isplitl [HS HQ]
        · isplitl [HS]; · iexact HS
          iexact HQ
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond4_0 (grid4.coords t) := fun h => h0 ((hcond4_0 t).mp h)
    by_cases h9 : t.val = 9
    · have hc1 : cond4_1 (grid4.coords t) := (hcond4_1 t).mpr h9
      rw [show (dat4 V c).leavesExact 7 t = owns (c : Thread nD τ) (st4_7 t) fullShare ((dat4 V c).after 7 t) from by
        unfold Dat.leavesExact; rw [liveAt4_7 t hc1], after4_7]
      rw [show (dat4 V c).leavesExact 8 t = owns (c : Thread nD τ) (st4_8 t) fullShare ((dat4 V c).after 8 t) from by
        unfold Dat.leavesExact; rw [liveAt4_8 t hc1], after4_8]
      rw [accAt4_pos V c t h0]
      rw [PhiS4_castSucc V c t, PhiS4_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_last c Set.univ (grid4.coords t) hc0 hc1 _ _ _ _ _ _ _ _ _ _ _ _ _ _ _ _ _ _ _ _ _ _ (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond4_1 (grid4.coords t) := fun h => h9 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      rw [accAt4_pos V c t h0]
      rw [PhiS4_castSucc V c t, PhiS4_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (sound_kernel4_mid c Set.univ (grid4.coords t) hc0 hc1 _ _ _ _ _ _ _ _ _ _ _ _ _ _ _ _ _ _ _ _ _ _ (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ Hrest Hg]
      · isplitl [HS HQ Hrest]
        · isplitl [HS HQ]
          · isplitl [HS]; · iexact HS
            iexact HQ
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the region's entry hands over — the generator register at some state, whatever else rides beside it, and
    the scoped buffers no window stages — is the invariant before the first point. -/
theorem Phi4_in (c : Dev nD) (Pf : sProp 𝕄) :
    iprop((∃ r, prngReg c r) ∗ Pf ∗ Pipeline.scopedRest spec4 c) ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

/-- After the last point the invariant gives the generator register and the scoped buffers back: the scratch rows'
    named contents are forgotten and the rows rejoin the scoped rest. The kernel has no semaphore of its own. -/
theorem Phi4_out (c : Dev nD) :
    (dat4 V c).Φ (Fin.last cfg4.N)
      ⊢ iprop((∃ r, prngReg c r) ∗ Pipeline.ownSems0 (fun k : PEmpty => k.elim) c ∗ Pipeline.scopedRest spec4 c) := by
  rw [Pipeline.ownSems0_none, show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), scopedRest4_split]
  simp only [scM4_0, scM4_1, owns_whole]
  iintro ⟨⟨⟨HS, HQ⟩, Hrest⟩, Hg⟩
  isplitl [Hg]; · iexact Hg
  isplitr; · iempintro
  isplitl [HS HQ]
  · isplitl [HS]
    · iexists _; iexact HS
    iexists _; iexact HQ
  iexact Hrest

end Cert.Kernel.Hand

end
-- ==== Proof.WRegion5.lean ====
/-
  The normalise-and-rectify step of a layer (pallas_call 5), at the contents V the region finds: over ten row
  blocks of 5000 rows, every entry of the block becomes
      max (g · (x − mean) · rsqrt (var + ε) + β) 0,
  with mean, var, g, β rows of 128 entries shared by all blocks.  The body loads its five input blocks whole,
  computes that one payload and stores it over the whole output block, so what a point leaves in the output's
  buffer is the payload of that point's input blocks, and the inputs are left in place.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: the one whole-block store of the payload of the input blocks. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k5_pay1 (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0)) (View.ld x0 (Rect.unit (s := S5000x128) ![0, 0] S5000x128.size inb_S5000x128_S5000x128_0_0))⟩]

theorem cover5_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers, the inputs' at read contents and the output's at anything, runs to the
    continuation holding the inputs' as they were and the output's at the payload of the inputs. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this region on core c: the arrays as the region finds them; after the body at point t each
    input's buffer at its block and the output's at the payload of the input blocks; the class invariant; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.WRegion6.lean ====
/-
  The last pallas_call, at the contents V the region finds: one grid point, every array whole.  The pooled features
  (512 rows of 384) times the projection (384 by 64) plus the bias row gives out; each row of out is divided by
  max (sqrt (∑ out²), 1e-12), its Euclidean norm kept away from zero.  The body loads its three inputs whole, computes
  that one payload and stores it over the whole output, so the output's buffer ends at the payload of the inputs.
-/
import proofs.«177104_j19121194402280_1_alg».proof.Proof.Gen.Kernel.Launch
import proofs.«177104_j19121194402280_1_alg».proof.Proof.Gen.Kernel.Skeleton
import proofs.«177104_j19121194402280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: the one whole-block store of the payload of the input blocks. -/
def out6_3 (x0 : Vec F S512x384 .bf16) (x1 : Vec F S384x64 .bf16) (x2 : Vec F S1x64 .f32) : Vec F S512x64 .f32 :=
  View.canon [⟨(Rect.unit (s := S512x64) ![0, 0] S512x64.size inb_S512x64_S512x64_0_0), k6_pay1 (View.ld x0 (Rect.unit (s := S512x384) ![0, 0] S512x384.size inb_S512x384_S512x384_0_0)) (View.ld x1 (Rect.unit (s := S384x64) ![0, 0] S384x64.size inb_S384x64_S384x64_0_0)) (View.ld x2 (Rect.unit (s := S1x64) ![0, 0] S1x64.size inb_S1x64_S1x64_0_0))⟩]

theorem cover6_3 (p0 : Vec F S512x64 .f32) (y : S512x64.Idx) :
    ∃ pc ∈ ([⟨(Rect.unit (s := S512x64) ![0, 0] S512x64.size inb_S512x64_S512x64_0_0), p0⟩] : List (View.Piece (Elt F) S512x64 .f32)), y ∈ pc.1.set :=
  View.cover_of_tiled [⟨(Rect.unit (s := S512x64) ![0, 0] S512x64.size inb_S512x64_S512x64_0_0), p0⟩] S512x64.size (by rfl) y

set_option maxHeartbeats 1000000 in
/-- The body on whole staging buffers, the inputs' at read contents and the output's at anything, runs to the
    continuation holding the inputs' as they were and the output's at the payload of the inputs. -/
theorem sound_kernel6 (c : Dev nD) (E : Set ℕ) (i : grid6.Coords)
    (arg1 : Memref sig .tc .vmem S512x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S512x64 .f32) (harg4 : arg4.IsWhole)
    (x0 : Vec F S512x384 .bf16) (x1 : Vec F S384x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__pool_proj_kernel i arg1 harg1 arg2 harg2 arg3 harg3 arg4 harg4) K := by
  simp only [cc6__pool_proj_kernel_eq_skeleton]; unfold cc6__pool_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this region on core c: the arrays as the region finds them; after the body at point t each
    input's buffer at its block and the output's at the payload of the input blocks; the class invariant; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.WAssembly.lean ====
/-
  The run of the whole program.  The program is seven kernel regions among seven stretches of host operations:
  stretch 0, region 0, stretch 1, region 1, ..., stretch 6, region 6.  The contents of a core's buffers at the
  fifteen boundaries are a fold from the launch memory: a stretch rewrites the buffers its operations write, a
  region leaves its windows' arrays at what its write-backs make of them and every other buffer as it found it.
  Each region is entered from "every unscoped buffer at the boundary's contents, the generator register at some
  state, nothing owed" and left at the same statement over the next boundary's contents, so the fifteen
  statements chain, the program terminates, and every final memory holds each unscoped buffer at the last
  boundary's contents.  No stretch writes an argument array and no region has one among its outputs, so the fold
  read at an argument walks back to the launch memory.
-/
import proofs.«177104_j19121194402280_1_alg».proof.Proof.WRegion0
import proofs.«177104_j19121194402280_1_alg».proof.Proof.WRegion1
import proofs.«177104_j19121194402280_1_alg».proof.Proof.WRegion2
import proofs.«177104_j19121194402280_1_alg».proof.Proof.WRegion3
import proofs.«177104_j19121194402280_1_alg».proof.Proof.WRegion4
import proofs.«177104_j19121194402280_1_alg».proof.Proof.WRegion5
import proofs.«177104_j19121194402280_1_alg».proof.Proof.WRegion6
import proofs.«177104_j19121194402280_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffers' contents at each boundary: a fold through the program -/

/-- Core c's buffers at launch. -/
abbrev W0 : Dev nD → Valuation τ sig (Elt F) := fun c b => (s₀ m ρ).mem ((c : Dev nD), b)

/-- After stretch 0 (region 0's entry). -/
abbrev W1 : Dev nD → Valuation τ sig (Elt F) := fun c => StableHlo.after hostOps0 (W0 m ρ c)
/-- The same read at the core's references (what region 0's proof data take). -/
abbrev V1 : (c : Dev nD) → (b : Ref sig .tc) → Buf (Elt F) ((c : Thread nD τ).loc b) := fun c b => W1 m ρ c b
/-- At region 0's exit: its arrays at what the pipeline leaves (an input as entered, an output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference no operation of stretch 0 writes keeps its contents through it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After stretch 1 (region 1's entry). -/
abbrev W3 : Dev nD → Valuation τ sig (Elt F) := fun c => StableHlo.after hostOps1 (W2 m ρ c)
/-- The same read at the core's references (what region 1's proof data take). -/
abbrev V3 : (c : Dev nD) → (b : Ref sig .tc) → Buf (Elt F) ((c : Thread nD τ).loc b) := fun c b => W3 m ρ c b
/-- At region 1's exit: its arrays at what the pipeline leaves (an input as entered, an output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at
    entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference no operation of stretch 1 writes keeps its contents through it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After stretch 2 (region 2's entry). -/
abbrev W5 : Dev nD → Valuation τ sig (Elt F) := fun c => StableHlo.after hostOps2 (W4 m ρ c)
/-- The same read at the core's references (what region 2's proof data take). -/
abbrev V5 : (c : Dev nD) → (b : Ref sig .tc) → Buf (Elt F) ((c : Thread nD τ).loc b) := fun c b => W5 m ρ c b
/-- At region 2's exit: its arrays at what the pipeline leaves (an input as entered, an output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at
    entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference no operation of stretch 2 writes keeps its contents through it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- After stretch 3 (region 3's entry). -/
abbrev W7 : Dev nD → Valuation τ sig (Elt F) := fun c => StableHlo.after hostOps3 (W6 m ρ c)
/-- The same read at the core's references (what region 3's proof data take). -/
abbrev V7 : (c : Dev nD) → (b : Ref sig .tc) → Buf (Elt F) ((c : Thread nD τ).loc b) := fun c b => W7 m ρ c b
/-- At region 3's exit: its arrays at what the pipeline leaves (an input as entered, an output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at
    entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A reference no operation of stretch 3 writes keeps its contents through it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- After stretch 4 (region 4's entry). -/
abbrev W9 : Dev nD → Valuation τ sig (Elt F) := fun c => StableHlo.after hostOps4 (W8 m ρ c)
/-- The same read at the core's references (what region 4's proof data take). -/
abbrev V9 : (c : Dev nD) → (b : Ref sig .tc) → Buf (Elt F) ((c : Thread nD τ).loc b) := fun c b => W9 m ρ c b
/-- At region 4's exit: its arrays at what the pipeline leaves (an input as entered, an output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at
    entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A reference no operation of stretch 4 writes keeps its contents through it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- After stretch 5 (region 5's entry). -/
abbrev W11 : Dev nD → Valuation τ sig (Elt F) := fun c => StableHlo.after hostOps5 (W10 m ρ c)
/-- The same read at the core's references (what region 5's proof data take). -/
abbrev V11 : (c : Dev nD) → (b : Ref sig .tc) → Buf (Elt F) ((c : Thread nD τ).loc b) := fun c b => W11 m ρ c b
/-- At region 5's exit: its arrays at what the pipeline leaves (an input as entered, an output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the core's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at
    entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A reference no operation of stretch 5 writes keeps its contents through it. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- After stretch 6 (region 6's entry). -/
abbrev W13 : Dev nD → Valuation τ sig (Elt F) := fun c => StableHlo.after hostOps6 (W12 m ρ c)
/-- The same read at the core's references (what region 6's proof data take). -/
abbrev V13 : (c : Dev nD) → (b : Ref sig .tc) → Buf (Elt F) ((c : Thread nD τ).loc b) := fun c b => W13 m ρ c b
/-- At region 6's exit: its arrays at what the pipeline leaves (an input as entered, an output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the core's references (region 6's exit contents). -/
abbrev V14 : (c : Dev nD) → (b : Ref sig .tc) → Buf (Elt F) ((c : Thread nD τ).loc b) := fun c b => W14 m ρ c b
/-- At region 6's exit each of its arrays holds what the pipeline leaves, and every other buffer what it held at
    entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A reference no operation of stretch 6 writes keeps its contents through it. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## The arguments end as launched

No stretch writes an argument and no region has one among its outputs (a region reads it through an input window
or does not touch it), so the fold read at an argument's buffer walks back to the launch memory. -/

/-- A reference that no stretch writes and that is no region's array holds its launch contents at the end. -/
theorem W14_bypass (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) (h6 : r ∉ hostOps6_W) (a6 : ∀ w, Pipeline.arrRef spec6 w ≠ r) :
    W14 m ρ c (Proc.devRef .tc r) = m ((c : Thread nD τ).loc r) :=
  calc W14 m ρ c (Proc.devRef .tc r)
    _ = W13 m ρ c (Proc.devRef .tc r) := W14_of_ne m ρ c r a6
    _ = W12 m ρ c (Proc.devRef .tc r) := W13_of m ρ c r h6
    _ = W11 m ρ c (Proc.devRef .tc r) := W12_of_ne m ρ c r a5
    _ = W10 m ρ c (Proc.devRef .tc r) := W11_of m ρ c r h5
    _ = W9 m ρ c (Proc.devRef .tc r) := W10_of_ne m ρ c r a4
    _ = W8 m ρ c (Proc.devRef .tc r) := W9_of m ρ c r h4
    _ = W7 m ρ c (Proc.devRef .tc r) := W8_of_ne m ρ c r a3
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

/-- The first argument is region 0's first input window: the region leaves an input's array as it found it. -/
theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W14_main_arg1 (c : Dev nD) : W14 m ρ c (Proc.devRef .tc main_arg1) = m ((c : Thread nD τ).loc main_arg1) :=
  W14_bypass m ρ c main_arg1 (by decide) (by decide) (by decide) (by decide) (by decide) (by decide) (by decide) (by decide) (by decide) (by decide) (by decide) (by decide) (by decide) (by decide)
theorem W14_main_arg2 (c : Dev nD) : W14 m ρ c (Proc.devRef .tc main_arg2) = m ((c : Thread nD τ).loc main_arg2) :=
  W14_bypass m ρ c main_arg2 (by decide) (by decide) (by decide) (by decide) (by decide) (by decide) (by decide) (by decide) (by decide) (by decide) (by decide) (by decide) (by decide) (by decide)
theorem W14_main_arg3 (c : Dev nD) : W14 m ρ c (Proc.devRef .tc main_arg3) = m ((c : Thread nD τ).loc main_arg3) :=
  W14_bypass m ρ c main_arg3 (by decide) (by decide) (by decide) (by decide) (by decide) (by decide) (by decide) (by decide) (by decide) (by decide) (by decide) (by decide) (by decide) (by decide)
theorem W14_main_arg4 (c : Dev nD) : W14 m ρ c (Proc.devRef .tc main_arg4) = m ((c : Thread nD τ).loc main_arg4) :=
  W14_bypass m ρ c main_arg4 (by decide) (by decide) (by decide) (by decide) (by decide) (by decide) (by decide) (by decide) (by decide) (by decide) (by decide) (by decide) (by decide) (by decide)
theorem W14_main_arg5 (c : Dev nD) : W14 m ρ c (Proc.devRef .tc main_arg5) = m ((c : Thread nD τ).loc main_arg5) :=
  W14_bypass m ρ c main_arg5 (by decide) (by decide) (by decide) (by decide) (by decide) (by decide) (by decide) (by decide) (by decide) (by decide) (by decide) (by decide) (by decide) (by decide)
theorem W14_main_arg6 (c : Dev nD) : W14 m ρ c (Proc.devRef .tc main_arg6) = m ((c : Thread nD τ).loc main_arg6) :=
  W14_bypass m ρ c main_arg6 (by decide) (by decide) (by decide) (by decide) (by decide) (by decide) (by decide) (by decide) (by decide) (by decide) (by decide) (by decide) (by decide) (by decide)
theorem W14_main_arg7 (c : Dev nD) : W14 m ρ c (Proc.devRef .tc main_arg7) = m ((c : Thread nD τ).loc main_arg7) :=
  W14_bypass m ρ c main_arg7 (by decide) (by decide) (by decide) (by decide) (by decide) (by decide) (by decide) (by decide) (by decide) (by decide) (by decide) (by decide) (by decide) (by decide)
theorem W14_main_arg8 (c : Dev nD) : W14 m ρ c (Proc.devRef .tc main_arg8) = m ((c : Thread nD τ).loc main_arg8) :=
  W14_bypass m ρ c main_arg8 (by decide) (by decide) (by decide) (by decide) (by decide) (by decide) (by decide) (by decide) (by decide) (by decide) (by decide) (by decide) (by decide) (by decide)
theorem W14_main_arg9 (c : Dev nD) : W14 m ρ c (Proc.devRef .tc main_arg9) = m ((c : Thread nD τ).loc main_arg9) :=
  W14_bypass m ρ c main_arg9 (by decide) (by decide) (by decide) (by decide) (by decide) (by decide) (by decide) (by decide) (by decide) (by decide) (by decide) (by decide) (by decide) (by decide)
theorem W14_main_arg10 (c : Dev nD) : W14 m ρ c (Proc.devRef .tc main_arg10) = m ((c : Thread nD τ).loc main_arg10) :=
  W14_bypass m ρ c main_arg10 (by decide) (by decide) (by decide) (by decide) (by decide) (by decide) (by decide) (by decide) (by decide) (by decide) (by decide) (by decide) (by decide) (by decide)
theorem W14_main_arg11 (c : Dev nD) : W14 m ρ c (Proc.devRef .tc main_arg11) = m ((c : Thread nD τ).loc main_arg11) :=
  W14_bypass m ρ c main_arg11 (by decide) (by decide) (by decide) (by decide) (by decide) (by decide) (by decide) (by decide) (by decide) (by decide) (by decide) (by decide) (by decide) (by decide)
theorem W14_main_arg12 (c : Dev nD) : W14 m ρ c (Proc.devRef .tc main_arg12) = m ((c : Thread nD τ).loc main_arg12) :=
  W14_bypass m ρ c main_arg12 (by decide) (by decide) (by decide) (by decide) (by decide) (by decide) (by decide) (by decide) (by decide) (by decide) (by decide) (by decide) (by decide) (by decide)
theorem W14_main_arg13 (c : Dev nD) : W14 m ρ c (Proc.devRef .tc main_arg13) = m ((c : Thread nD τ).loc main_arg13) :=
  W14_bypass m ρ c main_arg13 (by decide) (by decide) (by decide) (by decide) (by decide) (by decide) (by decide) (by decide) (by decide) (by decide) (by decide) (by decide) (by decide) (by decide)
theorem W14_main_arg14 (c : Dev nD) : W14 m ρ c (Proc.devRef .tc main_arg14) = m ((c : Thread nD τ).loc main_arg14) :=
  W14_bypass m ρ c main_arg14 (by decide) (by decide) (by decide) (by decide) (by decide) (by decide) (by decide) (by decide) (by decide) (by decide) (by decide) (by decide) (by decide) (by decide)
theorem W14_main_arg15 (c : Dev nD) : W14 m ρ c (Proc.devRef .tc main_arg15) = m ((c : Thread nD τ).loc main_arg15) :=
  W14_bypass m ρ c main_arg15 (by decide) (by decide) (by decide) (by decide) (by decide) (by decide) (by decide) (by decide) (by decide) (by decide) (by decide) (by decide) (by decide) (by decide)
theorem W14_main_arg16 (c : Dev nD) : W14 m ρ c (Proc.devRef .tc main_arg16) = m ((c : Thread nD τ).loc main_arg16) :=
  W14_bypass m ρ c main_arg16 (by decide) (by decide) (by decide) (by decide) (by decide) (by decide) (by decide) (by decide) (by decide) (by decide) (by decide) (by decide) (by decide) (by decide)
theorem W14_main_arg17 (c : Dev nD) : W14 m ρ c (Proc.devRef .tc main_arg17) = m ((c : Thread nD τ).loc main_arg17) :=
  W14_bypass m ρ c main_arg17 (by decide) (by decide) (by decide) (by decide) (by decide) (by decide) (by decide) (by decide) (by decide) (by decide) (by decide) (by decide) (by decide) (by decide)
theorem W14_main_arg18 (c : Dev nD) : W14 m ρ c (Proc.devRef .tc main_arg18) = m ((c : Thread nD τ).loc main_arg18) :=
  W14_bypass m ρ c main_arg18 (by decide) (by decide) (by decide) (by decide) (by decide) (by decide) (by decide) (by decide) (by decide) (by decide) (by decide) (by decide) (by decide) (by decide)
theorem W14_main_arg19 (c : Dev nD) : W14 m ρ c (Proc.devRef .tc main_arg19) = m ((c : Thread nD τ).loc main_arg19) :=
  W14_bypass m ρ c main_arg19 (by decide) (by decide) (by decide) (by decide) (by decide) (by decide) (by decide) (by decide) (by decide) (by decide) (by decide) (by decide) (by decide) (by decide)
theorem W14_main_arg20 (c : Dev nD) : W14 m ρ c (Proc.devRef .tc main_arg20) = m ((c : Thread nD τ).loc main_arg20) :=
  W14_bypass m ρ c main_arg20 (by decide) (by decide) (by decide) (by decide) (by decide) (by decide) (by decide) (by decide) (by decide) (by decide) (by decide) (by decide) (by decide) (by decide)
theorem W14_main_arg21 (c : Dev nD) : W14 m ρ c (Proc.devRef .tc main_arg21) = m ((c : Thread nD τ).loc main_arg21) :=
  W14_bypass m ρ c main_arg21 (by decide) (by decide) (by decide) (by decide) (by decide) (by decide) (by decide) (by decide) (by decide) (by decide) (by decide) (by decide) (by decide) (by decide)
theorem W14_main_arg22 (c : Dev nD) : W14 m ρ c (Proc.devRef .tc main_arg22) = m ((c : Thread nD τ).loc main_arg22) :=
  W14_bypass m ρ c main_arg22 (by decide) (by decide) (by decide) (by decide) (by decide) (by decide) (by decide) (by decide) (by decide) (by decide) (by decide) (by decide) (by decide) (by decide)

/-- The program's result is region 6's output window: at the end its buffer holds what that pipeline's write-backs
    make of it. -/
theorem W14_main_v91 (c : Dev nD) : W14 m ρ c (Proc.devRef .tc main_v91) = (dat6 (V13 m ρ) c).arrAt 3 cfg6.N :=
  W14_arr m ρ c 3

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents: a literal match, so that the pinned
    configuration at a numeral reduces to the printed one. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what
    the core owes, which is nothing. -/
abbrev R (c : Dev nD) : sProp 𝕄 := iprop((∃ r, prngReg c r) ∗ ∃ W, owes (c : Thread nD τ) (0 : CellTallies nD τ sig Unit) W)
/-- A stretch as a segment over the unscoped references from the contents W, R riding along: it is left with
    those references at the contents after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at boundary 1's contents, left at boundary
    2's.  Its arrays are split out of the unscoped buffers at entry and put back at the exit contents; the
    generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi0_in (V1 m ρ) c _
  hout c := Phi0_out (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary
    4's.  Its arrays are split out of the unscoped buffers at entry and put back at the exit contents; the
    generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary
    6's.  Its arrays are split out of the unscoped buffers at entry and put back at the exit contents; the
    generator register goes into the region's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi2_in (V5 m ρ) c _
  hout c := Phi2_out (V5 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary
    8's.  Its arrays are split out of the unscoped buffers at entry and put back at the exit contents; the
    generator register goes into the region's invariant and comes back; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary
    10's.  Its arrays are split out of the unscoped buffers at entry and put back at the exit contents; the
    generator register goes into the region's invariant and comes back; nothing is owed; the kernel has no
    semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi4_in (V9 m ρ) c _
  hout c := Phi4_out (V9 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 11's contents, left at boundary
    12's.  Its arrays are split out of the unscoped buffers at entry and put back at the exit contents; the
    generator register goes into the region's invariant and comes back; nothing is owed; the kernel has no
    semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 13's contents, left at boundary
    14's.  Its arrays are split out of the unscoped buffers at entry and put back at the exit contents; the
    generator register goes into the region's invariant and comes back; nothing is owed; the kernel has no
    semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's fourteen segments in order: a host segment per stretch from its boundary's contents, a region
    per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- The program is the run of the segments: it is the chain of its items, and the segments' run is the chain of
    their fragments, which are those items. -/
theorem main_run (c : Dev nD) : main (F := F) c = Pipeline.Seg.run (segs m ρ) := by
  rw [main_chain c, Pipeline.Seg.run_eq_chain,
    show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]

set_option backward.isDefEq.respectTransparency.types false in
/-- From any memory with zero counters, every weakly fair execution of the program on the cores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The program runs to the end and every argument array ends holding its launch contents: each is an unscoped
    buffer, read at the last boundary, where it holds what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (Q := fun r => ∀ c : Dev nD, ∀ b ∈ Pipeline.ucRefs τ sig, r.2.mem ((c : Thread nD τ).1, b) = W14 m ρ c b) (fun r h c =>
    ⟨(h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c),
      (h c _ (mem_uc main_arg20 (by decide))).trans (W14_main_arg20 m ρ c),
      (h c _ (mem_uc main_arg21 (by decide))).trans (W14_main_arg21 m ρ c),
      (h c _ (mem_uc main_arg22 (by decide))).trans (W14_main_arg22 m ρ c)⟩) (run_all m ρ)

/-- The same run read at the result as well: the result's buffer ends at the last boundary's contents, and every
    argument array ends holding its launch contents. -/
theorem run_value : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (Q := fun r => ∀ c : Dev nD, ∀ b ∈ Pipeline.ucRefs τ sig, r.2.mem ((c : Thread nD τ).1, b) = W14 m ρ c b) (fun r h c =>
    ⟨h c _ (mem_uc main_v91 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c),
      (h c _ (mem_uc main_arg20 (by decide))).trans (W14_main_arg20 m ρ c),
      (h c _ (mem_uc main_arg21 (by decide))).trans (W14_main_arg21 m ρ c),
      (h c _ (mem_uc main_arg22 (by decide))).trans (W14_main_arg22 m ρ c)⟩) (run_all m ρ)

end Cert.Kernel.Hand

end
-- ==== Proof.RefRun.lean ====
/-
  The reference's run.  @main of the reference is a straight line of 270 tensor operations once the four outlined
  functions are unfolded at their ten call sites (relu: a zero, its broadcast, the maximum; the variance of a column:
  nineteen operations and the three of the select it calls; the row norm: five).  Each operation writes a buffer of
  its own, once, from buffers written before it or from the 23 arguments.  So a run from contents V ends with every
  buffer at the fold of the operations over V (`after ops V`): the result buffer at the last operation's value, and
  each argument, which no operation writes, at what V held.

  `ops` is the list, cut where @main is cut (`ops_part0 … ops_part3`); `main_eq` says @main is that line; `ops_keep`
  says a buffer outside the written ones keeps its contents; `run` is the statement over every weakly fair execution,
  and `frame_ri` its reading at the extended reals with the result dropped.
-/
import proofs.«177104_j19121194402280_1_alg».proof.Proof.Gen.ReferenceIdeal
import proofs.«177104_j19121194402280_1_alg».proof.Proof.Gen.Pre_finite_inputs
import proofs.«177104_j19121194402280_1_alg».proof.Defs
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is among `W` writes inside `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

/-- @main's operations 1 … 85 of 270 (its statements 1 … 60, the calls among them unfolded). -/
abbrev ops_part0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((transpose S128x128 [1, 0] · transposes_S128x128_S128x128_1_0) : (⟨S128x128, .f32⟩ : BufTy).Contents (Elt F) → (⟨S128x128, .f32⟩ : BufTy).Contents (Elt F)),
    StableHlo.binary main_v14 main_v15 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v19 : StableHlo.TRef sig ⟨S50000x128, .f32⟩) main_call0.v0 main_call0.v1 maximumf,
    StableHlo.unary main_arg5 main_v21 ((transpose S128x128 [1, 0] · transposes_S128x128_S128x128_1_0) : (⟨S128x128, .f32⟩ : BufTy).Contents (Elt F) → (⟨S128x128, .f32⟩ : BufTy).Contents (Elt F)),
    StableHlo.binary main_v20 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v24 main_v25 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v25 main_cst_1 main_v26 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v27 (broadcastInDim S128 ![] bcast_S_S128 : (⟨S_, .f32⟩ : BufTy).Contents (Elt F) → (⟨S128, .f32⟩ : BufTy).Contents (Elt F)),
    StableHlo.binary main_v26 main_v27 main_v28 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v25 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v25 : StableHlo.TRef sig ⟨S50000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v28 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v31 main_v32 (subf : (⟨S50000x128, .f32⟩ : BufTy).Contents (Elt F) → (⟨S50000x128, .f32⟩ : BufTy).Contents (Elt F) → (⟨S50000x128, .f32⟩ : BufTy).Contents (Elt F)),
    StableHlo.unary main_arg7 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v32 main_v35 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v36 (broadcastInDim S128 ![] bcast_S_S128 : (⟨S_, .f32⟩ : BufTy).Contents (Elt F) → (⟨S128, .f32⟩ : BufTy).Contents (Elt F)),
    StableHlo.binary main_v29 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v40 main_v41 (mulf : (⟨S50000x128, .f32⟩ : BufTy).Contents (Elt F) → (⟨S50000x128, .f32⟩ : BufTy).Contents (Elt F) → (⟨S50000x128, .f32⟩ : BufTy).Contents (Elt F)),
    StableHlo.unary main_arg8 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v44 : StableHlo.TRef sig ⟨S50000x128, .f32⟩) main_call2.v0 main_call2.v1 maximumf,
    StableHlo.nullary main_c_5 (constantI S_ 32 0#32),
    StableHlo.unary main_c_5 main_v46 (broadcastInDim S600000 ![] bcast_S_S600000 : (⟨S_, .i32⟩ : BufTy).Contents (Elt F) → (⟨S600000, .i32⟩ : BufTy).Contents (Elt F)),
    StableHlo.binary main_v1 main_v46 main_v47 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v48 (broadcastInDim S600000 ![] bcast_S_S600000 : (⟨S_, .i32⟩ : BufTy).Contents (Elt F) → (⟨S600000, .i32⟩ : BufTy).Contents (Elt F)),
    StableHlo.binary main_v1 main_v48 main_v49 (addi : (⟨S600000, .i32⟩ : BufTy).Contents (Elt F) → (⟨S600000, .i32⟩ : BufTy).Contents (Elt F) → (⟨S600000, .i32⟩ : BufTy).Contents (Elt F)),
    StableHlo.ternary main_v47 main_v49 main_v1 main_v50 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ]

set_option maxRecDepth 8192 in
set_option maxHeartbeats 4000000 in
/-- That stretch of @main is the line of those operations: the functions unfold at their calls, sequencing reassociates by computation. -/
theorem main_part0_eq (c : Dev nD) : main_part0 (F := F) c = seq ops_part0 := rfl

set_option maxRecDepth 8192 in
/-- Every operation of the stretch touches TensorCore buffers only. -/
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

/-- The buffers the stretch writes, one per operation, in order. -/
abbrev ops_part0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_call0_cst, main_call0_v0, main_v20, main_v21, main_v22, main_v23, main_v24, main_v25, main_cst_1, main_v26, main_cst_2, main_v27, main_v28, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v29, main_v30, main_v31, main_v32, main_v33, main_v34, main_v35, main_cst_4, main_v36, main_v37, main_v38, main_v39, main_v40, main_v41, main_v42, main_v43, main_v44, main_call2_cst, main_call2_v0, main_v45, main_c_5, main_v46, main_v47, main_c_6, main_v48, main_v49, main_v50]

set_option maxRecDepth 8192 in
set_option maxHeartbeats 4000000 in
theorem ops_part0_writes : (ops_part0 : List (HloOp τ sig (Elt F))).Forall fun op =>
    op.writes ⊆ (ops_part0_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_c rfl (by decide),
   writes_sub_of_mem main_v4 rfl (by decide),
   writes_sub_of_mem main_v5 rfl (by decide),
   writes_sub_of_mem main_c_0 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_cst rfl (by decide),
   writes_sub_of_mem main_v11 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem main_v19 rfl (by decide),
   writes_sub_of_mem main_call0_cst rfl (by decide),
   writes_sub_of_mem main_call0_v0 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_v25 rfl (by decide),
   writes_sub_of_mem main_cst_1 rfl (by decide),
   writes_sub_of_mem main_v26 rfl (by decide),
   writes_sub_of_mem main_cst_2 rfl (by decide),
   writes_sub_of_mem main_v27 rfl (by decide),
   writes_sub_of_mem main_v28 rfl (by decide),
   writes_sub_of_mem main_c_3 rfl (by decide),
   writes_sub_of_mem main_call1_cst rfl (by decide),
   writes_sub_of_mem main_call1_v0 rfl (by decide),
   writes_sub_of_mem main_call1_v1 rfl (by decide),
   writes_sub_of_mem main_call1_cst_0 rfl (by decide),
   writes_sub_of_mem main_call1_v2 rfl (by decide),
   writes_sub_of_mem main_call1_v3 rfl (by decide),
   writes_sub_of_mem main_call1_v4 rfl (by decide),
   writes_sub_of_mem main_call1_v5 rfl (by decide),
   writes_sub_of_mem main_call1_v6 rfl (by decide),
   writes_sub_of_mem main_call1_v7 rfl (by decide),
   writes_sub_of_mem main_call1_cst_1 rfl (by decide),
   writes_sub_of_mem main_call1_v8 rfl (by decide),
   writes_sub_of_mem main_call1_cst_2 rfl (by decide),
   writes_sub_of_mem main_call1_v9 rfl (by decide),
   writes_sub_of_mem main_call1_v10 rfl (by decide),
   writes_sub_of_mem main_call1_v11 rfl (by decide),
   writes_sub_of_mem main_call1_cst_3 rfl (by decide),
   writes_sub_of_mem main_call1_v12 rfl (by decide),
   writes_sub_of_mem main_call1_cst_4 rfl (by decide),
   writes_sub_of_mem main_call1_call0_v0 rfl (by decide),
   writes_sub_of_mem main_call1_call0_v1 rfl (by decide),
   writes_sub_of_mem main_v29 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_cst_4 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_call2_cst rfl (by decide),
   writes_sub_of_mem main_call2_v0 rfl (by decide),
   writes_sub_of_mem main_v45 rfl (by decide),
   writes_sub_of_mem main_c_5 rfl (by decide),
   writes_sub_of_mem main_v46 rfl (by decide),
   writes_sub_of_mem main_v47 rfl (by decide),
   writes_sub_of_mem main_c_6 rfl (by decide),
   writes_sub_of_mem main_v48 rfl (by decide),
   writes_sub_of_mem main_v49 rfl (by decide),
   writes_sub_of_mem main_v50 rfl (by decide)⟩

set_option maxRecDepth 8192 in
set_option maxHeartbeats 4000000 in
/-- Every operation of the stretch determines its results. -/
theorem ops_part0_fresh : ∀ op ∈ (ops_part0 : List (HloOp τ sig (Elt F))), op.fresh = ∅ := by
  intro _ h; (repeat (cases h with | head => rfl | tail _ h => ?_)); exact nomatch h

/-- @main's operations 86 … 170 of 270 (its statements 61 … 120, the calls among them unfolded). -/
abbrev ops_part1 : List (HloOp τ sig (Elt F)) :=
  [ StableHlo.unary main_v50 main_v51 (broadcastInDim S600000x1 ![0] bcast_S600000_S600000x1_0 : (⟨S600000, .i32⟩ : BufTy).Contents (Elt F) → (⟨S600000x1, .i32⟩ : BufTy).Contents (Elt F)),
    StableHlo.binary main_v45 main_v51 main_v52 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v53 (broadcastInDim S50000x128 ![] bcast_S_S50000x128 : (⟨S_, .f32⟩ : BufTy).Contents (Elt F) → (⟨S50000x128, .f32⟩ : BufTy).Contents (Elt F)),
    StableHlo.unary main_v3 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v45 main_v55 main_v56 (addf : (⟨S50000x128, .f32⟩ : BufTy).Contents (Elt F) → (⟨S50000x128, .f32⟩ : BufTy).Contents (Elt F) → (⟨S50000x128, .f32⟩ : BufTy).Contents (Elt F)),
    StableHlo.unary main_arg9 main_v57 ((transpose S128x128 [1, 0] · transposes_S128x128_S128x128_1_0) : (⟨S128x128, .f32⟩ : BufTy).Contents (Elt F) → (⟨S128x128, .f32⟩ : BufTy).Contents (Elt F)),
    StableHlo.binary main_v56 main_v57 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v61 : StableHlo.TRef sig ⟨S50000x128, .f32⟩) main_call3.v0 main_call3.v1 maximumf,
    StableHlo.unary main_arg11 main_v63 ((transpose S128x128 [1, 0] · transposes_S128x128_S128x128_1_0) : (⟨S128x128, .f32⟩ : BufTy).Contents (Elt F) → (⟨S128x128, .f32⟩ : BufTy).Contents (Elt F)),
    StableHlo.binary main_v62 main_v63 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v67 main_cst_8 main_v68 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (.of main_v67 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v67 : StableHlo.TRef sig ⟨S50000x128, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v73 main_v74 (subf : (⟨S50000x128, .f32⟩ : BufTy).Contents (Elt F) → (⟨S50000x128, .f32⟩ : BufTy).Contents (Elt F) → (⟨S50000x128, .f32⟩ : BufTy).Contents (Elt F)),
    StableHlo.unary main_arg13 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v74 main_v77 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v78 (broadcastInDim S128 ![] bcast_S_S128 : (⟨S_, .f32⟩ : BufTy).Contents (Elt F) → (⟨S128, .f32⟩ : BufTy).Contents (Elt F)),
    StableHlo.binary main_v71 main_v78 main_v79 (addf : (⟨S128, .f32⟩ : BufTy).Contents (Elt F) → (⟨S128, .f32⟩ : BufTy).Contents (Elt F) → (⟨S128, .f32⟩ : BufTy).Contents (Elt F)),
    StableHlo.unary main_v79 main_v80 (Host.rsqrt : (⟨S128, .f32⟩ : BufTy).Contents (Elt F) → (⟨S128, .f32⟩ : BufTy).Contents (Elt F)),
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v82 main_v83 (mulf : (⟨S50000x128, .f32⟩ : BufTy).Contents (Elt F) → (⟨S50000x128, .f32⟩ : BufTy).Contents (Elt F) → (⟨S50000x128, .f32⟩ : BufTy).Contents (Elt F)),
    StableHlo.unary main_arg14 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v86 : StableHlo.TRef sig ⟨S50000x128, .f32⟩) main_call5.v0 main_call5.v1 maximumf,
    StableHlo.nullary main_c_12 (constantI S_ 32 0#32),
    StableHlo.unary main_c_12 main_v88 (broadcastInDim S600000 ![] bcast_S_S600000 : (⟨S_, .i32⟩ : BufTy).Contents (Elt F) → (⟨S600000, .i32⟩ : BufTy).Contents (Elt F)),
    StableHlo.binary main_v1 main_v88 main_v89 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v90 (broadcastInDim S600000 ![] bcast_S_S600000 : (⟨S_, .i32⟩ : BufTy).Contents (Elt F) → (⟨S600000, .i32⟩ : BufTy).Contents (Elt F)),
    StableHlo.binary main_v1 main_v90 main_v91 (addi : (⟨S600000, .i32⟩ : BufTy).Contents (Elt F) → (⟨S600000, .i32⟩ : BufTy).Contents (Elt F) → (⟨S600000, .i32⟩ : BufTy).Contents (Elt F)),
    StableHlo.ternary main_v89 main_v91 main_v1 main_v92 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v92 main_v93 (broadcastInDim S600000x1 ![0] bcast_S600000_S600000x1_0 : (⟨S600000, .i32⟩ : BufTy).Contents (Elt F) → (⟨S600000x1, .i32⟩ : BufTy).Contents (Elt F)),
    StableHlo.binary main_v87 main_v93 main_v94 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v95 (broadcastInDim S50000x128 ![] bcast_S_S50000x128 : (⟨S_, .f32⟩ : BufTy).Contents (Elt F) → (⟨S50000x128, .f32⟩ : BufTy).Contents (Elt F)),
    StableHlo.unary main_v3 main_v96 (broadcastInDim S600000x1 ![0] bcast_S600000_S600000x1_0 : (⟨S600000, .i32⟩ : BufTy).Contents (Elt F) → (⟨S600000x1, .i32⟩ : BufTy).Contents (Elt F)),
    StableHlo.ternary main_v95 main_v96 main_v94 main_v97 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v87 main_v97 main_v98 (addf : (⟨S50000x128, .f32⟩ : BufTy).Contents (Elt F) → (⟨S50000x128, .f32⟩ : BufTy).Contents (Elt F) → (⟨S50000x128, .f32⟩ : BufTy).Contents (Elt F)),
    StableHlo.unary main_arg15 main_v99 ((transpose S128x128 [1, 0] · transposes_S128x128_S128x128_1_0) : (⟨S128x128, .f32⟩ : BufTy).Contents (Elt F) → (⟨S128x128, .f32⟩ : BufTy).Contents (Elt F)),
    StableHlo.binary main_v98 main_v99 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
set_option maxHeartbeats 4000000 in
/-- That stretch of @main is the line of those operations: the functions unfold at their calls, sequencing reassociates by computation. -/
theorem main_part1_eq (c : Dev nD) : main_part1 (F := F) c = seq ops_part1 := rfl

set_option maxRecDepth 8192 in
/-- Every operation of the stretch touches TensorCore buffers only. -/
theorem ops_part1_sub : (ops_part1 : List (HloOp τ sig (Elt F))).Forall fun op => op.bufs ⊆ tcRefs τ sig :=
  ⟨unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub ..⟩

/-- The buffers the stretch writes, one per operation, in order. -/
abbrev ops_part1_W : List (Ref sig .tc) := [main_v51, main_v52, main_cst_7, main_v53, main_v54, main_v55, main_v56, main_v57, main_v58, main_v59, main_v60, main_v61, main_call3_cst, main_call3_v0, main_v62, main_v63, main_v64, main_v65, main_v66, main_v67, main_cst_8, main_v68, main_cst_9, main_v69, main_v70, main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v71, main_v72, main_v73, main_v74, main_v75, main_v76, main_v77, main_cst_11, main_v78, main_v79, main_v80, main_v81, main_v82, main_v83, main_v84, main_v85, main_v86, main_call5_cst, main_call5_v0, main_v87, main_c_12, main_v88, main_v89, main_c_13, main_v90, main_v91, main_v92, main_v93, main_v94, main_cst_14, main_v95, main_v96, main_v97, main_v98, main_v99, main_v100, main_v101, main_v102]

set_option maxRecDepth 8192 in
set_option maxHeartbeats 4000000 in
theorem ops_part1_writes : (ops_part1 : List (HloOp τ sig (Elt F))).Forall fun op =>
    op.writes ⊆ (ops_part1_W.map (Proc.devRef (τ := τ) .tc)).toFinset :=
  ⟨writes_sub_of_mem main_v51 rfl (by decide),
   writes_sub_of_mem main_v52 rfl (by decide),
   writes_sub_of_mem main_cst_7 rfl (by decide),
   writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_call3_cst rfl (by decide),
   writes_sub_of_mem main_call3_v0 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_cst_8 rfl (by decide),
   writes_sub_of_mem main_v68 rfl (by decide),
   writes_sub_of_mem main_cst_9 rfl (by decide),
   writes_sub_of_mem main_v69 rfl (by decide),
   writes_sub_of_mem main_v70 rfl (by decide),
   writes_sub_of_mem main_c_10 rfl (by decide),
   writes_sub_of_mem main_call4_cst rfl (by decide),
   writes_sub_of_mem main_call4_v0 rfl (by decide),
   writes_sub_of_mem main_call4_v1 rfl (by decide),
   writes_sub_of_mem main_call4_cst_0 rfl (by decide),
   writes_sub_of_mem main_call4_v2 rfl (by decide),
   writes_sub_of_mem main_call4_v3 rfl (by decide),
   writes_sub_of_mem main_call4_v4 rfl (by decide),
   writes_sub_of_mem main_call4_v5 rfl (by decide),
   writes_sub_of_mem main_call4_v6 rfl (by decide),
   writes_sub_of_mem main_call4_v7 rfl (by decide),
   writes_sub_of_mem main_call4_cst_1 rfl (by decide),
   writes_sub_of_mem main_call4_v8 rfl (by decide),
   writes_sub_of_mem main_call4_cst_2 rfl (by decide),
   writes_sub_of_mem main_call4_v9 rfl (by decide),
   writes_sub_of_mem main_call4_v10 rfl (by decide),
   writes_sub_of_mem main_call4_v11 rfl (by decide),
   writes_sub_of_mem main_call4_cst_3 rfl (by decide),
   writes_sub_of_mem main_call4_v12 rfl (by decide),
   writes_sub_of_mem main_call4_cst_4 rfl (by decide),
   writes_sub_of_mem main_call4_call0_v0 rfl (by decide),
   writes_sub_of_mem main_call4_call0_v1 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_cst_11 rfl (by decide),
   writes_sub_of_mem main_v78 rfl (by decide),
   writes_sub_of_mem main_v79 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_call5_cst rfl (by decide),
   writes_sub_of_mem main_call5_v0 rfl (by decide),
   writes_sub_of_mem main_v87 rfl (by decide),
   writes_sub_of_mem main_c_12 rfl (by decide),
   writes_sub_of_mem main_v88 rfl (by decide),
   writes_sub_of_mem main_v89 rfl (by decide),
   writes_sub_of_mem main_c_13 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_cst_14 rfl (by decide),
   writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_v102 rfl (by decide)⟩

set_option maxRecDepth 8192 in
set_option maxHeartbeats 4000000 in
/-- Every operation of the stretch determines its results. -/
theorem ops_part1_fresh : ∀ op ∈ (ops_part1 : List (HloOp τ sig (Elt F))), op.fresh = ∅ := by
  intro _ h; (repeat (cases h with | head => rfl | tail _ h => ?_)); exact nomatch h

/-- @main's operations 171 … 255 of 270 (its statements 121 … 180, the calls among them unfolded). -/
abbrev ops_part2 : List (HloOp τ sig (Elt F)) :=
  [ StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v103 : StableHlo.TRef sig ⟨S50000x128, .f32⟩) main_call6.v0 main_call6.v1 maximumf,
    StableHlo.unary main_arg17 main_v105 ((transpose S128x128 [1, 0] · transposes_S128x128_S128x128_1_0) : (⟨S128x128, .f32⟩ : BufTy).Contents (Elt F) → (⟨S128x128, .f32⟩ : BufTy).Contents (Elt F)),
    StableHlo.binary main_v104 main_v105 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg18 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v109 main_cst_15 main_v110 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v111 (broadcastInDim S128 ![] bcast_S_S128 : (⟨S_, .f32⟩ : BufTy).Contents (Elt F) → (⟨S128, .f32⟩ : BufTy).Contents (Elt F)),
    StableHlo.binary main_v110 main_v111 main_v112 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call7.cst (constant S_ .f32 0x00000000#32),
    StableHlo.TRef.binary (.of main_v109 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v109 : StableHlo.TRef sig ⟨S50000x128, .f32⟩) main_call7.v4 main_call7.v5 subf,
    StableHlo.TRef.binary main_call7.v5 main_call7.v5 main_call7.v6 mulf,
    StableHlo.TRef.unary (.of main_c_17 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v112 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v115 main_v116 (subf : (⟨S50000x128, .f32⟩ : BufTy).Contents (Elt F) → (⟨S50000x128, .f32⟩ : BufTy).Contents (Elt F) → (⟨S50000x128, .f32⟩ : BufTy).Contents (Elt F)),
    StableHlo.unary main_arg19 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v118 main_v116 main_v119 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v120 (broadcastInDim S128 ![] bcast_S_S128 : (⟨S_, .f32⟩ : BufTy).Contents (Elt F) → (⟨S128, .f32⟩ : BufTy).Contents (Elt F)),
    StableHlo.binary main_v113 main_v120 main_v121 (addf : (⟨S128, .f32⟩ : BufTy).Contents (Elt F) → (⟨S128, .f32⟩ : BufTy).Contents (Elt F) → (⟨S128, .f32⟩ : BufTy).Contents (Elt F)),
    StableHlo.unary main_v121 main_v122 (Host.rsqrt : (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v124 main_v125 (mulf : (⟨S50000x128, .f32⟩ : BufTy).Contents (Elt F) → (⟨S50000x128, .f32⟩ : BufTy).Contents (Elt F) → (⟨S50000x128, .f32⟩ : BufTy).Contents (Elt F)),
    StableHlo.unary main_arg20 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v127 main_v128 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v128 : StableHlo.TRef sig ⟨S50000x128, .f32⟩) main_call8.v0 main_call8.v1 maximumf,
    StableHlo.nullary main_cst_19 (constant S_ .f32 0x3F800000#32),
    StableHlo.unary main_cst_19 main_v130 (broadcastInDim S50000 ![] bcast_S_S50000 : (⟨S_, .f32⟩ : BufTy).Contents (Elt F) → (⟨S50000, .f32⟩ : BufTy).Contents (Elt F)),
    StableHlo.nullary main_cst_20 (constant S_ .f32 0x00000000#32),
    StableHlo.unary main_cst_20 main_v131 (broadcastInDim S512 ![] bcast_S_S512 : (⟨S_, .f32⟩ : BufTy).Contents (Elt F) → (⟨S512, .f32⟩ : BufTy).Contents (Elt F)),
    StableHlo.unary main_arg2 main_v132 (broadcastInDim S50000x1 ![0] bcast_S50000_S50000x1_0 : (⟨S50000, .i32⟩ : BufTy).Contents (Elt F) → (⟨S50000x1, .i32⟩ : BufTy).Contents (Elt F)),
    StableHlo.ternary main_v131 main_v132 main_v130 main_v133 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_21 (constant S_ .f32 0x3F800000#32),
    StableHlo.unary main_cst_21 main_v134 (broadcastInDim S512 ![] bcast_S_S512 : (⟨S_, .f32⟩ : BufTy).Contents (Elt F) → (⟨S512, .f32⟩ : BufTy).Contents (Elt F)),
    StableHlo.binary main_v133 main_v134 main_v135 (maximumf : (⟨S512, .f32⟩ : BufTy).Contents (Elt F) → (⟨S512, .f32⟩ : BufTy).Contents (Elt F) → (⟨S512, .f32⟩ : BufTy).Contents (Elt F)),
    StableHlo.unary main_v135 main_v136 (broadcastInDim S512x1 ![0] bcast_S512_S512x1_0 : (⟨S512, .f32⟩ : BufTy).Contents (Elt F) → (⟨S512x1, .f32⟩ : BufTy).Contents (Elt F)),
    StableHlo.nullary main_cst_22 (constant S_ .f32 0x00000000#32),
    StableHlo.unary main_cst_22 main_v137 (broadcastInDim S512x128 ![] bcast_S_S512x128 : (⟨S_, .f32⟩ : BufTy).Contents (Elt F) → (⟨S512x128, .f32⟩ : BufTy).Contents (Elt F)),
    StableHlo.unary main_arg2 main_v138 (broadcastInDim S50000x1 ![0] bcast_S50000_S50000x1_0 : (⟨S50000, .i32⟩ : BufTy).Contents (Elt F) → (⟨S50000x1, .i32⟩ : BufTy).Contents (Elt F)),
    StableHlo.ternary main_v137 main_v138 main_v45 main_v139 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v136 main_v140 (broadcastInDim S512x128 ![0, 1] bcast_S512x1_S512x128_0_1 : (⟨S512x1, .f32⟩ : BufTy).Contents (Elt F) → (⟨S512x128, .f32⟩ : BufTy).Contents (Elt F)),
    StableHlo.binary main_v139 main_v140 main_v141 (Host.divf : (⟨S512x128, .f32⟩ : BufTy).Contents (Elt F) → (⟨S512x128, .f32⟩ : BufTy).Contents (Elt F) → (⟨S512x128, .f32⟩ : BufTy).Contents (Elt F)),
    StableHlo.nullary main_cst_23 (constant S_ .f32 0x00000000#32),
    StableHlo.unary main_cst_23 main_v142 (broadcastInDim S512x128 ![] bcast_S_S512x128 : (⟨S_, .f32⟩ : BufTy).Contents (Elt F) → (⟨S512x128, .f32⟩ : BufTy).Contents (Elt F)),
    StableHlo.unary main_arg2 main_v143 (broadcastInDim S50000x1 ![0] bcast_S50000_S50000x1_0 : (⟨S50000, .i32⟩ : BufTy).Contents (Elt F) → (⟨S50000x1, .i32⟩ : BufTy).Contents (Elt F)),
    StableHlo.ternary main_v142 main_v143 main_v87 main_v144 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v136 main_v145 (broadcastInDim S512x128 ![0, 1] bcast_S512x1_S512x128_0_1 : (⟨S512x1, .f32⟩ : BufTy).Contents (Elt F) → (⟨S512x128, .f32⟩ : BufTy).Contents (Elt F)),
    StableHlo.binary main_v144 main_v145 main_v146 (Host.divf : (⟨S512x128, .f32⟩ : BufTy).Contents (Elt F) → (⟨S512x128, .f32⟩ : BufTy).Contents (Elt F) → (⟨S512x128, .f32⟩ : BufTy).Contents (Elt F)),
    StableHlo.nullary main_cst_24 (constant S_ .f32 0x00000000#32),
    StableHlo.unary main_cst_24 main_v147 (broadcastInDim S512x128 ![] bcast_S_S512x128 : (⟨S_, .f32⟩ : BufTy).Contents (Elt F) → (⟨S512x128, .f32⟩ : BufTy).Contents (Elt F)),
    StableHlo.unary main_arg2 main_v148 (broadcastInDim S50000x1 ![0] bcast_S50000_S50000x1_0 : (⟨S50000, .i32⟩ : BufTy).Contents (Elt F) → (⟨S50000x1, .i32⟩ : BufTy).Contents (Elt F)),
    StableHlo.ternary main_v147 main_v148 main_v129 main_v149 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v136 main_v150 (broadcastInDim S512x128 ![0, 1] bcast_S512x1_S512x128_0_1 : (⟨S512x1, .f32⟩ : BufTy).Contents (Elt F) → (⟨S512x128, .f32⟩ : BufTy).Contents (Elt F)),
    StableHlo.binary main_v149 main_v150 main_v151 (Host.divf : (⟨S512x128, .f32⟩ : BufTy).Contents (Elt F) → (⟨S512x128, .f32⟩ : BufTy).Contents (Elt F) → (⟨S512x128, .f32⟩ : BufTy).Contents (Elt F)),
    StableHlo.nary ![main_v141, main_v146, main_v151] main_v152 (fun u => concatenate S512x384 1 [⟨S512x128, u 0⟩, ⟨S512x128, u 1⟩, ⟨S512x128, u 2⟩] concatenates_S512x128_S512x128_S512x128_S512x384_d1) ]

set_option maxRecDepth 8192 in
set_option maxHeartbeats 4000000 in
/-- That stretch of @main is the line of those operations: the functions unfold at their calls, sequencing reassociates by computation. -/
theorem main_part2_eq (c : Dev nD) : main_part2 (F := F) c = seq ops_part2 := rfl

set_option maxRecDepth 8192 in
/-- Every operation of the stretch touches TensorCore buffers only. -/
theorem ops_part2_sub : (ops_part2 : List (HloOp τ sig (Elt F))).Forall fun op => op.bufs ⊆ tcRefs τ sig :=
  ⟨binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., unary_bufs_sub .., ternary_bufs_sub .., unary_bufs_sub .., binary_bufs_sub .., nary_bufs_sub ..⟩

/-- The buffers the stretch writes, one per operation, in order. -/
abbrev ops_part2_W : List (Ref sig .tc) := [main_v103, main_call6_cst, main_call6_v0, main_v104, main_v105, main_v106, main_v107, main_v108, main_v109, main_cst_15, main_v110, main_cst_16, main_v111, main_v112, main_c_17, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v113, main_v114, main_v115, main_v116, main_v117, main_v118, main_v119, main_cst_18, main_v120, main_v121, main_v122, main_v123, main_v124, main_v125, main_v126, main_v127, main_v128, main_call8_cst, main_call8_v0, main_v129, main_cst_19, main_v130, main_cst_20, main_v131, main_v132, main_v133, main_cst_21, main_v134, main_v135, main_v136, main_cst_22, main_v137, main_v138, main_v139, main_v140, main_v141, main_cst_23, main_v142, main_v143, main_v144, main_v145, main_v146, main_cst_24, main_v147, main_v148, main_v149, main_v150, main_v151, main_v152]

set_option maxRecDepth 8192 in
set_option maxHeartbeats 4000000 in
theorem ops_part2_writes : (ops_part2 : List (HloOp τ sig (Elt F))).Forall fun op =>
    op.writes ⊆ (ops_part2_W.map (Proc.devRef (τ := τ) .tc)).toFinset :=
  ⟨writes_sub_of_mem main_v103 rfl (by decide),
   writes_sub_of_mem main_call6_cst rfl (by decide),
   writes_sub_of_mem main_call6_v0 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide),
   writes_sub_of_mem main_v109 rfl (by decide),
   writes_sub_of_mem main_cst_15 rfl (by decide),
   writes_sub_of_mem main_v110 rfl (by decide),
   writes_sub_of_mem main_cst_16 rfl (by decide),
   writes_sub_of_mem main_v111 rfl (by decide),
   writes_sub_of_mem main_v112 rfl (by decide),
   writes_sub_of_mem main_c_17 rfl (by decide),
   writes_sub_of_mem main_call7_cst rfl (by decide),
   writes_sub_of_mem main_call7_v0 rfl (by decide),
   writes_sub_of_mem main_call7_v1 rfl (by decide),
   writes_sub_of_mem main_call7_cst_0 rfl (by decide),
   writes_sub_of_mem main_call7_v2 rfl (by decide),
   writes_sub_of_mem main_call7_v3 rfl (by decide),
   writes_sub_of_mem main_call7_v4 rfl (by decide),
   writes_sub_of_mem main_call7_v5 rfl (by decide),
   writes_sub_of_mem main_call7_v6 rfl (by decide),
   writes_sub_of_mem main_call7_v7 rfl (by decide),
   writes_sub_of_mem main_call7_cst_1 rfl (by decide),
   writes_sub_of_mem main_call7_v8 rfl (by decide),
   writes_sub_of_mem main_call7_cst_2 rfl (by decide),
   writes_sub_of_mem main_call7_v9 rfl (by decide),
   writes_sub_of_mem main_call7_v10 rfl (by decide),
   writes_sub_of_mem main_call7_v11 rfl (by decide),
   writes_sub_of_mem main_call7_cst_3 rfl (by decide),
   writes_sub_of_mem main_call7_v12 rfl (by decide),
   writes_sub_of_mem main_call7_cst_4 rfl (by decide),
   writes_sub_of_mem main_call7_call0_v0 rfl (by decide),
   writes_sub_of_mem main_call7_call0_v1 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_v118 rfl (by decide),
   writes_sub_of_mem main_v119 rfl (by decide),
   writes_sub_of_mem main_cst_18 rfl (by decide),
   writes_sub_of_mem main_v120 rfl (by decide),
   writes_sub_of_mem main_v121 rfl (by decide),
   writes_sub_of_mem main_v122 rfl (by decide),
   writes_sub_of_mem main_v123 rfl (by decide),
   writes_sub_of_mem main_v124 rfl (by decide),
   writes_sub_of_mem main_v125 rfl (by decide),
   writes_sub_of_mem main_v126 rfl (by decide),
   writes_sub_of_mem main_v127 rfl (by decide),
   writes_sub_of_mem main_v128 rfl (by decide),
   writes_sub_of_mem main_call8_cst rfl (by decide),
   writes_sub_of_mem main_call8_v0 rfl (by decide),
   writes_sub_of_mem main_v129 rfl (by decide),
   writes_sub_of_mem main_cst_19 rfl (by decide),
   writes_sub_of_mem main_v130 rfl (by decide),
   writes_sub_of_mem main_cst_20 rfl (by decide),
   writes_sub_of_mem main_v131 rfl (by decide),
   writes_sub_of_mem main_v132 rfl (by decide),
   writes_sub_of_mem main_v133 rfl (by decide),
   writes_sub_of_mem main_cst_21 rfl (by decide),
   writes_sub_of_mem main_v134 rfl (by decide),
   writes_sub_of_mem main_v135 rfl (by decide),
   writes_sub_of_mem main_v136 rfl (by decide),
   writes_sub_of_mem main_cst_22 rfl (by decide),
   writes_sub_of_mem main_v137 rfl (by decide),
   writes_sub_of_mem main_v138 rfl (by decide),
   writes_sub_of_mem main_v139 rfl (by decide),
   writes_sub_of_mem main_v140 rfl (by decide),
   writes_sub_of_mem main_v141 rfl (by decide),
   writes_sub_of_mem main_cst_23 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_cst_24 rfl (by decide),
   writes_sub_of_mem main_v147 rfl (by decide),
   writes_sub_of_mem main_v148 rfl (by decide),
   writes_sub_of_mem main_v149 rfl (by decide),
   writes_sub_of_mem main_v150 rfl (by decide),
   writes_sub_of_mem main_v151 rfl (by decide),
   writes_sub_of_mem main_v152 rfl (by decide)⟩

set_option maxRecDepth 8192 in
set_option maxHeartbeats 4000000 in
/-- Every operation of the stretch determines its results. -/
theorem ops_part2_fresh : ∀ op ∈ (ops_part2 : List (HloOp τ sig (Elt F))), op.fresh = ∅ := by
  intro _ h; (repeat (cases h with | head => rfl | tail _ h => ?_)); exact nomatch h

/-- @main's operations 256 … 270 of 270 (its statements 181 … 192, the calls among them unfolded). -/
abbrev ops_part3 : List (HloOp τ sig (Elt F)) :=
  [ StableHlo.unary main_arg21 main_v153 ((transpose S384x64 [1, 0] · transposes_S64x384_S384x64_1_0) : (⟨S64x384, .f32⟩ : BufTy).Contents (Elt F) → (⟨S384x64, .f32⟩ : BufTy).Contents (Elt F)),
    StableHlo.binary main_v152 main_v153 main_v154 ((fun l r => Host.dotGeneral dot_S512x384_S384x64_S512x64_1_0_0_1_n_n none l r) : (⟨S512x384, .f32⟩ : BufTy).Contents (Elt F) → (⟨S384x64, .f32⟩ : BufTy).Contents (Elt F) → (⟨S512x64, .f32⟩ : BufTy).Contents (Elt F)),
    StableHlo.unary main_arg22 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S512x64 ![0, 1] bcast_S1x64_S512x64_0_1 : (⟨S1x64, .f32⟩ : BufTy).Contents (Elt F) → (⟨S512x64, .f32⟩ : BufTy).Contents (Elt F)),
    StableHlo.binary main_v154 main_v156 main_v157 (addf : (⟨S512x64, .f32⟩ : BufTy).Contents (Elt F) → (⟨S512x64, .f32⟩ : BufTy).Contents (Elt F) → (⟨S512x64, .f32⟩ : BufTy).Contents (Elt F)),
    StableHlo.TRef.binary (.of main_v157 : StableHlo.TRef sig ⟨S512x64, .f32⟩) (.of main_v157 : StableHlo.TRef sig ⟨S512x64, .f32⟩) main_call9.v0 mulf,
    StableHlo.TRef.nullary main_call9.cst (constant S_ .f32 0x00000000#32),
    StableHlo.TRef.binary main_call9.v0 main_call9.cst main_call9.v1 (fun x v => Host.reduceAdd x v reducesTo_S512x64_S512_d1 h_S_),
    StableHlo.TRef.unary main_call9.v1 main_call9.v2 (broadcastInDim S512x1 ![0] bcast_S512_S512x1_0),
    StableHlo.TRef.unary main_call9.v2 main_call9.v3 Host.sqrt,
    StableHlo.nullary main_cst_25 (constant S_ .f32 0x2B8CBCCC#32),
    StableHlo.unary main_cst_25 main_v159 (broadcastInDim S512x1 ![] bcast_S_S512x1 : (⟨S_, .f32⟩ : BufTy).Contents (Elt F) → (⟨S512x1, .f32⟩ : BufTy).Contents (Elt F)),
    StableHlo.binary main_v158 main_v159 main_v160 (maximumf : (⟨S512x1, .f32⟩ : BufTy).Contents (Elt F) → (⟨S512x1, .f32⟩ : BufTy).Contents (Elt F) → (⟨S512x1, .f32⟩ : BufTy).Contents (Elt F)),
    StableHlo.unary main_v160 main_v161 (broadcastInDim S512x64 ![0, 1] bcast_S512x1_S512x64_0_1 : (⟨S512x1, .f32⟩ : BufTy).Contents (Elt F) → (⟨S512x64, .f32⟩ : BufTy).Contents (Elt F)),
    StableHlo.binary main_v157 main_v161 main_v162 (Host.divf : (⟨S512x64, .f32⟩ : BufTy).Contents (Elt F) → (⟨S512x64, .f32⟩ : BufTy).Contents (Elt F) → (⟨S512x64, .f32⟩ : BufTy).Contents (Elt F)) ]

set_option maxRecDepth 8192 in
set_option maxHeartbeats 4000000 in
/-- That stretch of @main is the line of those operations: the functions unfold at their calls, sequencing reassociates by computation. -/
theorem main_part3_eq (c : Dev nD) : main_part3 (F := F) c = seq ops_part3 := rfl

set_option maxRecDepth 8192 in
/-- Every operation of the stretch touches TensorCore buffers only. -/
theorem ops_part3_sub : (ops_part3 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers the stretch writes, one per operation, in order. -/
abbrev ops_part3_W : List (Ref sig .tc) := [main_v153, main_v154, main_v155, main_v156, main_v157, main_call9_v0, main_call9_cst, main_call9_v1, main_call9_v2, main_v158, main_cst_25, main_v159, main_v160, main_v161, main_v162]

set_option maxRecDepth 8192 in
set_option maxHeartbeats 4000000 in
theorem ops_part3_writes : (ops_part3 : List (HloOp τ sig (Elt F))).Forall fun op =>
    op.writes ⊆ (ops_part3_W.map (Proc.devRef (τ := τ) .tc)).toFinset :=
  ⟨writes_sub_of_mem main_v153 rfl (by decide),
   writes_sub_of_mem main_v154 rfl (by decide),
   writes_sub_of_mem main_v155 rfl (by decide),
   writes_sub_of_mem main_v156 rfl (by decide),
   writes_sub_of_mem main_v157 rfl (by decide),
   writes_sub_of_mem main_call9_v0 rfl (by decide),
   writes_sub_of_mem main_call9_cst rfl (by decide),
   writes_sub_of_mem main_call9_v1 rfl (by decide),
   writes_sub_of_mem main_call9_v2 rfl (by decide),
   writes_sub_of_mem main_v158 rfl (by decide),
   writes_sub_of_mem main_cst_25 rfl (by decide),
   writes_sub_of_mem main_v159 rfl (by decide),
   writes_sub_of_mem main_v160 rfl (by decide),
   writes_sub_of_mem main_v161 rfl (by decide),
   writes_sub_of_mem main_v162 rfl (by decide)⟩

set_option maxRecDepth 8192 in
set_option maxHeartbeats 4000000 in
/-- Every operation of the stretch determines its results. -/
theorem ops_part3_fresh : ∀ op ∈ (ops_part3 : List (HloOp τ sig (Elt F))), op.fresh = ∅ := by
  intro _ h; (repeat (cases h with | head => rfl | tail _ h => ?_)); exact nomatch h

/-- @main's 270 operations, in order: each callee's operations stand at its call site, over that call's buffers. -/
abbrev ops : List (HloOp τ sig (Elt F)) := ops_part0 ++ (ops_part1 ++ (ops_part2 ++ ops_part3))

/-- @main is the line of its operations. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

theorem ops_fresh : ∀ op ∈ (ops : List (HloOp τ sig (Elt F))), op.fresh = ∅ := fun op h => by
  simp only [ops, List.mem_append] at h
  rcases h with h | h | h | h
  exacts [ops_part0_fresh op h, ops_part1_fresh op h, ops_part2_fresh op h, ops_part3_fresh op h]

/-- The fold over the whole line is the four stretches' folds in turn. -/
theorem after_ops (V : Valuation τ sig (Elt F)) :
    after ops V = after ops_part3 (after ops_part2 (after ops_part1 (after ops_part0 V))) := by
  simp only [ops, after_append]

/-- A buffer that no stretch writes — an argument — holds after the line what it held before. -/
theorem ops_keep (V : Valuation τ sig (Elt F)) (r : Ref sig .tc) (h0 : r ∉ ops_part0_W) (h1 : r ∉ ops_part1_W)
    (h2 : r ∉ ops_part2_W) (h3 : r ∉ ops_part3_W) :
    after ops V (Proc.devRef .tc r) = V (Proc.devRef .tc r) := by
  rw [after_ops, after_of_writes_sub ops_part3 _ ops_part3_writes h3, after_of_writes_sub ops_part2 _ ops_part2_writes h2,
    after_of_writes_sub ops_part1 _ ops_part1_writes h1, after_of_writes_sub ops_part0 _ ops_part0_writes h0]

/-- On every device, for any float values, from any memory with zero counters: every weakly fair execution of @main
    terminates with the result buffer at the fold of the operations over the launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v162) = after ops (launchContents m c) (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨h c main_v162,
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide)),
      (h c main_arg10).trans (ops_keep _ main_arg10 (by decide) (by decide) (by decide) (by decide)),
      (h c main_arg11).trans (ops_keep _ main_arg11 (by decide) (by decide) (by decide) (by decide)),
      (h c main_arg12).trans (ops_keep _ main_arg12 (by decide) (by decide) (by decide) (by decide)),
      (h c main_arg13).trans (ops_keep _ main_arg13 (by decide) (by decide) (by decide) (by decide)),
      (h c main_arg14).trans (ops_keep _ main_arg14 (by decide) (by decide) (by decide) (by decide)),
      (h c main_arg15).trans (ops_keep _ main_arg15 (by decide) (by decide) (by decide) (by decide)),
      (h c main_arg16).trans (ops_keep _ main_arg16 (by decide) (by decide) (by decide) (by decide)),
      (h c main_arg17).trans (ops_keep _ main_arg17 (by decide) (by decide) (by decide) (by decide)),
      (h c main_arg18).trans (ops_keep _ main_arg18 (by decide) (by decide) (by decide) (by decide)),
      (h c main_arg19).trans (ops_keep _ main_arg19 (by decide) (by decide) (by decide) (by decide)),
      (h c main_arg20).trans (ops_keep _ main_arg20 (by decide) (by decide) (by decide) (by decide)),
      (h c main_arg21).trans (ops_keep _ main_arg21 (by decide) (by decide) (by decide) (by decide)),
      (h c main_arg22).trans (ops_keep _ main_arg22 (by decide) (by decide) (by decide) (by decide))⟩)
    (run_seq scopedRefs_eq scopedSems_eq defs main (fun _ => ops) main_eq (fun _ => ops_sub) m ρ (fun _ => ops_fresh))

/-- The reference's frame claim: at the extended reals every execution terminates and leaves the arguments as they were. -/
theorem frame_ri : Cert.frame_ReferenceIdeal := fun m ρ _ =>
  (θ_run Cert.ReferenceIdeal.defs _ _).mono (fun _ h c => (h c).2) (run (F := Ideal) m ρ)

end Cert.ReferenceIdeal.Hand

end
-- ==== Proof.HostValues.lean ====
/-
  What the host operations between the regions leave in the arrays the later regions read, over any contents W the
  stretch starts from.  The third layer's glue gathers the second layer's output along the edges and scatter-adds it
  at the destinations (the aggregated neighbour features), transposes and narrows the two weight matrices and writes
  the bias vectors as rows; the next stretch writes the scale and shift vectors as rows; the last one pools the three
  layers' outputs per graph (sum by graph number, divided by the node count), sets them side by side, and transposes and
  narrows the projection.  The gather, scatter-add and pooling are kept as whole-array terms (aggOf, poolOne, pooledCat);
  the transposes and reshapes are read at an index: a transposed matrix at (l, k) is the argument at (k, l), a vector
  written as a row at (0, j) is the vector at j, and narrowing is the identity on the extended reals.
-/
import proofs.«177104_j19121194402280_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.ValueIdx

/-! ## The host's message passing and pooling, kept as whole-array terms -/

/-- The source row and the destination row of the [2,600000] edge index, as vectors of 600000 node numbers. -/
def edgeRow0 (ei : (⟨S2x600000, .i32⟩ : BufTy).Contents (Elt Ideal)) : (⟨S600000, .i32⟩ : BufTy).Contents (Elt Ideal) :=
  shapeCast S600000 (extractStridedSlice S1x600000 ![0, 0] ei slices_S2x600000_S1x600000_0_0) shapeCasts_S1x600000_S600000
def edgeRow1 (ei : (⟨S2x600000, .i32⟩ : BufTy).Contents (Elt Ideal)) : (⟨S600000, .i32⟩ : BufTy).Contents (Elt Ideal) :=
  shapeCast S600000 (extractStridedSlice S1x600000 ![1, 0] ei slices_S2x600000_S1x600000_1_0) shapeCasts_S1x600000_S600000

/-- A node number read as an index: a negative one counts from the end (50000 is added). -/
def wrapIdx (v : (⟨S600000, .i32⟩ : BufTy).Contents (Elt Ideal)) : (⟨S600000, .i32⟩ : BufTy).Contents (Elt Ideal) :=
  select (cmpi .slt v (broadcastInDim S600000 ![] bcast_S_S600000 (constantI S_ 32 0#32)))
    (addi v (broadcastInDim S600000 ![] bcast_S_S600000 (constantI S_ 32 50000#32))) v

/-- The gather's start indices (the wrapped sources) and the scatter's indices (the destinations), as columns. -/
def srcCol (v : (⟨S600000, .i32⟩ : BufTy).Contents (Elt Ideal)) : (⟨S600000x1, .i32⟩ : BufTy).Contents (Elt Ideal) :=
  broadcastInDim S600000x1 ![0] bcast_S600000_S600000x1_0 (wrapIdx v)
def dstCol (v : (⟨S600000, .i32⟩ : BufTy).Contents (Elt Ideal)) : (⟨S600000x1, .i32⟩ : BufTy).Contents (Elt Ideal) :=
  broadcastInDim S600000x1 ![0] bcast_S600000_S600000x1_0 v

/-- The sum over each node's incoming edges of the features at the edge's source: the rows of h gathered at the
    sources and scatter-added, at the destinations, into zeros. -/
def aggOf (h : (⟨S50000x128, .f32⟩ : BufTy).Contents (Elt Ideal)) (src dst : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32)) (dstCol dst)
    (Host.gather gather_S50000x128_S600000x1_S600000x128_1_0_n_n_0_1_1128 h (srcCol src))

/-- The same from the edge index itself. -/
def aggK (h : (⟨S50000x128, .f32⟩ : BufTy).Contents (Elt Ideal)) (ei : (⟨S2x600000, .i32⟩ : BufTy).Contents (Elt Ideal)) :
    (⟨S50000x128, .f32⟩ : BufTy).Contents (Elt Ideal) :=
  aggOf h (edgeRow0 ei) (edgeRow1 ei)

/-- One layer's features pooled per graph: the rows scatter-added by graph number into zeros, each graph's row
    divided by the graph's node count. -/
def poolOne (h : (⟨S50000x128, .f32⟩ : BufTy).Contents (Elt Ideal)) (batch : (⟨S50000, .i32⟩ : BufTy).Contents (Elt Ideal))
    (cnt : (⟨S512x1, .f32⟩ : BufTy).Contents (Elt Ideal)) : (⟨S512x128, .f32⟩ : BufTy).Contents (Elt Ideal) :=
  Host.divf
    (Host.scatterAdd scatter_S512x128_S50000x1_S50000x128_1_0_0_1
      (broadcastInDim S512x128 ![] bcast_S_S512x128 (constant (F := Ideal) S_ .f32 0x00000000#32))
      (broadcastInDim S50000x1 ![0] bcast_S50000_S50000x1_0 batch) h)
    (broadcastInDim S512x128 ![0, 1] bcast_S512x1_S512x128_0_1 cnt)

/-- The three layers' pooled features side by side, [512,384]. -/
def pooledCat (h1 h2 h3 : (⟨S50000x128, .f32⟩ : BufTy).Contents (Elt Ideal)) (batch : (⟨S50000, .i32⟩ : BufTy).Contents (Elt Ideal))
    (cnt : (⟨S512x1, .f32⟩ : BufTy).Contents (Elt Ideal)) : (⟨S512x384, .f32⟩ : BufTy).Contents (Elt Ideal) :=
  concatenate S512x384 1 [⟨S512x128, poolOne h1 batch cnt⟩, ⟨S512x128, poolOne h2 batch cnt⟩, ⟨S512x128, poolOne h3 batch cnt⟩]
    concatenates_S512x128_S512x128_S512x128_S512x384_d1

/-- An operation of three operands leaves in its result reference the function of the three operands' contents. -/
theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

variable (W : Valuation τ sig (Elt Ideal))

/-! ## The third layer's glue (the host operations between the second layer's rectify step and the third layer's first region) -/

/-- The aggregated neighbour features of the third layer: the second layer's output gathered along the edges' sources
    (computed once, before the first layer) and scatter-added at their destinations. -/
theorem host4_v60_eq : (StableHlo.after (hostOps4 (F := Ideal)) W (Proc.devRef .tc main_v60) : S50000x128.Idx → EReal)
    = aggOf (W (Proc.devRef .tc main_v50)) (W (Proc.devRef .tc main_v1)) (W (Proc.devRef .tc main_v3)) := by
  unfold aggOf dstCol srcCol wrapIdx
  dsimp only [hostOps4]
  after_results_simp

/-- The third layer's first weight matrix as the region reads it: the argument transposed, then narrowed (the identity on extended reals). -/
theorem host4_v62_eq : (StableHlo.after (hostOps4 (F := Ideal)) W (Proc.devRef .tc main_v62) : S128x128.Idx → EReal)
    = truncf (F := Ideal) .bf16 (transpose S128x128 [1, 0] (W (Proc.devRef .tc main_arg15) : S128x128.Idx → EReal) transposes_S128x128_S128x128_1_0) bitsLt_bf16_f32 := by
  dsimp only [hostOps4]
  after_results_simp
  first | done | rfl

/-- Read at (l, k): the argument at (k, l). -/
theorem host4_v62_at (l : Fin 128) (k : Fin 128) :
    (StableHlo.after (hostOps4 (F := Ideal)) W (Proc.devRef .tc main_v62) : S128x128.Idx → EReal) (ix2 l k) = (W (Proc.devRef .tc main_arg15) : S128x128.Idx → EReal) (ix2 k l) :=
  (congrFun (host4_v62_eq W) (ix2 l k)).trans (by rw [truncf_apply, transpose_ix2_apply])

/-- The third layer's second weight matrix as the region reads it: the argument transposed, then narrowed (the identity on extended reals). -/
theorem host4_v64_eq : (StableHlo.after (hostOps4 (F := Ideal)) W (Proc.devRef .tc main_v64) : S128x128.Idx → EReal)
    = truncf (F := Ideal) .bf16 (transpose S128x128 [1, 0] (W (Proc.devRef .tc main_arg17) : S128x128.Idx → EReal) transposes_S128x128_S128x128_1_0) bitsLt_bf16_f32 := by
  dsimp only [hostOps4]
  after_results_simp
  first | done | rfl

/-- Read at (l, k): the argument at (k, l). -/
theorem host4_v64_at (l : Fin 128) (k : Fin 128) :
    (StableHlo.after (hostOps4 (F := Ideal)) W (Proc.devRef .tc main_v64) : S128x128.Idx → EReal) (ix2 l k) = (W (Proc.devRef .tc main_arg17) : S128x128.Idx → EReal) (ix2 k l) :=
  (congrFun (host4_v64_eq W) (ix2 l k)).trans (by rw [truncf_apply, transpose_ix2_apply])

/-- The third layer's first bias row: the argument's vector as one row. -/
theorem host4_v65_eq : (StableHlo.after (hostOps4 (F := Ideal)) W (Proc.devRef .tc main_v65) : S1x128.Idx → EReal)
    = shapeCast S1x128 (W (Proc.devRef .tc main_arg16) : S128.Idx → EReal) shapeCasts_S128_S1x128 := by
  dsimp only [hostOps4]
  after_results_simp
  first | done | rfl

/-- Read at (0, j): the argument at j. -/
theorem host4_v65_at (j : Fin 128) :
    (StableHlo.after (hostOps4 (F := Ideal)) W (Proc.devRef .tc main_v65) : S1x128.Idx → EReal) (ix2 (0 : Fin 1) j) = (W (Proc.devRef .tc main_arg16) : S128.Idx → EReal) (ix1 j) :=
  (congrFun (host4_v65_eq W) (ix2 (0 : Fin 1) j)).trans (shapeCast_a_1a_apply _ _ (0 : Fin 1) j)

/-- The third layer's second bias row: the argument's vector as one row. -/
theorem host4_v66_eq : (StableHlo.after (hostOps4 (F := Ideal)) W (Proc.devRef .tc main_v66) : S1x128.Idx → EReal)
    = shapeCast S1x128 (W (Proc.devRef .tc main_arg18) : S128.Idx → EReal) shapeCasts_S128_S1x128 := by
  dsimp only [hostOps4]
  after_results_simp
  first | done | rfl

/-- Read at (0, j): the argument at j. -/
theorem host4_v66_at (j : Fin 128) :
    (StableHlo.after (hostOps4 (F := Ideal)) W (Proc.devRef .tc main_v66) : S1x128.Idx → EReal) (ix2 (0 : Fin 1) j) = (W (Proc.devRef .tc main_arg18) : S128.Idx → EReal) (ix1 j) :=
  (congrFun (host4_v66_eq W) (ix2 (0 : Fin 1) j)).trans (shapeCast_a_1a_apply _ _ (0 : Fin 1) j)

/-! ## The third layer's scale and shift rows -/

/-- The third layer's scale row: the argument's vector as one row. -/
theorem host5_v68_eq : (StableHlo.after (hostOps5 (F := Ideal)) W (Proc.devRef .tc main_v68) : S1x128.Idx → EReal)
    = shapeCast S1x128 (W (Proc.devRef .tc main_arg19) : S128.Idx → EReal) shapeCasts_S128_S1x128 := by
  dsimp only [hostOps5]
  after_results_simp
  first | done | rfl

/-- Read at (0, j): the argument at j. -/
theorem host5_v68_at (j : Fin 128) :
    (StableHlo.after (hostOps5 (F := Ideal)) W (Proc.devRef .tc main_v68) : S1x128.Idx → EReal) (ix2 (0 : Fin 1) j) = (W (Proc.devRef .tc main_arg19) : S128.Idx → EReal) (ix1 j) :=
  (congrFun (host5_v68_eq W) (ix2 (0 : Fin 1) j)).trans (shapeCast_a_1a_apply _ _ (0 : Fin 1) j)

/-- The third layer's shift row: the argument's vector as one row. -/
theorem host5_v69_eq : (StableHlo.after (hostOps5 (F := Ideal)) W (Proc.devRef .tc main_v69) : S1x128.Idx → EReal)
    = shapeCast S1x128 (W (Proc.devRef .tc main_arg20) : S128.Idx → EReal) shapeCasts_S128_S1x128 := by
  dsimp only [hostOps5]
  after_results_simp
  first | done | rfl

/-- Read at (0, j): the argument at j. -/
theorem host5_v69_at (j : Fin 128) :
    (StableHlo.after (hostOps5 (F := Ideal)) W (Proc.devRef .tc main_v69) : S1x128.Idx → EReal) (ix2 (0 : Fin 1) j) = (W (Proc.devRef .tc main_arg20) : S128.Idx → EReal) (ix1 j) :=
  (congrFun (host5_v69_eq W) (ix2 (0 : Fin 1) j)).trans (shapeCast_a_1a_apply _ _ (0 : Fin 1) j)

/-! ## The pooling and the projection's operands -/

/-- The three layers' outputs pooled per graph and set side by side. -/
theorem host6_v86_eq : (StableHlo.after (hostOps6 (F := Ideal)) W (Proc.devRef .tc main_v86) : S512x384.Idx → EReal)
    = pooledCat (W (Proc.devRef .tc main_v30)) (W (Proc.devRef .tc main_v50)) (W (Proc.devRef .tc main_v70))
        (W (Proc.devRef .tc main_arg2)) (W (Proc.devRef .tc main_v10)) := by
  unfold pooledCat poolOne
  dsimp only [hostOps6]
  simp (disch := decide) only [after_cons, after_nil, nary3_result',
    nullary_result', unary_result', binary_result', ternary_result', reshape_result',
    nullary_result_ne', unary_result_ne', binary_result_ne', ternary_result_ne', reshape_result_ne', nary_result_ne']
  first | done | rfl

/-- The same narrowed (the identity on extended reals): what the last region reads as its pooled features. -/
theorem host6_v87_eq : (StableHlo.after (hostOps6 (F := Ideal)) W (Proc.devRef .tc main_v87) : S512x384.Idx → EReal)
    = pooledCat (W (Proc.devRef .tc main_v30)) (W (Proc.devRef .tc main_v50)) (W (Proc.devRef .tc main_v70))
        (W (Proc.devRef .tc main_arg2)) (W (Proc.devRef .tc main_v10)) := by
  unfold pooledCat poolOne
  dsimp only [hostOps6]
  simp (disch := decide) only [after_cons, after_nil, nary3_result',
    nullary_result', unary_result', binary_result', ternary_result', reshape_result',
    nullary_result_ne', unary_result_ne', binary_result_ne', ternary_result_ne', reshape_result_ne', nary_result_ne']
  first | done | rfl

/-- The projection matrix as the last region reads it: the argument transposed, then narrowed (the identity on extended reals). -/
theorem host6_v89_eq : (StableHlo.after (hostOps6 (F := Ideal)) W (Proc.devRef .tc main_v89) : S384x64.Idx → EReal)
    = truncf (F := Ideal) .bf16 (transpose S384x64 [1, 0] (W (Proc.devRef .tc main_arg21) : S64x384.Idx → EReal) transposes_S64x384_S384x64_1_0) bitsLt_bf16_f32 := by
  dsimp only [hostOps6]
  after_results_simp
  first | done | rfl

/-- Read at (l, k): the argument at (k, l). -/
theorem host6_v89_at (l : Fin 384) (k : Fin 64) :
    (StableHlo.after (hostOps6 (F := Ideal)) W (Proc.devRef .tc main_v89) : S384x64.Idx → EReal) (ix2 l k) = (W (Proc.devRef .tc main_arg21) : S64x384.Idx → EReal) (ix2 k l) :=
  (congrFun (host6_v89_eq W) (ix2 l k)).trans (by rw [truncf_apply, transpose_ix2_apply])

/-- The projection's bias row: the argument's vector as one row. -/
theorem host6_v90_eq : (StableHlo.after (hostOps6 (F := Ideal)) W (Proc.devRef .tc main_v90) : S1x64.Idx → EReal)
    = shapeCast S1x64 (W (Proc.devRef .tc main_arg22) : S64.Idx → EReal) shapeCasts_S64_S1x64 := by
  dsimp only [hostOps6]
  after_results_simp
  first | done | rfl

/-- Read at (0, j): the argument at j. -/
theorem host6_v90_at (j : Fin 64) :
    (StableHlo.after (hostOps6 (F := Ideal)) W (Proc.devRef .tc main_v90) : S1x64.Idx → EReal) (ix2 (0 : Fin 1) j) = (W (Proc.devRef .tc main_arg22) : S64.Idx → EReal) (ix1 j) :=
  (congrFun (host6_v90_eq W) (ix2 (0 : Fin 1) j)).trans (shapeCast_a_1a_apply _ _ (0 : Fin 1) j)

end Cert.KernelIdeal.Hand

end
-- ==== Proof.KCarry.lean ====
/-
  What the stretches of host operations between the regions hand over, and what is carried across the boundaries.

  Part one, for any contents a stretch starts from: stretches 0 and 2 prepare a layer — the two rows of the edge
  array as index vectors, the number of nodes of each graph as a column (at least one), the aggregate of the
  layer's input over the edges (each node's in-neighbours' rows summed: a gather along the sources, scattered and
  added along the destinations into zeros), the two weight matrices transposed, the two bias vectors as rows;
  stretches 1 and 3 hand the scale and shift vectors over as rows.  The gather and the scatter are kept as the
  operations they are.

  Part two, in the fold of the buffers' contents through the program: each buffer a later stretch or region reads
  keeps its contents across the boundaries in between.
-/
import proofs.«177104_j19121194402280_1_alg».proof.Proof.Assembly
import proofs.«177104_j19121194402280_1_alg».proof.Proof.HostValues
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window BodyObligation cellOf)
open Idealize.ShloMosaic.ValueIdx

/-- The number of nodes of each graph, at least one, as a column. -/
def cntCol (batch : (⟨S50000, .i32⟩ : BufTy).Contents (Elt Ideal)) : (⟨S512x1, .f32⟩ : BufTy).Contents (Elt Ideal) :=
  broadcastInDim S512x1 ![0] bcast_S512_S512x1_0
    (maximumf (Host.scatterAdd scatter_S512_S50000x1_S50000_n_0_0_1 (broadcastInDim S512 ![] bcast_S_S512 (constant (F := Ideal) S_ .f32 0x00000000#32))
        (broadcastInDim S50000x1 ![0] bcast_S50000_S50000x1_0 batch) (broadcastInDim S50000 ![] bcast_S_S50000 (constant (F := Ideal) S_ .f32 0x3F800000#32)))
      (broadcastInDim S512 ![] bcast_S_S512 (constant (F := Ideal) S_ .f32 0x3F800000#32)))

section Stretches
variable (W : Valuation τ sig (Elt Ideal))

/-! ## What each stretch leaves in the buffers the regions read, entry by entry

Stated for any contents W the stretch starts from.  A weight matrix is handed to a region transposed (and converted
to a narrower format, which is the identity on the extended reals); a bias or scale vector is handed over as a
one-row matrix. -/

/-- Entry (l, k) of the matrix the region reads is entry (k, l) of the argument. -/
theorem host0_v22_at (l k : Fin 128) :
    (StableHlo.after (hostOps0 (F := Ideal)) W (Proc.devRef .tc main_v22) : S128x128.Idx → EReal) (ix2 l k)
      = (W (Proc.devRef .tc main_arg3) : S128x128.Idx → EReal) (ix2 k l) := by
  after_results
  exact transpose_ix2_apply (W (Proc.devRef .tc main_arg3) : S128x128.Idx → EReal) transposes_S128x128_S128x128_1_0 l k

/-- Entry (l, k) of the matrix the region reads is entry (k, l) of the argument. -/
theorem host0_v24_at (l k : Fin 128) :
    (StableHlo.after (hostOps0 (F := Ideal)) W (Proc.devRef .tc main_v24) : S128x128.Idx → EReal) (ix2 l k)
      = (W (Proc.devRef .tc main_arg5) : S128x128.Idx → EReal) (ix2 k l) := by
  after_results
  exact transpose_ix2_apply (W (Proc.devRef .tc main_arg5) : S128x128.Idx → EReal) transposes_S128x128_S128x128_1_0 l k

/-- Entry (0, j) of the one-row matrix the region reads is entry j of the argument. -/
theorem host0_v25_at (j : Fin 128) :
    (StableHlo.after (hostOps0 (F := Ideal)) W (Proc.devRef .tc main_v25) : S1x128.Idx → EReal) (ix2 0 j)
      = (W (Proc.devRef .tc main_arg4) : S128.Idx → EReal) (ix1 j) := by
  have e : StableHlo.after (hostOps0 (F := Ideal)) W (Proc.devRef .tc main_v25)
      = shapeCast S1x128 (W (Proc.devRef .tc main_arg4) : S128.Idx → EReal) shapeCasts_S128_S1x128 := by
    after_results
    rfl
  rw [e]
  exact shapeCast_a_1a_apply _ _ 0 j

/-- Entry (0, j) of the one-row matrix the region reads is entry j of the argument. -/
theorem host0_v26_at (j : Fin 128) :
    (StableHlo.after (hostOps0 (F := Ideal)) W (Proc.devRef .tc main_v26) : S1x128.Idx → EReal) (ix2 0 j)
      = (W (Proc.devRef .tc main_arg6) : S128.Idx → EReal) (ix1 j) := by
  have e : StableHlo.after (hostOps0 (F := Ideal)) W (Proc.devRef .tc main_v26)
      = shapeCast S1x128 (W (Proc.devRef .tc main_arg6) : S128.Idx → EReal) shapeCasts_S128_S1x128 := by
    after_results
    rfl
  rw [e]
  exact shapeCast_a_1a_apply _ _ 0 j

/-- Entry (0, j) of the one-row matrix the region reads is entry j of the argument. -/
theorem host1_v28_at (j : Fin 128) :
    (StableHlo.after (hostOps1 (F := Ideal)) W (Proc.devRef .tc main_v28) : S1x128.Idx → EReal) (ix2 0 j)
      = (W (Proc.devRef .tc main_arg7) : S128.Idx → EReal) (ix1 j) := by
  have e : StableHlo.after (hostOps1 (F := Ideal)) W (Proc.devRef .tc main_v28)
      = shapeCast S1x128 (W (Proc.devRef .tc main_arg7) : S128.Idx → EReal) shapeCasts_S128_S1x128 := by
    after_results
    rfl
  rw [e]
  exact shapeCast_a_1a_apply _ _ 0 j

/-- Entry (0, j) of the one-row matrix the region reads is entry j of the argument. -/
theorem host1_v29_at (j : Fin 128) :
    (StableHlo.after (hostOps1 (F := Ideal)) W (Proc.devRef .tc main_v29) : S1x128.Idx → EReal) (ix2 0 j)
      = (W (Proc.devRef .tc main_arg8) : S128.Idx → EReal) (ix1 j) := by
  have e : StableHlo.after (hostOps1 (F := Ideal)) W (Proc.devRef .tc main_v29)
      = shapeCast S1x128 (W (Proc.devRef .tc main_arg8) : S128.Idx → EReal) shapeCasts_S128_S1x128 := by
    after_results
    rfl
  rw [e]
  exact shapeCast_a_1a_apply _ _ 0 j

/-- Entry (l, k) of the matrix the region reads is entry (k, l) of the argument. -/
theorem host2_v42_at (l k : Fin 128) :
    (StableHlo.after (hostOps2 (F := Ideal)) W (Proc.devRef .tc main_v42) : S128x128.Idx → EReal) (ix2 l k)
      = (W (Proc.devRef .tc main_arg9) : S128x128.Idx → EReal) (ix2 k l) := by
  after_results
  exact transpose_ix2_apply (W (Proc.devRef .tc main_arg9) : S128x128.Idx → EReal) transposes_S128x128_S128x128_1_0 l k

/-- Entry (l, k) of the matrix the region reads is entry (k, l) of the argument. -/
theorem host2_v44_at (l k : Fin 128) :
    (StableHlo.after (hostOps2 (F := Ideal)) W (Proc.devRef .tc main_v44) : S128x128.Idx → EReal) (ix2 l k)
      = (W (Proc.devRef .tc main_arg11) : S128x128.Idx → EReal) (ix2 k l) := by
  after_results
  exact transpose_ix2_apply (W (Proc.devRef .tc main_arg11) : S128x128.Idx → EReal) transposes_S128x128_S128x128_1_0 l k

/-- Entry (0, j) of the one-row matrix the region reads is entry j of the argument. -/
theorem host2_v45_at (j : Fin 128) :
    (StableHlo.after (hostOps2 (F := Ideal)) W (Proc.devRef .tc main_v45) : S1x128.Idx → EReal) (ix2 0 j)
      = (W (Proc.devRef .tc main_arg10) : S128.Idx → EReal) (ix1 j) := by
  have e : StableHlo.after (hostOps2 (F := Ideal)) W (Proc.devRef .tc main_v45)
      = shapeCast S1x128 (W (Proc.devRef .tc main_arg10) : S128.Idx → EReal) shapeCasts_S128_S1x128 := by
    after_results
    rfl
  rw [e]
  exact shapeCast_a_1a_apply _ _ 0 j

/-- Entry (0, j) of the one-row matrix the region reads is entry j of the argument. -/
theorem host2_v46_at (j : Fin 128) :
    (StableHlo.after (hostOps2 (F := Ideal)) W (Proc.devRef .tc main_v46) : S1x128.Idx → EReal) (ix2 0 j)
      = (W (Proc.devRef .tc main_arg12) : S128.Idx → EReal) (ix1 j) := by
  have e : StableHlo.after (hostOps2 (F := Ideal)) W (Proc.devRef .tc main_v46)
      = shapeCast S1x128 (W (Proc.devRef .tc main_arg12) : S128.Idx → EReal) shapeCasts_S128_S1x128 := by
    after_results
    rfl
  rw [e]
  exact shapeCast_a_1a_apply _ _ 0 j

/-- Entry (0, j) of the one-row matrix the region reads is entry j of the argument. -/
theorem host3_v48_at (j : Fin 128) :
    (StableHlo.after (hostOps3 (F := Ideal)) W (Proc.devRef .tc main_v48) : S1x128.Idx → EReal) (ix2 0 j)
      = (W (Proc.devRef .tc main_arg13) : S128.Idx → EReal) (ix1 j) := by
  have e : StableHlo.after (hostOps3 (F := Ideal)) W (Proc.devRef .tc main_v48)
      = shapeCast S1x128 (W (Proc.devRef .tc main_arg13) : S128.Idx → EReal) shapeCasts_S128_S1x128 := by
    after_results
    rfl
  rw [e]
  exact shapeCast_a_1a_apply _ _ 0 j

/-- Entry (0, j) of the one-row matrix the region reads is entry j of the argument. -/
theorem host3_v49_at (j : Fin 128) :
    (StableHlo.after (hostOps3 (F := Ideal)) W (Proc.devRef .tc main_v49) : S1x128.Idx → EReal) (ix2 0 j)
      = (W (Proc.devRef .tc main_arg14) : S128.Idx → EReal) (ix1 j) := by
  have e : StableHlo.after (hostOps3 (F := Ideal)) W (Proc.devRef .tc main_v49)
      = shapeCast S1x128 (W (Proc.devRef .tc main_arg14) : S128.Idx → EReal) shapeCasts_S128_S1x128 := by
    after_results
    rfl
  rw [e]
  exact shapeCast_a_1a_apply _ _ 0 j

/-! ## The columns and the aggregates -/

theorem host0_v1 : StableHlo.after (hostOps0 (F := Ideal)) W (Proc.devRef .tc main_v1) = edgeRow0 (W (Proc.devRef .tc main_arg1)) := by
  after_results
  rfl
theorem host0_v3 : StableHlo.after (hostOps0 (F := Ideal)) W (Proc.devRef .tc main_v3) = edgeRow1 (W (Proc.devRef .tc main_arg1)) := by
  after_results
  rfl
theorem host0_v10 : StableHlo.after (hostOps0 (F := Ideal)) W (Proc.devRef .tc main_v10) = cntCol (W (Proc.devRef .tc main_arg2)) := by
  after_results
  rfl
set_option maxHeartbeats 4000000 in
/-- The first layer's aggregate is the aggregate of the first argument over the edge array. -/
theorem host0_v20 : StableHlo.after (hostOps0 (F := Ideal)) W (Proc.devRef .tc main_v20)
    = aggK (W (Proc.devRef .tc main_arg0)) (W (Proc.devRef .tc main_arg1)) := by
  after_results_simp
  rfl
set_option maxHeartbeats 4000000 in
/-- The second layer's aggregate is the aggregate of the first layer's result over the two index vectors. -/
theorem host2_v40 : StableHlo.after (hostOps2 (F := Ideal)) W (Proc.devRef .tc main_v40)
    = aggOf (W (Proc.devRef .tc main_v30)) (W (Proc.devRef .tc main_v1)) (W (Proc.devRef .tc main_v3)) := by
  after_results_simp
  rfl

end Stretches

variable (m : (ℓ : Loc nD τ sig) → Buf (Elt Ideal) ℓ) (ρ : Dev nD → PrngReg)

/-! ## What is carried across the boundaries

Each buffer a later stretch or region reads keeps its contents across the boundaries in between: no stretch in
between writes it, and a region in between either does not have it among its arrays or reads it through an input
window, which leaves the array as it found it. -/

theorem carry8_arg2 (c : Dev nD) : W8 m ρ c (Proc.devRef .tc main_arg2) = W0 m ρ c (Proc.devRef .tc main_arg2) :=
  (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| W1_of m ρ c main_arg2 (by decide)
theorem W8_main_arg2 (c : Dev nD) : W8 m ρ c (Proc.devRef .tc main_arg2) = m ((c : Thread nD τ).loc main_arg2) :=
  (carry8_arg2 m ρ c).trans rfl
theorem carry9_arg2 (c : Dev nD) : W9 m ρ c (Proc.devRef .tc main_arg2) = W0 m ρ c (Proc.devRef .tc main_arg2) :=
  (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| W1_of m ρ c main_arg2 (by decide)
theorem W9_main_arg2 (c : Dev nD) : W9 m ρ c (Proc.devRef .tc main_arg2) = m ((c : Thread nD τ).loc main_arg2) :=
  (carry9_arg2 m ρ c).trans rfl
theorem carry10_arg2 (c : Dev nD) : W10 m ρ c (Proc.devRef .tc main_arg2) = W0 m ρ c (Proc.devRef .tc main_arg2) :=
  (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| W1_of m ρ c main_arg2 (by decide)
theorem W10_main_arg2 (c : Dev nD) : W10 m ρ c (Proc.devRef .tc main_arg2) = m ((c : Thread nD τ).loc main_arg2) :=
  (carry10_arg2 m ρ c).trans rfl
theorem carry11_arg2 (c : Dev nD) : W11 m ρ c (Proc.devRef .tc main_arg2) = W0 m ρ c (Proc.devRef .tc main_arg2) :=
  (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| W1_of m ρ c main_arg2 (by decide)
theorem W11_main_arg2 (c : Dev nD) : W11 m ρ c (Proc.devRef .tc main_arg2) = m ((c : Thread nD τ).loc main_arg2) :=
  (carry11_arg2 m ρ c).trans rfl
theorem carry12_arg2 (c : Dev nD) : W12 m ρ c (Proc.devRef .tc main_arg2) = W0 m ρ c (Proc.devRef .tc main_arg2) :=
  (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| W1_of m ρ c main_arg2 (by decide)
theorem W12_main_arg2 (c : Dev nD) : W12 m ρ c (Proc.devRef .tc main_arg2) = m ((c : Thread nD τ).loc main_arg2) :=
  (carry12_arg2 m ρ c).trans rfl
theorem carry13_arg2 (c : Dev nD) : W13 m ρ c (Proc.devRef .tc main_arg2) = W0 m ρ c (Proc.devRef .tc main_arg2) :=
  (W13_of m ρ c main_arg2 (by decide)).trans <| (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| W1_of m ρ c main_arg2 (by decide)
theorem W13_main_arg2 (c : Dev nD) : W13 m ρ c (Proc.devRef .tc main_arg2) = m ((c : Thread nD τ).loc main_arg2) :=
  (carry13_arg2 m ρ c).trans rfl
theorem carry2_arg7 (c : Dev nD) : W2 m ρ c (Proc.devRef .tc main_arg7) = W0 m ρ c (Proc.devRef .tc main_arg7) :=
  (W2_of_ne m ρ c main_arg7 (by decide)).trans <| W1_of m ρ c main_arg7 (by decide)
theorem W2_main_arg7 (c : Dev nD) : W2 m ρ c (Proc.devRef .tc main_arg7) = m ((c : Thread nD τ).loc main_arg7) :=
  (carry2_arg7 m ρ c).trans rfl
theorem carry3_arg7 (c : Dev nD) : W3 m ρ c (Proc.devRef .tc main_arg7) = W0 m ρ c (Proc.devRef .tc main_arg7) :=
  (W3_of m ρ c main_arg7 (by decide)).trans <| (W2_of_ne m ρ c main_arg7 (by decide)).trans <| W1_of m ρ c main_arg7 (by decide)
theorem W3_main_arg7 (c : Dev nD) : W3 m ρ c (Proc.devRef .tc main_arg7) = m ((c : Thread nD τ).loc main_arg7) :=
  (carry3_arg7 m ρ c).trans rfl
theorem carry2_arg8 (c : Dev nD) : W2 m ρ c (Proc.devRef .tc main_arg8) = W0 m ρ c (Proc.devRef .tc main_arg8) :=
  (W2_of_ne m ρ c main_arg8 (by decide)).trans <| W1_of m ρ c main_arg8 (by decide)
theorem W2_main_arg8 (c : Dev nD) : W2 m ρ c (Proc.devRef .tc main_arg8) = m ((c : Thread nD τ).loc main_arg8) :=
  (carry2_arg8 m ρ c).trans rfl
theorem carry3_arg8 (c : Dev nD) : W3 m ρ c (Proc.devRef .tc main_arg8) = W0 m ρ c (Proc.devRef .tc main_arg8) :=
  (W3_of m ρ c main_arg8 (by decide)).trans <| (W2_of_ne m ρ c main_arg8 (by decide)).trans <| W1_of m ρ c main_arg8 (by decide)
theorem W3_main_arg8 (c : Dev nD) : W3 m ρ c (Proc.devRef .tc main_arg8) = m ((c : Thread nD τ).loc main_arg8) :=
  (carry3_arg8 m ρ c).trans rfl
theorem carry4_arg9 (c : Dev nD) : W4 m ρ c (Proc.devRef .tc main_arg9) = W0 m ρ c (Proc.devRef .tc main_arg9) :=
  (W4_of_ne m ρ c main_arg9 (by decide)).trans <| (W3_of m ρ c main_arg9 (by decide)).trans <| (W2_of_ne m ρ c main_arg9 (by decide)).trans <| W1_of m ρ c main_arg9 (by decide)
theorem W4_main_arg9 (c : Dev nD) : W4 m ρ c (Proc.devRef .tc main_arg9) = m ((c : Thread nD τ).loc main_arg9) :=
  (carry4_arg9 m ρ c).trans rfl
theorem carry5_arg9 (c : Dev nD) : W5 m ρ c (Proc.devRef .tc main_arg9) = W0 m ρ c (Proc.devRef .tc main_arg9) :=
  (W5_of m ρ c main_arg9 (by decide)).trans <| (W4_of_ne m ρ c main_arg9 (by decide)).trans <| (W3_of m ρ c main_arg9 (by decide)).trans <| (W2_of_ne m ρ c main_arg9 (by decide)).trans <| W1_of m ρ c main_arg9 (by decide)
theorem W5_main_arg9 (c : Dev nD) : W5 m ρ c (Proc.devRef .tc main_arg9) = m ((c : Thread nD τ).loc main_arg9) :=
  (carry5_arg9 m ρ c).trans rfl
theorem carry4_arg10 (c : Dev nD) : W4 m ρ c (Proc.devRef .tc main_arg10) = W0 m ρ c (Proc.devRef .tc main_arg10) :=
  (W4_of_ne m ρ c main_arg10 (by decide)).trans <| (W3_of m ρ c main_arg10 (by decide)).trans <| (W2_of_ne m ρ c main_arg10 (by decide)).trans <| W1_of m ρ c main_arg10 (by decide)
theorem W4_main_arg10 (c : Dev nD) : W4 m ρ c (Proc.devRef .tc main_arg10) = m ((c : Thread nD τ).loc main_arg10) :=
  (carry4_arg10 m ρ c).trans rfl
theorem carry5_arg10 (c : Dev nD) : W5 m ρ c (Proc.devRef .tc main_arg10) = W0 m ρ c (Proc.devRef .tc main_arg10) :=
  (W5_of m ρ c main_arg10 (by decide)).trans <| (W4_of_ne m ρ c main_arg10 (by decide)).trans <| (W3_of m ρ c main_arg10 (by decide)).trans <| (W2_of_ne m ρ c main_arg10 (by decide)).trans <| W1_of m ρ c main_arg10 (by decide)
theorem W5_main_arg10 (c : Dev nD) : W5 m ρ c (Proc.devRef .tc main_arg10) = m ((c : Thread nD τ).loc main_arg10) :=
  (carry5_arg10 m ρ c).trans rfl
theorem carry4_arg11 (c : Dev nD) : W4 m ρ c (Proc.devRef .tc main_arg11) = W0 m ρ c (Proc.devRef .tc main_arg11) :=
  (W4_of_ne m ρ c main_arg11 (by decide)).trans <| (W3_of m ρ c main_arg11 (by decide)).trans <| (W2_of_ne m ρ c main_arg11 (by decide)).trans <| W1_of m ρ c main_arg11 (by decide)
theorem W4_main_arg11 (c : Dev nD) : W4 m ρ c (Proc.devRef .tc main_arg11) = m ((c : Thread nD τ).loc main_arg11) :=
  (carry4_arg11 m ρ c).trans rfl
theorem carry5_arg11 (c : Dev nD) : W5 m ρ c (Proc.devRef .tc main_arg11) = W0 m ρ c (Proc.devRef .tc main_arg11) :=
  (W5_of m ρ c main_arg11 (by decide)).trans <| (W4_of_ne m ρ c main_arg11 (by decide)).trans <| (W3_of m ρ c main_arg11 (by decide)).trans <| (W2_of_ne m ρ c main_arg11 (by decide)).trans <| W1_of m ρ c main_arg11 (by decide)
theorem W5_main_arg11 (c : Dev nD) : W5 m ρ c (Proc.devRef .tc main_arg11) = m ((c : Thread nD τ).loc main_arg11) :=
  (carry5_arg11 m ρ c).trans rfl
theorem carry4_arg12 (c : Dev nD) : W4 m ρ c (Proc.devRef .tc main_arg12) = W0 m ρ c (Proc.devRef .tc main_arg12) :=
  (W4_of_ne m ρ c main_arg12 (by decide)).trans <| (W3_of m ρ c main_arg12 (by decide)).trans <| (W2_of_ne m ρ c main_arg12 (by decide)).trans <| W1_of m ρ c main_arg12 (by decide)
theorem W4_main_arg12 (c : Dev nD) : W4 m ρ c (Proc.devRef .tc main_arg12) = m ((c : Thread nD τ).loc main_arg12) :=
  (carry4_arg12 m ρ c).trans rfl
theorem carry5_arg12 (c : Dev nD) : W5 m ρ c (Proc.devRef .tc main_arg12) = W0 m ρ c (Proc.devRef .tc main_arg12) :=
  (W5_of m ρ c main_arg12 (by decide)).trans <| (W4_of_ne m ρ c main_arg12 (by decide)).trans <| (W3_of m ρ c main_arg12 (by decide)).trans <| (W2_of_ne m ρ c main_arg12 (by decide)).trans <| W1_of m ρ c main_arg12 (by decide)
theorem W5_main_arg12 (c : Dev nD) : W5 m ρ c (Proc.devRef .tc main_arg12) = m ((c : Thread nD τ).loc main_arg12) :=
  (carry5_arg12 m ρ c).trans rfl
theorem carry6_arg13 (c : Dev nD) : W6 m ρ c (Proc.devRef .tc main_arg13) = W0 m ρ c (Proc.devRef .tc main_arg13) :=
  (W6_of_ne m ρ c main_arg13 (by decide)).trans <| (W5_of m ρ c main_arg13 (by decide)).trans <| (W4_of_ne m ρ c main_arg13 (by decide)).trans <| (W3_of m ρ c main_arg13 (by decide)).trans <| (W2_of_ne m ρ c main_arg13 (by decide)).trans <| W1_of m ρ c main_arg13 (by decide)
theorem W6_main_arg13 (c : Dev nD) : W6 m ρ c (Proc.devRef .tc main_arg13) = m ((c : Thread nD τ).loc main_arg13) :=
  (carry6_arg13 m ρ c).trans rfl
theorem carry7_arg13 (c : Dev nD) : W7 m ρ c (Proc.devRef .tc main_arg13) = W0 m ρ c (Proc.devRef .tc main_arg13) :=
  (W7_of m ρ c main_arg13 (by decide)).trans <| (W6_of_ne m ρ c main_arg13 (by decide)).trans <| (W5_of m ρ c main_arg13 (by decide)).trans <| (W4_of_ne m ρ c main_arg13 (by decide)).trans <| (W3_of m ρ c main_arg13 (by decide)).trans <| (W2_of_ne m ρ c main_arg13 (by decide)).trans <| W1_of m ρ c main_arg13 (by decide)
theorem W7_main_arg13 (c : Dev nD) : W7 m ρ c (Proc.devRef .tc main_arg13) = m ((c : Thread nD τ).loc main_arg13) :=
  (carry7_arg13 m ρ c).trans rfl
theorem carry6_arg14 (c : Dev nD) : W6 m ρ c (Proc.devRef .tc main_arg14) = W0 m ρ c (Proc.devRef .tc main_arg14) :=
  (W6_of_ne m ρ c main_arg14 (by decide)).trans <| (W5_of m ρ c main_arg14 (by decide)).trans <| (W4_of_ne m ρ c main_arg14 (by decide)).trans <| (W3_of m ρ c main_arg14 (by decide)).trans <| (W2_of_ne m ρ c main_arg14 (by decide)).trans <| W1_of m ρ c main_arg14 (by decide)
theorem W6_main_arg14 (c : Dev nD) : W6 m ρ c (Proc.devRef .tc main_arg14) = m ((c : Thread nD τ).loc main_arg14) :=
  (carry6_arg14 m ρ c).trans rfl
theorem carry7_arg14 (c : Dev nD) : W7 m ρ c (Proc.devRef .tc main_arg14) = W0 m ρ c (Proc.devRef .tc main_arg14) :=
  (W7_of m ρ c main_arg14 (by decide)).trans <| (W6_of_ne m ρ c main_arg14 (by decide)).trans <| (W5_of m ρ c main_arg14 (by decide)).trans <| (W4_of_ne m ρ c main_arg14 (by decide)).trans <| (W3_of m ρ c main_arg14 (by decide)).trans <| (W2_of_ne m ρ c main_arg14 (by decide)).trans <| W1_of m ρ c main_arg14 (by decide)
theorem W7_main_arg14 (c : Dev nD) : W7 m ρ c (Proc.devRef .tc main_arg14) = m ((c : Thread nD τ).loc main_arg14) :=
  (carry7_arg14 m ρ c).trans rfl
theorem carry8_arg15 (c : Dev nD) : W8 m ρ c (Proc.devRef .tc main_arg15) = W0 m ρ c (Proc.devRef .tc main_arg15) :=
  (W8_of_ne m ρ c main_arg15 (by decide)).trans <| (W7_of m ρ c main_arg15 (by decide)).trans <| (W6_of_ne m ρ c main_arg15 (by decide)).trans <| (W5_of m ρ c main_arg15 (by decide)).trans <| (W4_of_ne m ρ c main_arg15 (by decide)).trans <| (W3_of m ρ c main_arg15 (by decide)).trans <| (W2_of_ne m ρ c main_arg15 (by decide)).trans <| W1_of m ρ c main_arg15 (by decide)
theorem W8_main_arg15 (c : Dev nD) : W8 m ρ c (Proc.devRef .tc main_arg15) = m ((c : Thread nD τ).loc main_arg15) :=
  (carry8_arg15 m ρ c).trans rfl
theorem carry9_arg15 (c : Dev nD) : W9 m ρ c (Proc.devRef .tc main_arg15) = W0 m ρ c (Proc.devRef .tc main_arg15) :=
  (W9_of m ρ c main_arg15 (by decide)).trans <| (W8_of_ne m ρ c main_arg15 (by decide)).trans <| (W7_of m ρ c main_arg15 (by decide)).trans <| (W6_of_ne m ρ c main_arg15 (by decide)).trans <| (W5_of m ρ c main_arg15 (by decide)).trans <| (W4_of_ne m ρ c main_arg15 (by decide)).trans <| (W3_of m ρ c main_arg15 (by decide)).trans <| (W2_of_ne m ρ c main_arg15 (by decide)).trans <| W1_of m ρ c main_arg15 (by decide)
theorem W9_main_arg15 (c : Dev nD) : W9 m ρ c (Proc.devRef .tc main_arg15) = m ((c : Thread nD τ).loc main_arg15) :=
  (carry9_arg15 m ρ c).trans rfl
theorem carry10_arg15 (c : Dev nD) : W10 m ρ c (Proc.devRef .tc main_arg15) = W0 m ρ c (Proc.devRef .tc main_arg15) :=
  (W10_of_ne m ρ c main_arg15 (by decide)).trans <| (W9_of m ρ c main_arg15 (by decide)).trans <| (W8_of_ne m ρ c main_arg15 (by decide)).trans <| (W7_of m ρ c main_arg15 (by decide)).trans <| (W6_of_ne m ρ c main_arg15 (by decide)).trans <| (W5_of m ρ c main_arg15 (by decide)).trans <| (W4_of_ne m ρ c main_arg15 (by decide)).trans <| (W3_of m ρ c main_arg15 (by decide)).trans <| (W2_of_ne m ρ c main_arg15 (by decide)).trans <| W1_of m ρ c main_arg15 (by decide)
theorem W10_main_arg15 (c : Dev nD) : W10 m ρ c (Proc.devRef .tc main_arg15) = m ((c : Thread nD τ).loc main_arg15) :=
  (carry10_arg15 m ρ c).trans rfl
theorem carry11_arg15 (c : Dev nD) : W11 m ρ c (Proc.devRef .tc main_arg15) = W0 m ρ c (Proc.devRef .tc main_arg15) :=
  (W11_of m ρ c main_arg15 (by decide)).trans <| (W10_of_ne m ρ c main_arg15 (by decide)).trans <| (W9_of m ρ c main_arg15 (by decide)).trans <| (W8_of_ne m ρ c main_arg15 (by decide)).trans <| (W7_of m ρ c main_arg15 (by decide)).trans <| (W6_of_ne m ρ c main_arg15 (by decide)).trans <| (W5_of m ρ c main_arg15 (by decide)).trans <| (W4_of_ne m ρ c main_arg15 (by decide)).trans <| (W3_of m ρ c main_arg15 (by decide)).trans <| (W2_of_ne m ρ c main_arg15 (by decide)).trans <| W1_of m ρ c main_arg15 (by decide)
theorem W11_main_arg15 (c : Dev nD) : W11 m ρ c (Proc.devRef .tc main_arg15) = m ((c : Thread nD τ).loc main_arg15) :=
  (carry11_arg15 m ρ c).trans rfl
theorem carry12_arg15 (c : Dev nD) : W12 m ρ c (Proc.devRef .tc main_arg15) = W0 m ρ c (Proc.devRef .tc main_arg15) :=
  (W12_of_ne m ρ c main_arg15 (by decide)).trans <| (W11_of m ρ c main_arg15 (by decide)).trans <| (W10_of_ne m ρ c main_arg15 (by decide)).trans <| (W9_of m ρ c main_arg15 (by decide)).trans <| (W8_of_ne m ρ c main_arg15 (by decide)).trans <| (W7_of m ρ c main_arg15 (by decide)).trans <| (W6_of_ne m ρ c main_arg15 (by decide)).trans <| (W5_of m ρ c main_arg15 (by decide)).trans <| (W4_of_ne m ρ c main_arg15 (by decide)).trans <| (W3_of m ρ c main_arg15 (by decide)).trans <| (W2_of_ne m ρ c main_arg15 (by decide)).trans <| W1_of m ρ c main_arg15 (by decide)
theorem W12_main_arg15 (c : Dev nD) : W12 m ρ c (Proc.devRef .tc main_arg15) = m ((c : Thread nD τ).loc main_arg15) :=
  (carry12_arg15 m ρ c).trans rfl
theorem carry13_arg15 (c : Dev nD) : W13 m ρ c (Proc.devRef .tc main_arg15) = W0 m ρ c (Proc.devRef .tc main_arg15) :=
  (W13_of m ρ c main_arg15 (by decide)).trans <| (W12_of_ne m ρ c main_arg15 (by decide)).trans <| (W11_of m ρ c main_arg15 (by decide)).trans <| (W10_of_ne m ρ c main_arg15 (by decide)).trans <| (W9_of m ρ c main_arg15 (by decide)).trans <| (W8_of_ne m ρ c main_arg15 (by decide)).trans <| (W7_of m ρ c main_arg15 (by decide)).trans <| (W6_of_ne m ρ c main_arg15 (by decide)).trans <| (W5_of m ρ c main_arg15 (by decide)).trans <| (W4_of_ne m ρ c main_arg15 (by decide)).trans <| (W3_of m ρ c main_arg15 (by decide)).trans <| (W2_of_ne m ρ c main_arg15 (by decide)).trans <| W1_of m ρ c main_arg15 (by decide)
theorem W13_main_arg15 (c : Dev nD) : W13 m ρ c (Proc.devRef .tc main_arg15) = m ((c : Thread nD τ).loc main_arg15) :=
  (carry13_arg15 m ρ c).trans rfl
theorem carry8_arg16 (c : Dev nD) : W8 m ρ c (Proc.devRef .tc main_arg16) = W0 m ρ c (Proc.devRef .tc main_arg16) :=
  (W8_of_ne m ρ c main_arg16 (by decide)).trans <| (W7_of m ρ c main_arg16 (by decide)).trans <| (W6_of_ne m ρ c main_arg16 (by decide)).trans <| (W5_of m ρ c main_arg16 (by decide)).trans <| (W4_of_ne m ρ c main_arg16 (by decide)).trans <| (W3_of m ρ c main_arg16 (by decide)).trans <| (W2_of_ne m ρ c main_arg16 (by decide)).trans <| W1_of m ρ c main_arg16 (by decide)
theorem W8_main_arg16 (c : Dev nD) : W8 m ρ c (Proc.devRef .tc main_arg16) = m ((c : Thread nD τ).loc main_arg16) :=
  (carry8_arg16 m ρ c).trans rfl
theorem carry9_arg16 (c : Dev nD) : W9 m ρ c (Proc.devRef .tc main_arg16) = W0 m ρ c (Proc.devRef .tc main_arg16) :=
  (W9_of m ρ c main_arg16 (by decide)).trans <| (W8_of_ne m ρ c main_arg16 (by decide)).trans <| (W7_of m ρ c main_arg16 (by decide)).trans <| (W6_of_ne m ρ c main_arg16 (by decide)).trans <| (W5_of m ρ c main_arg16 (by decide)).trans <| (W4_of_ne m ρ c main_arg16 (by decide)).trans <| (W3_of m ρ c main_arg16 (by decide)).trans <| (W2_of_ne m ρ c main_arg16 (by decide)).trans <| W1_of m ρ c main_arg16 (by decide)
theorem W9_main_arg16 (c : Dev nD) : W9 m ρ c (Proc.devRef .tc main_arg16) = m ((c : Thread nD τ).loc main_arg16) :=
  (carry9_arg16 m ρ c).trans rfl
theorem carry10_arg16 (c : Dev nD) : W10 m ρ c (Proc.devRef .tc main_arg16) = W0 m ρ c (Proc.devRef .tc main_arg16) :=
  (W10_of_ne m ρ c main_arg16 (by decide)).trans <| (W9_of m ρ c main_arg16 (by decide)).trans <| (W8_of_ne m ρ c main_arg16 (by decide)).trans <| (W7_of m ρ c main_arg16 (by decide)).trans <| (W6_of_ne m ρ c main_arg16 (by decide)).trans <| (W5_of m ρ c main_arg16 (by decide)).trans <| (W4_of_ne m ρ c main_arg16 (by decide)).trans <| (W3_of m ρ c main_arg16 (by decide)).trans <| (W2_of_ne m ρ c main_arg16 (by decide)).trans <| W1_of m ρ c main_arg16 (by decide)
theorem W10_main_arg16 (c : Dev nD) : W10 m ρ c (Proc.devRef .tc main_arg16) = m ((c : Thread nD τ).loc main_arg16) :=
  (carry10_arg16 m ρ c).trans rfl
theorem carry11_arg16 (c : Dev nD) : W11 m ρ c (Proc.devRef .tc main_arg16) = W0 m ρ c (Proc.devRef .tc main_arg16) :=
  (W11_of m ρ c main_arg16 (by decide)).trans <| (W10_of_ne m ρ c main_arg16 (by decide)).trans <| (W9_of m ρ c main_arg16 (by decide)).trans <| (W8_of_ne m ρ c main_arg16 (by decide)).trans <| (W7_of m ρ c main_arg16 (by decide)).trans <| (W6_of_ne m ρ c main_arg16 (by decide)).trans <| (W5_of m ρ c main_arg16 (by decide)).trans <| (W4_of_ne m ρ c main_arg16 (by decide)).trans <| (W3_of m ρ c main_arg16 (by decide)).trans <| (W2_of_ne m ρ c main_arg16 (by decide)).trans <| W1_of m ρ c main_arg16 (by decide)
theorem W11_main_arg16 (c : Dev nD) : W11 m ρ c (Proc.devRef .tc main_arg16) = m ((c : Thread nD τ).loc main_arg16) :=
  (carry11_arg16 m ρ c).trans rfl
theorem carry12_arg16 (c : Dev nD) : W12 m ρ c (Proc.devRef .tc main_arg16) = W0 m ρ c (Proc.devRef .tc main_arg16) :=
  (W12_of_ne m ρ c main_arg16 (by decide)).trans <| (W11_of m ρ c main_arg16 (by decide)).trans <| (W10_of_ne m ρ c main_arg16 (by decide)).trans <| (W9_of m ρ c main_arg16 (by decide)).trans <| (W8_of_ne m ρ c main_arg16 (by decide)).trans <| (W7_of m ρ c main_arg16 (by decide)).trans <| (W6_of_ne m ρ c main_arg16 (by decide)).trans <| (W5_of m ρ c main_arg16 (by decide)).trans <| (W4_of_ne m ρ c main_arg16 (by decide)).trans <| (W3_of m ρ c main_arg16 (by decide)).trans <| (W2_of_ne m ρ c main_arg16 (by decide)).trans <| W1_of m ρ c main_arg16 (by decide)
theorem W12_main_arg16 (c : Dev nD) : W12 m ρ c (Proc.devRef .tc main_arg16) = m ((c : Thread nD τ).loc main_arg16) :=
  (carry12_arg16 m ρ c).trans rfl
theorem carry13_arg16 (c : Dev nD) : W13 m ρ c (Proc.devRef .tc main_arg16) = W0 m ρ c (Proc.devRef .tc main_arg16) :=
  (W13_of m ρ c main_arg16 (by decide)).trans <| (W12_of_ne m ρ c main_arg16 (by decide)).trans <| (W11_of m ρ c main_arg16 (by decide)).trans <| (W10_of_ne m ρ c main_arg16 (by decide)).trans <| (W9_of m ρ c main_arg16 (by decide)).trans <| (W8_of_ne m ρ c main_arg16 (by decide)).trans <| (W7_of m ρ c main_arg16 (by decide)).trans <| (W6_of_ne m ρ c main_arg16 (by decide)).trans <| (W5_of m ρ c main_arg16 (by decide)).trans <| (W4_of_ne m ρ c main_arg16 (by decide)).trans <| (W3_of m ρ c main_arg16 (by decide)).trans <| (W2_of_ne m ρ c main_arg16 (by decide)).trans <| W1_of m ρ c main_arg16 (by decide)
theorem W13_main_arg16 (c : Dev nD) : W13 m ρ c (Proc.devRef .tc main_arg16) = m ((c : Thread nD τ).loc main_arg16) :=
  (carry13_arg16 m ρ c).trans rfl
theorem carry8_arg17 (c : Dev nD) : W8 m ρ c (Proc.devRef .tc main_arg17) = W0 m ρ c (Proc.devRef .tc main_arg17) :=
  (W8_of_ne m ρ c main_arg17 (by decide)).trans <| (W7_of m ρ c main_arg17 (by decide)).trans <| (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| W1_of m ρ c main_arg17 (by decide)
theorem W8_main_arg17 (c : Dev nD) : W8 m ρ c (Proc.devRef .tc main_arg17) = m ((c : Thread nD τ).loc main_arg17) :=
  (carry8_arg17 m ρ c).trans rfl
theorem carry9_arg17 (c : Dev nD) : W9 m ρ c (Proc.devRef .tc main_arg17) = W0 m ρ c (Proc.devRef .tc main_arg17) :=
  (W9_of m ρ c main_arg17 (by decide)).trans <| (W8_of_ne m ρ c main_arg17 (by decide)).trans <| (W7_of m ρ c main_arg17 (by decide)).trans <| (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| W1_of m ρ c main_arg17 (by decide)
theorem W9_main_arg17 (c : Dev nD) : W9 m ρ c (Proc.devRef .tc main_arg17) = m ((c : Thread nD τ).loc main_arg17) :=
  (carry9_arg17 m ρ c).trans rfl
theorem carry10_arg17 (c : Dev nD) : W10 m ρ c (Proc.devRef .tc main_arg17) = W0 m ρ c (Proc.devRef .tc main_arg17) :=
  (W10_of_ne m ρ c main_arg17 (by decide)).trans <| (W9_of m ρ c main_arg17 (by decide)).trans <| (W8_of_ne m ρ c main_arg17 (by decide)).trans <| (W7_of m ρ c main_arg17 (by decide)).trans <| (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| W1_of m ρ c main_arg17 (by decide)
theorem W10_main_arg17 (c : Dev nD) : W10 m ρ c (Proc.devRef .tc main_arg17) = m ((c : Thread nD τ).loc main_arg17) :=
  (carry10_arg17 m ρ c).trans rfl
theorem carry11_arg17 (c : Dev nD) : W11 m ρ c (Proc.devRef .tc main_arg17) = W0 m ρ c (Proc.devRef .tc main_arg17) :=
  (W11_of m ρ c main_arg17 (by decide)).trans <| (W10_of_ne m ρ c main_arg17 (by decide)).trans <| (W9_of m ρ c main_arg17 (by decide)).trans <| (W8_of_ne m ρ c main_arg17 (by decide)).trans <| (W7_of m ρ c main_arg17 (by decide)).trans <| (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| W1_of m ρ c main_arg17 (by decide)
theorem W11_main_arg17 (c : Dev nD) : W11 m ρ c (Proc.devRef .tc main_arg17) = m ((c : Thread nD τ).loc main_arg17) :=
  (carry11_arg17 m ρ c).trans rfl
theorem carry12_arg17 (c : Dev nD) : W12 m ρ c (Proc.devRef .tc main_arg17) = W0 m ρ c (Proc.devRef .tc main_arg17) :=
  (W12_of_ne m ρ c main_arg17 (by decide)).trans <| (W11_of m ρ c main_arg17 (by decide)).trans <| (W10_of_ne m ρ c main_arg17 (by decide)).trans <| (W9_of m ρ c main_arg17 (by decide)).trans <| (W8_of_ne m ρ c main_arg17 (by decide)).trans <| (W7_of m ρ c main_arg17 (by decide)).trans <| (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| W1_of m ρ c main_arg17 (by decide)
theorem W12_main_arg17 (c : Dev nD) : W12 m ρ c (Proc.devRef .tc main_arg17) = m ((c : Thread nD τ).loc main_arg17) :=
  (carry12_arg17 m ρ c).trans rfl
theorem carry13_arg17 (c : Dev nD) : W13 m ρ c (Proc.devRef .tc main_arg17) = W0 m ρ c (Proc.devRef .tc main_arg17) :=
  (W13_of m ρ c main_arg17 (by decide)).trans <| (W12_of_ne m ρ c main_arg17 (by decide)).trans <| (W11_of m ρ c main_arg17 (by decide)).trans <| (W10_of_ne m ρ c main_arg17 (by decide)).trans <| (W9_of m ρ c main_arg17 (by decide)).trans <| (W8_of_ne m ρ c main_arg17 (by decide)).trans <| (W7_of m ρ c main_arg17 (by decide)).trans <| (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| W1_of m ρ c main_arg17 (by decide)
theorem W13_main_arg17 (c : Dev nD) : W13 m ρ c (Proc.devRef .tc main_arg17) = m ((c : Thread nD τ).loc main_arg17) :=
  (carry13_arg17 m ρ c).trans rfl
theorem carry8_arg18 (c : Dev nD) : W8 m ρ c (Proc.devRef .tc main_arg18) = W0 m ρ c (Proc.devRef .tc main_arg18) :=
  (W8_of_ne m ρ c main_arg18 (by decide)).trans <| (W7_of m ρ c main_arg18 (by decide)).trans <| (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| W1_of m ρ c main_arg18 (by decide)
theorem W8_main_arg18 (c : Dev nD) : W8 m ρ c (Proc.devRef .tc main_arg18) = m ((c : Thread nD τ).loc main_arg18) :=
  (carry8_arg18 m ρ c).trans rfl
theorem carry9_arg18 (c : Dev nD) : W9 m ρ c (Proc.devRef .tc main_arg18) = W0 m ρ c (Proc.devRef .tc main_arg18) :=
  (W9_of m ρ c main_arg18 (by decide)).trans <| (W8_of_ne m ρ c main_arg18 (by decide)).trans <| (W7_of m ρ c main_arg18 (by decide)).trans <| (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| W1_of m ρ c main_arg18 (by decide)
theorem W9_main_arg18 (c : Dev nD) : W9 m ρ c (Proc.devRef .tc main_arg18) = m ((c : Thread nD τ).loc main_arg18) :=
  (carry9_arg18 m ρ c).trans rfl
theorem carry10_arg18 (c : Dev nD) : W10 m ρ c (Proc.devRef .tc main_arg18) = W0 m ρ c (Proc.devRef .tc main_arg18) :=
  (W10_of_ne m ρ c main_arg18 (by decide)).trans <| (W9_of m ρ c main_arg18 (by decide)).trans <| (W8_of_ne m ρ c main_arg18 (by decide)).trans <| (W7_of m ρ c main_arg18 (by decide)).trans <| (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| W1_of m ρ c main_arg18 (by decide)
theorem W10_main_arg18 (c : Dev nD) : W10 m ρ c (Proc.devRef .tc main_arg18) = m ((c : Thread nD τ).loc main_arg18) :=
  (carry10_arg18 m ρ c).trans rfl
theorem carry11_arg18 (c : Dev nD) : W11 m ρ c (Proc.devRef .tc main_arg18) = W0 m ρ c (Proc.devRef .tc main_arg18) :=
  (W11_of m ρ c main_arg18 (by decide)).trans <| (W10_of_ne m ρ c main_arg18 (by decide)).trans <| (W9_of m ρ c main_arg18 (by decide)).trans <| (W8_of_ne m ρ c main_arg18 (by decide)).trans <| (W7_of m ρ c main_arg18 (by decide)).trans <| (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| W1_of m ρ c main_arg18 (by decide)
theorem W11_main_arg18 (c : Dev nD) : W11 m ρ c (Proc.devRef .tc main_arg18) = m ((c : Thread nD τ).loc main_arg18) :=
  (carry11_arg18 m ρ c).trans rfl
theorem carry12_arg18 (c : Dev nD) : W12 m ρ c (Proc.devRef .tc main_arg18) = W0 m ρ c (Proc.devRef .tc main_arg18) :=
  (W12_of_ne m ρ c main_arg18 (by decide)).trans <| (W11_of m ρ c main_arg18 (by decide)).trans <| (W10_of_ne m ρ c main_arg18 (by decide)).trans <| (W9_of m ρ c main_arg18 (by decide)).trans <| (W8_of_ne m ρ c main_arg18 (by decide)).trans <| (W7_of m ρ c main_arg18 (by decide)).trans <| (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| W1_of m ρ c main_arg18 (by decide)
theorem W12_main_arg18 (c : Dev nD) : W12 m ρ c (Proc.devRef .tc main_arg18) = m ((c : Thread nD τ).loc main_arg18) :=
  (carry12_arg18 m ρ c).trans rfl
theorem carry13_arg18 (c : Dev nD) : W13 m ρ c (Proc.devRef .tc main_arg18) = W0 m ρ c (Proc.devRef .tc main_arg18) :=
  (W13_of m ρ c main_arg18 (by decide)).trans <| (W12_of_ne m ρ c main_arg18 (by decide)).trans <| (W11_of m ρ c main_arg18 (by decide)).trans <| (W10_of_ne m ρ c main_arg18 (by decide)).trans <| (W9_of m ρ c main_arg18 (by decide)).trans <| (W8_of_ne m ρ c main_arg18 (by decide)).trans <| (W7_of m ρ c main_arg18 (by decide)).trans <| (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| W1_of m ρ c main_arg18 (by decide)
theorem W13_main_arg18 (c : Dev nD) : W13 m ρ c (Proc.devRef .tc main_arg18) = m ((c : Thread nD τ).loc main_arg18) :=
  (carry13_arg18 m ρ c).trans rfl
theorem carry8_arg19 (c : Dev nD) : W8 m ρ c (Proc.devRef .tc main_arg19) = W0 m ρ c (Proc.devRef .tc main_arg19) :=
  (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| W1_of m ρ c main_arg19 (by decide)
theorem W8_main_arg19 (c : Dev nD) : W8 m ρ c (Proc.devRef .tc main_arg19) = m ((c : Thread nD τ).loc main_arg19) :=
  (carry8_arg19 m ρ c).trans rfl
theorem carry9_arg19 (c : Dev nD) : W9 m ρ c (Proc.devRef .tc main_arg19) = W0 m ρ c (Proc.devRef .tc main_arg19) :=
  (W9_of m ρ c main_arg19 (by decide)).trans <| (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| W1_of m ρ c main_arg19 (by decide)
theorem W9_main_arg19 (c : Dev nD) : W9 m ρ c (Proc.devRef .tc main_arg19) = m ((c : Thread nD τ).loc main_arg19) :=
  (carry9_arg19 m ρ c).trans rfl
theorem carry10_arg19 (c : Dev nD) : W10 m ρ c (Proc.devRef .tc main_arg19) = W0 m ρ c (Proc.devRef .tc main_arg19) :=
  (W10_of_ne m ρ c main_arg19 (by decide)).trans <| (W9_of m ρ c main_arg19 (by decide)).trans <| (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| W1_of m ρ c main_arg19 (by decide)
theorem W10_main_arg19 (c : Dev nD) : W10 m ρ c (Proc.devRef .tc main_arg19) = m ((c : Thread nD τ).loc main_arg19) :=
  (carry10_arg19 m ρ c).trans rfl
theorem carry11_arg19 (c : Dev nD) : W11 m ρ c (Proc.devRef .tc main_arg19) = W0 m ρ c (Proc.devRef .tc main_arg19) :=
  (W11_of m ρ c main_arg19 (by decide)).trans <| (W10_of_ne m ρ c main_arg19 (by decide)).trans <| (W9_of m ρ c main_arg19 (by decide)).trans <| (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| W1_of m ρ c main_arg19 (by decide)
theorem W11_main_arg19 (c : Dev nD) : W11 m ρ c (Proc.devRef .tc main_arg19) = m ((c : Thread nD τ).loc main_arg19) :=
  (carry11_arg19 m ρ c).trans rfl
theorem carry12_arg19 (c : Dev nD) : W12 m ρ c (Proc.devRef .tc main_arg19) = W0 m ρ c (Proc.devRef .tc main_arg19) :=
  (W12_of_ne m ρ c main_arg19 (by decide)).trans <| (W11_of m ρ c main_arg19 (by decide)).trans <| (W10_of_ne m ρ c main_arg19 (by decide)).trans <| (W9_of m ρ c main_arg19 (by decide)).trans <| (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| W1_of m ρ c main_arg19 (by decide)
theorem W12_main_arg19 (c : Dev nD) : W12 m ρ c (Proc.devRef .tc main_arg19) = m ((c : Thread nD τ).loc main_arg19) :=
  (carry12_arg19 m ρ c).trans rfl
theorem carry13_arg19 (c : Dev nD) : W13 m ρ c (Proc.devRef .tc main_arg19) = W0 m ρ c (Proc.devRef .tc main_arg19) :=
  (W13_of m ρ c main_arg19 (by decide)).trans <| (W12_of_ne m ρ c main_arg19 (by decide)).trans <| (W11_of m ρ c main_arg19 (by decide)).trans <| (W10_of_ne m ρ c main_arg19 (by decide)).trans <| (W9_of m ρ c main_arg19 (by decide)).trans <| (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| W1_of m ρ c main_arg19 (by decide)
theorem W13_main_arg19 (c : Dev nD) : W13 m ρ c (Proc.devRef .tc main_arg19) = m ((c : Thread nD τ).loc main_arg19) :=
  (carry13_arg19 m ρ c).trans rfl
theorem carry8_arg20 (c : Dev nD) : W8 m ρ c (Proc.devRef .tc main_arg20) = W0 m ρ c (Proc.devRef .tc main_arg20) :=
  (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| W1_of m ρ c main_arg20 (by decide)
theorem W8_main_arg20 (c : Dev nD) : W8 m ρ c (Proc.devRef .tc main_arg20) = m ((c : Thread nD τ).loc main_arg20) :=
  (carry8_arg20 m ρ c).trans rfl
theorem carry9_arg20 (c : Dev nD) : W9 m ρ c (Proc.devRef .tc main_arg20) = W0 m ρ c (Proc.devRef .tc main_arg20) :=
  (W9_of m ρ c main_arg20 (by decide)).trans <| (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| W1_of m ρ c main_arg20 (by decide)
theorem W9_main_arg20 (c : Dev nD) : W9 m ρ c (Proc.devRef .tc main_arg20) = m ((c : Thread nD τ).loc main_arg20) :=
  (carry9_arg20 m ρ c).trans rfl
theorem carry10_arg20 (c : Dev nD) : W10 m ρ c (Proc.devRef .tc main_arg20) = W0 m ρ c (Proc.devRef .tc main_arg20) :=
  (W10_of_ne m ρ c main_arg20 (by decide)).trans <| (W9_of m ρ c main_arg20 (by decide)).trans <| (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| W1_of m ρ c main_arg20 (by decide)
theorem W10_main_arg20 (c : Dev nD) : W10 m ρ c (Proc.devRef .tc main_arg20) = m ((c : Thread nD τ).loc main_arg20) :=
  (carry10_arg20 m ρ c).trans rfl
theorem carry11_arg20 (c : Dev nD) : W11 m ρ c (Proc.devRef .tc main_arg20) = W0 m ρ c (Proc.devRef .tc main_arg20) :=
  (W11_of m ρ c main_arg20 (by decide)).trans <| (W10_of_ne m ρ c main_arg20 (by decide)).trans <| (W9_of m ρ c main_arg20 (by decide)).trans <| (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| W1_of m ρ c main_arg20 (by decide)
theorem W11_main_arg20 (c : Dev nD) : W11 m ρ c (Proc.devRef .tc main_arg20) = m ((c : Thread nD τ).loc main_arg20) :=
  (carry11_arg20 m ρ c).trans rfl
theorem carry12_arg20 (c : Dev nD) : W12 m ρ c (Proc.devRef .tc main_arg20) = W0 m ρ c (Proc.devRef .tc main_arg20) :=
  (W12_of_ne m ρ c main_arg20 (by decide)).trans <| (W11_of m ρ c main_arg20 (by decide)).trans <| (W10_of_ne m ρ c main_arg20 (by decide)).trans <| (W9_of m ρ c main_arg20 (by decide)).trans <| (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| W1_of m ρ c main_arg20 (by decide)
theorem W12_main_arg20 (c : Dev nD) : W12 m ρ c (Proc.devRef .tc main_arg20) = m ((c : Thread nD τ).loc main_arg20) :=
  (carry12_arg20 m ρ c).trans rfl
theorem carry13_arg20 (c : Dev nD) : W13 m ρ c (Proc.devRef .tc main_arg20) = W0 m ρ c (Proc.devRef .tc main_arg20) :=
  (W13_of m ρ c main_arg20 (by decide)).trans <| (W12_of_ne m ρ c main_arg20 (by decide)).trans <| (W11_of m ρ c main_arg20 (by decide)).trans <| (W10_of_ne m ρ c main_arg20 (by decide)).trans <| (W9_of m ρ c main_arg20 (by decide)).trans <| (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| W1_of m ρ c main_arg20 (by decide)
theorem W13_main_arg20 (c : Dev nD) : W13 m ρ c (Proc.devRef .tc main_arg20) = m ((c : Thread nD τ).loc main_arg20) :=
  (carry13_arg20 m ρ c).trans rfl
theorem carry8_arg21 (c : Dev nD) : W8 m ρ c (Proc.devRef .tc main_arg21) = W0 m ρ c (Proc.devRef .tc main_arg21) :=
  (W8_of_ne m ρ c main_arg21 (by decide)).trans <| (W7_of m ρ c main_arg21 (by decide)).trans <| (W6_of_ne m ρ c main_arg21 (by decide)).trans <| (W5_of m ρ c main_arg21 (by decide)).trans <| (W4_of_ne m ρ c main_arg21 (by decide)).trans <| (W3_of m ρ c main_arg21 (by decide)).trans <| (W2_of_ne m ρ c main_arg21 (by decide)).trans <| W1_of m ρ c main_arg21 (by decide)
theorem W8_main_arg21 (c : Dev nD) : W8 m ρ c (Proc.devRef .tc main_arg21) = m ((c : Thread nD τ).loc main_arg21) :=
  (carry8_arg21 m ρ c).trans rfl
theorem carry9_arg21 (c : Dev nD) : W9 m ρ c (Proc.devRef .tc main_arg21) = W0 m ρ c (Proc.devRef .tc main_arg21) :=
  (W9_of m ρ c main_arg21 (by decide)).trans <| (W8_of_ne m ρ c main_arg21 (by decide)).trans <| (W7_of m ρ c main_arg21 (by decide)).trans <| (W6_of_ne m ρ c main_arg21 (by decide)).trans <| (W5_of m ρ c main_arg21 (by decide)).trans <| (W4_of_ne m ρ c main_arg21 (by decide)).trans <| (W3_of m ρ c main_arg21 (by decide)).trans <| (W2_of_ne m ρ c main_arg21 (by decide)).trans <| W1_of m ρ c main_arg21 (by decide)
theorem W9_main_arg21 (c : Dev nD) : W9 m ρ c (Proc.devRef .tc main_arg21) = m ((c : Thread nD τ).loc main_arg21) :=
  (carry9_arg21 m ρ c).trans rfl
theorem carry10_arg21 (c : Dev nD) : W10 m ρ c (Proc.devRef .tc main_arg21) = W0 m ρ c (Proc.devRef .tc main_arg21) :=
  (W10_of_ne m ρ c main_arg21 (by decide)).trans <| (W9_of m ρ c main_arg21 (by decide)).trans <| (W8_of_ne m ρ c main_arg21 (by decide)).trans <| (W7_of m ρ c main_arg21 (by decide)).trans <| (W6_of_ne m ρ c main_arg21 (by decide)).trans <| (W5_of m ρ c main_arg21 (by decide)).trans <| (W4_of_ne m ρ c main_arg21 (by decide)).trans <| (W3_of m ρ c main_arg21 (by decide)).trans <| (W2_of_ne m ρ c main_arg21 (by decide)).trans <| W1_of m ρ c main_arg21 (by decide)
theorem W10_main_arg21 (c : Dev nD) : W10 m ρ c (Proc.devRef .tc main_arg21) = m ((c : Thread nD τ).loc main_arg21) :=
  (carry10_arg21 m ρ c).trans rfl
theorem carry11_arg21 (c : Dev nD) : W11 m ρ c (Proc.devRef .tc main_arg21) = W0 m ρ c (Proc.devRef .tc main_arg21) :=
  (W11_of m ρ c main_arg21 (by decide)).trans <| (W10_of_ne m ρ c main_arg21 (by decide)).trans <| (W9_of m ρ c main_arg21 (by decide)).trans <| (W8_of_ne m ρ c main_arg21 (by decide)).trans <| (W7_of m ρ c main_arg21 (by decide)).trans <| (W6_of_ne m ρ c main_arg21 (by decide)).trans <| (W5_of m ρ c main_arg21 (by decide)).trans <| (W4_of_ne m ρ c main_arg21 (by decide)).trans <| (W3_of m ρ c main_arg21 (by decide)).trans <| (W2_of_ne m ρ c main_arg21 (by decide)).trans <| W1_of m ρ c main_arg21 (by decide)
theorem W11_main_arg21 (c : Dev nD) : W11 m ρ c (Proc.devRef .tc main_arg21) = m ((c : Thread nD τ).loc main_arg21) :=
  (carry11_arg21 m ρ c).trans rfl
theorem carry12_arg21 (c : Dev nD) : W12 m ρ c (Proc.devRef .tc main_arg21) = W0 m ρ c (Proc.devRef .tc main_arg21) :=
  (W12_of_ne m ρ c main_arg21 (by decide)).trans <| (W11_of m ρ c main_arg21 (by decide)).trans <| (W10_of_ne m ρ c main_arg21 (by decide)).trans <| (W9_of m ρ c main_arg21 (by decide)).trans <| (W8_of_ne m ρ c main_arg21 (by decide)).trans <| (W7_of m ρ c main_arg21 (by decide)).trans <| (W6_of_ne m ρ c main_arg21 (by decide)).trans <| (W5_of m ρ c main_arg21 (by decide)).trans <| (W4_of_ne m ρ c main_arg21 (by decide)).trans <| (W3_of m ρ c main_arg21 (by decide)).trans <| (W2_of_ne m ρ c main_arg21 (by decide)).trans <| W1_of m ρ c main_arg21 (by decide)
theorem W12_main_arg21 (c : Dev nD) : W12 m ρ c (Proc.devRef .tc main_arg21) = m ((c : Thread nD τ).loc main_arg21) :=
  (carry12_arg21 m ρ c).trans rfl
theorem carry13_arg21 (c : Dev nD) : W13 m ρ c (Proc.devRef .tc main_arg21) = W0 m ρ c (Proc.devRef .tc main_arg21) :=
  (W13_of m ρ c main_arg21 (by decide)).trans <| (W12_of_ne m ρ c main_arg21 (by decide)).trans <| (W11_of m ρ c main_arg21 (by decide)).trans <| (W10_of_ne m ρ c main_arg21 (by decide)).trans <| (W9_of m ρ c main_arg21 (by decide)).trans <| (W8_of_ne m ρ c main_arg21 (by decide)).trans <| (W7_of m ρ c main_arg21 (by decide)).trans <| (W6_of_ne m ρ c main_arg21 (by decide)).trans <| (W5_of m ρ c main_arg21 (by decide)).trans <| (W4_of_ne m ρ c main_arg21 (by decide)).trans <| (W3_of m ρ c main_arg21 (by decide)).trans <| (W2_of_ne m ρ c main_arg21 (by decide)).trans <| W1_of m ρ c main_arg21 (by decide)
theorem W13_main_arg21 (c : Dev nD) : W13 m ρ c (Proc.devRef .tc main_arg21) = m ((c : Thread nD τ).loc main_arg21) :=
  (carry13_arg21 m ρ c).trans rfl
theorem carry8_arg22 (c : Dev nD) : W8 m ρ c (Proc.devRef .tc main_arg22) = W0 m ρ c (Proc.devRef .tc main_arg22) :=
  (W8_of_ne m ρ c main_arg22 (by decide)).trans <| (W7_of m ρ c main_arg22 (by decide)).trans <| (W6_of_ne m ρ c main_arg22 (by decide)).trans <| (W5_of m ρ c main_arg22 (by decide)).trans <| (W4_of_ne m ρ c main_arg22 (by decide)).trans <| (W3_of m ρ c main_arg22 (by decide)).trans <| (W2_of_ne m ρ c main_arg22 (by decide)).trans <| W1_of m ρ c main_arg22 (by decide)
theorem W8_main_arg22 (c : Dev nD) : W8 m ρ c (Proc.devRef .tc main_arg22) = m ((c : Thread nD τ).loc main_arg22) :=
  (carry8_arg22 m ρ c).trans rfl
theorem carry9_arg22 (c : Dev nD) : W9 m ρ c (Proc.devRef .tc main_arg22) = W0 m ρ c (Proc.devRef .tc main_arg22) :=
  (W9_of m ρ c main_arg22 (by decide)).trans <| (W8_of_ne m ρ c main_arg22 (by decide)).trans <| (W7_of m ρ c main_arg22 (by decide)).trans <| (W6_of_ne m ρ c main_arg22 (by decide)).trans <| (W5_of m ρ c main_arg22 (by decide)).trans <| (W4_of_ne m ρ c main_arg22 (by decide)).trans <| (W3_of m ρ c main_arg22 (by decide)).trans <| (W2_of_ne m ρ c main_arg22 (by decide)).trans <| W1_of m ρ c main_arg22 (by decide)
theorem W9_main_arg22 (c : Dev nD) : W9 m ρ c (Proc.devRef .tc main_arg22) = m ((c : Thread nD τ).loc main_arg22) :=
  (carry9_arg22 m ρ c).trans rfl
theorem carry10_arg22 (c : Dev nD) : W10 m ρ c (Proc.devRef .tc main_arg22) = W0 m ρ c (Proc.devRef .tc main_arg22) :=
  (W10_of_ne m ρ c main_arg22 (by decide)).trans <| (W9_of m ρ c main_arg22 (by decide)).trans <| (W8_of_ne m ρ c main_arg22 (by decide)).trans <| (W7_of m ρ c main_arg22 (by decide)).trans <| (W6_of_ne m ρ c main_arg22 (by decide)).trans <| (W5_of m ρ c main_arg22 (by decide)).trans <| (W4_of_ne m ρ c main_arg22 (by decide)).trans <| (W3_of m ρ c main_arg22 (by decide)).trans <| (W2_of_ne m ρ c main_arg22 (by decide)).trans <| W1_of m ρ c main_arg22 (by decide)
theorem W10_main_arg22 (c : Dev nD) : W10 m ρ c (Proc.devRef .tc main_arg22) = m ((c : Thread nD τ).loc main_arg22) :=
  (carry10_arg22 m ρ c).trans rfl
theorem carry11_arg22 (c : Dev nD) : W11 m ρ c (Proc.devRef .tc main_arg22) = W0 m ρ c (Proc.devRef .tc main_arg22) :=
  (W11_of m ρ c main_arg22 (by decide)).trans <| (W10_of_ne m ρ c main_arg22 (by decide)).trans <| (W9_of m ρ c main_arg22 (by decide)).trans <| (W8_of_ne m ρ c main_arg22 (by decide)).trans <| (W7_of m ρ c main_arg22 (by decide)).trans <| (W6_of_ne m ρ c main_arg22 (by decide)).trans <| (W5_of m ρ c main_arg22 (by decide)).trans <| (W4_of_ne m ρ c main_arg22 (by decide)).trans <| (W3_of m ρ c main_arg22 (by decide)).trans <| (W2_of_ne m ρ c main_arg22 (by decide)).trans <| W1_of m ρ c main_arg22 (by decide)
theorem W11_main_arg22 (c : Dev nD) : W11 m ρ c (Proc.devRef .tc main_arg22) = m ((c : Thread nD τ).loc main_arg22) :=
  (carry11_arg22 m ρ c).trans rfl
theorem carry12_arg22 (c : Dev nD) : W12 m ρ c (Proc.devRef .tc main_arg22) = W0 m ρ c (Proc.devRef .tc main_arg22) :=
  (W12_of_ne m ρ c main_arg22 (by decide)).trans <| (W11_of m ρ c main_arg22 (by decide)).trans <| (W10_of_ne m ρ c main_arg22 (by decide)).trans <| (W9_of m ρ c main_arg22 (by decide)).trans <| (W8_of_ne m ρ c main_arg22 (by decide)).trans <| (W7_of m ρ c main_arg22 (by decide)).trans <| (W6_of_ne m ρ c main_arg22 (by decide)).trans <| (W5_of m ρ c main_arg22 (by decide)).trans <| (W4_of_ne m ρ c main_arg22 (by decide)).trans <| (W3_of m ρ c main_arg22 (by decide)).trans <| (W2_of_ne m ρ c main_arg22 (by decide)).trans <| W1_of m ρ c main_arg22 (by decide)
theorem W12_main_arg22 (c : Dev nD) : W12 m ρ c (Proc.devRef .tc main_arg22) = m ((c : Thread nD τ).loc main_arg22) :=
  (carry12_arg22 m ρ c).trans rfl
theorem carry13_arg22 (c : Dev nD) : W13 m ρ c (Proc.devRef .tc main_arg22) = W0 m ρ c (Proc.devRef .tc main_arg22) :=
  (W13_of m ρ c main_arg22 (by decide)).trans <| (W12_of_ne m ρ c main_arg22 (by decide)).trans <| (W11_of m ρ c main_arg22 (by decide)).trans <| (W10_of_ne m ρ c main_arg22 (by decide)).trans <| (W9_of m ρ c main_arg22 (by decide)).trans <| (W8_of_ne m ρ c main_arg22 (by decide)).trans <| (W7_of m ρ c main_arg22 (by decide)).trans <| (W6_of_ne m ρ c main_arg22 (by decide)).trans <| (W5_of m ρ c main_arg22 (by decide)).trans <| (W4_of_ne m ρ c main_arg22 (by decide)).trans <| (W3_of m ρ c main_arg22 (by decide)).trans <| (W2_of_ne m ρ c main_arg22 (by decide)).trans <| W1_of m ρ c main_arg22 (by decide)
theorem W13_main_arg22 (c : Dev nD) : W13 m ρ c (Proc.devRef .tc main_arg22) = m ((c : Thread nD τ).loc main_arg22) :=
  (carry13_arg22 m ρ c).trans rfl
theorem carry4_v1 (c : Dev nD) : W4 m ρ c (Proc.devRef .tc main_v1) = W1 m ρ c (Proc.devRef .tc main_v1) :=
  (W4_of_ne m ρ c main_v1 (by decide)).trans <| (W3_of m ρ c main_v1 (by decide)).trans <| W2_of_ne m ρ c main_v1 (by decide)
theorem carry5_v1 (c : Dev nD) : W5 m ρ c (Proc.devRef .tc main_v1) = W1 m ρ c (Proc.devRef .tc main_v1) :=
  (W5_of m ρ c main_v1 (by decide)).trans <| (W4_of_ne m ρ c main_v1 (by decide)).trans <| (W3_of m ρ c main_v1 (by decide)).trans <| W2_of_ne m ρ c main_v1 (by decide)
theorem carry8_v1 (c : Dev nD) : W8 m ρ c (Proc.devRef .tc main_v1) = W1 m ρ c (Proc.devRef .tc main_v1) :=
  (W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide)).trans <| (W3_of m ρ c main_v1 (by decide)).trans <| W2_of_ne m ρ c main_v1 (by decide)
theorem carry9_v1 (c : Dev nD) : W9 m ρ c (Proc.devRef .tc main_v1) = W1 m ρ c (Proc.devRef .tc main_v1) :=
  (W9_of m ρ c main_v1 (by decide)).trans <| (W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide)).trans <| (W3_of m ρ c main_v1 (by decide)).trans <| W2_of_ne m ρ c main_v1 (by decide)
theorem carry4_v3 (c : Dev nD) : W4 m ρ c (Proc.devRef .tc main_v3) = W1 m ρ c (Proc.devRef .tc main_v3) :=
  (W4_of_ne m ρ c main_v3 (by decide)).trans <| (W3_of m ρ c main_v3 (by decide)).trans <| W2_of_ne m ρ c main_v3 (by decide)
theorem carry5_v3 (c : Dev nD) : W5 m ρ c (Proc.devRef .tc main_v3) = W1 m ρ c (Proc.devRef .tc main_v3) :=
  (W5_of m ρ c main_v3 (by decide)).trans <| (W4_of_ne m ρ c main_v3 (by decide)).trans <| (W3_of m ρ c main_v3 (by decide)).trans <| W2_of_ne m ρ c main_v3 (by decide)
theorem carry8_v3 (c : Dev nD) : W8 m ρ c (Proc.devRef .tc main_v3) = W1 m ρ c (Proc.devRef .tc main_v3) :=
  (W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide)).trans <| (W3_of m ρ c main_v3 (by decide)).trans <| W2_of_ne m ρ c main_v3 (by decide)
theorem carry9_v3 (c : Dev nD) : W9 m ρ c (Proc.devRef .tc main_v3) = W1 m ρ c (Proc.devRef .tc main_v3) :=
  (W9_of m ρ c main_v3 (by decide)).trans <| (W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide)).trans <| (W3_of m ρ c main_v3 (by decide)).trans <| W2_of_ne m ρ c main_v3 (by decide)
theorem carry12_v10 (c : Dev nD) : W12 m ρ c (Proc.devRef .tc main_v10) = W1 m ρ c (Proc.devRef .tc main_v10) :=
  (W12_of_ne m ρ c main_v10 (by decide)).trans <| (W11_of m ρ c main_v10 (by decide)).trans <| (W10_of_ne m ρ c main_v10 (by decide)).trans <| (W9_of m ρ c main_v10 (by decide)).trans <| (W8_of_ne m ρ c main_v10 (by decide)).trans <| (W7_of m ρ c main_v10 (by decide)).trans <| (W6_of_ne m ρ c main_v10 (by decide)).trans <| (W5_of m ρ c main_v10 (by decide)).trans <| (W4_of_ne m ρ c main_v10 (by decide)).trans <| (W3_of m ρ c main_v10 (by decide)).trans <| W2_of_ne m ρ c main_v10 (by decide)
theorem carry13_v10 (c : Dev nD) : W13 m ρ c (Proc.devRef .tc main_v10) = W1 m ρ c (Proc.devRef .tc main_v10) :=
  (W13_of m ρ c main_v10 (by decide)).trans <| (W12_of_ne m ρ c main_v10 (by decide)).trans <| (W11_of m ρ c main_v10 (by decide)).trans <| (W10_of_ne m ρ c main_v10 (by decide)).trans <| (W9_of m ρ c main_v10 (by decide)).trans <| (W8_of_ne m ρ c main_v10 (by decide)).trans <| (W7_of m ρ c main_v10 (by decide)).trans <| (W6_of_ne m ρ c main_v10 (by decide)).trans <| (W5_of m ρ c main_v10 (by decide)).trans <| (W4_of_ne m ρ c main_v10 (by decide)).trans <| (W3_of m ρ c main_v10 (by decide)).trans <| W2_of_ne m ρ c main_v10 (by decide)
theorem carry5_v30 (c : Dev nD) : W5 m ρ c (Proc.devRef .tc main_v30) = W4 m ρ c (Proc.devRef .tc main_v30) :=
  W5_of m ρ c main_v30 (by decide)
theorem carry12_v30 (c : Dev nD) : W12 m ρ c (Proc.devRef .tc main_v30) = W4 m ρ c (Proc.devRef .tc main_v30) :=
  (W12_of_ne m ρ c main_v30 (by decide)).trans <| (W11_of m ρ c main_v30 (by decide)).trans <| (W10_of_ne m ρ c main_v30 (by decide)).trans <| (W9_of m ρ c main_v30 (by decide)).trans <| (W8_of_ne m ρ c main_v30 (by decide)).trans <| (W7_of m ρ c main_v30 (by decide)).trans <| ((W6_arr m ρ c 0).trans (((dat2 (V5 m ρ) c).arrAt_in 0 rfl _).trans (A_eq2 (V5 m ρ) c 0))).trans <| W5_of m ρ c main_v30 (by decide)
theorem carry13_v30 (c : Dev nD) : W13 m ρ c (Proc.devRef .tc main_v30) = W4 m ρ c (Proc.devRef .tc main_v30) :=
  (W13_of m ρ c main_v30 (by decide)).trans <| (W12_of_ne m ρ c main_v30 (by decide)).trans <| (W11_of m ρ c main_v30 (by decide)).trans <| (W10_of_ne m ρ c main_v30 (by decide)).trans <| (W9_of m ρ c main_v30 (by decide)).trans <| (W8_of_ne m ρ c main_v30 (by decide)).trans <| (W7_of m ρ c main_v30 (by decide)).trans <| ((W6_arr m ρ c 0).trans (((dat2 (V5 m ρ) c).arrAt_in 0 rfl _).trans (A_eq2 (V5 m ρ) c 0))).trans <| W5_of m ρ c main_v30 (by decide)
theorem carry9_v50 (c : Dev nD) : W9 m ρ c (Proc.devRef .tc main_v50) = W8 m ρ c (Proc.devRef .tc main_v50) :=
  W9_of m ρ c main_v50 (by decide)
theorem carry12_v50 (c : Dev nD) : W12 m ρ c (Proc.devRef .tc main_v50) = W8 m ρ c (Proc.devRef .tc main_v50) :=
  (W12_of_ne m ρ c main_v50 (by decide)).trans <| (W11_of m ρ c main_v50 (by decide)).trans <| ((W10_arr m ρ c 0).trans (((dat4 (V9 m ρ) c).arrAt_in 0 rfl _).trans (A_eq4 (V9 m ρ) c 0))).trans <| W9_of m ρ c main_v50 (by decide)
theorem carry13_v50 (c : Dev nD) : W13 m ρ c (Proc.devRef .tc main_v50) = W8 m ρ c (Proc.devRef .tc main_v50) :=
  (W13_of m ρ c main_v50 (by decide)).trans <| (W12_of_ne m ρ c main_v50 (by decide)).trans <| (W11_of m ρ c main_v50 (by decide)).trans <| ((W10_arr m ρ c 0).trans (((dat4 (V9 m ρ) c).arrAt_in 0 rfl _).trans (A_eq4 (V9 m ρ) c 0))).trans <| W9_of m ρ c main_v50 (by decide)
theorem carry13_v70 (c : Dev nD) : W13 m ρ c (Proc.devRef .tc main_v70) = W12 m ρ c (Proc.devRef .tc main_v70) :=
  W13_of m ρ c main_v70 (by decide)
theorem carry3_v27_0 (c : Dev nD) : W3 m ρ c (Proc.devRef .tc main_v27_0) = W2 m ρ c (Proc.devRef .tc main_v27_0) :=
  W3_of m ρ c main_v27_0 (by decide)
theorem carry3_v27_1 (c : Dev nD) : W3 m ρ c (Proc.devRef .tc main_v27_1) = W2 m ρ c (Proc.devRef .tc main_v27_1) :=
  W3_of m ρ c main_v27_1 (by decide)
theorem carry3_v27_2 (c : Dev nD) : W3 m ρ c (Proc.devRef .tc main_v27_2) = W2 m ρ c (Proc.devRef .tc main_v27_2) :=
  W3_of m ρ c main_v27_2 (by decide)
theorem carry7_v47_0 (c : Dev nD) : W7 m ρ c (Proc.devRef .tc main_v47_0) = W6 m ρ c (Proc.devRef .tc main_v47_0) :=
  W7_of m ρ c main_v47_0 (by decide)
theorem carry7_v47_1 (c : Dev nD) : W7 m ρ c (Proc.devRef .tc main_v47_1) = W6 m ρ c (Proc.devRef .tc main_v47_1) :=
  W7_of m ρ c main_v47_1 (by decide)
theorem carry7_v47_2 (c : Dev nD) : W7 m ρ c (Proc.devRef .tc main_v47_2) = W6 m ρ c (Proc.devRef .tc main_v47_2) :=
  W7_of m ρ c main_v47_2 (by decide)
theorem carry11_v67_0 (c : Dev nD) : W11 m ρ c (Proc.devRef .tc main_v67_0) = W10 m ρ c (Proc.devRef .tc main_v67_0) :=
  W11_of m ρ c main_v67_0 (by decide)
theorem carry11_v67_1 (c : Dev nD) : W11 m ρ c (Proc.devRef .tc main_v67_1) = W10 m ρ c (Proc.devRef .tc main_v67_1) :=
  W11_of m ρ c main_v67_1 (by decide)
theorem carry11_v67_2 (c : Dev nD) : W11 m ρ c (Proc.devRef .tc main_v67_2) = W10 m ρ c (Proc.devRef .tc main_v67_2) :=
  W11_of m ρ c main_v67_2 (by decide)

/-! ## What stretch 0 leaves, over the launch memory -/

/-- The two index vectors are the two rows of the edge argument. -/
theorem W1_v1 (c : Dev nD) : W1 m ρ c (Proc.devRef .tc main_v1) = edgeRow0 (m ((c : Thread nD τ).loc main_arg1)) := host0_v1 (W0 m ρ c)
theorem W1_v3 (c : Dev nD) : W1 m ρ c (Proc.devRef .tc main_v3) = edgeRow1 (m ((c : Thread nD τ).loc main_arg1)) := host0_v3 (W0 m ρ c)
/-- The count column is the count column of the batch argument. -/
theorem W1_v10 (c : Dev nD) : W1 m ρ c (Proc.devRef .tc main_v10) = cntCol (m ((c : Thread nD τ).loc main_arg2)) := host0_v10 (W0 m ρ c)
/-- The first layer's aggregate is the aggregate of the first argument over the edge argument. -/
theorem W1_v20 (c : Dev nD) : W1 m ρ c (Proc.devRef .tc main_v20) = aggK (m ((c : Thread nD τ).loc main_arg0)) (m ((c : Thread nD τ).loc main_arg1)) := host0_v20 (W0 m ρ c)
/-- The first argument is still at its launch contents when region 0 is entered. -/
theorem W1_main_arg0 (c : Dev nD) : W1 m ρ c (Proc.devRef .tc main_arg0) = (m ((c : Thread nD τ).loc main_arg0)) :=
  (W1_of m ρ c main_arg0 (by decide)).trans rfl

end Cert.KernelIdeal.Hand

end
-- ==== Proof.LibFiniteReal.lean ====
/-
  Real-valued extended reals, and the operations that keep them so.

  An extended real is REAL when it is neither infinity.  Sums, differences, products, maxima and minima of real
  entries are real; so is a quotient by a nonzero real, the inverse square root of a positive real and the square
  root of a non-negative one.  At the array level: a matrix product of real matrices onto a real accumulator, a
  sum along axes from a real initial value, and a scatter-add of real updates into a real operand are real at
  every index, because each entry is a finite sum of products of real entries.  These are the facts by which
  "every input is finite" is carried through a pipeline of exact operations, so that laws of the real numbers
  that fail at the infinities (distributivity, cancellation) may be used on its intermediate values.
-/
import Idealize.ShloMosaic.PureOps.Ideal

noncomputable section

namespace Idealize.ShloMosaic.FiniteReal

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- Real means: neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of real entries is real. -/
theorem IsReal.sum {ι : Type} (s : Finset ι) (f : ι → EReal) (h : ∀ i ∈ s, IsReal (f i)) : IsReal (∑ i ∈ s, f i) :=
  Finset.sum_induction f IsReal (fun _ _ => IsReal.add) isReal_zero h

/-- The sum of real numbers, as an extended real, is the extended-real sum of them. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A quotient by a nonzero real. -/
theorem IsReal.div_coe {x : EReal} (hx : IsReal x) {y : ℝ} (hy : y ≠ 0) : IsReal (Ideal.div x (y : EReal)) := by
  rw [Ideal.div_coe hy]; exact hx.mul (isReal_coe _)

/-- A quotient of reals by a nonzero real is the real quotient. -/
theorem div_coe_coe (a : ℝ) {y : ℝ} (hy : y ≠ 0) : Ideal.div (a : EReal) (y : EReal) = ((a / y : ℝ) : EReal) := by
  rw [Ideal.div_coe hy, ← EReal.coe_mul, mul_one_div]

/-- The inverse square root of a positive real is the real one. -/
theorem rsqrt_of_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) := ⟨_, rsqrt_of_pos h⟩

/-- The square root of a non-negative real is the real one. -/
theorem sqrt_of_nonneg {r : ℝ} (h : 0 ≤ r) : Ideal.sqrt (r : EReal) = ((Real.sqrt r : ℝ) : EReal) := by
  rw [Ideal.sqrt_coe, if_neg (not_lt.mpr h)]

theorem isReal_sqrt_of_nonneg {r : ℝ} (h : 0 ≤ r) : IsReal (Ideal.sqrt (r : EReal)) := ⟨_, sqrt_of_nonneg h⟩

/-! ## Arrays -/

/-- Every entry of a family is real. -/
def AllReal {ι : Type} (x : ι → EReal) : Prop := ∀ i, IsReal (x i)

/-- Real witnesses of an all-real family. -/
theorem AllReal.exists_real {ι : Type} {x : ι → EReal} (h : AllReal x) : ∃ r : ι → ℝ, x = fun i => (r i : EReal) := by
  choose r hr using h
  exact ⟨r, funext hr⟩

/-- A matrix product of real matrices onto a real accumulator. -/
theorem AllReal.matmul {sl sr so : Shape} (d : DotDims sl sr so) {lhs : sl.Idx → EReal} {rhs : sr.Idx → EReal}
    {acc : so.Idx → EReal} (hl : AllReal lhs) (hr : AllReal rhs) (ha : AllReal acc) :
    AllReal (Ideal.matmul d lhs rhs acc) := fun j =>
  (ha j).add (IsReal.sum _ _ fun k _ => (hl _).mul (hr _))

/-- A host sum along axes of a real array from a real initial value. -/
theorem AllReal.hostReduceAdd {s : Shape} {axes : List (Fin s.rank)} {t : Shape} (h : s.ReducesTo axes t)
    {x : s.Idx → EReal} {init : EReal} (hx : AllReal x) (hi : IsReal init) : AllReal (Ideal.hostReduceAdd h x init) :=
  fun _ => hi.add (IsReal.sum _ _ fun i _ => hx i)

/-- A lane sum along axes of a real array. -/
theorem AllReal.reduceAdd {s : Shape} {axes : List (Fin s.rank)} {t : Shape} (h : s.Reduces axes t)
    {x : s.Idx → EReal} (hx : AllReal x) : AllReal (Ideal.reduceAdd h x) :=
  fun _ => IsReal.sum _ _ fun i _ => hx i

/-- A scatter-add of real updates into a real operand, whatever the indices. -/
theorem AllReal.hostScatterAdd {s si su : Shape} (d : ScatterDims s si su) {w : Nat} {x : s.Idx → EReal}
    (idx : IVec si w) {upd : su.Idx → EReal} (hx : AllReal x) (hu : AllReal upd) :
    AllReal (Ideal.hostScatterAdd d x idx upd) :=
  fun i => (hx i).add (IsReal.sum _ _ fun j _ => hu j)

end Idealize.ShloMosaic.FiniteReal

end
-- ==== Proof.LibBatchStats.lean ====
/-
  Batch statistics on the extended reals: the two ways of computing a variance, and sums taken block by block.

  For real data x_1 … x_n with n = N ≠ 0, put S = ∑ x and Q = ∑ x².  The ONE-PASS form of the (biased) variance is
      Q · (1/N) − (S · (1/N)) · (S · (1/N)),
  the mean of the squares less the square of the mean, and the TWO-PASS form is
      (∑ (x − S/N) · (x − S/N)) / N,
  the mean of the squared deviations.  Expanding the square, ∑ (x − S/N)² = Q − 2 (S/N) S + n (S/N)² = Q − S²/N, so
  the two agree — on the real numbers.  On the extended reals the expansion is not available at the infinities
  (an infinite entry makes both sides junk, and not the same junk), which is why the statement asks every entry to
  be real; the quotient by the real N is then the product with 1/N (`Ideal.div_coe`), and every sum is the image of
  the real sum.  The two-pass form is visibly a non-negative real, so the one-pass form is too, and the inverse
  square root of it plus a positive real is a positive real: the scale of a batch normalisation never leaves
  the reals.

  A sum over a·b rows is the sum over a blocks of the sums over the b rows of each block, in any commutative
  monoid (the extended reals' addition is one, infinities included): an accumulator that adds one block's column
  sum per grid point ends at the whole column sum.
-/
import Idealize.ShloMosaic.PureOps.Ideal
import proofs.«177104_j19121194402280_1_alg».proof.Proof.LibFiniteReal

noncomputable section

namespace Idealize.ShloMosaic.BatchStats

open Idealize.ShloMosaic.FiniteReal

variable {ι : Type} [Fintype ι]

/-- Mean of squares less square of mean is the mean of squared deviations, over the reals. -/
theorem real_var_identity (x : ι → ℝ) (N : ℝ) (hN : (Fintype.card ι : ℝ) = N) (hN0 : N ≠ 0) :
    (∑ i, x i * x i) * (1 / N) - (∑ i, x i) * (1 / N) * ((∑ i, x i) * (1 / N))
      = (∑ i, (x i - (∑ j, x j) / N) * (x i - (∑ j, x j) / N)) / N := by
  have h : ∑ i, (x i - (∑ j, x j) / N) * (x i - (∑ j, x j) / N)
      = (∑ i, x i * x i) - 2 * ((∑ j, x j) / N) * (∑ i, x i) + N * (((∑ j, x j) / N) * ((∑ j, x j) / N)) := by
    have e : ∀ i, (x i - (∑ j, x j) / N) * (x i - (∑ j, x j) / N)
        = x i * x i - 2 * ((∑ j, x j) / N) * x i + ((∑ j, x j) / N) * ((∑ j, x j) / N) := fun i => by ring
    simp_rw [e]
    rw [Finset.sum_add_distrib, Finset.sum_sub_distrib, ← Finset.mul_sum, Finset.sum_const, Finset.card_univ,
      nsmul_eq_mul, hN]
  rw [h]
  field_simp
  ring

/-- The one-pass variance of real data — mean of squares less square of mean, the means taken as products with
    the reciprocal of the count — is the two-pass variance, the mean of the squared deviations from the mean,
    the means taken as quotients by the count. -/
theorem var_identity (x : ι → EReal) (hx : AllReal x) (N : ℝ) (hN : (Fintype.card ι : ℝ) = N) (hN0 : N ≠ 0) :
    (∑ i, x i * x i) * ((1 / N : ℝ) : EReal)
        - (∑ i, x i) * ((1 / N : ℝ) : EReal) * ((∑ i, x i) * ((1 / N : ℝ) : EReal))
      = Ideal.div (∑ i, (x i - Ideal.div (∑ j, x j) (N : EReal)) * (x i - Ideal.div (∑ j, x j) (N : EReal)))
          (N : EReal) := by
  obtain ⟨r, rfl⟩ := hx.exists_real
  simp only [← EReal.coe_mul, ← coe_sum, div_coe_coe _ hN0, ← EReal.coe_sub]
  exact congrArg _ (real_var_identity r N hN hN0)

/-- The mean as a product with the reciprocal of the count is the mean as a quotient by the count, for any
    extended real. -/
theorem mean_mul_eq_div (s : EReal) {N : ℝ} (hN0 : N ≠ 0) : s * ((1 / N : ℝ) : EReal) = Ideal.div s (N : EReal) :=
  (Ideal.div_coe hN0 s).symm

/-- The two-pass variance of real data about any real centre is a non-negative real. -/
theorem var_nonneg (x : ι → EReal) (hx : AllReal x) {μ : EReal} (hμ : IsReal μ) {N : ℝ} (hN : 0 < N) :
    ∃ v : ℝ, 0 ≤ v ∧ Ideal.div (∑ i, (x i - μ) * (x i - μ)) (N : EReal) = (v : EReal) := by
  obtain ⟨r, rfl⟩ := hx.exists_real
  obtain ⟨m, rfl⟩ := hμ
  refine ⟨(∑ i, (r i - m) * (r i - m)) / N, div_nonneg (Finset.sum_nonneg fun i _ => mul_self_nonneg _) hN.le, ?_⟩
  simp only [← EReal.coe_mul, ← coe_sum, div_coe_coe _ hN.ne', ← EReal.coe_sub]

/-- The scale of a batch normalisation: the inverse square root of a non-negative real variance plus a positive
    real is a real number. -/
theorem isReal_rsqrt_var_add {v ε : ℝ} (hv : 0 ≤ v) (hε : 0 < ε) : IsReal (Ideal.rsqrt ((v : EReal) + (ε : EReal))) := by
  rw [← EReal.coe_add]
  exact isReal_rsqrt_of_pos (by positivity)

/-- A sum over `a * b` rows, block by block: block `t` holds the rows `q + b * t`. -/
theorem sum_fin_mul {M : Type} [AddCommMonoid M] (a b : ℕ) (f : Fin (a * b) → M) :
    ∑ r, f r = ∑ t : Fin a, ∑ q : Fin b, f (finProdFinEquiv (t, q)) :=
  (Equiv.sum_comp finProdFinEquiv f).symm.trans (Fintype.sum_prod_type _)

/-- An accumulator that starts at `z` and at each of `a` steps adds that step's term ends at `z` plus the sum
    of the terms. -/
theorem foldl_add_eq_sum {M : Type} [AddCommMonoid M] (a : ℕ) (g : Fin a → M) (z : M) :
    (List.finRange a).foldl (fun acc t => acc + g t) z = z + ∑ t, g t := by
  rw [← List.sum_ofFn, List.ofFn_eq_map]
  induction (List.finRange a) generalizing z with
  | nil => simp
  | cons t l ih => rw [List.foldl_cons, ih, List.map_cons, List.sum_cons, add_assoc]

end Idealize.ShloMosaic.BatchStats

end
-- ==== Proof.LibF32Real.lean ====
/-
  Which f32 words denote real numbers, and which positive ones.

  An IEEE single's word is a sign bit, eight exponent bits and twenty-three fraction bits.  When the exponent
  field is not all ones the word denotes a real number: ± fraction · 2^(−149) when the exponent field is zero (zero
  and the subnormals), ± (2^23 + fraction) · 2^(exponent − 150) otherwise.  With the sign bit clear that number is
  positive unless exponent and fraction are both zero.  Every hypothesis here is a closed fact about the word's
  fields, so for a literal word each is decided by evaluation: an epsilon such as 1e-5 or 1e-12, or a count such
  as 50000.0, is shown real and positive without computing its value.
-/
import Idealize.ShloMosaic.PureOps.Ideal
import proofs.«177104_j19121194402280_1_alg».proof.Proof.LibFiniteReal

noncomputable section

namespace Idealize.ShloMosaic.F32Real

open Idealize.ShloMosaic.FiniteReal

/-- An f32 word whose exponent field is not all ones denotes a real number. -/
theorem isReal_ofBits_f32 (b : BitVec 32) (he : (b.extractLsb' 23 8).toNat ≠ 255) : IsReal (Ideal.ofBits .f32 b) := by
  show IsReal (Ideal.ieee 8 23 b)
  simp only [Ideal.ieee]
  have he' : ¬ (b.extractLsb' 23 8).toNat = 2 ^ 8 - 1 := by simpa using he
  rw [if_neg he']
  split_ifs <;> exact ⟨_, rfl⟩

/-- An f32 word with the sign bit clear, an exponent field not all ones, and exponent and fraction not both zero
    denotes a positive real number. -/
theorem ofBits_f32_pos (b : BitVec 32) (hs : (b.extractLsb' 31 1 == 1#1) = false)
    (he : (b.extractLsb' 23 8).toNat ≠ 255)
    (hz : (b.extractLsb' 23 8).toNat = 0 → (b.extractLsb' 0 23).toNat ≠ 0) :
    ∃ r : ℝ, 0 < r ∧ Ideal.ofBits .f32 b = (r : EReal) := by
  show ∃ r : ℝ, 0 < r ∧ Ideal.ieee 8 23 b = (r : EReal)
  simp only [Ideal.ieee]
  have he' : ¬ (b.extractLsb' 23 8).toNat = 2 ^ 8 - 1 := by simpa using he
  have hs' : (b.extractLsb' (8 + 23) 1 == 1#1) = false := hs
  rw [if_neg he', hs']
  by_cases h0 : (b.extractLsb' 23 8).toNat = 0
  · rw [if_pos h0]
    have hfr : (0 : ℝ) < ((b.extractLsb' 0 23).toNat : ℝ) := by exact_mod_cast Nat.pos_of_ne_zero (hz h0)
    exact ⟨_, by simp only [Bool.false_eq_true, if_false]; positivity, rfl⟩
  · rw [if_neg h0]
    exact ⟨_, by simp only [Bool.false_eq_true, if_false]; positivity, rfl⟩

/-- The inverse square root of a real at least zero plus a positive f32 literal is a real number: the form of
    every "variance plus epsilon" scale. -/
theorem isReal_rsqrt_add_word {v : ℝ} (hv : 0 ≤ v) (b : BitVec 32) (hs : (b.extractLsb' 31 1 == 1#1) = false)
    (he : (b.extractLsb' 23 8).toNat ≠ 255)
    (hz : (b.extractLsb' 23 8).toNat = 0 → (b.extractLsb' 0 23).toNat ≠ 0) :
    IsReal (Ideal.rsqrt ((v : EReal) + Ideal.ofBits .f32 b)) := by
  obtain ⟨ε, hε, e⟩ := ofBits_f32_pos b hs he hz
  rw [e, ← EReal.coe_add]
  exact isReal_rsqrt_of_pos (by positivity)

-- the words of 1e-5, 1e-12 and 50000.0
example : ∃ r : ℝ, 0 < r ∧ Ideal.ofBits .f32 0x3727C5AC#32 = (r : EReal) := ofBits_f32_pos _ (by decide) (by decide) (by decide)
example : ∃ r : ℝ, 0 < r ∧ Ideal.ofBits .f32 0x2B8CBCCC#32 = (r : EReal) := ofBits_f32_pos _ (by decide) (by decide) (by decide)
example : IsReal (Ideal.ofBits .f32 0x47435000#32) := isReal_ofBits_f32 _ (by decide)

end Idealize.ShloMosaic.F32Real

end
-- ==== Proof.StatsMath.lean ====
/-
  The column statistics of one layer, both ways.

  For one feature column o_1 … o_50000 of real entries, the kernel program keeps S = ∑ o and Q = ∑ o², multiplies
  each by the reciprocal 1/50000, and takes mean = S/50000, var = Q/50000 − mean².  The reference takes the mean
  as the quotient (0 + S) / 50000.0 and the variance as the mean of the squared deviations from that mean, divided
  by 50000.0 − 0 (the count less a zero degrees-of-freedom correction), guarded by a test that this divisor is
  positive.  The f32 word of 50000.0 is the real 50000; so the divisor is 50000, the guard picks the quotient, and
  the two variances agree by the identity between the one-pass and the two-pass variance of real data.  The
  variance is a non-negative real, so its inverse square root after adding the positive literal 1e-5 is real.
-/
import Idealize.ShloMosaic.PureOps.Ideal
import Idealize.ShloMosaic.PureOps.Ideal.Laws
import Idealize.ShloMosaic.Lib.IdealHost
import proofs.«177104_j19121194402280_1_alg».proof.Proof.LibFiniteReal
import proofs.«177104_j19121194402280_1_alg».proof.Proof.LibBatchStats
import proofs.«177104_j19121194402280_1_alg».proof.Proof.LibF32Real

noncomputable section

namespace Cert.Spec

open Idealize.ShloMosaic Idealize.ShloMosaic.FiniteReal Idealize.ShloMosaic.BatchStats Idealize.ShloMosaic.F32Real

/-- The f32 word of 50000.0 is the real 50000. -/
theorem word_50000 : Ideal.ofBits .f32 0x47435000#32 = ((50000 : ℝ) : EReal) := by
  simp [Ideal.ofBits, Ideal.ieee, -EReal.coe_mul]; norm_num

/-- The count less the integer zero read as a float is the count. -/
theorem count_sub_zero : Ideal.ofBits .f32 0x47435000#32 - (((0#32 : BitVec 32).toInt : ℝ) : EReal) = ((50000 : ℝ) : EReal) := by
  rw [word_50000, show ((0#32 : BitVec 32).toInt : ℝ) = 0 by norm_num, EReal.coe_zero, sub_zero]

/-- The guard of the reference's variance — is the divisor positive? — answers yes. -/
theorem var_guard : Ideal.cmp .ogt (Ideal.ofBits .f32 0x47435000#32 - (((0#32 : BitVec 32).toInt : ℝ) : EReal))
    (Ideal.ofBits .f32 0x00000000#32) = 1#1 := by
  rw [count_sub_zero, Ideal.ofBits_zero_f32]
  unfold Ideal.cmp
  simp only []
  rw [decide_eq_true (by exact_mod_cast (by norm_num : (0 : ℝ) < 50000))]
  rfl

/-- The kernel's mean of a column (sum times 1/50000) is the reference's (zero plus the sum, over 50000.0). -/
theorem mean_eq (S : EReal) :
    S * ((1 / 50000 : ℝ) : EReal) = Ideal.div (Ideal.ofBits .f32 0x00000000#32 + S) (Ideal.ofBits .f32 0x47435000#32) := by
  rw [Ideal.ofBits_zero_f32, zero_add, word_50000, Ideal.div_coe (by norm_num : (50000 : ℝ) ≠ 0)]

/-- The kernel's variance of a real column — mean of squares less square of mean, by the reciprocal — is the
    reference's: the mean of the squared deviations from the reference's mean, over the count less zero. -/
theorem var_eq (o : Fin 50000 → EReal) (ho : AllReal o) :
    (∑ r, o r * o r) * ((1 / 50000 : ℝ) : EReal)
        - (∑ r, o r) * ((1 / 50000 : ℝ) : EReal) * ((∑ r, o r) * ((1 / 50000 : ℝ) : EReal))
      = Ideal.div (Ideal.ofBits .f32 0x00000000#32
            + ∑ r, (o r - Ideal.div (Ideal.ofBits .f32 0x00000000#32 + ∑ r', o r') (Ideal.ofBits .f32 0x47435000#32))
                * (o r - Ideal.div (Ideal.ofBits .f32 0x00000000#32 + ∑ r', o r') (Ideal.ofBits .f32 0x47435000#32)))
          (Ideal.ofBits .f32 0x47435000#32 - (((0#32 : BitVec 32).toInt : ℝ) : EReal)) := by
  rw [count_sub_zero, Ideal.ofBits_zero_f32, zero_add, zero_add, word_50000]
  exact var_identity o ho 50000 (by simp) (by norm_num)

/-- The reference's variance of a real column is a non-negative real. -/
theorem var_real_nonneg (o : Fin 50000 → EReal) (ho : AllReal o) :
    ∃ v : ℝ, 0 ≤ v ∧
      Ideal.div (Ideal.ofBits .f32 0x00000000#32
            + ∑ r, (o r - Ideal.div (Ideal.ofBits .f32 0x00000000#32 + ∑ r', o r') (Ideal.ofBits .f32 0x47435000#32))
                * (o r - Ideal.div (Ideal.ofBits .f32 0x00000000#32 + ∑ r', o r') (Ideal.ofBits .f32 0x47435000#32)))
          (Ideal.ofBits .f32 0x47435000#32 - (((0#32 : BitVec 32).toInt : ℝ) : EReal)) = (v : EReal) := by
  rw [count_sub_zero, Ideal.ofBits_zero_f32, zero_add, zero_add, word_50000]
  exact var_nonneg o ho ((IsReal.sum _ _ fun i _ => ho i).div_coe (by norm_num)) (by norm_num)

/-- The mean of a real column is real. -/
theorem mean_real (o : Fin 50000 → EReal) (ho : AllReal o) :
    IsReal (Ideal.div (Ideal.ofBits .f32 0x00000000#32 + ∑ r, o r) (Ideal.ofBits .f32 0x47435000#32)) := by
  rw [Ideal.ofBits_zero_f32, zero_add, word_50000]
  exact (IsReal.sum _ _ fun i _ => ho i).div_coe (by norm_num)

/-- The scale of the normalisation, the inverse square root of a non-negative real variance plus the literal 1e-5,
    is real. -/
theorem scale_real {v : ℝ} (hv : 0 ≤ v) : IsReal (Ideal.rsqrt ((v : EReal) + Ideal.ofBits .f32 0x3727C5AC#32)) :=
  isReal_rsqrt_add_word hv _ (by decide) (by decide) (by decide)

/-- One entry of the normalise-and-rectify step is real when its ingredients are. -/
theorem bn_entry_real {g x mu be : EReal} {v : ℝ} (hg : IsReal g) (hx : IsReal x) (hmu : IsReal mu) (hbe : IsReal be)
    (hv : 0 ≤ v) :
    IsReal (max (g * (x - mu) * Ideal.rsqrt ((v : EReal) + Ideal.ofBits .f32 0x3727C5AC#32) + be)
      (Ideal.ofBits .f32 0x00000000#32)) := by
  rw [Ideal.ofBits_zero_f32]
  exact (((hg.mul (hx.sub hmu)).mul (scale_real hv)).add hbe).max isReal_zero

end Cert.Spec

end
-- ==== Proof.Spec.lean ====
/-
  One layer of the network as plain functions of rows r < 50000 and features j < 128, on the extended reals.

  With z = h + agg (a node's features plus the sum of its in-neighbours'), the two-layer perceptron is
      out r j = (∑ k, max ((∑ l, z r l · Wa k l) + ba k) 0 · Wb j k) + bb j.
  The kernel program keeps per feature the sums S j = ∑ r, out r j and Q j = ∑ r, (out r j)² and takes
      mean j = S j · (1/50000),   var j = Q j · (1/50000) − mean j · mean j;
  the reference takes mean j = (0 + S j) / 50000.0 and var j = (0 + ∑ r, (out r j − mean j)²) / (50000.0 − 0).
  Either way the layer's result is
      max (g j · (out r j − mean j) · rsqrt (var j + 1e-5) + β j) 0.
  The two pairs of statistics agree when every entry of out is real (StatsMath), which holds when h, agg and
  the parameters are real; and then the result is real again, so the argument repeats layer after layer.
-/
import Idealize.ShloMosaic.PureOps.Ideal
import Idealize.ShloMosaic.PureOps.Ideal.Laws
import proofs.«177104_j19121194402280_1_alg».proof.Proof.LibFiniteReal
import proofs.«177104_j19121194402280_1_alg».proof.Proof.StatsMath

noncomputable section

namespace Cert.Spec

open Idealize.ShloMosaic Idealize.ShloMosaic.FiniteReal

/-- The f32 words the programs share: zero, 1e-5, 50000.0, 1e-12. -/
abbrev zeroW : EReal := Ideal.ofBits .f32 0x00000000#32
abbrev epsW : EReal := Ideal.ofBits .f32 0x3727C5AC#32
abbrev countW : EReal := Ideal.ofBits .f32 0x47435000#32
abbrev tinyW : EReal := Ideal.ofBits .f32 0x2B8CBCCC#32
/-- The reciprocal of the count, as the kernel's named constant reads. -/
abbrev invCount : EReal := ((1 / 50000 : ℝ) : EReal)

/-- The two-layer perceptron of one layer at row r and feature j; Wa, Wb as the arguments hold them ([out, in]). -/
def mlp (z : Fin 50000 → Fin 128 → EReal) (Wa : Fin 128 → Fin 128 → EReal) (ba : Fin 128 → EReal)
    (Wb : Fin 128 → Fin 128 → EReal) (bb : Fin 128 → EReal) (r : Fin 50000) (j : Fin 128) : EReal :=
  (∑ k : Fin 128, max ((∑ l : Fin 128, z r l * Wa k l) + ba k) zeroW * Wb j k) + bb j

/-- The kernel program's mean and variance of feature j. -/
def meanK (o : Fin 50000 → Fin 128 → EReal) (j : Fin 128) : EReal := (∑ r, o r j) * invCount
def varK (o : Fin 50000 → Fin 128 → EReal) (j : Fin 128) : EReal :=
  (∑ r, o r j * o r j) * invCount - meanK o j * meanK o j

/-- The reference's mean and variance of feature j. -/
def meanR (o : Fin 50000 → Fin 128 → EReal) (j : Fin 128) : EReal := Ideal.div (zeroW + ∑ r, o r j) countW
def varR (o : Fin 50000 → Fin 128 → EReal) (j : Fin 128) : EReal :=
  Ideal.div (zeroW + ∑ r, (o r j - meanR o j) * (o r j - meanR o j))
    (countW - (((0#32 : BitVec 32).toInt : ℝ) : EReal))

/-- One entry of the normalise-and-rectify step. -/
def bn (x mu var g be : EReal) : EReal := max (g * (x - mu) * Ideal.rsqrt (var + epsW) + be) zeroW

/-- The projection of the pooled features and its row normalisation. -/
def proj (hf : Fin 512 → Fin 384 → EReal) (W : Fin 64 → Fin 384 → EReal) (b : Fin 64 → EReal) (g : Fin 512) (o : Fin 64) : EReal :=
  (∑ k : Fin 384, hf g k * W o k) + b o
def l2normalize (out : Fin 512 → Fin 64 → EReal) (sq : Fin 512 → EReal) (g : Fin 512) (o : Fin 64) : EReal :=
  Ideal.div (out g o) (max (Ideal.sqrt (sq g)) tinyW)

/-! ## The statistics agree on real data, and the layer keeps the reals -/

theorem mlp_real {z : Fin 50000 → Fin 128 → EReal} {Wa Wb : Fin 128 → Fin 128 → EReal} {ba bb : Fin 128 → EReal}
    (hz : ∀ r l, IsReal (z r l)) (hWa : ∀ k l, IsReal (Wa k l)) (hba : ∀ k, IsReal (ba k))
    (hWb : ∀ j k, IsReal (Wb j k)) (hbb : ∀ j, IsReal (bb j)) (r : Fin 50000) (j : Fin 128) :
    IsReal (mlp z Wa ba Wb bb r j) := by
  unfold mlp
  refine IsReal.add (IsReal.sum _ _ fun k _ => IsReal.mul (IsReal.max (IsReal.add (IsReal.sum _ _ fun l _ => (hz r l).mul (hWa k l)) (hba k)) ?_) (hWb j k)) (hbb j)
  rw [show zeroW = 0 from Ideal.ofBits_zero_f32]; exact isReal_zero

theorem mean_agree (o : Fin 50000 → Fin 128 → EReal) (j : Fin 128) : meanK o j = meanR o j :=
  mean_eq _

theorem var_agree (o : Fin 50000 → Fin 128 → EReal) (ho : ∀ r j, IsReal (o r j)) (j : Fin 128) : varK o j = varR o j := by
  unfold varK varR meanK meanR
  exact var_eq (fun r => o r j) (fun r => ho r j)

theorem meanR_real (o : Fin 50000 → Fin 128 → EReal) (ho : ∀ r j, IsReal (o r j)) (j : Fin 128) : IsReal (meanR o j) :=
  mean_real (fun r => o r j) (fun r => ho r j)

theorem varR_nonneg (o : Fin 50000 → Fin 128 → EReal) (ho : ∀ r j, IsReal (o r j)) (j : Fin 128) :
    ∃ v : ℝ, 0 ≤ v ∧ varR o j = (v : EReal) :=
  var_real_nonneg (fun r => o r j) (fun r => ho r j)

/-- The layer's result from the reference's statistics is real when out and the parameters are. -/
theorem bn_real (o : Fin 50000 → Fin 128 → EReal) (ho : ∀ r j, IsReal (o r j)) {g be : Fin 128 → EReal}
    (hg : ∀ j, IsReal (g j)) (hbe : ∀ j, IsReal (be j)) (r : Fin 50000) (j : Fin 128) :
    IsReal (bn (o r j) (meanR o j) (varR o j) (g j) (be j)) := by
  obtain ⟨v, hv, e⟩ := varR_nonneg o ho j
  unfold bn
  rw [e]
  exact bn_entry_real (hg j) (ho r j) (meanR_real o ho j) (hbe j) hv

/-- The layer's result from the kernel's statistics is the one from the reference's, on real data. -/
theorem bn_agree (o : Fin 50000 → Fin 128 → EReal) (ho : ∀ r j, IsReal (o r j)) (g be : Fin 128 → EReal)
    (r : Fin 50000) (j : Fin 128) :
    bn (o r j) (meanK o j) (varK o j) (g j) (be j) = bn (o r j) (meanR o j) (varR o j) (g j) (be j) := by
  rw [mean_agree, var_agree o ho]

end Cert.Spec

end
-- ==== Proof.Value0.lean ====
/-
  What the perceptron-and-statistics step of the first layer leaves in its three output arrays, as functions of the
  arrays it finds, on the extended reals.  With H, AGG the two [50000,128] inputs, WaT, WbT the two [128,128] weight
  arrays (read [in, out]) and BA, BB the two [1,128] bias rows, the big output's entry at row r and lane j is
      out r j = (∑ k, max ((∑ l, (H r l + AGG r l) · WaT l k) + BA k) 0 · WbT k j) + BB j :
  ten grid points each write one block of 5000 rows, block t is rows 5000 t … 5000 t + 4999, the parameter arrays are
  read whole at every point, and the ten blocks tile the array.  The two scratch rows hold after point n the sums over
  the rows of blocks 0 … n of out and of out², so after the last point the whole column sums, and the two one-row
  outputs end at  (∑ r, out r j) · (1/50000)  and  (∑ r, out r j²) · (1/50000) − mean j².
-/
import proofs.«177104_j19121194402280_1_alg».proof.Proof.Region0
import proofs.«177104_j19121194402280_1_alg».proof.Proof.Spec
import proofs.«177104_j19121194402280_1_alg».proof.Proof.LibBatchStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The product of a [5000,128] block by a [128,128] matrix, contracted over the block's lanes and the matrix's rows,
    at row r and column k: the accumulator's entry plus the sum over the contracted coordinate of the products. -/
theorem matmul0_at {φ₁ φ₂ : FTy} (A : FVec Ideal S5000x128 φ₁) (B : FVec Ideal S128x128 φ₂) (acc : FVec Ideal S5000x128 .f32)
    (r : Fin 5000) (k : Fin 128) :
    matmul dot_S5000x128_S128x128_S5000x128_1_0_0_1_n_n none A B acc (ix2 r k) = acc (ix2 r k) + ∑ l : Fin 128, A (ix2 r l) * B (ix2 l k) := by
  show FloatOps.matmul _ none A B acc (ix2 r k) = _
  rw [Ideal.matmul_apply, ← Equiv.sum_comp (contrEquiv1 dot_S5000x128_S128x128_S5000x128_1_0_0_1_n_n 128 rfl rfl).symm]
  refine congrArg (acc (ix2 r k) + ·) (Finset.sum_congr rfl fun l _ => ?_)
  have cl := contrEquiv1_symm_val dot_S5000x128_S128x128_S5000x128_1_0_0_1_n_n 128 rfl rfl l
  have hl : dot_S5000x128_S128x128_S5000x128_1_0_0_1_n_n.lhsIdx (ix2 r k) ((contrEquiv1 dot_S5000x128_S128x128_S5000x128_1_0_0_1_n_n 128 rfl rfl).symm l) = ix2 r l := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cl
  have hr : dot_S5000x128_S128x128_S5000x128_1_0_0_1_n_n.rhsIdx (ix2 r k) ((contrEquiv1 dot_S5000x128_S128x128_S5000x128_1_0_0_1_n_n 128 rfl rfl).symm l) = ix2 l k := by
    funext ax; apply Fin.ext
    match ax with
    | ⟨0, _⟩ => simp [DotDims.rhsIdx, dot_S5000x128_S128x128_S5000x128_1_0_0_1_n_n]; exact cl
    | ⟨1, _⟩ => simp [DotDims.rhsIdx, dot_S5000x128_S128x128_S5000x128_1_0_0_1_n_n]; rfl
  rw [hl, hr]

/-- The stored block at row r and lane j of the block: the two-layer perceptron of the sum of the two input blocks'
    rows r, the weights read [in, out], the bias rows broadcast over the block's rows. -/
theorem k0_pay6_at (x0 x1 : FVec Ideal S5000x128 .f32) (w1 : FVec Ideal S128x128 .bf16) (b1 : FVec Ideal S1x128 .f32)
    (w2 : FVec Ideal S128x128 .bf16) (b2 : FVec Ideal S1x128 .f32) (r : Fin 5000) (j : Fin 128) :
    k0_pay6 (F := Ideal) x0 x1 w1 b1 w2 b2 (ix2 r j)
      = (∑ k : Fin 128, max ((∑ l : Fin 128, (x0 (ix2 r l) + x1 (ix2 r l)) * w1 (ix2 l k)) + b1 (ix2 0 k)) Cert.Spec.zeroW * w2 (ix2 k j))
          + b2 (ix2 0 j) := by
  have hz : Ideal.ofBits .f32 0x00000000#32 = (0 : EReal) := Ideal.ofBits_zero_f32
  unfold k0_pay6
  simp only [shapeCast_self]
  rw [addf_apply, broadcastTo_1b_ab_apply, matmul0_at, constant_apply, hz, zero_add]
  refine congrArg (· + b2 (ix2 0 j)) (Finset.sum_congr rfl fun k _ => ?_)
  rw [truncf_apply, maximumf_apply, addf_apply, broadcastTo_1b_ab_apply, matmul0_at, constant_apply, hz, zero_add, broadcast_apply]
  refine congrArg (fun s => max (s + b1 (ix2 0 k)) _ * w2 (ix2 k j)) (Finset.sum_congr rfl fun l _ => ?_)
  rw [truncf_apply, addf_apply]

/-- The perceptron step as one function of the arrays, index by index: at row r and lane j the two-layer perceptron of
    the sum of the two [50000,128] arrays' rows r, the [128,128] weights read [in, out], the biases the [1,128] rows. -/
def mlpArr (H AGG : S50000x128.Idx → EReal) (WaT : S128x128.Idx → EReal) (BA : S1x128.Idx → EReal)
    (WbT : S128x128.Idx → EReal) (BB : S1x128.Idx → EReal) : S50000x128.Idx → EReal := fun i =>
  Cert.Spec.mlp (fun r l => H (ix2 r l) + AGG (ix2 r l)) (fun k l => WaT (ix2 l k)) (fun k => BA (ix2 0 k))
    (fun j k => WbT (ix2 k j)) (fun j => BB (ix2 0 j)) (i 0) (i 1)

/-- The same function read at row r and lane j. -/
theorem mlpArr_ix2 (H AGG : S50000x128.Idx → EReal) (WaT : S128x128.Idx → EReal) (BA : S1x128.Idx → EReal)
    (WbT : S128x128.Idx → EReal) (BB : S1x128.Idx → EReal) (r : Fin 50000) (j : Fin 128) :
    mlpArr H AGG WaT BA WbT BB (ix2 r j)
      = Cert.Spec.mlp (fun r l => H (ix2 r l) + AGG (ix2 r l)) (fun k l => WaT (ix2 l k)) (fun k => BA (ix2 0 k))
          (fun j k => WbT (ix2 k j)) (fun j => BB (ix2 0 j)) r j := rfl

/-- So the payload of blocks x0, x1 of the two big arrays and of the four parameter arrays, at row r and lane j of
    the block, is the function at the array index i the block index sits at (same lane, the block's row r the array's
    row i 0). -/
theorem mlp0_point (H AGG : S50000x128.Idx → EReal) (WaT : S128x128.Idx → EReal) (BA : S1x128.Idx → EReal)
    (WbT : S128x128.Idx → EReal) (BB : S1x128.Idx → EReal)
    (x0 x1 : FVec Ideal S5000x128 .f32) (w1 : FVec Ideal S128x128 .bf16) (b1 : FVec Ideal S1x128 .f32)
    (w2 : FVec Ideal S128x128 .bf16) (b2 : FVec Ideal S1x128 .f32)
    (hw1 : w1 = WaT) (hb1 : b1 = BA) (hw2 : w2 = WbT) (hb2 : b2 = BB)
    (r : Fin 5000) (j : Fin 128) (i : S50000x128.Idx)
    (hx0 : ∀ l : Fin 128, x0 (ix2 r l) = H (ix2 (i 0) l)) (hx1 : ∀ l : Fin 128, x1 (ix2 r l) = AGG (ix2 (i 0) l))
    (h1 : i 1 = j) :
    k0_pay6 (F := Ideal) x0 x1 w1 b1 w2 b2 (ix2 r j) = mlpArr H AGG WaT BA WbT BB i := by
  subst hw1 hb1 hw2 hb2
  rw [k0_pay6_at]
  unfold mlpArr Cert.Spec.mlp
  rw [h1]
  simp only [hx0, hx1]

variable (V : (c : Dev nD) → (b : Ref sig .tc) → Buf (Elt Ideal) ((c : Thread nD τ).loc b))

/-- The printed index maps, decided over the ten points: the two big inputs and the big output move one block of rows
    per point; the parameter arrays and the two one-row outputs stay. -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Block t of each big input is rows 5000 t … 5000 t + 4999 of its array. -/
theorem iblk0_0_at (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

theorem iblk0_1_at (c : Dev nD) (t : Fin cfg0.N) (y : S5000x128.Idx) (i : S50000x128.Idx)
    (h0 : (i 0).val = t.val * 5000 + (y 0).val) (h1 : (i 1).val = (y 1).val) :
    (iblk0 V c 1 t : Vec Ideal S5000x128 .f32) y = (V c main_v20 : S50000x128.Idx → EReal) i := by
  obtain ⟨-, -, e0, e1, -⟩ := idx_facts0 t
  unfold iblk0
  rw [View.read_apply]
  show V c main_v20 _ = V c main_v20 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- Each parameter window's block, at every point, is its whole array. -/
theorem iblk0_2_eq (c : Dev nD) (t : Fin cfg0.N) :
    (iblk0 V c 2 t : Vec Ideal S128x128 .bf16) = (V c main_v22 : S128x128.Idx → EReal) := by
  obtain ⟨-, -, -, -, e0, e1, -⟩ := idx_facts0 t
  funext y
  unfold iblk0
  rw [View.read_apply]
  show V c main_v22 _ = V c main_v22 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem iblk0_3_eq (c : Dev nD) (t : Fin cfg0.N) :
    (iblk0 V c 3 t : Vec Ideal S1x128 .f32) = (V c main_v25 : S1x128.Idx → EReal) := by
  obtain ⟨-, -, -, -, -, -, e0, e1, -⟩ := idx_facts0 t
  funext y
  unfold iblk0
  rw [View.read_apply]
  show V c main_v25 _ = V c main_v25 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem iblk0_4_eq (c : Dev nD) (t : Fin cfg0.N) :
    (iblk0 V c 4 t : Vec Ideal S128x128 .bf16) = (V c main_v24 : S128x128.Idx → EReal) := by
  obtain ⟨-, -, -, -, -, -, -, -, e0, e1, -⟩ := idx_facts0 t
  funext y
  unfold iblk0
  rw [View.read_apply]
  show V c main_v24 _ = V c main_v24 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem iblk0_5_eq (c : Dev nD) (t : Fin cfg0.N) :
    (iblk0 V c 5 t : Vec Ideal S1x128 .f32) = (V c main_v26 : S1x128.Idx → EReal) := by
  obtain ⟨-, -, -, -, -, -, -, -, -, -, e0, e1, -⟩ := idx_facts0 t
  funext y
  unfold iblk0
  rw [View.read_apply]
  show V c main_v26 _ = V c main_v26 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The block point t stores, at row r and lane j of the block, is the function of the arrays at the array index that
    block index sits at. -/
theorem blkAt0_emb (c : Dev nD) (t : Fin cfg0.N) (r : Fin 5000) (j : Fin 128) :
    blkAt0 V c t (ix2 r j) = mlpArr (V c main_arg0) (V c main_v20) (V c main_v22) (V c main_v25) (V c main_v24) (V c main_v26) (((cfg0.win 6).blk t).view.emb (ix2 r j)) := by
  unfold blkAt0 blk0_6
  obtain ⟨-, -, -, -, -, -, -, -, -, -, -, -, e0, e1, -⟩ := idx_facts0 t
  show k0_pay6 (F := Ideal) (iblk0 V c 0 t) (iblk0 V c 1 t) (iblk0 V c 2 t) (iblk0 V c 3 t) (iblk0 V c 4 t) (iblk0 V c 5 t) (ix2 r j)
    = mlpArr (V c main_arg0) (V c main_v20) (V c main_v22) (V c main_v25) (V c main_v24) (V c main_v26) (((cfg0.win 6).blk t).view.emb (ix2 r j))
  have hrow : ((((cfg0.win 6).blk t).view.emb (ix2 r j) : S50000x128.Idx) 0).val = t.val * 5000 + r.val := by
    show win0_6.index t (0 : Fin 2) * 5000 + 1 * r.val = t.val * 5000 + r.val; rw [e0]; omega
  have hlane : (((cfg0.win 6).blk t).view.emb (ix2 r j) : S50000x128.Idx) 1 = j := by
    apply Fin.ext
    show win0_6.index t (1 : Fin 2) * 128 + 1 * j.val = j.val; rw [e1]; omega
  refine mlp0_point _ _ _ _ _ _ _ _ _ _ _ _ (iblk0_2_eq V c t) (iblk0_3_eq V c t) (iblk0_4_eq V c t) (iblk0_5_eq V c t) r j _ ?_ ?_ hlane
  · intro l
    exact iblk0_0_at V c t (ix2 r l) _ hrow rfl
  · intro l
    exact iblk0_1_at V c t (ix2 r l) _ hrow rfl

/-- What point t writes back to the big output's array is block t of the function of the arrays the region finds. -/
theorem flushed0_6_eq (c : Dev nD) (t : Fin cfg0.N) :
    (dat0 V c).flushed 6 t = ((cfg0.win 6).blk t).view.read (Elt Ideal) (mlpArr (V c main_arg0) (V c main_v20) (V c main_v22) (V c main_v25) (V c main_v24) (V c main_v26)) := by
  show (cfg0.win 6).cut (grid0.coords t) ((dat0 V c).after 6 t) = _
  rw [after0_6]
  funext y
  obtain ⟨r, j, rfl⟩ : ∃ (r : Fin 5000) (j : Fin 128), y = ix2 r j := ⟨y 0, y 1, eq_ix2 y⟩
  exact blkAt0_emb V c t r j

/-- An index of the big output's array is in point t's block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27_0).slice (win0_6.rect t)).set ↔ _
  rw [View.set_slice_whole, Rect.mem_set_unit]
  exact Iff.rfl

/-- The ten blocks tile the array: row r is in the block of point r / 5000. -/
theorem covered0_6 (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1, -⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- THE BIG OUTPUT ARRAY after the region: the perceptron of the arrays the region finds, everywhere. -/
theorem final0_6 (c : Dev nD) :
    (dat0 V c).arrAt 6 cfg0.N = mlpArr (V c main_arg0) (V c main_v20) (V c main_v22) (V c main_v25) (V c main_v24) (V c main_v26) :=
  (dat0 V c).arrAt_eq_of_cover 6 _ (fun t _ => flushed0_6_eq V c t) covered0_6

/-! ## The statistics rows -/

/-- The column sums of a block, stored as a one-row block: at lane j, the sum over the block's rows. -/
theorem colsum0_at (v : FVec Ideal S5000x128 .f32) (j : Fin 128) :
    shapeCast S1x128 (multiReduction .add [0] S128 v 0x00000000#32 reduces_S5000x128_S128 (.inl rfl) rfl) shapeCasts_S128_S1x128 (ix2 0 j)
      = ∑ r : Fin 5000, v (ix2 r j) := by
  rw [shapeCast_addUnit_apply (n := 1) ![128]]
  refine (Ideal.multiReduction_add_single v _ reduces_S5000x128_S128 _ _ _).trans ?_
  refine Finset.sum_congr rfl fun r _ => congrArg v ?_
  funext a; apply Fin.ext
  match a with
  | ⟨0, _⟩ => rfl
  | ⟨1, _⟩ => rfl

/-- The running sums after a point: what the row held plus the block's column sums; -/
theorem k0_pay7_at (x0 x1 : FVec Ideal S5000x128 .f32) (w1 : FVec Ideal S128x128 .bf16) (b1 : FVec Ideal S1x128 .f32)
    (w2 : FVec Ideal S128x128 .bf16) (b2 : FVec Ideal S1x128 .f32) (s : FVec Ideal S1x128 .f32) (j : Fin 128) :
    k0_pay7 (F := Ideal) x0 x1 w1 b1 w2 b2 s (ix2 0 j)
      = s (ix2 0 j) + ∑ r : Fin 5000, k0_pay6 (F := Ideal) x0 x1 w1 b1 w2 b2 (ix2 r j) := by
  unfold k0_pay7
  simp only [shapeCast_self]
  rw [addf_apply, colsum0_at]

/-- the running sums of squares likewise. -/
theorem k0_pay1_at (y : FVec Ideal S5000x128 .f32) (q : FVec Ideal S1x128 .f32) (j : Fin 128) :
    k0_pay1 (F := Ideal) y q (ix2 0 j) = q (ix2 0 j) + ∑ r : Fin 5000, y (ix2 r j) * y (ix2 r j) := by
  unfold k0_pay1
  simp only [shapeCast_self]
  rw [addf_apply, colsum0_at]
  rfl

/-- Both rows start from zero. -/
theorem k0_pay4_at (j : Fin 128) : k0_pay4 (F := Ideal) (ix2 0 j) = 0 := by
  unfold k0_pay4
  simp only [shapeCast_self]
  exact Ideal.ofBits_zero_f32
theorem k0_pay5_at (j : Fin 128) : k0_pay5 (F := Ideal) (ix2 0 j) = 0 := by
  unfold k0_pay5
  simp only [shapeCast_self]
  exact Ideal.ofBits_zero_f32

/-- The kernel's named reciprocal reads 1/50000 on the extended reals. -/
theorem inv50000_ideal : Named.named (F := Ideal) κ "inv_50000" (φ := .f32) 0x37A7C5AC#32 = ((1 / 50000 : ℝ) : EReal) :=
  IdealRules.named_const.ideal_named_scalar _ _ _ _ rfl

/-- The mean row: the sums times the reciprocal of the count; -/
theorem k0_pay2_at (s : FVec Ideal S1x128 .f32) (j : Fin 128) :
    k0_pay2 (F := Ideal) s (ix2 0 j) = s (ix2 0 j) * Cert.Spec.invCount := by
  unfold k0_pay2
  rw [mulf_apply, broadcast_apply, inv50000_ideal]

/-- the variance row: the sums of squares times the reciprocal, less the square of the mean. -/
theorem k0_pay3_at (s q : FVec Ideal S1x128 .f32) (j : Fin 128) :
    k0_pay3 (F := Ideal) s q (ix2 0 j)
      = q (ix2 0 j) * Cert.Spec.invCount - s (ix2 0 j) * Cert.Spec.invCount * (s (ix2 0 j) * Cert.Spec.invCount) := by
  unfold k0_pay3
  rw [subf_apply, mulf_apply, mulf_apply, broadcast_apply, inv50000_ideal, k0_pay2_at]

/-! ## The accumulated rows -/

/-- The big output's function of the arrays, as a plain function of the row and the lane. -/
def out0 (c : Dev nD) : Fin 50000 → Fin 128 → EReal := fun r j => mlpArr (V c main_arg0) (V c main_v20) (V c main_v22) (V c main_v25) (V c main_v24) (V c main_v26) (ix2 r j)

/-- Row r of the block point t stores is row 5000 t + r of the array's function. -/
theorem blkAt0_at (c : Dev nD) (t : Fin cfg0.N) (r : Fin 5000) (j : Fin 128) (hlt : r.val + 5000 * t.val < 50000) :
    blkAt0 V c t (ix2 r j) = out0 V c ⟨r.val + 5000 * t.val, hlt⟩ j := by
  rw [blkAt0_emb]
  obtain ⟨-, -, -, -, -, -, -, -, -, -, -, -, e0, e1, -⟩ := idx_facts0 t
  unfold out0
  refine congrArg (mlpArr (V c main_arg0) (V c main_v20) (V c main_v22) (V c main_v25) (V c main_v24) (V c main_v26)) ?_
  funext a; apply Fin.ext
  match a with
  | ⟨0, _⟩ => show win0_6.index t (0 : Fin 2) * 5000 + 1 * r.val = r.val + 5000 * t.val; rw [e0]; omega
  | ⟨1, _⟩ => show win0_6.index t (1 : Fin 2) * 128 + 1 * j.val = j.val; rw [e1]; omega

/-- A sum over the 50000 rows, block by block. -/
theorem sum_rows0 (g : Fin 50000 → EReal) :
    ∑ i : Fin 50000, g i = ∑ t : Fin 10, ∑ q : Fin 5000, g ⟨q.val + 5000 * t.val, by have := q.isLt; have := t.isLt; omega⟩ :=
  BatchStats.sum_fin_mul (M := EReal) 10 5000 g

/-- The sums row after point n: the column sums of the blocks of points 0 … n. -/
theorem acc_sum0 (c : Dev nD) (j : Fin 128) : ∀ (n : ℕ) (h : n < cfg0.N),
    (accAt0 V c n h).1 (ix2 0 j) = ∑ t : Fin (n + 1), ∑ r : Fin 5000, blkAt0 V c ⟨t.val, by have := t.isLt; omega⟩ (ix2 r j)
  | 0, h => by
    show sumAt0 V c ⟨0, h⟩ (k0_pay4 (F := Ideal)) (ix2 0 j) = _
    unfold sumAt0 sum0
    rw [k0_pay7_at, k0_pay4_at, zero_add, Fin.sum_univ_one]
    rfl
  | n + 1, h => by
    show sumAt0 V c ⟨n + 1, h⟩ (accAt0 V c n (Nat.lt_of_succ_lt h)).1 (ix2 0 j) = _
    unfold sumAt0 sum0
    rw [k0_pay7_at, Fin.sum_univ_castSucc (n := n + 1), acc_sum0 c j n (Nat.lt_of_succ_lt h)]
    rfl

/-- The sums-of-squares row after point n likewise. -/
theorem acc_sq0 (c : Dev nD) (j : Fin 128) : ∀ (n : ℕ) (h : n < cfg0.N),
    (accAt0 V c n h).2 (ix2 0 j)
      = ∑ t : Fin (n + 1), ∑ r : Fin 5000, blkAt0 V c ⟨t.val, by have := t.isLt; omega⟩ (ix2 r j) * blkAt0 V c ⟨t.val, by have := t.isLt; omega⟩ (ix2 r j)
  | 0, h => by
    show sqAt0 V c ⟨0, h⟩ (k0_pay5 (F := Ideal)) (ix2 0 j) = _
    unfold sqAt0 sq0
    rw [k0_pay1_at, k0_pay5_at, zero_add, Fin.sum_univ_one]
    rfl
  | n + 1, h => by
    show sqAt0 V c ⟨n + 1, h⟩ (accAt0 V c n (Nat.lt_of_succ_lt h)).2 (ix2 0 j) = _
    unfold sqAt0 sq0
    rw [k0_pay1_at, Fin.sum_univ_castSucc (n := n + 1), acc_sq0 c j n (Nat.lt_of_succ_lt h)]
    rfl

/-- After the last point the two rows hold the whole column sums of the output's function and of its square. -/
theorem total_sum0 (c : Dev nD) (j : Fin 128) (n : ℕ) (h : n < cfg0.N) (hn : n = 9) :
    (accAt0 V c n h).1 (ix2 0 j) = ∑ i : Fin 50000, out0 V c i j := by
  subst hn
  rw [acc_sum0 V c j 9 h, sum_rows0]
  exact Finset.sum_congr rfl fun t _ => Finset.sum_congr rfl fun r _ => blkAt0_at V c _ r j _

theorem total_sq0 (c : Dev nD) (j : Fin 128) (n : ℕ) (h : n < cfg0.N) (hn : n = 9) :
    (accAt0 V c n h).2 (ix2 0 j) = ∑ i : Fin 50000, out0 V c i j * out0 V c i j := by
  subst hn
  rw [acc_sq0 V c j 9 h, sum_rows0]
  exact Finset.sum_congr rfl fun t _ => Finset.sum_congr rfl fun r _ => by rw [blkAt0_at V c _ r j _]

/-! ## The two one-row outputs -/

/-- The mean row and the variance row as functions of the arrays. -/
def meanArr0 (c : Dev nD) : S1x128.Idx → EReal := fun i => Cert.Spec.meanK (out0 V c) (i 1)
def varArr0 (c : Dev nD) : S1x128.Idx → EReal := fun i => Cert.Spec.varK (out0 V c) (i 1)
theorem meanArr0_ix2 (c : Dev nD) (j : Fin 128) : meanArr0 V c (ix2 0 j) = Cert.Spec.meanK (out0 V c) j := rfl
theorem varArr0_ix2 (c : Dev nD) (j : Fin 128) : varArr0 V c (ix2 0 j) = Cert.Spec.varK (out0 V c) j := rfl

/-- An index of the one-row output's array is in point t's block iff each coordinate is in the block's range. -/
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v27_1).slice (win0_7.rect t)).set ↔ _
  rw [View.set_slice_whole, Rect.mem_set_unit]
  exact Iff.rfl

/-- The last point's block is the whole row. -/
theorem covered0_7 (i : S1x128.Idx) :
    ∃ t : Fin cfg0.N, (cfg0.win 7).flush t = true ∧ i ∈ ((cfg0.win 7).blk t).view.set := by
  have hi0 : (i 0).val < 1 := idx2_lt0 i
  have hi1 : (i 1).val < 128 := idx2_lt1 i
  obtain ⟨-, -, -, -, -, -, -, -, -, -, -, -, -, -, e0, e1, -⟩ := idx_facts0 t0_9
  refine ⟨t0_9, (flush0_7 t0_9).mpr rfl, ?_⟩
  rw [mem_blk0_7]
  intro a
  match a with
  | ⟨0, _⟩ => show win0_7.index t0_9 (0 : Fin 2) * 1 ≤ (i 0).val ∧ (i 0).val < win0_7.index t0_9 (0 : Fin 2) * 1 + 1; rw [e0]; omega
  | ⟨1, _⟩ => show win0_7.index t0_9 (1 : Fin 2) * 128 ≤ (i 1).val ∧ (i 1).val < win0_7.index t0_9 (1 : Fin 2) * 128 + 128; rw [e1]; omega

/-- An index of the one-row output's array is in point t's block iff each coordinate is in the block's range. -/
theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v27_2).slice (win0_8.rect t)).set ↔ _
  rw [View.set_slice_whole, Rect.mem_set_unit]
  exact Iff.rfl

/-- The last point's block is the whole row. -/
theorem covered0_8 (i : S1x128.Idx) :
    ∃ t : Fin cfg0.N, (cfg0.win 8).flush t = true ∧ i ∈ ((cfg0.win 8).blk t).view.set := by
  have hi0 : (i 0).val < 1 := idx2_lt0 i
  have hi1 : (i 1).val < 128 := idx2_lt1 i
  obtain ⟨-, -, -, -, -, -, -, -, -, -, -, -, -, -, -, -, e0, e1⟩ := idx_facts0 t0_9
  refine ⟨t0_9, (flush0_8 t0_9).mpr rfl, ?_⟩
  rw [mem_blk0_8]
  intro a
  match a with
  | ⟨0, _⟩ => show win0_8.index t0_9 (0 : Fin 2) * 1 ≤ (i 0).val ∧ (i 0).val < win0_8.index t0_9 (0 : Fin 2) * 1 + 1; rw [e0]; omega
  | ⟨1, _⟩ => show win0_8.index t0_9 (1 : Fin 2) * 128 ≤ (i 1).val ∧ (i 1).val < win0_8.index t0_9 (1 : Fin 2) * 128 + 128; rw [e1]; omega

/-- What the last point writes back to the mean row's array is the mean row of the arrays the region finds. -/
theorem flushed0_7_eq (c : Dev nD) (t : Fin cfg0.N) (hf : (cfg0.win 7).flush t = true) :
    (dat0 V c).flushed 7 t = ((cfg0.win 7).blk t).view.read (Elt Ideal) (meanArr0 V c) := by
  have h9 : t.val = 9 := by
    have h := (flush0_7 t).mp hf; have hl := t.isLt; have hN : cfg0.N = 10 := N_0; omega
  show (cfg0.win 7).cut (grid0.coords t) ((dat0 V c).after 7 t) = _
  rw [after0_7]
  obtain ⟨-, -, -, -, -, -, -, -, -, -, -, -, -, -, e0, e1, -⟩ := idx_facts0 t
  funext y
  obtain ⟨r, j, rfl⟩ : ∃ (r : Fin 1) (j : Fin 128), y = ix2 r j := ⟨y 0, y 1, eq_ix2 y⟩
  obtain rfl : r = 0 := Fin.ext (by have := r.isLt; omega)
  show mean0 (accAt0 V c t.val t.isLt).1 (ix2 0 j) = meanArr0 V c (((cfg0.win 7).blk t).view.emb (ix2 0 j))
  have hlane : (((cfg0.win 7).blk t).view.emb (ix2 0 j) : S1x128.Idx) 1 = j := by
    apply Fin.ext
    show win0_7.index t (1 : Fin 2) * 128 + 1 * j.val = j.val; rw [e1]; omega
  unfold meanArr0 mean0 Cert.Spec.meanK
  rw [hlane, k0_pay2_at, total_sum0 V c j t.val t.isLt h9]

/-- What the last point writes back to the variance row's array is the variance row of the arrays the region finds. -/
theorem flushed0_8_eq (c : Dev nD) (t : Fin cfg0.N) (hf : (cfg0.win 8).flush t = true) :
    (dat0 V c).flushed 8 t = ((cfg0.win 8).blk t).view.read (Elt Ideal) (varArr0 V c) := by
  have h9 : t.val = 9 := by
    have h := (flush0_8 t).mp hf; have hl := t.isLt; have hN : cfg0.N = 10 := N_0; omega
  show (cfg0.win 8).cut (grid0.coords t) ((dat0 V c).after 8 t) = _
  rw [after0_8]
  obtain ⟨-, -, -, -, -, -, -, -, -, -, -, -, -, -, -, -, e0, e1⟩ := idx_facts0 t
  funext y
  obtain ⟨r, j, rfl⟩ : ∃ (r : Fin 1) (j : Fin 128), y = ix2 r j := ⟨y 0, y 1, eq_ix2 y⟩
  obtain rfl : r = 0 := Fin.ext (by have := r.isLt; omega)
  show var0 (accAt0 V c t.val t.isLt).1 (accAt0 V c t.val t.isLt).2 (ix2 0 j) = varArr0 V c (((cfg0.win 8).blk t).view.emb (ix2 0 j))
  have hlane : (((cfg0.win 8).blk t).view.emb (ix2 0 j) : S1x128.Idx) 1 = j := by
    apply Fin.ext
    show win0_8.index t (1 : Fin 2) * 128 + 1 * j.val = j.val; rw [e1]; omega
  unfold varArr0 var0 Cert.Spec.varK Cert.Spec.meanK
  rw [hlane, k0_pay3_at, total_sum0 V c j t.val t.isLt h9, total_sq0 V c j t.val t.isLt h9]

/-- THE MEAN ROW'S ARRAY after the region: the kernel's mean of the big output's function, lane by lane. -/
theorem final0_7 (c : Dev nD) : (dat0 V c).arrAt 7 cfg0.N = meanArr0 V c :=
  (dat0 V c).arrAt_eq_of_cover 7 _ (fun t hf => flushed0_7_eq V c t hf) covered0_7

/-- THE VARIANCE ROW'S ARRAY after the region: the kernel's variance of the big output's function, lane by lane. -/
theorem final0_8 (c : Dev nD) : (dat0 V c).arrAt 8 cfg0.N = varArr0 V c :=
  (dat0 V c).arrAt_eq_of_cover 8 _ (fun t hf => flushed0_8_eq V c t hf) covered0_8

end Cert.KernelIdeal.Hand

end
-- ==== Proof.Value1.lean ====
/-
  What the normalise-and-rectify step of the first layer leaves in its output array, as one function of the arrays it
  finds: with X the [50000,128] input and mean, var, g, β the four [1,128] rows, the entry at row r and lane j is
      max (g j · (X r j − mean j) · rsqrt (var j + ε) + β j) 0.
  Ten grid points each write one block of 5000 rows; block t is rows 5000 t … 5000 t + 4999, the four rows are read whole
  at every point, and the ten blocks tile the array, so the array ends holding that function everywhere.
-/
import proofs.«177104_j19121194402280_1_alg».proof.Proof.Region1
import proofs.«177104_j19121194402280_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The normalise-and-rectify step as one function of the arrays, index by index: the entry at row r and lane j is
    max (g j · (X r j − mean j) · rsqrt (var j + ε) + β j) 0. -/
def bnReluArr (X : (⟨2, ![50000, 128]⟩ : Shape).Idx → EReal) (MU VAR G_ BE : (⟨2, ![1, 128]⟩ : Shape).Idx → EReal) :
    (⟨2, ![50000, 128]⟩ : Shape).Idx → EReal := fun i =>
  Cert.Spec.bn (X i) (MU (ix2 0 (i 1))) (VAR (ix2 0 (i 1))) (G_ (ix2 0 (i 1))) (BE (ix2 0 (i 1)))

/-- The same function read at row r and lane j. -/
theorem bnReluArr_ix2 (X : (⟨2, ![50000, 128]⟩ : Shape).Idx → EReal) (MU VAR G_ BE : (⟨2, ![1, 128]⟩ : Shape).Idx → EReal)
    (r : Fin 50000) (j : Fin 128) :
    bnReluArr X MU VAR G_ BE (ix2 r j)
      = Cert.Spec.bn (X (ix2 r j)) (MU (ix2 0 j)) (VAR (ix2 0 j)) (G_ (ix2 0 j)) (BE (ix2 0 j)) := rfl

/-- The zero offsets of a whole-block load or store, however spelt. -/
theorem bnRelu_zeroOff : (![0, 0] : Fin 2 → Nat) = fun _ => 0 := funext fun a => by fin_cases a <;> rfl

/-- The body's payload at row r and lane j of a block: the rows broadcast over the block's rows, the operations
    entry by entry. -/
theorem k1_pay1_at (mu var g be : FVec Ideal S1x128 .f32) (x : FVec Ideal S5000x128 .f32) (r : Fin 5000) (j : Fin 128) :
    k1_pay1 (F := Ideal) mu var g be x (ix2 r j)
      = max (g (ix2 0 j) * (x (ix2 r j) - mu (ix2 0 j)) * Ideal.rsqrt (var (ix2 0 j) + Ideal.ofBits .f32 0x3727C5AC#32) + be (ix2 0 j))
          (Ideal.ofBits .f32 0x00000000#32) := by
  unfold k1_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- So the payload of a block x of X and of the four rows, at a block index y that sits at array index i (same lane),
    is the function at i. -/
theorem bnRelu1_point (X : (⟨2, ![50000, 128]⟩ : Shape).Idx → EReal) (MU VAR G_ BE : (⟨2, ![1, 128]⟩ : Shape).Idx → EReal)
    (mu var g be : FVec Ideal S1x128 .f32) (x : FVec Ideal S5000x128 .f32)
    (hmu : mu = MU) (hvar : var = VAR) (hg : g = G_) (hbe : be = BE)
    (y : S5000x128.Idx) (i : S50000x128.Idx) (hx : x y = X i) (h1 : (i 1).val = (y 1).val) :
    k1_pay1 (F := Ideal) mu var g be x y = bnReluArr X MU VAR G_ BE i := by
  subst hmu hvar hg hbe
  obtain ⟨r, j, rfl⟩ : ∃ (r : Fin 5000) (j : Fin 128), y = ix2 r j := ⟨y 0, y 1, eq_ix2 y⟩
  rw [k1_pay1_at, hx]
  have e : i 1 = j := Fin.ext h1
  unfold bnReluArr Cert.Spec.bn
  rw [e]

variable (V : (c : Dev nD) → (b : Ref sig .tc) → Buf (Elt Ideal) ((c : Thread nD τ).loc b))

/-- The printed index maps, decided over the ten points: the big input and the output move one block of rows per
    point, the four rows stay. -/
theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the big input is rows 5000 t … 5000 t + 4999 of its array. -/
theorem iblk1_0_at (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v27_0 : S50000x128.Idx → EReal) i := by
  obtain ⟨e0, e1, -⟩ := idx_facts1 t
  unfold iblk1
  rw [View.read_apply]
  show V c main_v27_0 _ = V c main_v27_0 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Each row window's block, at every point, is its whole array. -/
theorem iblk1_1_eq (c : Dev nD) (t : Fin cfg1.N) :
    (iblk1 V c 1 t : Vec Ideal S1x128 .f32) = (V c main_v27_1 : S1x128.Idx → EReal) := by
  obtain ⟨-, -, e0, e1, -⟩ := idx_facts1 t
  funext y
  unfold iblk1
  rw [View.read_apply]
  show V c main_v27_1 _ = V c main_v27_1 _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

theorem iblk1_2_eq (c : Dev nD) (t : Fin cfg1.N) :
    (iblk1 V c 2 t : Vec Ideal S1x128 .f32) = (V c main_v27_2 : S1x128.Idx → EReal) := by
  obtain ⟨-, -, -, -, e0, e1, -⟩ := idx_facts1 t
  funext y
  unfold iblk1
  rw [View.read_apply]
  show V c main_v27_2 _ = V c main_v27_2 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem iblk1_3_eq (c : Dev nD) (t : Fin cfg1.N) :
    (iblk1 V c 3 t : Vec Ideal S1x128 .f32) = (V c main_v28 : S1x128.Idx → EReal) := by
  obtain ⟨-, -, -, -, -, -, e0, e1, -⟩ := idx_facts1 t
  funext y
  unfold iblk1
  rw [View.read_apply]
  show V c main_v28 _ = V c main_v28 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem iblk1_4_eq (c : Dev nD) (t : Fin cfg1.N) :
    (iblk1 V c 4 t : Vec Ideal S1x128 .f32) = (V c main_v29 : S1x128.Idx → EReal) := by
  obtain ⟨-, -, -, -, -, -, -, -, e0, e1, -⟩ := idx_facts1 t
  funext y
  unfold iblk1
  rw [View.read_apply]
  show V c main_v29 _ = V c main_v29 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point t writes back to the output's array is block t of the function of the arrays the region finds. -/
theorem flushed1_5_eq (c : Dev nD) (t : Fin cfg1.N) :
    (dat1 V c).flushed 5 t = ((cfg1.win 5).blk t).view.read (Elt Ideal)
      (bnReluArr (V c main_v27_0) (V c main_v27_1) (V c main_v27_2) (V c main_v28) (V c main_v29)) := by
  show (cfg1.win 5).cut (grid1.coords t) ((dat1 V c).after 5 t) = _
  rw [after1_5]
  unfold out1_5
  rw [View.canon_unit_zero bnRelu_zeroOff]
  simp only [View.ld_unit_zero (S := S5000x128) bnRelu_zeroOff, View.ld_unit_zero (S := S1x128) bnRelu_zeroOff]
  obtain ⟨-, -, -, -, -, -, -, -, -, -, e0, e1⟩ := idx_facts1 t
  funext y
  show k1_pay1 (F := Ideal) (iblk1 V c 1 t) (iblk1 V c 2 t) (iblk1 V c 3 t) (iblk1 V c 4 t) (iblk1 V c 0 t) y
    = bnReluArr (V c main_v27_0) (V c main_v27_1) (V c main_v27_2) (V c main_v28) (V c main_v29) (((cfg1.win 5).blk t).view.emb y)
  refine bnRelu1_point _ _ _ _ _ _ _ _ _ _ (iblk1_1_eq V c t) (iblk1_2_eq V c t) (iblk1_3_eq V c t) (iblk1_4_eq V c t) y _ ?_ ?_
  · refine iblk1_0_at V c t y _ ?_ ?_
    · show win1_5.index t (0 : Fin 2) * 5000 + 1 * (y 0).val = t.val * 5000 + (y 0).val; rw [e0]; omega
    · show win1_5.index t (1 : Fin 2) * 128 + 1 * (y 1).val = (y 1).val; rw [e1]; omega
  · show win1_5.index t (1 : Fin 2) * 128 + 1 * (y 1).val = (y 1).val; rw [e1]; omega

/-- An index of the output's array is in point t's block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v30).slice (win1_5.rect t)).set ↔ _
  rw [View.set_slice_whole, Rect.mem_set_unit]
  exact Iff.rfl

/-- The ten blocks tile the array: row r is in the block of point r / 5000. -/
theorem covered1_5 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- THE OUTPUT ARRAY after the region: the function of the arrays the region finds, everywhere. -/
theorem final1_5 (c : Dev nD) :
    (dat1 V c).arrAt 5 cfg1.N = bnReluArr (V c main_v27_0) (V c main_v27_1) (V c main_v27_2) (V c main_v28) (V c main_v29) :=
  (dat1 V c).arrAt_eq_of_cover 5 _ (fun t _ => flushed1_5_eq V c t) covered1_5

end Cert.KernelIdeal.Hand

end
-- ==== Proof.LayerJoin.lean ====
/-
  Joining the two programs' readings of one layer.

  Both programs compute out = perceptron (h + agg) from the same real input h, the same real aggregate agg and the
  same real parameters; the kernel program then normalises with its one-pass statistics and the reference with its
  two-pass statistics.  On real data those agree, so the two results are one array, and that array is real again.
  The aggregate of a real array is real whatever the edge indices are: a gather only re-indexes, and a scatter-add
  into zeros adds finitely many gathered entries.
-/
import Idealize.ShloMosaic.Lib.ValueIdx
import proofs.«177104_j19121194402280_1_alg».proof.Proof.Spec

noncomputable section

namespace Cert.Spec

open Idealize.ShloMosaic Idealize.ShloMosaic.ValueIdx Idealize.ShloMosaic.FiniteReal

abbrev SN : Shape := ⟨2, ![50000, 128]⟩
abbrev SW : Shape := ⟨2, ![128, 128]⟩
abbrev SV : Shape := ⟨1, ![128]⟩

/-- The perceptron's output for given arrays, as a plain function of row and feature. -/
def outOf (h agg : SN.Idx → EReal) (Wa : SW.Idx → EReal) (ba : SV.Idx → EReal) (Wb : SW.Idx → EReal) (bb : SV.Idx → EReal) :
    Fin 50000 → Fin 128 → EReal :=
  mlp (fun r l => h (ix2 r l) + agg (ix2 r l)) (fun k l => Wa (ix2 k l)) (fun k => ba (ix1 k))
    (fun j k => Wb (ix2 j k)) (fun j => bb (ix1 j))

theorem outOf_real {h agg : SN.Idx → EReal} {Wa Wb : SW.Idx → EReal} {ba bb : SV.Idx → EReal}
    (hh : AllReal h) (hagg : AllReal agg) (hWa : AllReal Wa) (hba : AllReal ba) (hWb : AllReal Wb) (hbb : AllReal bb)
    (r : Fin 50000) (j : Fin 128) : IsReal (outOf h agg Wa ba Wb bb r j) :=
  mlp_real (fun r l => (hh _).add (hagg _)) (fun k l => hWa _) (fun k => hba _) (fun j k => hWb _) (fun j => hbb _) r j

/-- One layer, read both ways, is one real array. -/
theorem layer_join {h agg : SN.Idx → EReal} {Wa Wb : SW.Idx → EReal} {ba bb g be : SV.Idx → EReal}
    (hh : AllReal h) (hagg : AllReal agg) (hWa : AllReal Wa) (hba : AllReal ba) (hWb : AllReal Wb) (hbb : AllReal bb)
    (hg : AllReal g) (hbe : AllReal be) (hK hR : SN.Idx → EReal)
    (eK : ∀ r j, hK (ix2 r j) = bn (outOf h agg Wa ba Wb bb r j) (meanK (outOf h agg Wa ba Wb bb) j)
      (varK (outOf h agg Wa ba Wb bb) j) (g (ix1 j)) (be (ix1 j)))
    (eR : ∀ r j, hR (ix2 r j) = bn (outOf h agg Wa ba Wb bb r j) (meanR (outOf h agg Wa ba Wb bb) j)
      (varR (outOf h agg Wa ba Wb bb) j) (g (ix1 j)) (be (ix1 j))) :
    hK = hR ∧ AllReal hR := by
  have ho : ∀ r j, IsReal (outOf h agg Wa ba Wb bb r j) := outOf_real hh hagg hWa hba hWb hbb
  constructor
  · funext i
    obtain ⟨r, j, rfl⟩ : ∃ (r : Fin 50000) (j : Fin 128), i = ix2 r j := ⟨i 0, i 1, eq_ix2 i⟩
    rw [eK, eR]
    exact bn_agree (outOf h agg Wa ba Wb bb) ho (fun j => g (ix1 j)) (fun j => be (ix1 j)) r j
  · intro i
    obtain ⟨r, j, rfl⟩ : ∃ (r : Fin 50000) (j : Fin 128), i = ix2 r j := ⟨i 0, i 1, eq_ix2 i⟩
    rw [eR]
    exact bn_real (outOf h agg Wa ba Wb bb) ho (fun j => hg _) (fun j => hbe _) r j

/-- A gather of a real array is real. -/
theorem gather_real {s si t : Shape} {w : Nat} (d : GatherDims s si t) {x : s.Idx → EReal} (hx : AllReal x) (idx : IVec si w) :
    AllReal (Host.gather d x idx) := fun _ => hx _

/-- A scatter-add of real updates into a real operand is real. -/
theorem scatterAdd_real {s si u : Shape} {w : Nat} (d : ScatterDims s si u) {x : FVec Ideal s .f32} (idx : IVec si w)
    {upd : FVec Ideal u .f32} (hx : AllReal x) (hu : AllReal upd) : AllReal (Host.scatterAdd d x idx upd) :=
  AllReal.hostScatterAdd d idx hx hu

/-- The zero splat is real. -/
theorem zero_splat_real (s : Shape) : AllReal (constant (F := Ideal) s .f32 0x00000000#32) := fun _ => by
  show IsReal (Ideal.ofBits .f32 0x00000000#32)
  rw [Ideal.ofBits_zero_f32]; exact isReal_zero

/-- The last step, read both ways — the reference's sum of squares starts from a zero it adds — is one array. -/
theorem tail_join (hf : (⟨2, ![512, 384]⟩ : Shape).Idx → EReal) (linW : (⟨2, ![64, 384]⟩ : Shape).Idx → EReal)
    (linb : (⟨1, ![64]⟩ : Shape).Idx → EReal) (yK yR : (⟨2, ![512, 64]⟩ : Shape).Idx → EReal)
    (eK : ∀ g o, yK (ix2 g o) = l2normalize
      (proj (fun g k => hf (ix2 g k)) (fun o k => linW (ix2 o k)) (fun o => linb (ix1 o)))
      (fun g => ∑ o' : Fin 64, proj (fun g k => hf (ix2 g k)) (fun o k => linW (ix2 o k)) (fun o => linb (ix1 o)) g o'
        * proj (fun g k => hf (ix2 g k)) (fun o k => linW (ix2 o k)) (fun o => linb (ix1 o)) g o') g o)
    (eR : ∀ g o, yR (ix2 g o) = l2normalize
      (proj (fun g k => hf (ix2 g k)) (fun o k => linW (ix2 o k)) (fun o => linb (ix1 o)))
      (fun g => zeroW + ∑ o' : Fin 64, proj (fun g k => hf (ix2 g k)) (fun o k => linW (ix2 o k)) (fun o => linb (ix1 o)) g o'
        * proj (fun g k => hf (ix2 g k)) (fun o k => linW (ix2 o k)) (fun o => linb (ix1 o)) g o') g o) :
    yK = yR := by
  funext i
  obtain ⟨g, o, rfl⟩ : ∃ (g : Fin 512) (o : Fin 64), i = ix2 g o := ⟨i 0, i 1, eq_ix2 i⟩
  rw [eK, eR]
  unfold l2normalize
  simp only [show zeroW = 0 from Ideal.ofBits_zero_f32, zero_add]

end Cert.Spec

end
-- ==== Proof.KValue.lean ====
/-
  The first layer of the kernel program, read over the arguments.

  A layer is two regions with a stretch of host operations before each.  The first region leaves the perceptron's
  output of the arrays it finds, with that output's column means and variances; the second normalises and
  rectifies with them.  The arrays the first region finds are the layer's input, its aggregate over the edges, the
  two weight arguments transposed and the two bias arguments as rows; the second region finds the first one's three
  outputs and the scale and shift arguments as rows.  Read back through the fold of the buffers' contents, the
  layer's result is the normalise-and-rectify step of the perceptron's output over the arguments themselves.
-/
import proofs.«177104_j19121194402280_1_alg».proof.Proof.KCarry
import proofs.«177104_j19121194402280_1_alg».proof.Proof.Value0
import proofs.«177104_j19121194402280_1_alg».proof.Proof.Value1
import proofs.«177104_j19121194402280_1_alg».proof.Proof.LayerJoin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## The perceptron step read over the arguments -/

/-- The perceptron of the arrays a region finds is the perceptron of the arguments, when the two big arrays are the
    layer's input and its aggregate, the weight arrays the arguments' transposes and the bias rows the arguments. -/
theorem mlpArr_eq_outOf (H AGG : S50000x128.Idx → EReal) (WaT : S128x128.Idx → EReal) (BA : S1x128.Idx → EReal)
    (WbT : S128x128.Idx → EReal) (BB : S1x128.Idx → EReal)
    (h agg : Cert.Spec.SN.Idx → EReal) (Wa : Cert.Spec.SW.Idx → EReal) (ba : Cert.Spec.SV.Idx → EReal) (Wb : Cert.Spec.SW.Idx → EReal) (bb : Cert.Spec.SV.Idx → EReal)
    (eH : H = h) (eA : AGG = agg) (eWa : ∀ l k, WaT (ix2 l k) = Wa (ix2 k l)) (eba : ∀ k, BA (ix2 0 k) = ba (ix1 k))
    (eWb : ∀ k j, WbT (ix2 k j) = Wb (ix2 j k)) (ebb : ∀ j, BB (ix2 0 j) = bb (ix1 j)) (r : Fin 50000) (j : Fin 128) :
    mlpArr H AGG WaT BA WbT BB (ix2 r j) = Cert.Spec.outOf h agg Wa ba Wb bb r j := by
  subst eH eA
  rw [mlpArr_ix2]
  unfold Cert.Spec.outOf
  simp only [eWa, eba, eWb, ebb]

/-- The same as an equation of functions of row and lane. -/
theorem mlpArr_fun_eq_outOf (H AGG : S50000x128.Idx → EReal) (WaT : S128x128.Idx → EReal) (BA : S1x128.Idx → EReal)
    (WbT : S128x128.Idx → EReal) (BB : S1x128.Idx → EReal)
    (h agg : Cert.Spec.SN.Idx → EReal) (Wa : Cert.Spec.SW.Idx → EReal) (ba : Cert.Spec.SV.Idx → EReal) (Wb : Cert.Spec.SW.Idx → EReal) (bb : Cert.Spec.SV.Idx → EReal)
    (eH : H = h) (eA : AGG = agg) (eWa : ∀ l k, WaT (ix2 l k) = Wa (ix2 k l)) (eba : ∀ k, BA (ix2 0 k) = ba (ix1 k))
    (eWb : ∀ k j, WbT (ix2 k j) = Wb (ix2 j k)) (ebb : ∀ j, BB (ix2 0 j) = bb (ix1 j)) :
    (fun (r : Fin 50000) (j : Fin 128) => mlpArr H AGG WaT BA WbT BB (ix2 r j)) = Cert.Spec.outOf h agg Wa ba Wb bb :=
  funext fun r => funext fun j => mlpArr_eq_outOf H AGG WaT BA WbT BB h agg Wa ba Wb bb eH eA eWa eba eWb ebb r j

/-! ## The layers -/

/-- One layer's perceptron output over the layer's input h, the edge array and the layer's four parameter arguments:
    the aggregate is h's own, over the edges. -/
abbrev outK (h : Cert.Spec.SN.Idx → EReal) (ei : (⟨S2x600000, .i32⟩ : BufTy).Contents (Elt Ideal))
    (Wa : Cert.Spec.SW.Idx → EReal) (ba : Cert.Spec.SV.Idx → EReal) (Wb : Cert.Spec.SW.Idx → EReal) (bb : Cert.Spec.SV.Idx → EReal) :
    Fin 50000 → Fin 128 → EReal :=
  Cert.Spec.outOf h (aggK h ei) Wa ba Wb bb

/-- Layer 1's perceptron output: over the first argument, the edge array and the layer's four parameter arguments. -/
abbrev outL1 (c : Dev nD) : Fin 50000 → Fin 128 → EReal :=
  outK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- Layer 1: the array the layer's second region leaves, at row r and lane j, is the normalise-and-rectify step of
    the perceptron's output over the layer's input, its aggregate over the edges and the layer's six parameter
    arguments, with that output's own mean and variance. -/
theorem layerK1 (c : Dev nD) (r : Fin 50000) (j : Fin 128) :
    (W4 m ρ c (Proc.devRef .tc main_v30) : S50000x128.Idx → EReal) (ix2 r j)
      = Cert.Spec.bn ((outL1 m c) r j) (Cert.Spec.meanK (outL1 m c) j) (Cert.Spec.varK (outL1 m c) j)
          (((m ((c : Thread nD τ).loc main_arg7)) : Cert.Spec.SV.Idx → EReal) (ix1 j)) (((m ((c : Thread nD τ).loc main_arg8)) : Cert.Spec.SV.Idx → EReal) (ix1 j)) := by
  have eO : out0 (V1 m ρ) c = (outL1 m c) := by
    unfold out0
    exact mlpArr_fun_eq_outOf _ _ _ _ _ _ _ _ _ _ _ _
      (W1_main_arg0 m ρ c)
      (W1_v20 m ρ c)
      (fun l k => host0_v22_at (W0 m ρ c) l k)
      (fun k => host0_v25_at (W0 m ρ c) k)
      (fun k j => host0_v24_at (W0 m ρ c) k j)
      (fun j => host0_v26_at (W0 m ρ c) j)
  have e0 : (V3 m ρ c main_v27_0 : S50000x128.Idx → EReal) (ix2 r j) = (outL1 m c) r j := by
    rw [show V3 m ρ c main_v27_0 = W2 m ρ c (Proc.devRef .tc main_v27_0) from carry3_v27_0 m ρ c,
      show W2 m ρ c (Proc.devRef .tc main_v27_0) = _ from (W2_arr m ρ c 6).trans (final0_6 (V1 m ρ) c), ← eO]
    rfl
  have e1 : (V3 m ρ c main_v27_1 : S1x128.Idx → EReal) (ix2 0 j) = Cert.Spec.meanK (outL1 m c) j := by
    rw [show V3 m ρ c main_v27_1 = W2 m ρ c (Proc.devRef .tc main_v27_1) from carry3_v27_1 m ρ c,
      show W2 m ρ c (Proc.devRef .tc main_v27_1) = _ from (W2_arr m ρ c 7).trans (final0_7 (V1 m ρ) c), meanArr0_ix2, eO]
  have e2 : (V3 m ρ c main_v27_2 : S1x128.Idx → EReal) (ix2 0 j) = Cert.Spec.varK (outL1 m c) j := by
    rw [show V3 m ρ c main_v27_2 = W2 m ρ c (Proc.devRef .tc main_v27_2) from carry3_v27_2 m ρ c,
      show W2 m ρ c (Proc.devRef .tc main_v27_2) = _ from (W2_arr m ρ c 8).trans (final0_8 (V1 m ρ) c), varArr0_ix2, eO]
  have eg : (V3 m ρ c main_v28 : S1x128.Idx → EReal) (ix2 0 j) = ((m ((c : Thread nD τ).loc main_arg7)) : Cert.Spec.SV.Idx → EReal) (ix1 j) :=
    (host1_v28_at (W2 m ρ c) j).trans (congrFun (W2_main_arg7 m ρ c) (ix1 j))
  have ebe : (V3 m ρ c main_v29 : S1x128.Idx → EReal) (ix2 0 j) = ((m ((c : Thread nD τ).loc main_arg8)) : Cert.Spec.SV.Idx → EReal) (ix1 j) :=
    (host1_v29_at (W2 m ρ c) j).trans (congrFun (W2_main_arg8 m ρ c) (ix1 j))
  rw [show W4 m ρ c (Proc.devRef .tc main_v30) = _ from (W4_arr m ρ c 5).trans (final1_5 (V3 m ρ) c),
    bnReluArr_ix2, e0, e1, e2, eg, ebe]

end Cert.KernelIdeal.Hand

end
-- ==== Proof.Value2.lean ====
/-
  What the perceptron-and-statistics step of layer 2 leaves in its three output arrays, as functions of the
  arrays it finds, on the extended reals.  With H, AGG the two [50000,128] inputs, WaT, WbT the two [128,128] weight
  arrays (read [in, out]) and BA, BB the two [1,128] bias rows, the big output's entry at row r and lane j is
      out r j = (∑ k, max ((∑ l, (H r l + AGG r l) · WaT l k) + BA k) 0 · WbT k j) + BB j :
  ten grid points each write one block of 5000 rows, block t is rows 5000 t … 5000 t + 4999, the parameter arrays are
  read whole at every point, and the ten blocks tile the array.  The two scratch rows hold after point n the sums over
  the rows of blocks 0 … n of out and of out², so after the last point the whole column sums, and the two one-row
  outputs end at  (∑ r, out r j) · (1/50000)  and  (∑ r, out r j²) · (1/50000) − mean j².
-/
import proofs.«177104_j19121194402280_1_alg».proof.Proof.Region2
import proofs.«177104_j19121194402280_1_alg».proof.Proof.Value0
import proofs.«177104_j19121194402280_1_alg».proof.Proof.Spec
import proofs.«177104_j19121194402280_1_alg».proof.Proof.LibBatchStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The stored block at row r and lane j of the block: the two-layer perceptron of the sum of the two input blocks'
    rows r, the weights read [in, out], the bias rows broadcast over the block's rows. -/
theorem k2_pay7_at (x0 x1 : FVec Ideal S5000x128 .f32) (w1 : FVec Ideal S128x128 .bf16) (b1 : FVec Ideal S1x128 .f32)
    (w2 : FVec Ideal S128x128 .bf16) (b2 : FVec Ideal S1x128 .f32) (r : Fin 5000) (j : Fin 128) :
    k2_pay7 (F := Ideal) x0 x1 w1 b1 w2 b2 (ix2 r j)
      = (∑ k : Fin 128, max ((∑ l : Fin 128, (x0 (ix2 r l) + x1 (ix2 r l)) * w1 (ix2 l k)) + b1 (ix2 0 k)) Cert.Spec.zeroW * w2 (ix2 k j))
          + b2 (ix2 0 j) := by
  have hz : Ideal.ofBits .f32 0x00000000#32 = (0 : EReal) := Ideal.ofBits_zero_f32
  unfold k2_pay7
  simp only [shapeCast_self]
  rw [addf_apply, broadcastTo_1b_ab_apply, matmul0_at, constant_apply, hz, zero_add]
  refine congrArg (· + b2 (ix2 0 j)) (Finset.sum_congr rfl fun k _ => ?_)
  rw [truncf_apply, maximumf_apply, addf_apply, broadcastTo_1b_ab_apply, matmul0_at, constant_apply, hz, zero_add, broadcast_apply]
  refine congrArg (fun s => max (s + b1 (ix2 0 k)) _ * w2 (ix2 k j)) (Finset.sum_congr rfl fun l _ => ?_)
  rw [truncf_apply, addf_apply]

/-- So the payload of blocks x0, x1 of the two big arrays and of the four parameter arrays, at row r and lane j of
    the block, is the function at the array index i the block index sits at (same lane, the block's row r the array's
    row i 0). -/
theorem mlp2_point (H AGG : S50000x128.Idx → EReal) (WaT : S128x128.Idx → EReal) (BA : S1x128.Idx → EReal)
    (WbT : S128x128.Idx → EReal) (BB : S1x128.Idx → EReal)
    (x0 x1 : FVec Ideal S5000x128 .f32) (w1 : FVec Ideal S128x128 .bf16) (b1 : FVec Ideal S1x128 .f32)
    (w2 : FVec Ideal S128x128 .bf16) (b2 : FVec Ideal S1x128 .f32)
    (hw1 : w1 = WaT) (hb1 : b1 = BA) (hw2 : w2 = WbT) (hb2 : b2 = BB)
    (r : Fin 5000) (j : Fin 128) (i : S50000x128.Idx)
    (hx0 : ∀ l : Fin 128, x0 (ix2 r l) = H (ix2 (i 0) l)) (hx1 : ∀ l : Fin 128, x1 (ix2 r l) = AGG (ix2 (i 0) l))
    (h1 : i 1 = j) :
    k2_pay7 (F := Ideal) x0 x1 w1 b1 w2 b2 (ix2 r j) = mlpArr H AGG WaT BA WbT BB i := by
  subst hw1 hb1 hw2 hb2
  rw [k2_pay7_at]
  unfold mlpArr Cert.Spec.mlp
  rw [h1]
  simp only [hx0, hx1]

variable (V : (c : Dev nD) → (b : Ref sig .tc) → Buf (Elt Ideal) ((c : Thread nD τ).loc b))

/-- The printed index maps, decided over the ten points: the two big inputs and the big output move one block of rows
    per point; the parameter arrays and the two one-row outputs stay. -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Block t of each big input is rows 5000 t … 5000 t + 4999 of its array. -/
theorem iblk2_0_at (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v30 : S50000x128.Idx → EReal) i := by
  obtain ⟨e0, e1, -⟩ := idx_facts2 t
  unfold iblk2
  rw [View.read_apply]
  show V c main_v30 _ = V c main_v30 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

theorem iblk2_1_at (c : Dev nD) (t : Fin cfg2.N) (y : S5000x128.Idx) (i : S50000x128.Idx)
    (h0 : (i 0).val = t.val * 5000 + (y 0).val) (h1 : (i 1).val = (y 1).val) :
    (iblk2 V c 1 t : Vec Ideal S5000x128 .f32) y = (V c main_v40 : S50000x128.Idx → EReal) i := by
  obtain ⟨-, -, e0, e1, -⟩ := idx_facts2 t
  unfold iblk2
  rw [View.read_apply]
  show V c main_v40 _ = V c main_v40 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 128 + 1 * (y 1).val = (i 1).val; rw [e1, h1]; omega

/-- Each parameter window's block, at every point, is its whole array. -/
theorem iblk2_2_eq (c : Dev nD) (t : Fin cfg2.N) :
    (iblk2 V c 2 t : Vec Ideal S128x128 .bf16) = (V c main_v42 : S128x128.Idx → EReal) := by
  obtain ⟨-, -, -, -, e0, e1, -⟩ := idx_facts2 t
  funext y
  unfold iblk2
  rw [View.read_apply]
  show V c main_v42 _ = V c main_v42 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem iblk2_3_eq (c : Dev nD) (t : Fin cfg2.N) :
    (iblk2 V c 3 t : Vec Ideal S1x128 .f32) = (V c main_v45 : S1x128.Idx → EReal) := by
  obtain ⟨-, -, -, -, -, -, e0, e1, -⟩ := idx_facts2 t
  funext y
  unfold iblk2
  rw [View.read_apply]
  show V c main_v45 _ = V c main_v45 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem iblk2_4_eq (c : Dev nD) (t : Fin cfg2.N) :
    (iblk2 V c 4 t : Vec Ideal S128x128 .bf16) = (V c main_v44 : S128x128.Idx → EReal) := by
  obtain ⟨-, -, -, -, -, -, -, -, e0, e1, -⟩ := idx_facts2 t
  funext y
  unfold iblk2
  rw [View.read_apply]
  show V c main_v44 _ = V c main_v44 _
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem iblk2_5_eq (c : Dev nD) (t : Fin cfg2.N) :
    (iblk2 V c 5 t : Vec Ideal S1x128 .f32) = (V c main_v46 : S1x128.Idx → EReal) := by
  obtain ⟨-, -, -, -, -, -, -, -, -, -, e0, e1, -⟩ := idx_facts2 t
  funext y
  unfold iblk2
  rw [View.read_apply]
  show V c main_v46 _ = V c main_v46 _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The block point t stores, at row r and lane j of the block, is the function of the arrays at the array index that
    block index sits at. -/
theorem blkAt2_emb (c : Dev nD) (t : Fin cfg2.N) (r : Fin 5000) (j : Fin 128) :
    blkAt2 V c t (ix2 r j) = mlpArr (V c main_v30) (V c main_v40) (V c main_v42) (V c main_v45) (V c main_v44) (V c main_v46) (((cfg2.win 6).blk t).view.emb (ix2 r j)) := by
  unfold blkAt2 blk2_6
  obtain ⟨-, -, -, -, -, -, -, -, -, -, -, -, e0, e1, -⟩ := idx_facts2 t
  show k2_pay7 (F := Ideal) (iblk2 V c 0 t) (iblk2 V c 1 t) (iblk2 V c 2 t) (iblk2 V c 3 t) (iblk2 V c 4 t) (iblk2 V c 5 t) (ix2 r j)
    = mlpArr (V c main_v30) (V c main_v40) (V c main_v42) (V c main_v45) (V c main_v44) (V c main_v46) (((cfg2.win 6).blk t).view.emb (ix2 r j))
  have hrow : ((((cfg2.win 6).blk t).view.emb (ix2 r j) : S50000x128.Idx) 0).val = t.val * 5000 + r.val := by
    show win2_6.index t (0 : Fin 2) * 5000 + 1 * r.val = t.val * 5000 + r.val; rw [e0]; omega
  have hlane : (((cfg2.win 6).blk t).view.emb (ix2 r j) : S50000x128.Idx) 1 = j := by
    apply Fin.ext
    show win2_6.index t (1 : Fin 2) * 128 + 1 * j.val = j.val; rw [e1]; omega
  refine mlp2_point _ _ _ _ _ _ _ _ _ _ _ _ (iblk2_2_eq V c t) (iblk2_3_eq V c t) (iblk2_4_eq V c t) (iblk2_5_eq V c t) r j _ ?_ ?_ hlane
  · intro l
    exact iblk2_0_at V c t (ix2 r l) _ hrow rfl
  · intro l
    exact iblk2_1_at V c t (ix2 r l) _ hrow rfl

/-- What point t writes back to the big output's array is block t of the function of the arrays the region finds. -/
theorem flushed2_6_eq (c : Dev nD) (t : Fin cfg2.N) :
    (dat2 V c).flushed 6 t = ((cfg2.win 6).blk t).view.read (Elt Ideal) (mlpArr (V c main_v30) (V c main_v40) (V c main_v42) (V c main_v45) (V c main_v44) (V c main_v46)) := by
  show (cfg2.win 6).cut (grid2.coords t) ((dat2 V c).after 6 t) = _
  rw [after2_6]
  funext y
  obtain ⟨r, j, rfl⟩ : ∃ (r : Fin 5000) (j : Fin 128), y = ix2 r j := ⟨y 0, y 1, eq_ix2 y⟩
  exact blkAt2_emb V c t r j

/-- An index of the big output's array is in point t's block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v47_0).slice (win2_6.rect t)).set ↔ _
  rw [View.set_slice_whole, Rect.mem_set_unit]
  exact Iff.rfl

/-- The ten blocks tile the array: row r is in the block of point r / 5000. -/
theorem covered2_6 (i : S50000x128.Idx) :
    ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e0, e1, -⟩ := idx_facts2 t
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 128 ≤ (i 1).val ∧ (i 1).val < win2_6.index t (1 : Fin 2) * 128 + 128; rw [e1]; omega

/-- THE BIG OUTPUT ARRAY after the region: the perceptron of the arrays the region finds, everywhere. -/
theorem final2_6 (c : Dev nD) :
    (dat2 V c).arrAt 6 cfg2.N = mlpArr (V c main_v30) (V c main_v40) (V c main_v42) (V c main_v45) (V c main_v44) (V c main_v46) :=
  (dat2 V c).arrAt_eq_of_cover 6 _ (fun t _ => flushed2_6_eq V c t) covered2_6

/-! ## The statistics rows -/

/-- The running sums after a point: what the row held plus the block's column sums; -/
theorem k2_sum_at (x0 x1 : FVec Ideal S5000x128 .f32) (w1 : FVec Ideal S128x128 .bf16) (b1 : FVec Ideal S1x128 .f32)
    (w2 : FVec Ideal S128x128 .bf16) (b2 : FVec Ideal S1x128 .f32) (s : FVec Ideal S1x128 .f32) (j : Fin 128) :
    k2_pay1 (F := Ideal) (k2_pay8 (F := Ideal) x0 x1 w1 b1 w2 b2 s) (ix2 0 j)
      = s (ix2 0 j) + ∑ r : Fin 5000, k2_pay7 (F := Ideal) x0 x1 w1 b1 w2 b2 (ix2 r j) := by
  unfold k2_pay1 k2_pay8
  simp only [shapeCast_self]
  rw [addf_apply, colsum0_at]

/-- the running sums of squares likewise. -/
theorem k2_pay2_at (y : FVec Ideal S5000x128 .f32) (q : FVec Ideal S1x128 .f32) (j : Fin 128) :
    k2_pay2 (F := Ideal) y q (ix2 0 j) = q (ix2 0 j) + ∑ r : Fin 5000, y (ix2 r j) * y (ix2 r j) := by
  unfold k2_pay2
  simp only [shapeCast_self]
  rw [addf_apply, colsum0_at]
  rfl

/-- Both rows start from zero. -/
theorem k2_pay5_at (j : Fin 128) : k2_pay5 (F := Ideal) (ix2 0 j) = 0 := by
  unfold k2_pay5
  simp only [shapeCast_self]
  exact Ideal.ofBits_zero_f32
theorem k2_pay6_at (j : Fin 128) : k2_pay6 (F := Ideal) (ix2 0 j) = 0 := by
  unfold k2_pay6
  simp only [shapeCast_self]
  exact Ideal.ofBits_zero_f32

/-- The mean row: the sums times the reciprocal of the count; -/
theorem k2_pay3_at (s : FVec Ideal S1x128 .f32) (j : Fin 128) :
    k2_pay3 (F := Ideal) s (ix2 0 j) = s (ix2 0 j) * Cert.Spec.invCount := by
  unfold k2_pay3
  rw [mulf_apply, broadcast_apply, inv50000_ideal]

/-- the variance row: the sums of squares times the reciprocal, less the square of the mean. -/
theorem k2_pay4_at (s q : FVec Ideal S1x128 .f32) (j : Fin 128) :
    k2_pay4 (F := Ideal) s q (ix2 0 j)
      = q (ix2 0 j) * Cert.Spec.invCount - s (ix2 0 j) * Cert.Spec.invCount * (s (ix2 0 j) * Cert.Spec.invCount) := by
  unfold k2_pay4
  rw [subf_apply, mulf_apply, mulf_apply, broadcast_apply, inv50000_ideal, k2_pay3_at]

/-! ## The accumulated rows -/

/-- The big output's function of the arrays, as a plain function of the row and the lane. -/
def out2 (c : Dev nD) : Fin 50000 → Fin 128 → EReal := fun r j => mlpArr (V c main_v30) (V c main_v40) (V c main_v42) (V c main_v45) (V c main_v44) (V c main_v46) (ix2 r j)

/-- Row r of the block point t stores is row 5000 t + r of the array's function. -/
theorem blkAt2_at (c : Dev nD) (t : Fin cfg2.N) (r : Fin 5000) (j : Fin 128) (hlt : r.val + 5000 * t.val < 50000) :
    blkAt2 V c t (ix2 r j) = out2 V c ⟨r.val + 5000 * t.val, hlt⟩ j := by
  rw [blkAt2_emb]
  obtain ⟨-, -, -, -, -, -, -, -, -, -, -, -, e0, e1, -⟩ := idx_facts2 t
  unfold out2
  refine congrArg (mlpArr (V c main_v30) (V c main_v40) (V c main_v42) (V c main_v45) (V c main_v44) (V c main_v46)) ?_
  funext a; apply Fin.ext
  match a with
  | ⟨0, _⟩ => show win2_6.index t (0 : Fin 2) * 5000 + 1 * r.val = r.val + 5000 * t.val; rw [e0]; omega
  | ⟨1, _⟩ => show win2_6.index t (1 : Fin 2) * 128 + 1 * j.val = j.val; rw [e1]; omega

/-- The sums row after point n: the column sums of the blocks of points 0 … n. -/
theorem acc_sum2 (c : Dev nD) (j : Fin 128) : ∀ (n : ℕ) (h : n < cfg2.N),
    (accAt2 V c n h).1 (ix2 0 j) = ∑ t : Fin (n + 1), ∑ r : Fin 5000, blkAt2 V c ⟨t.val, by have := t.isLt; omega⟩ (ix2 r j)
  | 0, h => by
    show sumAt2 V c ⟨0, h⟩ (k2_pay5 (F := Ideal)) (ix2 0 j) = _
    unfold sumAt2 sum2
    rw [k2_sum_at, k2_pay5_at, zero_add, Fin.sum_univ_one]
    rfl
  | n + 1, h => by
    show sumAt2 V c ⟨n + 1, h⟩ (accAt2 V c n (Nat.lt_of_succ_lt h)).1 (ix2 0 j) = _
    unfold sumAt2 sum2
    rw [k2_sum_at, Fin.sum_univ_castSucc (n := n + 1), acc_sum2 c j n (Nat.lt_of_succ_lt h)]
    rfl

/-- The sums-of-squares row after point n likewise. -/
theorem acc_sq2 (c : Dev nD) (j : Fin 128) : ∀ (n : ℕ) (h : n < cfg2.N),
    (accAt2 V c n h).2 (ix2 0 j)
      = ∑ t : Fin (n + 1), ∑ r : Fin 5000, blkAt2 V c ⟨t.val, by have := t.isLt; omega⟩ (ix2 r j) * blkAt2 V c ⟨t.val, by have := t.isLt; omega⟩ (ix2 r j)
  | 0, h => by
    show sqAt2 V c ⟨0, h⟩ (k2_pay6 (F := Ideal)) (ix2 0 j) = _
    unfold sqAt2 sq2
    rw [k2_pay2_at, k2_pay6_at, zero_add, Fin.sum_univ_one]
    rfl
  | n + 1, h => by
    show sqAt2 V c ⟨n + 1, h⟩ (accAt2 V c n (Nat.lt_of_succ_lt h)).2 (ix2 0 j) = _
    unfold sqAt2 sq2
    rw [k2_pay2_at, Fin.sum_univ_castSucc (n := n + 1), acc_sq2 c j n (Nat.lt_of_succ_lt h)]
    rfl

/-- After the last point the two rows hold the whole column sums of the output's function and of its square. -/
theorem total_sum2 (c : Dev nD) (j : Fin 128) (n : ℕ) (h : n < cfg2.N) (hn : n = 9) :
    (accAt2 V c n h).1 (ix2 0 j) = ∑ i : Fin 50000, out2 V c i j := by
  subst hn
  rw [acc_sum2 V c j 9 h, sum_rows0]
  exact Finset.sum_congr rfl fun t _ => Finset.sum_congr rfl fun r _ => blkAt2_at V c _ r j _

theorem total_sq2 (c : Dev nD) (j : Fin 128) (n : ℕ) (h : n < cfg2.N) (hn : n = 9) :
    (accAt2 V c n h).2 (ix2 0 j) = ∑ i : Fin 50000, out2 V c i j * out2 V c i j := by
  subst hn
  rw [acc_sq2 V c j 9 h, sum_rows0]
  exact Finset.sum_congr rfl fun t _ => Finset.sum_congr rfl fun r _ => by rw [blkAt2_at V c _ r j _]

/-! ## The two one-row outputs -/

/-- The mean row and the variance row as functions of the arrays. -/
def meanArr2 (c : Dev nD) : S1x128.Idx → EReal := fun i => Cert.Spec.meanK (out2 V c) (i 1)
def varArr2 (c : Dev nD) : S1x128.Idx → EReal := fun i => Cert.Spec.varK (out2 V c) (i 1)
theorem meanArr2_ix2 (c : Dev nD) (j : Fin 128) : meanArr2 V c (ix2 0 j) = Cert.Spec.meanK (out2 V c) j := rfl
theorem varArr2_ix2 (c : Dev nD) (j : Fin 128) : varArr2 V c (ix2 0 j) = Cert.Spec.varK (out2 V c) j := rfl

/-- An index of the one-row output's array is in point t's block iff each coordinate is in the block's range. -/
theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v47_1).slice (win2_7.rect t)).set ↔ _
  rw [View.set_slice_whole, Rect.mem_set_unit]
  exact Iff.rfl

/-- The last point's block is the whole row. -/
theorem covered2_7 (i : S1x128.Idx) :
    ∃ t : Fin cfg2.N, (cfg2.win 7).flush t = true ∧ i ∈ ((cfg2.win 7).blk t).view.set := by
  have hi0 : (i 0).val < 1 := idx2_lt0 i
  have hi1 : (i 1).val < 128 := idx2_lt1 i
  obtain ⟨-, -, -, -, -, -, -, -, -, -, -, -, -, -, e0, e1, -⟩ := idx_facts2 t2_9
  refine ⟨t2_9, (flush2_7 t2_9).mpr rfl, ?_⟩
  rw [mem_blk2_7]
  intro a
  match a with
  | ⟨0, _⟩ => show win2_7.index t2_9 (0 : Fin 2) * 1 ≤ (i 0).val ∧ (i 0).val < win2_7.index t2_9 (0 : Fin 2) * 1 + 1; rw [e0]; omega
  | ⟨1, _⟩ => show win2_7.index t2_9 (1 : Fin 2) * 128 ≤ (i 1).val ∧ (i 1).val < win2_7.index t2_9 (1 : Fin 2) * 128 + 128; rw [e1]; omega

/-- An index of the one-row output's array is in point t's block iff each coordinate is in the block's range. -/
theorem mem_blk2_8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v47_2).slice (win2_8.rect t)).set ↔ _
  rw [View.set_slice_whole, Rect.mem_set_unit]
  exact Iff.rfl

/-- The last point's block is the whole row. -/
theorem covered2_8 (i : S1x128.Idx) :
    ∃ t : Fin cfg2.N, (cfg2.win 8).flush t = true ∧ i ∈ ((cfg2.win 8).blk t).view.set := by
  have hi0 : (i 0).val < 1 := idx2_lt0 i
  have hi1 : (i 1).val < 128 := idx2_lt1 i
  obtain ⟨-, -, -, -, -, -, -, -, -, -, -, -, -, -, -, -, e0, e1⟩ := idx_facts2 t2_9
  refine ⟨t2_9, (flush2_8 t2_9).mpr rfl, ?_⟩
  rw [mem_blk2_8]
  intro a
  match a with
  | ⟨0, _⟩ => show win2_8.index t2_9 (0 : Fin 2) * 1 ≤ (i 0).val ∧ (i 0).val < win2_8.index t2_9 (0 : Fin 2) * 1 + 1; rw [e0]; omega
  | ⟨1, _⟩ => show win2_8.index t2_9 (1 : Fin 2) * 128 ≤ (i 1).val ∧ (i 1).val < win2_8.index t2_9 (1 : Fin 2) * 128 + 128; rw [e1]; omega

/-- What the last point writes back to the mean row's array is the mean row of the arrays the region finds. -/
theorem flushed2_7_eq (c : Dev nD) (t : Fin cfg2.N) (hf : (cfg2.win 7).flush t = true) :
    (dat2 V c).flushed 7 t = ((cfg2.win 7).blk t).view.read (Elt Ideal) (meanArr2 V c) := by
  have h9 : t.val = 9 := by
    have h := (flush2_7 t).mp hf; have hl := t.isLt; have hN : cfg2.N = 10 := N_2; omega
  show (cfg2.win 7).cut (grid2.coords t) ((dat2 V c).after 7 t) = _
  rw [after2_7]
  obtain ⟨-, -, -, -, -, -, -, -, -, -, -, -, -, -, e0, e1, -⟩ := idx_facts2 t
  funext y
  obtain ⟨r, j, rfl⟩ : ∃ (r : Fin 1) (j : Fin 128), y = ix2 r j := ⟨y 0, y 1, eq_ix2 y⟩
  obtain rfl : r = 0 := Fin.ext (by have := r.isLt; omega)
  show mean2 (accAt2 V c t.val t.isLt).1 (ix2 0 j) = meanArr2 V c (((cfg2.win 7).blk t).view.emb (ix2 0 j))
  have hlane : (((cfg2.win 7).blk t).view.emb (ix2 0 j) : S1x128.Idx) 1 = j := by
    apply Fin.ext
    show win2_7.index t (1 : Fin 2) * 128 + 1 * j.val = j.val; rw [e1]; omega
  unfold meanArr2 mean2 Cert.Spec.meanK
  rw [hlane, k2_pay3_at, total_sum2 V c j t.val t.isLt h9]

/-- What the last point writes back to the variance row's array is the variance row of the arrays the region finds. -/
theorem flushed2_8_eq (c : Dev nD) (t : Fin cfg2.N) (hf : (cfg2.win 8).flush t = true) :
    (dat2 V c).flushed 8 t = ((cfg2.win 8).blk t).view.read (Elt Ideal) (varArr2 V c) := by
  have h9 : t.val = 9 := by
    have h := (flush2_8 t).mp hf; have hl := t.isLt; have hN : cfg2.N = 10 := N_2; omega
  show (cfg2.win 8).cut (grid2.coords t) ((dat2 V c).after 8 t) = _
  rw [after2_8]
  obtain ⟨-, -, -, -, -, -, -, -, -, -, -, -, -, -, -, -, e0, e1⟩ := idx_facts2 t
  funext y
  obtain ⟨r, j, rfl⟩ : ∃ (r : Fin 1) (j : Fin 128), y = ix2 r j := ⟨y 0, y 1, eq_ix2 y⟩
  obtain rfl : r = 0 := Fin.ext (by have := r.isLt; omega)
  show var2 (accAt2 V c t.val t.isLt).1 (accAt2 V c t.val t.isLt).2 (ix2 0 j) = varArr2 V c (((cfg2.win 8).blk t).view.emb (ix2 0 j))
  have hlane : (((cfg2.win 8).blk t).view.emb (ix2 0 j) : S1x128.Idx) 1 = j := by
    apply Fin.ext
    show win2_8.index t (1 : Fin 2) * 128 + 1 * j.val = j.val; rw [e1]; omega
  unfold varArr2 var2 Cert.Spec.varK Cert.Spec.meanK
  rw [hlane, k2_pay4_at, total_sum2 V c j t.val t.isLt h9, total_sq2 V c j t.val t.isLt h9]

/-- THE MEAN ROW'S ARRAY after the region: the kernel's mean of the big output's function, lane by lane. -/
theorem final2_7 (c : Dev nD) : (dat2 V c).arrAt 7 cfg2.N = meanArr2 V c :=
  (dat2 V c).arrAt_eq_of_cover 7 _ (fun t hf => flushed2_7_eq V c t hf) covered2_7

/-- THE VARIANCE ROW'S ARRAY after the region: the kernel's variance of the big output's function, lane by lane. -/
theorem final2_8 (c : Dev nD) : (dat2 V c).arrAt 8 cfg2.N = varArr2 V c :=
  (dat2 V c).arrAt_eq_of_cover 8 _ (fun t hf => flushed2_8_eq V c t hf) covered2_8

end Cert.KernelIdeal.Hand

end
-- ==== Proof.Value3.lean ====
/-
  What the normalise-and-rectify step of the second layer leaves in its output array, as one function of the arrays it
  finds: with X the [50000,128] input and mean, var, g, β the four [1,128] rows, the entry at row r and lane j is
      max (g j · (X r j − mean j) · rsqrt (var j + ε) + β j) 0,
  the same function as in the first layer, of this layer's arrays.  Ten grid points each write one block of 5000 rows;
  block t is rows 5000 t … 5000 t + 4999, the four rows are read whole at every point, and the ten blocks tile the array.
-/
import proofs.«177104_j19121194402280_1_alg».proof.Proof.Region3
import proofs.«177104_j19121194402280_1_alg».proof.Proof.Value1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- This layer's payload is the first layer's, operation for operation. -/
theorem k3_pay1_eq (mu var g be : FVec Ideal S1x128 .f32) (x : FVec Ideal S5000x128 .f32) :
    k3_pay1 (F := Ideal) mu var g be x = k1_pay1 (F := Ideal) mu var g be x := rfl

/-- So the payload of a block x of X and of the four rows, at a block index y that sits at array index i (same lane),
    is the function at i. -/
theorem bnRelu3_point (X : (⟨2, ![50000, 128]⟩ : Shape).Idx → EReal) (MU VAR G_ BE : (⟨2, ![1, 128]⟩ : Shape).Idx → EReal)
    (mu var g be : FVec Ideal S1x128 .f32) (x : FVec Ideal S5000x128 .f32)
    (hmu : mu = MU) (hvar : var = VAR) (hg : g = G_) (hbe : be = BE)
    (y : S5000x128.Idx) (i : S50000x128.Idx) (hx : x y = X i) (h1 : (i 1).val = (y 1).val) :
    k3_pay1 (F := Ideal) mu var g be x y = bnReluArr X MU VAR G_ BE i :=
  (congrFun (k3_pay1_eq mu var g be x) y).trans (bnRelu1_point X MU VAR G_ BE mu var g be x hmu hvar hg hbe y i hx h1)

variable (V : (c : Dev nD) → (b : Ref sig .tc) → Buf (Elt Ideal) ((c : Thread nD τ).loc b))

/-- The printed index maps, decided over the ten points: the big input and the output move one block of rows per
    point, the four rows stay. -/
theorem idx_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block t of the big input is rows 5000 t … 5000 t + 4999 of its array. -/
theorem iblk3_0_at (c : Dev nD) (t : Fin cfg3.N) (y : S5000x128.Idx) (i : S50000x128.Idx)
    (h0 : (i 0).val = t.val * 5000 + (y 0).val) (h1 : (i 1).val = (y 1).val) :
    (iblk3 V c 0 t : Vec Ideal S5000x128 .f32) y = (V c main_v47_0 : S50000x128.Idx → EReal) i := by
  obtain ⟨e0, e1, -⟩ := idx_facts3 t
  unfold iblk3
  rw [View.read_apply]
  show V c main_v47_0 _ = V c main_v47_0 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- Each row window's block, at every point, is its whole array. -/
theorem iblk3_1_eq (c : Dev nD) (t : Fin cfg3.N) :
    (iblk3 V c 1 t : Vec Ideal S1x128 .f32) = (V c main_v47_1 : S1x128.Idx → EReal) := by
  obtain ⟨-, -, e0, e1, -⟩ := idx_facts3 t
  funext y
  unfold iblk3
  rw [View.read_apply]
  show V c main_v47_1 _ = V c main_v47_1 _
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

theorem iblk3_2_eq (c : Dev nD) (t : Fin cfg3.N) :
    (iblk3 V c 2 t : Vec Ideal S1x128 .f32) = (V c main_v47_2 : S1x128.Idx → EReal) := by
  obtain ⟨-, -, -, -, e0, e1, -⟩ := idx_facts3 t
  funext y
  unfold iblk3
  rw [View.read_apply]
  show V c main_v47_2 _ = V c main_v47_2 _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem iblk3_3_eq (c : Dev nD) (t : Fin cfg3.N) :
    (iblk3 V c 3 t : Vec Ideal S1x128 .f32) = (V c main_v48 : S1x128.Idx → EReal) := by
  obtain ⟨-, -, -, -, -, -, e0, e1, -⟩ := idx_facts3 t
  funext y
  unfold iblk3
  rw [View.read_apply]
  show V c main_v48 _ = V c main_v48 _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem iblk3_4_eq (c : Dev nD) (t : Fin cfg3.N) :
    (iblk3 V c 4 t : Vec Ideal S1x128 .f32) = (V c main_v49 : S1x128.Idx → EReal) := by
  obtain ⟨-, -, -, -, -, -, -, -, e0, e1, -⟩ := idx_facts3 t
  funext y
  unfold iblk3
  rw [View.read_apply]
  show V c main_v49 _ = V c main_v49 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- What point t writes back to the output's array is block t of the function of the arrays the region finds. -/
theorem flushed3_5_eq (c : Dev nD) (t : Fin cfg3.N) :
    (dat3 V c).flushed 5 t = ((cfg3.win 5).blk t).view.read (Elt Ideal)
      (bnReluArr (V c main_v47_0) (V c main_v47_1) (V c main_v47_2) (V c main_v48) (V c main_v49)) := by
  show (cfg3.win 5).cut (grid3.coords t) ((dat3 V c).after 5 t) = _
  rw [after3_5]
  unfold out3_5
  rw [View.canon_unit_zero bnRelu_zeroOff]
  simp only [View.ld_unit_zero (S := S5000x128) bnRelu_zeroOff, View.ld_unit_zero (S := S1x128) bnRelu_zeroOff]
  obtain ⟨-, -, -, -, -, -, -, -, -, -, e0, e1⟩ := idx_facts3 t
  funext y
  show k3_pay1 (F := Ideal) (iblk3 V c 1 t) (iblk3 V c 2 t) (iblk3 V c 3 t) (iblk3 V c 4 t) (iblk3 V c 0 t) y
    = bnReluArr (V c main_v47_0) (V c main_v47_1) (V c main_v47_2) (V c main_v48) (V c main_v49) (((cfg3.win 5).blk t).view.emb y)
  refine bnRelu3_point _ _ _ _ _ _ _ _ _ _ (iblk3_1_eq V c t) (iblk3_2_eq V c t) (iblk3_3_eq V c t) (iblk3_4_eq V c t) y _ ?_ ?_
  · refine iblk3_0_at V c t y _ ?_ ?_
    · show win3_5.index t (0 : Fin 2) * 5000 + 1 * (y 0).val = t.val * 5000 + (y 0).val; rw [e0]; omega
    · show win3_5.index t (1 : Fin 2) * 128 + 1 * (y 1).val = (y 1).val; rw [e1]; omega
  · show win3_5.index t (1 : Fin 2) * 128 + 1 * (y 1).val = (y 1).val; rw [e1]; omega

/-- An index of the output's array is in point t's block iff each coordinate is in the block's range on its axis. -/
theorem mem_blk3_5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v50).slice (win3_5.rect t)).set ↔ _
  rw [View.set_slice_whole, Rect.mem_set_unit]
  exact Iff.rfl

/-- The ten blocks tile the array: row r is in the block of point r / 5000. -/
theorem covered3_5 (i : S50000x128.Idx) :
    ∃ t : Fin cfg3.N, (cfg3.win 5).flush t = true ∧ i ∈ ((cfg3.win 5).blk t).view.set := by
  have hi0 : (i 0).val < 50000 := idx2_lt0 i
  have hi1 : (i 1).val < 128 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts3 t
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- THE OUTPUT ARRAY after the region: the function of the arrays the region finds, everywhere. -/
theorem final3_5 (c : Dev nD) :
    (dat3 V c).arrAt 5 cfg3.N = bnReluArr (V c main_v47_0) (V c main_v47_1) (V c main_v47_2) (V c main_v48) (V c main_v49) :=
  (dat3 V c).arrAt_eq_of_cover 5 _ (fun t _ => flushed3_5_eq V c t) covered3_5

end Cert.KernelIdeal.Hand

end
-- ==== Proof.KValue2.lean ====
/-
  The second layer as the kernel program computes it, read off the fold of the buffers' contents through the program.
  With h the first layer's result as region 2 finds it, ei the edge array and Wa, ba, Wb, bb, g, β the layer's six
  parameter arguments: stretch 2 hands region 2 the aggregate of h over the edges, the two weight matrices transposed
  and the two biases as rows, so region 2's big output is  out = perceptron (h + agg h)  with the weights read as the
  arguments hold them, and its two one-row outputs are the one-pass mean and variance of out; stretch 3 hands region 3
  the scale and shift as rows, and region 3 leaves  max (g · (out − mean) · rsqrt (var + ε) + β) 0  in the array the
  third layer reads.
-/
import proofs.«177104_j19121194402280_1_alg».proof.Proof.KCarry
import proofs.«177104_j19121194402280_1_alg».proof.Proof.Value2
import proofs.«177104_j19121194402280_1_alg».proof.Proof.Value3
import proofs.«177104_j19121194402280_1_alg».proof.Proof.LayerJoin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window BodyObligation cellOf)
open Idealize.ShloMosaic.ValueIdx

/-- The perceptron of equal data is equal. -/
theorem mlp_congr_K2 {z z' : Fin 50000 → Fin 128 → EReal} {Wa Wa' Wb Wb' : Fin 128 → Fin 128 → EReal} {ba ba' bb bb' : Fin 128 → EReal}
    (hz : ∀ r l, z r l = z' r l) (hWa : ∀ k l, Wa k l = Wa' k l) (hba : ∀ k, ba k = ba' k)
    (hWb : ∀ j k, Wb j k = Wb' j k) (hbb : ∀ j, bb j = bb' j) (r : Fin 50000) (j : Fin 128) :
    Cert.Spec.mlp z Wa ba Wb bb r j = Cert.Spec.mlp z' Wa' ba' Wb' bb' r j := by
  obtain rfl : z = z' := funext fun r => funext fun l => hz r l
  obtain rfl : Wa = Wa' := funext fun k => funext fun l => hWa k l
  obtain rfl : ba = ba' := funext hba
  obtain rfl : Wb = Wb' := funext fun j => funext fun k => hWb j k
  obtain rfl : bb = bb' := funext hbb
  rfl

/-- One entry of the normalise-and-rectify step at equal data is equal. -/
theorem bn_congr_K2 {a b c d e a' b' c' d' e' : EReal} (h1 : a = a') (h2 : b = b') (h3 : c = c') (h4 : d = d') (h5 : e = e') :
    Cert.Spec.bn a b c d e = Cert.Spec.bn a' b' c' d' e' := by
  subst h1 h2 h3 h4 h5; rfl

variable (m : (ℓ : Loc nD τ sig) → Buf (Elt Ideal) ℓ) (ρ : Dev nD → PrngReg)

/-- Region 2's big output as a function of what region 2 finds is the perceptron of the first layer's result plus its
    aggregate over the edges, with the layer's weight and bias arguments as the program was given them. -/
theorem out2_entry (c : Dev nD) :
    out2 (V5 m ρ) c = Cert.Spec.outOf (W4 m ρ c (Proc.devRef .tc main_v30))
      (aggK (W4 m ρ c (Proc.devRef .tc main_v30)) (m ((c : Thread nD τ).loc main_arg1)))
      (m ((c : Thread nD τ).loc main_arg9)) (m ((c : Thread nD τ).loc main_arg10)) (m ((c : Thread nD τ).loc main_arg11)) (m ((c : Thread nD τ).loc main_arg12)) := by
  have h30 : V5 m ρ c main_v30 = W4 m ρ c (Proc.devRef .tc main_v30) := carry5_v30 m ρ c
  have h40 : V5 m ρ c main_v40 = aggK (W4 m ρ c (Proc.devRef .tc main_v30)) (m ((c : Thread nD τ).loc main_arg1)) := by
    show StableHlo.after (hostOps2 (F := Ideal)) (W4 m ρ c) (Proc.devRef .tc main_v40) = _
    rw [host2_v40, carry4_v1, carry4_v3, W1_v1, W1_v3]
    rfl
  funext r j
  show mlpArr (V5 m ρ c main_v30) (V5 m ρ c main_v40) (V5 m ρ c main_v42) (V5 m ρ c main_v45) (V5 m ρ c main_v44) (V5 m ρ c main_v46) (ix2 r j) = _
  rw [mlpArr_ix2, h30, h40]
  unfold Cert.Spec.outOf
  refine mlp_congr_K2 (fun _ _ => rfl) (fun k l => ?_) (fun k => ?_) (fun j k => ?_) (fun j => ?_) r j
  · exact (host2_v42_at (W4 m ρ c) l k).trans (congrFun (W4_main_arg9 m ρ c) (ix2 k l))
  · exact (host2_v45_at (W4 m ρ c) k).trans (congrFun (W4_main_arg10 m ρ c) (ix1 k))
  · exact (host2_v44_at (W4 m ρ c) k j).trans (congrFun (W4_main_arg11 m ρ c) (ix2 j k))
  · exact (host2_v46_at (W4 m ρ c) j).trans (congrFun (W4_main_arg12 m ρ c) (ix1 j))

/-- THE SECOND LAYER, as the kernel program leaves it in the array the third layer reads: at row r and feature j the
    normalised and rectified perceptron output, normalised with the one-pass statistics. -/
theorem layerK2 (c : Dev nD) (r : Fin 50000) (j : Fin 128) :
    (W8 m ρ c (Proc.devRef .tc main_v50)) (ix2 r j)
      = Cert.Spec.bn
          (Cert.Spec.outOf (W4 m ρ c (Proc.devRef .tc main_v30)) (aggK (W4 m ρ c (Proc.devRef .tc main_v30)) (m ((c : Thread nD τ).loc main_arg1)))
            (m ((c : Thread nD τ).loc main_arg9)) (m ((c : Thread nD τ).loc main_arg10)) (m ((c : Thread nD τ).loc main_arg11)) (m ((c : Thread nD τ).loc main_arg12)) r j)
          (Cert.Spec.meanK (Cert.Spec.outOf (W4 m ρ c (Proc.devRef .tc main_v30)) (aggK (W4 m ρ c (Proc.devRef .tc main_v30)) (m ((c : Thread nD τ).loc main_arg1)))
            (m ((c : Thread nD τ).loc main_arg9)) (m ((c : Thread nD τ).loc main_arg10)) (m ((c : Thread nD τ).loc main_arg11)) (m ((c : Thread nD τ).loc main_arg12))) j)
          (Cert.Spec.varK (Cert.Spec.outOf (W4 m ρ c (Proc.devRef .tc main_v30)) (aggK (W4 m ρ c (Proc.devRef .tc main_v30)) (m ((c : Thread nD τ).loc main_arg1)))
            (m ((c : Thread nD τ).loc main_arg9)) (m ((c : Thread nD τ).loc main_arg10)) (m ((c : Thread nD τ).loc main_arg11)) (m ((c : Thread nD τ).loc main_arg12))) j)
          ((m ((c : Thread nD τ).loc main_arg13)) (ix1 j)) ((m ((c : Thread nD τ).loc main_arg14)) (ix1 j)) := by
  have h8 : W8 m ρ c (Proc.devRef .tc main_v50) = (dat3 (V7 m ρ) c).arrAt 5 cfg3.N := W8_arr m ρ c 5
  have hX : V7 m ρ c main_v47_0 = mlpArr (V5 m ρ c main_v30) (V5 m ρ c main_v40) (V5 m ρ c main_v42) (V5 m ρ c main_v45) (V5 m ρ c main_v44) (V5 m ρ c main_v46) :=
    (carry7_v47_0 m ρ c).trans ((W6_arr m ρ c 6).trans (final2_6 (V5 m ρ) c))
  have hM : V7 m ρ c main_v47_1 = meanArr2 (V5 m ρ) c :=
    (carry7_v47_1 m ρ c).trans ((W6_arr m ρ c 7).trans (final2_7 (V5 m ρ) c))
  have hV : V7 m ρ c main_v47_2 = varArr2 (V5 m ρ) c :=
    (carry7_v47_2 m ρ c).trans ((W6_arr m ρ c 8).trans (final2_8 (V5 m ρ) c))
  refine (congrFun (h8.trans (final3_5 (V7 m ρ) c)) (ix2 r j)).trans ?_
  rw [bnReluArr_ix2]
  refine bn_congr_K2 ?_ ?_ ?_ ?_ ?_
  · exact (congrFun hX (ix2 r j)).trans (congrFun (congrFun (out2_entry m ρ c) r) j)
  · rw [hM, meanArr2_ix2, out2_entry]
  · rw [hV, varArr2_ix2, out2_entry]
  · exact (host3_v48_at (W6 m ρ c) j).trans (congrFun (W6_main_arg13 m ρ c) (ix1 j))
  · exact (host3_v49_at (W6 m ρ c) j).trans (congrFun (W6_main_arg14 m ρ c) (ix1 j))

end Cert.KernelIdeal.Hand

end
-- ==== Proof.Value4.lean ====
/-
  What the perceptron-and-statistics step of layer 3 leaves in its three output arrays, as functions of the
  arrays it finds, on the extended reals.  With H, AGG the two [50000,128] inputs, WaT, WbT the two [128,128] weight
  arrays (read [in, out]) and BA, BB the two [1,128] bias rows, the big output's entry at row r and lane j is
      out r j = (∑ k, max ((∑ l, (H r l + AGG r l) · WaT l k) + BA k) 0 · WbT k j) + BB j :
  ten grid points each write one block of 5000 rows, block t is rows 5000 t … 5000 t + 4999, the parameter arrays are
  read whole at every point, and the ten blocks tile the array.  The two scratch rows hold after point n the sums over
  the rows of blocks 0 … n of out and of out², so after the last point the whole column sums, and the two one-row
  outputs end at  (∑ r, out r j) · (1/50000)  and  (∑ r, out r j²) · (1/50000) − mean j².
-/
import proofs.«177104_j19121194402280_1_alg».proof.Proof.Region4
import proofs.«177104_j19121194402280_1_alg».proof.Proof.Value0
import proofs.«177104_j19121194402280_1_alg».proof.Proof.Spec
import proofs.«177104_j19121194402280_1_alg».proof.Proof.LibBatchStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The stored block at row r and lane j of the block: the two-layer perceptron of the sum of the two input blocks'
    rows r, the weights read [in, out], the bias rows broadcast over the block's rows. -/
theorem k4_pay7_at (x0 x1 : FVec Ideal S5000x128 .f32) (w1 : FVec Ideal S128x128 .bf16) (b1 : FVec Ideal S1x128 .f32)
    (w2 : FVec Ideal S128x128 .bf16) (b2 : FVec Ideal S1x128 .f32) (r : Fin 5000) (j : Fin 128) :
    k4_pay7 (F := Ideal) x0 x1 w1 b1 w2 b2 (ix2 r j)
      = (∑ k : Fin 128, max ((∑ l : Fin 128, (x0 (ix2 r l) + x1 (ix2 r l)) * w1 (ix2 l k)) + b1 (ix2 0 k)) Cert.Spec.zeroW * w2 (ix2 k j))
          + b2 (ix2 0 j) := by
  have hz : Ideal.ofBits .f32 0x00000000#32 = (0 : EReal) := Ideal.ofBits_zero_f32
  unfold k4_pay7
  simp only [shapeCast_self]
  rw [addf_apply, broadcastTo_1b_ab_apply, matmul0_at, constant_apply, hz, zero_add]
  refine congrArg (· + b2 (ix2 0 j)) (Finset.sum_congr rfl fun k _ => ?_)
  rw [truncf_apply, maximumf_apply, addf_apply, broadcastTo_1b_ab_apply, matmul0_at, constant_apply, hz, zero_add, broadcast_apply]
  refine congrArg (fun s => max (s + b1 (ix2 0 k)) _ * w2 (ix2 k j)) (Finset.sum_congr rfl fun l _ => ?_)
  rw [truncf_apply, addf_apply]

/-- So the payload of blocks x0, x1 of the two big arrays and of the four parameter arrays, at row r and lane j of
    the block, is the function at the array index i the block index sits at (same lane, the block's row r the array's
    row i 0). -/
theorem mlp4_point (H AGG : S50000x128.Idx → EReal) (WaT : S128x128.Idx → EReal) (BA : S1x128.Idx → EReal)
    (WbT : S128x128.Idx → EReal) (BB : S1x128.Idx → EReal)
    (x0 x1 : FVec Ideal S5000x128 .f32) (w1 : FVec Ideal S128x128 .bf16) (b1 : FVec Ideal S1x128 .f32)
    (w2 : FVec Ideal S128x128 .bf16) (b2 : FVec Ideal S1x128 .f32)
    (hw1 : w1 = WaT) (hb1 : b1 = BA) (hw2 : w2 = WbT) (hb2 : b2 = BB)
    (r : Fin 5000) (j : Fin 128) (i : S50000x128.Idx)
    (hx0 : ∀ l : Fin 128, x0 (ix2 r l) = H (ix2 (i 0) l)) (hx1 : ∀ l : Fin 128, x1 (ix2 r l) = AGG (ix2 (i 0) l))
    (h1 : i 1 = j) :
    k4_pay7 (F := Ideal) x0 x1 w1 b1 w2 b2 (ix2 r j) = mlpArr H AGG WaT BA WbT BB i := by
  subst hw1 hb1 hw2 hb2
  rw [k4_pay7_at]
  unfold mlpArr Cert.Spec.mlp
  rw [h1]
  simp only [hx0, hx1]

variable (V : (c : Dev nD) → (b : Ref sig .tc) → Buf (Elt Ideal) ((c : Thread nD τ).loc b))

/-- The printed index maps, decided over the ten points: the two big inputs and the big output move one block of rows
    per point; the parameter arrays and the two one-row outputs stay. -/
theorem idx_facts4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Block t of each big input is rows 5000 t … 5000 t + 4999 of its array. -/
theorem iblk4_0_at (c : Dev nD) (t : Fin cfg4.N) (y : S5000x128.Idx) (i : S50000x128.Idx)
    (h0 : (i 0).val = t.val * 5000 + (y 0).val) (h1 : (i 1).val = (y 1).val) :
    (iblk4 V c 0 t : Vec Ideal S5000x128 .f32) y = (V c main_v50 : S50000x128.Idx → EReal) i := by
  obtain ⟨e0, e1, -⟩ := idx_facts4 t
  unfold iblk4
  rw [View.read_apply]
  show V c main_v50 _ = V c main_v50 _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

theorem iblk4_1_at (c : Dev nD) (t : Fin cfg4.N) (y : S5000x128.Idx) (i : S50000x128.Idx)
    (h0 : (i 0).val = t.val * 5000 + (y 0).val) (h1 : (i 1).val = (y 1).val) :
    (iblk4 V c 1 t : Vec Ideal S5000x128 .f32) y = (V c main_v60 : S50000x128.Idx → EReal) i := by
  obtain ⟨-, -, e0, e1, -⟩ := idx_facts4 t
  unfold iblk4
  rw [View.read_apply]
  show V c main_v60 _ = V c main_v60 _
  congr 1
  funext a
  apply Fin.ext
  match a with
  | ⟨0, _⟩ => show win4_1.index t (0 : Fin 2) * 5000 + 1 * (y 0).val = (i 0).val; rw [e0, h0]; omega
  | ⟨1, _⟩ => show win4_1.index t (1 : Fin 2) * 128 + 1 * (y 1).val = (i 1).val; rw [e1, h1]; omega

/-- Each parameter window's block, at every point, is its whole array. -/
theorem iblk4_2_eq (c : Dev nD) (t : Fin cfg4.N) :
    (iblk4 V c 2 t : Vec Ideal S128x128 .bf16) = (V c main_v62 : S128x128.Idx → EReal) := by
  obtain ⟨-, -, -, -, e0, e1, -⟩ := idx_facts4 t
  funext y
  unfold iblk4
  rw [View.read_apply]
  show V c main_v62 _ = V c main_v62 _
  congr 1
  funext a
  apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

theorem iblk4_3_eq (c : Dev nD) (t : Fin cfg4.N) :
    (iblk4 V c 3 t : Vec Ideal S1x128 .f32) = (V c main_v65 : S1x128.Idx → EReal) := by
  obtain ⟨-, -, -, -, -, -, e0, e1, -⟩ := idx_facts4 t
  funext y
  unfold iblk4
  rw [View.read_apply]
  show V c main_v65 _ = V c main_v65 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

theorem iblk4_4_eq (c : Dev nD) (t : Fin cfg4.N) :
    (iblk4 V c 4 t : Vec Ideal S128x128 .bf16) = (V c main_v64 : S128x128.Idx → EReal) := by
  obtain ⟨-, -, -, -, -, -, -, -, e0, e1, -⟩ := idx_facts4 t
  funext y
  unfold iblk4
  rw [View.read_apply]
  show V c main_v64 _ = V c main_v64 _
  congr 1
  funext a
  apply Fin.ext
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega

theorem iblk4_5_eq (c : Dev nD) (t : Fin cfg4.N) :
    (iblk4 V c 5 t : Vec Ideal S1x128 .f32) = (V c main_v66 : S1x128.Idx → EReal) := by
  obtain ⟨-, -, -, -, -, -, -, -, -, -, e0, e1, -⟩ := idx_facts4 t
  funext y
  unfold iblk4
  rw [View.read_apply]
  show V c main_v66 _ = V c main_v66 _
  congr 1
  funext a
  apply Fin.ext
  match a with
  | ⟨0, _⟩ => show win4_5.index t (0 : Fin 2) * 1 + 1 * (y 0).val = (y 0).val; rw [e0]; omega
  | ⟨1, _⟩ => show win4_5.index t (1 : Fin 2) * 128 + 1 * (y 1).val = (y 1).val; rw [e1]; omega

/-- The block point t stores, at row r and lane j of the block, is the function of the arrays at the array index that
    block index sits at. -/
theorem blkAt4_emb (c : Dev nD) (t : Fin cfg4.N) (r : Fin 5000) (j : Fin 128) :
    blkAt4 V c t (ix2 r j) = mlpArr (V c main_v50) (V c main_v60) (V c main_v62) (V c main_v65) (V c main_v64) (V c main_v66) (((cfg4.win 6).blk t).view.emb (ix2 r j)) := by
  unfold blkAt4 blk4_6
  obtain ⟨-, -, -, -, -, -, -, -, -, -, -, -, e0, e1, -⟩ := idx_facts4 t
  show k4_pay7 (F := Ideal) (iblk4 V c 0 t) (iblk4 V c 1 t) (iblk4 V c 2 t) (iblk4 V c 3 t) (iblk4 V c 4 t) (iblk4 V c 5 t) (ix2 r j)
    = mlpArr (V c main_v50) (V c main_v60) (V c main_v62) (V c main_v65) (V c main_v64) (V c main_v66) (((cfg4.win 6).blk t).view.emb (ix2 r j))
  have hrow : ((((cfg4.win 6).blk t).view.emb (ix2 r j) : S50000x128.Idx) 0).val = t.val * 5000 + r.val := by
    show win4_6.index t (0 : Fin 2) * 5000 + 1 * r.val = t.val * 5000 + r.val; rw [e0]; omega
  have hlane : (((cfg4.win 6).blk t).view.emb (ix2 r j) : S50000x128.Idx) 1 = j := by
    apply Fin.ext
    show win4_6.index t (1 : Fin 2) * 128 + 1 * j.val = j.val; rw [e1]; omega
  refine mlp4_point _ _ _ _ _ _ _ _ _ _ _ _ (iblk4_2_eq V c t) (iblk4_3_eq V c t) (iblk4_4_eq V c t) (iblk4_5_eq V c t) r j _ ?_ ?_ hlane
  · intro l
    exact iblk4_0_at V c t (ix2 r l) _ hrow rfl
  · intro l
    exact iblk4_1_at V c t (ix2 r l) _ hrow rfl

/-- What point t writes back to the big output's array is block t of the function of the arrays the region finds. -/
theorem flushed4_6_eq (c : Dev nD) (t : Fin cfg4.N) :
    (dat4 V c).flushed 6 t = ((cfg4.win 6).blk t).view.read (Elt Ideal) (mlpArr (V c main_v50) (V c main_v60) (V c main_v62) (V c main_v65) (V c main_v64) (V c main_v66)) := by
  show (cfg4.win 6).cut (grid4.coords t) ((dat4 V c).after 6 t) = _
  rw [after4_6]
  funext y
  obtain ⟨r, j, rfl⟩ : ∃ (r : Fin 5000) (j : Fin 128), y = ix2 r j := ⟨y 0, y 1, eq_ix2 y⟩
  exact blkAt4_emb V c t r j

/-- An index of the big output's array is in point t's block iff each coordinate is in the block's range on its axis. -/
theorem mem_blk4_6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v67_0).slice (win4_6.rect t)).set ↔ _
  rw [View.set_slice_whole, Rect.mem_set_unit]
  exact Iff.rfl

/-- The ten blocks tile the array: row r is in the block of point r / 5000. -/
theorem covered4_6 (i : S50000x128.Idx) :
    ∃ t : Fin cfg4.N, (cfg4.win 6).flush t = true ∧ i ∈ ((cfg4.win 6).blk t).view.set := by
  have hi0 : (i 0).val < 50000 := idx2_lt0 i
  have hi1 : (i 1).val < 128 := idx2_lt1 i
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, e0, e1, -⟩ := idx_facts4 t
  refine ⟨t, flush4_6 t, ?_⟩
  rw [mem_blk4_6]
  intro a
  match a with
  | ⟨0, _⟩ => show win4_6.index t (0 : Fin 2) * 5000 ≤ (i 0).val ∧ (i 0).val < win4_6.index t (0 : Fin 2) * 5000 + 5000; rw [e0, ht]; omega
  | ⟨1, _⟩ => show win4_6.index t (1 : Fin 2) * 128 ≤ (i 1).val ∧ (i 1).val < win4_6.index t (1 : Fin 2) * 128 + 128; rw [e1]; omega

/-- THE BIG OUTPUT ARRAY after the region: the perceptron of the arrays the region finds, everywhere. -/
theorem final4_6 (c : Dev nD) :
    (dat4 V c).arrAt 6 cfg4.N = mlpArr (V c main_v50) (V c main_v60) (V c main_v62) (V c main_v65) (V c main_v64) (V c main_v66) :=
  (dat4 V c).arrAt_eq_of_cover 6 _ (fun t _ => flushed4_6_eq V c t) covered4_6

/-! ## The statistics rows -/

/-- The running sums after a point: what the row held plus the block's column sums; -/
theorem k4_sum_at (x0 x1 : FVec Ideal S5000x128 .f32) (w1 : FVec Ideal S128x128 .bf16) (b1 : FVec Ideal S1x128 .f32)
    (w2 : FVec Ideal S128x128 .bf16) (b2 : FVec Ideal S1x128 .f32) (s : FVec Ideal S1x128 .f32) (j : Fin 128) :
    k4_pay1 (F := Ideal) (k4_pay8 (F := Ideal) x0 x1 w1 b1 w2 b2 s) (ix2 0 j)
      = s (ix2 0 j) + ∑ r : Fin 5000, k4_pay7 (F := Ideal) x0 x1 w1 b1 w2 b2 (ix2 r j) := by
  unfold k4_pay1 k4_pay8
  simp only [shapeCast_self]
  rw [addf_apply, colsum0_at]

/-- the running sums of squares likewise. -/
theorem k4_pay2_at (y : FVec Ideal S5000x128 .f32) (q : FVec Ideal S1x128 .f32) (j : Fin 128) :
    k4_pay2 (F := Ideal) y q (ix2 0 j) = q (ix2 0 j) + ∑ r : Fin 5000, y (ix2 r j) * y (ix2 r j) := by
  unfold k4_pay2
  simp only [shapeCast_self]
  rw [addf_apply, colsum0_at]
  rfl

/-- Both rows start from zero. -/
theorem k4_pay5_at (j : Fin 128) : k4_pay5 (F := Ideal) (ix2 0 j) = 0 := by
  unfold k4_pay5
  simp only [shapeCast_self]
  exact Ideal.ofBits_zero_f32
theorem k4_pay6_at (j : Fin 128) : k4_pay6 (F := Ideal) (ix2 0 j) = 0 := by
  unfold k4_pay6
  simp only [shapeCast_self]
  exact Ideal.ofBits_zero_f32

/-- The mean row: the sums times the reciprocal of the count; -/
theorem k4_pay3_at (s : FVec Ideal S1x128 .f32) (j : Fin 128) :
    k4_pay3 (F := Ideal) s (ix2 0 j) = s (ix2 0 j) * Cert.Spec.invCount := by
  unfold k4_pay3
  rw [mulf_apply, broadcast_apply, inv50000_ideal]

/-- the variance row: the sums of squares times the reciprocal, less the square of the mean. -/
theorem k4_pay4_at (s q : FVec Ideal S1x128 .f32) (j : Fin 128) :
    k4_pay4 (F := Ideal) s q (ix2 0 j)
      = q (ix2 0 j) * Cert.Spec.invCount - s (ix2 0 j) * Cert.Spec.invCount * (s (ix2 0 j) * Cert.Spec.invCount) := by
  unfold k4_pay4
  rw [subf_apply, mulf_apply, mulf_apply, broadcast_apply, inv50000_ideal, k4_pay3_at]

/-! ## The accumulated rows -/

/-- The big output's function of the arrays, as a plain function of the row and the lane. -/
def out4 (c : Dev nD) : Fin 50000 → Fin 128 → EReal := fun r j => mlpArr (V c main_v50) (V c main_v60) (V c main_v62) (V c main_v65) (V c main_v64) (V c main_v66) (ix2 r j)

/-- Row r of the block point t stores is row 5000 t + r of the array's function. -/
theorem blkAt4_at (c : Dev nD) (t : Fin cfg4.N) (r : Fin 5000) (j : Fin 128) (hlt : r.val + 5000 * t.val < 50000) :
    blkAt4 V c t (ix2 r j) = out4 V c ⟨r.val + 5000 * t.val, hlt⟩ j := by
  rw [blkAt4_emb]
  obtain ⟨-, -, -, -, -, -, -, -, -, -, -, -, e0, e1, -⟩ := idx_facts4 t
  unfold out4
  refine congrArg (mlpArr (V c main_v50) (V c main_v60) (V c main_v62) (V c main_v65) (V c main_v64) (V c main_v66)) ?_
  funext a; apply Fin.ext
  match a with
  | ⟨0, _⟩ => show win4_6.index t (0 : Fin 2) * 5000 + 1 * r.val = r.val + 5000 * t.val; rw [e0]; omega
  | ⟨1, _⟩ => show win4_6.index t (1 : Fin 2) * 128 + 1 * j.val = j.val; rw [e1]; omega

/-- The sums row after point n: the column sums of the blocks of points 0 … n. -/
theorem acc_sum4 (c : Dev nD) (j : Fin 128) : ∀ (n : ℕ) (h : n < cfg4.N),
    (accAt4 V c n h).1 (ix2 0 j) = ∑ t : Fin (n + 1), ∑ r : Fin 5000, blkAt4 V c ⟨t.val, by have := t.isLt; omega⟩ (ix2 r j)
  | 0, h => by
    show sumAt4 V c ⟨0, h⟩ (k4_pay5 (F := Ideal)) (ix2 0 j) = _
    unfold sumAt4 sum4
    rw [k4_sum_at, k4_pay5_at, zero_add, Fin.sum_univ_one]
    rfl
  | n + 1, h => by
    show sumAt4 V c ⟨n + 1, h⟩ (accAt4 V c n (Nat.lt_of_succ_lt h)).1 (ix2 0 j) = _
    unfold sumAt4 sum4
    rw [k4_sum_at, Fin.sum_univ_castSucc (n := n + 1), acc_sum4 c j n (Nat.lt_of_succ_lt h)]
    rfl

/-- The sums-of-squares row after point n likewise. -/
theorem acc_sq4 (c : Dev nD) (j : Fin 128) : ∀ (n : ℕ) (h : n < cfg4.N),
    (accAt4 V c n h).2 (ix2 0 j)
      = ∑ t : Fin (n + 1), ∑ r : Fin 5000, blkAt4 V c ⟨t.val, by have := t.isLt; omega⟩ (ix2 r j) * blkAt4 V c ⟨t.val, by have := t.isLt; omega⟩ (ix2 r j)
  | 0, h => by
    show sqAt4 V c ⟨0, h⟩ (k4_pay6 (F := Ideal)) (ix2 0 j) = _
    unfold sqAt4 sq4
    rw [k4_pay2_at, k4_pay6_at, zero_add, Fin.sum_univ_one]
    rfl
  | n + 1, h => by
    show sqAt4 V c ⟨n + 1, h⟩ (accAt4 V c n (Nat.lt_of_succ_lt h)).2 (ix2 0 j) = _
    unfold sqAt4 sq4
    rw [k4_pay2_at, Fin.sum_univ_castSucc (n := n + 1), acc_sq4 c j n (Nat.lt_of_succ_lt h)]
    rfl

/-- After the last point the two rows hold the whole column sums of the output's function and of its square. -/
theorem total_sum4 (c : Dev nD) (j : Fin 128) (n : ℕ) (h : n < cfg4.N) (hn : n = 9) :
    (accAt4 V c n h).1 (ix2 0 j) = ∑ i : Fin 50000, out4 V c i j := by
  subst hn
  rw [acc_sum4 V c j 9 h, sum_rows0]
  exact Finset.sum_congr rfl fun t _ => Finset.sum_congr rfl fun r _ => blkAt4_at V c _ r j _

theorem total_sq4 (c : Dev nD) (j : Fin 128) (n : ℕ) (h : n < cfg4.N) (hn : n = 9) :
    (accAt4 V c n h).2 (ix2 0 j) = ∑ i : Fin 50000, out4 V c i j * out4 V c i j := by
  subst hn
  rw [acc_sq4 V c j 9 h, sum_rows0]
  exact Finset.sum_congr rfl fun t _ => Finset.sum_congr rfl fun r _ => by rw [blkAt4_at V c _ r j _]

/-! ## The two one-row outputs -/

/-- The mean row and the variance row as functions of the arrays. -/
def meanArr4 (c : Dev nD) : S1x128.Idx → EReal := fun i => Cert.Spec.meanK (out4 V c) (i 1)
def varArr4 (c : Dev nD) : S1x128.Idx → EReal := fun i => Cert.Spec.varK (out4 V c) (i 1)
theorem meanArr4_ix2 (c : Dev nD) (j : Fin 128) : meanArr4 V c (ix2 0 j) = Cert.Spec.meanK (out4 V c) j := rfl
theorem varArr4_ix2 (c : Dev nD) (j : Fin 128) : varArr4 V c (ix2 0 j) = Cert.Spec.varK (out4 V c) j := rfl

/-- An index of the one-row output's array is in point t's block iff each coordinate is in the block's range. -/
theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v67_1).slice (win4_7.rect t)).set ↔ _
  rw [View.set_slice_whole, Rect.mem_set_unit]
  exact Iff.rfl

/-- The last point's block is the whole row. -/
theorem covered4_7 (i : S1x128.Idx) :
    ∃ t : Fin cfg4.N, (cfg4.win 7).flush t = true ∧ i ∈ ((cfg4.win 7).blk t).view.set := by
  have hi0 : (i 0).val < 1 := idx2_lt0 i
  have hi1 : (i 1).val < 128 := idx2_lt1 i
  obtain ⟨-, -, -, -, -, -, -, -, -, -, -, -, -, -, e0, e1, -⟩ := idx_facts4 t4_9
  refine ⟨t4_9, (flush4_7 t4_9).mpr rfl, ?_⟩
  rw [mem_blk4_7]
  intro a
  match a with
  | ⟨0, _⟩ => show win4_7.index t4_9 (0 : Fin 2) * 1 ≤ (i 0).val ∧ (i 0).val < win4_7.index t4_9 (0 : Fin 2) * 1 + 1; rw [e0]; omega
  | ⟨1, _⟩ => show win4_7.index t4_9 (1 : Fin 2) * 128 ≤ (i 1).val ∧ (i 1).val < win4_7.index t4_9 (1 : Fin 2) * 128 + 128; rw [e1]; omega

/-- An index of the one-row output's array is in point t's block iff each coordinate is in the block's range. -/
theorem mem_blk4_8 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole main_v67_2).slice (win4_8.rect t)).set ↔ _
  rw [View.set_slice_whole, Rect.mem_set_unit]
  exact Iff.rfl

/-- The last point's block is the whole row. -/
theorem covered4_8 (i : S1x128.Idx) :
    ∃ t : Fin cfg4.N, (cfg4.win 8).flush t = true ∧ i ∈ ((cfg4.win 8).blk t).view.set := by
  have hi0 : (i 0).val < 1 := idx2_lt0 i
  have hi1 : (i 1).val < 128 := idx2_lt1 i
  obtain ⟨-, -, -, -, -, -, -, -, -, -, -, -, -, -, -, -, e0, e1⟩ := idx_facts4 t4_9
  refine ⟨t4_9, (flush4_8 t4_9).mpr rfl, ?_⟩
  rw [mem_blk4_8]
  intro a
  match a with
  | ⟨0, _⟩ => show win4_8.index t4_9 (0 : Fin 2) * 1 ≤ (i 0).val ∧ (i 0).val < win4_8.index t4_9 (0 : Fin 2) * 1 + 1; rw [e0]; omega
  | ⟨1, _⟩ => show win4_8.index t4_9 (1 : Fin 2) * 128 ≤ (i 1).val ∧ (i 1).val < win4_8.index t4_9 (1 : Fin 2) * 128 + 128; rw [e1]; omega

/-- What the last point writes back to the mean row's array is the mean row of the arrays the region finds. -/
theorem flushed4_7_eq (c : Dev nD) (t : Fin cfg4.N) (hf : (cfg4.win 7).flush t = true) :
    (dat4 V c).flushed 7 t = ((cfg4.win 7).blk t).view.read (Elt Ideal) (meanArr4 V c) := by
  have h9 : t.val = 9 := by
    have h := (flush4_7 t).mp hf; have hl := t.isLt; have hN : cfg4.N = 10 := N_4; omega
  show (cfg4.win 7).cut (grid4.coords t) ((dat4 V c).after 7 t) = _
  rw [after4_7]
  obtain ⟨-, -, -, -, -, -, -, -, -, -, -, -, -, -, e0, e1, -⟩ := idx_facts4 t
  funext y
  obtain ⟨r, j, rfl⟩ : ∃ (r : Fin 1) (j : Fin 128), y = ix2 r j := ⟨y 0, y 1, eq_ix2 y⟩
  obtain rfl : r = 0 := Fin.ext (by have := r.isLt; omega)
  show mean4 (accAt4 V c t.val t.isLt).1 (ix2 0 j) = meanArr4 V c (((cfg4.win 7).blk t).view.emb (ix2 0 j))
  have hlane : (((cfg4.win 7).blk t).view.emb (ix2 0 j) : S1x128.Idx) 1 = j := by
    apply Fin.ext
    show win4_7.index t (1 : Fin 2) * 128 + 1 * j.val = j.val; rw [e1]; omega
  unfold meanArr4 mean4 Cert.Spec.meanK
  rw [hlane, k4_pay3_at, total_sum4 V c j t.val t.isLt h9]

/-- What the last point writes back to the variance row's array is the variance row of the arrays the region finds. -/
theorem flushed4_8_eq (c : Dev nD) (t : Fin cfg4.N) (hf : (cfg4.win 8).flush t = true) :
    (dat4 V c).flushed 8 t = ((cfg4.win 8).blk t).view.read (Elt Ideal) (varArr4 V c) := by
  have h9 : t.val = 9 := by
    have h := (flush4_8 t).mp hf; have hl := t.isLt; have hN : cfg4.N = 10 := N_4; omega
  show (cfg4.win 8).cut (grid4.coords t) ((dat4 V c).after 8 t) = _
  rw [after4_8]
  obtain ⟨-, -, -, -, -, -, -, -, -, -, -, -, -, -, -, -, e0, e1⟩ := idx_facts4 t
  funext y
  obtain ⟨r, j, rfl⟩ : ∃ (r : Fin 1) (j : Fin 128), y = ix2 r j := ⟨y 0, y 1, eq_ix2 y⟩
  obtain rfl : r = 0 := Fin.ext (by have := r.isLt; omega)
  show var4 (accAt4 V c t.val t.isLt).1 (accAt4 V c t.val t.isLt).2 (ix2 0 j) = varArr4 V c (((cfg4.win 8).blk t).view.emb (ix2 0 j))
  have hlane : (((cfg4.win 8).blk t).view.emb (ix2 0 j) : S1x128.Idx) 1 = j := by
    apply Fin.ext
    show win4_8.index t (1 : Fin 2) * 128 + 1 * j.val = j.val; rw [e1]; omega
  unfold varArr4 var4 Cert.Spec.varK Cert.Spec.meanK
  rw [hlane, k4_pay4_at, total_sum4 V c j t.val t.isLt h9, total_sq4 V c j t.val t.isLt h9]

/-- THE MEAN ROW'S ARRAY after the region: the kernel's mean of the big output's function, lane by lane. -/
theorem final4_7 (c : Dev nD) : (dat4 V c).arrAt 7 cfg4.N = meanArr4 V c :=
  (dat4 V c).arrAt_eq_of_cover 7 _ (fun t hf => flushed4_7_eq V c t hf) covered4_7

/-- THE VARIANCE ROW'S ARRAY after the region: the kernel's variance of the big output's function, lane by lane. -/
theorem final4_8 (c : Dev nD) : (dat4 V c).arrAt 8 cfg4.N = varArr4 V c :=
  (dat4 V c).arrAt_eq_of_cover 8 _ (fun t hf => flushed4_8_eq V c t hf) covered4_8

end Cert.KernelIdeal.Hand

end
-- ==== Proof.Value5.lean ====
/-
  What the normalise-and-rectify step of the third layer leaves in its output array, as one function of the arrays it
  finds: with X the [50000,128] input and mean, var, g, β the four [1,128] rows, the entry at row r and lane j is
      max (g j · (X r j − mean j) · rsqrt (var j + ε) + β j) 0,
  the same function as in the first layer, of this layer's arrays.  Ten grid points each write one block of 5000 rows;
  block t is rows 5000 t … 5000 t + 4999, the four rows are read whole at every point, and the ten blocks tile the array.
-/
import proofs.«177104_j19121194402280_1_alg».proof.Proof.Region5
import proofs.«177104_j19121194402280_1_alg».proof.Proof.Value1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- This layer's payload is the first layer's, operation for operation. -/
theorem k5_pay1_eq (mu var g be : FVec Ideal S1x128 .f32) (x : FVec Ideal S5000x128 .f32) :
    k5_pay1 (F := Ideal) mu var g be x = k1_pay1 (F := Ideal) mu var g be x := rfl

/-- So the payload of a block x of X and of the four rows, at a block index y that sits at array index i (same lane),
    is the function at i. -/
theorem bnRelu5_point (X : (⟨2, ![50000, 128]⟩ : Shape).Idx → EReal) (MU VAR G_ BE : (⟨2, ![1, 128]⟩ : Shape).Idx → EReal)
    (mu var g be : FVec Ideal S1x128 .f32) (x : FVec Ideal S5000x128 .f32)
    (hmu : mu = MU) (hvar : var = VAR) (hg : g = G_) (hbe : be = BE)
    (y : S5000x128.Idx) (i : S50000x128.Idx) (hx : x y = X i) (h1 : (i 1).val = (y 1).val) :
    k5_pay1 (F := Ideal) mu var g be x y = bnReluArr X MU VAR G_ BE i :=
  (congrFun (k5_pay1_eq mu var g be x) y).trans (bnRelu1_point X MU VAR G_ BE mu var g be x hmu hvar hg hbe y i hx h1)

variable (V : (c : Dev nD) → (b : Ref sig .tc) → Buf (Elt Ideal) ((c : Thread nD τ).loc b))

/-- The printed index maps, decided over the ten points: the big input and the output move one block of rows per
    point, the four rows stay. -/
theorem idx_facts5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Block t of the big input is rows 5000 t … 5000 t + 4999 of its array. -/
theorem iblk5_0_at (c : Dev nD) (t : Fin cfg5.N) (y : S5000x128.Idx) (i : S50000x128.Idx)
    (h0 : (i 0).val = t.val * 5000 + (y 0).val) (h1 : (i 1).val = (y 1).val) :
    (iblk5 V c 0 t : Vec Ideal S5000x128 .f32) y = (V c main_v67_0 : S50000x128.Idx → EReal) i := by
  obtain ⟨e0, e1, -⟩ := idx_facts5 t
  unfold iblk5
  rw [View.read_apply]
  show V c main_v67_0 _ = V c main_v67_0 _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- Each row window's block, at every point, is its whole array. -/
theorem iblk5_1_eq (c : Dev nD) (t : Fin cfg5.N) :
    (iblk5 V c 1 t : Vec Ideal S1x128 .f32) = (V c main_v67_1 : S1x128.Idx → EReal) := by
  obtain ⟨-, -, e0, e1, -⟩ := idx_facts5 t
  funext y
  unfold iblk5
  rw [View.read_apply]
  show V c main_v67_1 _ = V c main_v67_1 _
  congr 1
  funext a
  apply Fin.ext
  match a with
  | ⟨0, _⟩ => show win5_1.index t (0 : Fin 2) * 1 + 1 * (y 0).val = (y 0).val; rw [e0]; omega
  | ⟨1, _⟩ => show win5_1.index t (1 : Fin 2) * 128 + 1 * (y 1).val = (y 1).val; rw [e1]; omega

theorem iblk5_2_eq (c : Dev nD) (t : Fin cfg5.N) :
    (iblk5 V c 2 t : Vec Ideal S1x128 .f32) = (V c main_v67_2 : S1x128.Idx → EReal) := by
  obtain ⟨-, -, -, -, e0, e1, -⟩ := idx_facts5 t
  funext y
  unfold iblk5
  rw [View.read_apply]
  show V c main_v67_2 _ = V c main_v67_2 _
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

theorem iblk5_3_eq (c : Dev nD) (t : Fin cfg5.N) :
    (iblk5 V c 3 t : Vec Ideal S1x128 .f32) = (V c main_v68 : S1x128.Idx → EReal) := by
  obtain ⟨-, -, -, -, -, -, e0, e1, -⟩ := idx_facts5 t
  funext y
  unfold iblk5
  rw [View.read_apply]
  show V c main_v68 _ = V c main_v68 _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 128 + 1 * (y 1).val = (y 1).val; rw [e1]; omega

theorem iblk5_4_eq (c : Dev nD) (t : Fin cfg5.N) :
    (iblk5 V c 4 t : Vec Ideal S1x128 .f32) = (V c main_v69 : S1x128.Idx → EReal) := by
  obtain ⟨-, -, -, -, -, -, -, -, e0, e1, -⟩ := idx_facts5 t
  funext y
  unfold iblk5
  rw [View.read_apply]
  show V c main_v69 _ = V c main_v69 _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-- What point t writes back to the output's array is block t of the function of the arrays the region finds. -/
theorem flushed5_5_eq (c : Dev nD) (t : Fin cfg5.N) :
    (dat5 V c).flushed 5 t = ((cfg5.win 5).blk t).view.read (Elt Ideal)
      (bnReluArr (V c main_v67_0) (V c main_v67_1) (V c main_v67_2) (V c main_v68) (V c main_v69)) := by
  show (cfg5.win 5).cut (grid5.coords t) ((dat5 V c).after 5 t) = _
  rw [after5_5]
  unfold out5_5
  rw [View.canon_unit_zero bnRelu_zeroOff]
  simp only [View.ld_unit_zero (S := S5000x128) bnRelu_zeroOff, View.ld_unit_zero (S := S1x128) bnRelu_zeroOff]
  obtain ⟨-, -, -, -, -, -, -, -, -, -, e0, e1⟩ := idx_facts5 t
  funext y
  show k5_pay1 (F := Ideal) (iblk5 V c 1 t) (iblk5 V c 2 t) (iblk5 V c 3 t) (iblk5 V c 4 t) (iblk5 V c 0 t) y
    = bnReluArr (V c main_v67_0) (V c main_v67_1) (V c main_v67_2) (V c main_v68) (V c main_v69) (((cfg5.win 5).blk t).view.emb y)
  refine bnRelu5_point _ _ _ _ _ _ _ _ _ _ (iblk5_1_eq V c t) (iblk5_2_eq V c t) (iblk5_3_eq V c t) (iblk5_4_eq V c t) y _ ?_ ?_
  · refine iblk5_0_at V c t y _ ?_ ?_
    · show win5_5.index t (0 : Fin 2) * 5000 + 1 * (y 0).val = t.val * 5000 + (y 0).val; rw [e0]; omega
    · show win5_5.index t (1 : Fin 2) * 128 + 1 * (y 1).val = (y 1).val; rw [e1]; omega
  · show win5_5.index t (1 : Fin 2) * 128 + 1 * (y 1).val = (y 1).val; rw [e1]; omega

/-- An index of the output's array is in point t's block iff each coordinate is in the block's range on its axis. -/
theorem mem_blk5_5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v70).slice (win5_5.rect t)).set ↔ _
  rw [View.set_slice_whole, Rect.mem_set_unit]
  exact Iff.rfl

/-- The ten blocks tile the array: row r is in the block of point r / 5000. -/
theorem covered5_5 (i : S50000x128.Idx) :
    ∃ t : Fin cfg5.N, (cfg5.win 5).flush t = true ∧ i ∈ ((cfg5.win 5).blk t).view.set := by
  have hi0 : (i 0).val < 50000 := idx2_lt0 i
  have hi1 : (i 1).val < 128 := idx2_lt1 i
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, e0, e1⟩ := idx_facts5 t
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 128 ≤ (i 1).val ∧ (i 1).val < win5_5.index t (1 : Fin 2) * 128 + 128; rw [e1]; omega

/-- THE OUTPUT ARRAY after the region: the function of the arrays the region finds, everywhere. -/
theorem final5_5 (c : Dev nD) :
    (dat5 V c).arrAt 5 cfg5.N = bnReluArr (V c main_v67_0) (V c main_v67_1) (V c main_v67_2) (V c main_v68) (V c main_v69) :=
  (dat5 V c).arrAt_eq_of_cover 5 _ (fun t _ => flushed5_5_eq V c t) covered5_5

end Cert.KernelIdeal.Hand

end
-- ==== Proof.Value6.lean ====
/-
  What the last pallas_call leaves in its output array, as one function of the arrays it finds.  With HF the [512,384]
  pooled features, W the [384,64] projection and b the [1,64] bias row,
      out g o = (∑ k, HF g k · W k o) + b o,
  and the entry at graph g and output o is out g o / max (sqrt (∑ o', out g o'²), 1e-12): each row divided by its
  Euclidean norm, kept away from zero.  The grid has one point and every window's block is its whole array, so the one
  write-back covers the output.
-/
import proofs.«177104_j19121194402280_1_alg».proof.Proof.Region6
import proofs.«177104_j19121194402280_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The pooled features times the projection plus the bias, at graph g and output o, read off the three arrays. -/
def poolProjOut (HF : (⟨2, ![512, 384]⟩ : Shape).Idx → EReal) (W : (⟨2, ![384, 64]⟩ : Shape).Idx → EReal)
    (B : (⟨2, ![1, 64]⟩ : Shape).Idx → EReal) (g : Fin 512) (o : Fin 64) : EReal :=
  Cert.Spec.proj (fun g k => HF (ix2 g k)) (fun o k => W (ix2 k o)) (fun o => B (ix2 0 o)) g o

/-- The projection with each row divided by its Euclidean norm (kept away from zero), as one function of the three
    arrays, index by index. -/
def poolProjArr (HF : (⟨2, ![512, 384]⟩ : Shape).Idx → EReal) (W : (⟨2, ![384, 64]⟩ : Shape).Idx → EReal)
    (B : (⟨2, ![1, 64]⟩ : Shape).Idx → EReal) : (⟨2, ![512, 64]⟩ : Shape).Idx → EReal := fun i =>
  Cert.Spec.l2normalize (poolProjOut HF W B) (fun g => ∑ o' : Fin 64, poolProjOut HF W B g o' * poolProjOut HF W B g o') (i 0) (i 1)

/-- The same function read at graph g and output o. -/
theorem poolProjArr_ix2 (HF : (⟨2, ![512, 384]⟩ : Shape).Idx → EReal) (W : (⟨2, ![384, 64]⟩ : Shape).Idx → EReal)
    (B : (⟨2, ![1, 64]⟩ : Shape).Idx → EReal) (g : Fin 512) (o : Fin 64) :
    poolProjArr HF W B (ix2 g o)
      = Cert.Spec.l2normalize (poolProjOut HF W B) (fun g => ∑ o' : Fin 64, poolProjOut HF W B g o' * poolProjOut HF W B g o') g o := rfl

/-- A column [a,1] broadcast along the rows to [a,b] reads, at (p, c), the column at p. -/
theorem broadcastTo_a1_ab_at {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a,1] reads, at (p, u), the vector at p. -/
theorem shapeCast_a_a1_at {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The matmul's left operand index at result (g, o) and contraction coordinate k is (g, k), -/
theorem poolProj_lhsIdx (g : Fin 512) (o : Fin 64) (k : Fin 384) :
    dot_S512x384_S384x64_S512x64_1_0_0_1_n_n.lhsIdx (ix2 g o)
        ((contrEquiv1 dot_S512x384_S384x64_S512x64_1_0_0_1_n_n 384 rfl rfl).symm k) = ix2 g k := by
  funext a
  apply Fin.ext
  match a with
  | ⟨0, _⟩ => rfl
  | ⟨1, _⟩ =>
    exact (DotDims.lhsIdx_val_of_single dot_S512x384_S384x64_S512x64_1_0_0_1_n_n (cl := 1) rfl _ _).trans
      (contrEquiv1_symm_val dot_S512x384_S384x64_S512x64_1_0_0_1_n_n 384 rfl rfl k)

/-- and the right operand's is (k, o). -/
theorem poolProj_rhsIdx (g : Fin 512) (o : Fin 64) (k : Fin 384) :
    dot_S512x384_S384x64_S512x64_1_0_0_1_n_n.rhsIdx (ix2 g o)
        ((contrEquiv1 dot_S512x384_S384x64_S512x64_1_0_0_1_n_n 384 rfl rfl).symm k) = ix2 k o := by
  funext a
  apply Fin.ext
  match a with
  | ⟨0, _⟩ =>
    exact (DotDims.rhsIdx_val_of_single dot_S512x384_S384x64_S512x64_1_0_0_1_n_n (cr := 0) rfl _ _).trans
      (contrEquiv1_symm_val dot_S512x384_S384x64_S512x64_1_0_0_1_n_n 384 rfl rfl k)
  | ⟨1, _⟩ => rfl

/-- The product into the zero splat plus the broadcast bias row, at (g, o): the projection there. -/
theorem poolProj_out_at (hf : FVec Ideal S512x384 .bf16) (w : FVec Ideal S384x64 .bf16) (b : FVec Ideal S1x64 .f32)
    (g : Fin 512) (o : Fin 64) :
    addf (matmul dot_S512x384_S384x64_S512x64_1_0_0_1_n_n none hf w (constant (F := Ideal) S512x64 .f32 0x00000000#32))
        (broadcastTo S512x64 b broadcasts_S1x64_S512x64) (ix2 g o)
      = poolProjOut hf w b g o := by
  rw [addf_apply, broadcastTo_1b_ab_apply]
  simp only [matmul]
  rw [Ideal.matmul_constant_zero_apply]
  unfold poolProjOut Cert.Spec.proj
  congr 1
  rw [← Equiv.sum_comp (contrEquiv1 dot_S512x384_S384x64_S512x64_1_0_0_1_n_n 384 rfl rfl).symm]
  exact Finset.sum_congr rfl fun k _ => by rw [poolProj_lhsIdx, poolProj_rhsIdx]

/-- The lane sum of a [512,64] vector at row g is the sum over the 64 lanes. -/
theorem poolProj_rowSum (v : FVec Ideal S512x64 .f32) (hφ : FKind.Formats .f32)
    (hacc : (0x00000000#32 : BitVec 32) = 0x00000000#32) (g : Fin 512) :
    multiReduction (F := Ideal) .add [1] S512 v 0x00000000#32 reduces_S512x64_S512 hφ hacc (ix1 g) = ∑ o : Fin 64, v (ix2 g o) :=
  (Ideal.multiReduction_add_single v 0x00000000#32 reduces_S512x64_S512 hφ hacc (ix1 g)).trans
    (Finset.sum_congr rfl fun o _ => congrArg v (funext fun a => by match a with | ⟨0, _⟩ => rfl | ⟨1, _⟩ => rfl))

/-- The body's payload at graph g and output o. -/
theorem k6_pay1_at (hf : FVec Ideal S512x384 .bf16) (w : FVec Ideal S384x64 .bf16) (b : FVec Ideal S1x64 .f32)
    (g : Fin 512) (o : Fin 64) :
    k6_pay1 (F := Ideal) hf w b (ix2 g o)
      = Cert.Spec.l2normalize (poolProjOut hf w b) (fun g => ∑ o' : Fin 64, poolProjOut hf w b g o' * poolProjOut hf w b g o') g o := by
  unfold k6_pay1
  simp only [shapeCast_self]
  rw [divf_apply, poolProj_out_at]
  unfold Cert.Spec.l2normalize
  congr 1
  rw [broadcastTo_a1_ab_at, maximumf_apply]
  congr 1
  show Ideal.sqrt (shapeCast S512x1 _ shapeCasts_S512_S512x1 (ix2 g (0 : Fin 1))) = _
  rw [shapeCast_a_a1_at, poolProj_rowSum]
  congr 1
  exact Finset.sum_congr rfl fun o' _ => by rw [mulf_apply, poolProj_out_at]

/-- The zero offsets of a whole-block load or store, however spelt. -/
theorem poolProj_zeroOff : (![0, 0] : Fin 2 → Nat) = fun _ => 0 := funext fun a => by fin_cases a <;> rfl

/-- So the payload of the three arrays, at a block index y that sits at array index i, is the function at i. -/
theorem poolProj_point (HF : (⟨2, ![512, 384]⟩ : Shape).Idx → EReal) (W : (⟨2, ![384, 64]⟩ : Shape).Idx → EReal)
    (B : (⟨2, ![1, 64]⟩ : Shape).Idx → EReal)
    (hf : FVec Ideal S512x384 .bf16) (w : FVec Ideal S384x64 .bf16) (b : FVec Ideal S1x64 .f32)
    (hhf : hf = HF) (hw : w = W) (hb : b = B) (y : S512x64.Idx) (i : S512x64.Idx) (hi : i = y) :
    k6_pay1 (F := Ideal) hf w b y = poolProjArr HF W B i := by
  subst hhf hw hb hi
  obtain ⟨g, o, rfl⟩ : ∃ (g : Fin 512) (o : Fin 64), i = ix2 g o := ⟨i 0, i 1, eq_ix2 i⟩
  rw [k6_pay1_at]
  rfl

variable (V : (c : Dev nD) → (b : Ref sig .tc) → Buf (Elt Ideal) ((c : Thread nD τ).loc b))

/-- The printed index maps at the one grid point: every window's block is block (0, 0). -/
theorem idx_facts6 : ∀ t : Fin cfg6.N,
      win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- Each input window's block is its whole array. -/
theorem iblk6_0_eq (c : Dev nD) (t : Fin cfg6.N) :
    (iblk6 V c 0 t : Vec Ideal S512x384 .bf16) = (V c main_v87 : S512x384.Idx → EReal) := by
  obtain ⟨e0, e1, -⟩ := idx_facts6 t
  funext y
  unfold iblk6
  rw [View.read_apply]
  show V c main_v87 _ = V c main_v87 _
  congr 1
  funext a
  apply Fin.ext
  match a with
  | ⟨0, _⟩ => show win6_0.index t (0 : Fin 2) * 512 + 1 * (y 0).val = (y 0).val; rw [e0]; omega
  | ⟨1, _⟩ => show win6_0.index t (1 : Fin 2) * 384 + 1 * (y 1).val = (y 1).val; rw [e1]; omega

theorem iblk6_1_eq (c : Dev nD) (t : Fin cfg6.N) :
    (iblk6 V c 1 t : Vec Ideal S384x64 .bf16) = (V c main_v89 : S384x64.Idx → EReal) := by
  obtain ⟨-, -, e0, e1, -⟩ := idx_facts6 t
  funext y
  unfold iblk6
  rw [View.read_apply]
  show V c main_v89 _ = V c main_v89 _
  congr 1
  funext a
  apply Fin.ext
  match a with
  | ⟨0, _⟩ => show win6_1.index t (0 : Fin 2) * 384 + 1 * (y 0).val = (y 0).val; rw [e0]; omega
  | ⟨1, _⟩ => show win6_1.index t (1 : Fin 2) * 64 + 1 * (y 1).val = (y 1).val; rw [e1]; omega

theorem iblk6_2_eq (c : Dev nD) (t : Fin cfg6.N) :
    (iblk6 V c 2 t : Vec Ideal S1x64 .f32) = (V c main_v90 : S1x64.Idx → EReal) := by
  obtain ⟨-, -, -, -, e0, e1, -⟩ := idx_facts6 t
  funext y
  unfold iblk6
  rw [View.read_apply]
  show V c main_v90 _ = V c main_v90 _
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 64 + 1 * (y 1).val = (y 1).val; rw [e1]; omega

/-- What the one point writes back to the output's array is the function of the arrays the region finds, read through
    the output's one block. -/
theorem flushed6_3_eq (c : Dev nD) (t : Fin cfg6.N) :
    (dat6 V c).flushed 3 t = ((cfg6.win 3).blk t).view.read (Elt Ideal)
      (poolProjArr (V c main_v87) (V c main_v89) (V c main_v90)) := by
  show (cfg6.win 3).cut (grid6.coords t) ((dat6 V c).after 3 t) = _
  rw [after6_3]
  unfold out6_3
  rw [View.canon_unit_zero poolProj_zeroOff]
  simp only [View.ld_unit_zero (S := S512x384) poolProj_zeroOff, View.ld_unit_zero (S := S384x64) poolProj_zeroOff,
    View.ld_unit_zero (S := S1x64) poolProj_zeroOff]
  obtain ⟨-, -, -, -, -, -, e0, e1⟩ := idx_facts6 t
  funext y
  show k6_pay1 (F := Ideal) (iblk6 V c 0 t) (iblk6 V c 1 t) (iblk6 V c 2 t) y
    = poolProjArr (V c main_v87) (V c main_v89) (V c main_v90) (((cfg6.win 3).blk t).view.emb y)
  refine poolProj_point _ _ _ _ _ _ (iblk6_0_eq V c t) (iblk6_1_eq V c t) (iblk6_2_eq V c t) y _ ?_
  funext a
  apply Fin.ext
  match a with
  | ⟨0, _⟩ => show win6_3.index t (0 : Fin 2) * 512 + 1 * (y 0).val = (y 0).val; rw [e0]; omega
  | ⟨1, _⟩ => show win6_3.index t (1 : Fin 2) * 64 + 1 * (y 1).val = (y 1).val; rw [e1]; omega

/-- An index of the output's array is in the point's block iff each coordinate is in the block's range on its axis. -/
theorem mem_blk6_3 (t : Fin cfg6.N) (i : S512x64.Idx) :
    i ∈ ((cfg6.win 3).blk t).view.set ↔ ∀ a : Fin 2, win6_3.index t a * S512x64.size a ≤ (i a).val ∧ (i a).val < win6_3.index t a * S512x64.size a + S512x64.size a := by
  show i ∈ ((View.whole main_v91).slice (win6_3.rect t)).set ↔ _
  rw [View.set_slice_whole, Rect.mem_set_unit]
  exact Iff.rfl

/-- The one block is the whole array. -/
theorem covered6_3 (i : S512x64.Idx) :
    ∃ t : Fin cfg6.N, (cfg6.win 3).flush t = true ∧ i ∈ ((cfg6.win 3).blk t).view.set := by
  have hi0 : (i 0).val < 512 := idx2_lt0 i
  have hi1 : (i 1).val < 64 := idx2_lt1 i
  have hN : cfg6.N = 1 := N_6
  obtain ⟨t, -⟩ : ∃ t : Fin cfg6.N, t.val = 0 := ⟨⟨0, by rw [hN]; omega⟩, rfl⟩
  obtain ⟨-, -, -, -, -, -, e0, e1⟩ := idx_facts6 t
  refine ⟨t, flush6_3 t, ?_⟩
  rw [mem_blk6_3]
  intro a
  match a with
  | ⟨0, _⟩ => show win6_3.index t (0 : Fin 2) * 512 ≤ (i 0).val ∧ (i 0).val < win6_3.index t (0 : Fin 2) * 512 + 512; rw [e0]; omega
  | ⟨1, _⟩ => show win6_3.index t (1 : Fin 2) * 64 ≤ (i 1).val ∧ (i 1).val < win6_3.index t (1 : Fin 2) * 64 + 64; rw [e1]; omega

/-- THE OUTPUT ARRAY after the region: the function of the arrays the region finds, everywhere. -/
theorem final6_3 (c : Dev nD) :
    (dat6 V c).arrAt 3 cfg6.N = poolProjArr (V c main_v87) (V c main_v89) (V c main_v90) :=
  (dat6 V c).arrAt_eq_of_cover 3 _ (fun t _ => flushed6_3_eq V c t) covered6_3

end Cert.KernelIdeal.Hand

end
-- ==== Proof.KValue3.lean ====
/-
  The third layer's result and the program's final result in the fold of the buffers' contents, as plain functions
  of the launch arrays and of the two earlier layers' results.

  The third layer: its first region finds the second layer's result h, the aggregate of h over the edges, the two
  weight matrices transposed and the two bias rows, and leaves out = perceptron (h + agg) with the column means and
  variances of out; its second region finds those, the scale and shift rows, and leaves
      max (g j · (out r j − mean j) · rsqrt (var j + ε) + β j) 0.
  The tail: the three layers' results pooled per graph and set side by side, times the projection plus the bias, each
  row divided by its Euclidean norm kept away from zero.
-/
import proofs.«177104_j19121194402280_1_alg».proof.Proof.KCarry
import proofs.«177104_j19121194402280_1_alg».proof.Proof.Value4
import proofs.«177104_j19121194402280_1_alg».proof.Proof.Value5
import proofs.«177104_j19121194402280_1_alg».proof.Proof.Value6
import proofs.«177104_j19121194402280_1_alg».proof.Proof.LayerJoin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## What the third layer's first region finds -/

/-- The layer's input is the second layer's result. -/
theorem V9_v50_eq (c : Dev nD) :
    (V9 m ρ c main_v50 : S50000x128.Idx → EReal) = W8 m ρ c (Proc.devRef .tc main_v50) := carry9_v50 m ρ c

/-- The aggregate it finds is the aggregate of the second layer's result over the edge argument. -/
theorem V9_v60_eq (c : Dev nD) :
    (V9 m ρ c main_v60 : S50000x128.Idx → EReal) = aggK (W8 m ρ c (Proc.devRef .tc main_v50)) (m ((c : Thread nD τ).loc main_arg1)) := by
  refine (host4_v60_eq (W8 m ρ c)).trans ?_
  rw [carry8_v1, carry8_v3, W1_v1, W1_v3]
  rfl

/-- The weights it finds are the arguments transposed, the bias rows the arguments as rows. -/
theorem V9_v62_at (c : Dev nD) (l k : Fin 128) :
    (V9 m ρ c main_v62 : S128x128.Idx → EReal) (ix2 l k) = ((m ((c : Thread nD τ).loc main_arg15)) : S128x128.Idx → EReal) (ix2 k l) :=
  (host4_v62_at (W8 m ρ c) l k).trans (congrFun (W8_main_arg15 m ρ c) (ix2 k l))
theorem V9_v64_at (c : Dev nD) (l k : Fin 128) :
    (V9 m ρ c main_v64 : S128x128.Idx → EReal) (ix2 l k) = ((m ((c : Thread nD τ).loc main_arg17)) : S128x128.Idx → EReal) (ix2 k l) :=
  (host4_v64_at (W8 m ρ c) l k).trans (congrFun (W8_main_arg17 m ρ c) (ix2 k l))
theorem V9_v65_at (c : Dev nD) (j : Fin 128) :
    (V9 m ρ c main_v65 : S1x128.Idx → EReal) (ix2 (0 : Fin 1) j) = ((m ((c : Thread nD τ).loc main_arg16)) : S128.Idx → EReal) (ix1 j) :=
  (host4_v65_at (W8 m ρ c) j).trans (congrFun (W8_main_arg16 m ρ c) (ix1 j))
theorem V9_v66_at (c : Dev nD) (j : Fin 128) :
    (V9 m ρ c main_v66 : S1x128.Idx → EReal) (ix2 (0 : Fin 1) j) = ((m ((c : Thread nD τ).loc main_arg18)) : S128.Idx → EReal) (ix1 j) :=
  (host4_v66_at (W8 m ρ c) j).trans (congrFun (W8_main_arg18 m ρ c) (ix1 j))

/-- So what it leaves in its big output is the perceptron's output for the second layer's result, its aggregate and
    the third layer's parameters. -/
theorem out4_eq (c : Dev nD) :
    out4 (V9 m ρ) c = Cert.Spec.outOf (W8 m ρ c (Proc.devRef .tc main_v50)) (aggK (W8 m ρ c (Proc.devRef .tc main_v50)) (m ((c : Thread nD τ).loc main_arg1)))
      (m ((c : Thread nD τ).loc main_arg15)) (m ((c : Thread nD τ).loc main_arg16)) (m ((c : Thread nD τ).loc main_arg17)) (m ((c : Thread nD τ).loc main_arg18)) := by
  funext r j
  unfold out4 Cert.Spec.outOf
  rw [mlpArr_ix2, V9_v50_eq, V9_v60_eq]
  have hWa : (fun (k l : Fin 128) => (V9 m ρ c main_v62 : S128x128.Idx → EReal) (ix2 l k))
      = fun k l => ((m ((c : Thread nD τ).loc main_arg15)) : S128x128.Idx → EReal) (ix2 k l) := funext fun k => funext fun l => V9_v62_at m ρ c l k
  have hWb : (fun (j k : Fin 128) => (V9 m ρ c main_v64 : S128x128.Idx → EReal) (ix2 k j))
      = fun j k => ((m ((c : Thread nD τ).loc main_arg17)) : S128x128.Idx → EReal) (ix2 j k) := funext fun j => funext fun k => V9_v64_at m ρ c k j
  have hba : (fun (k : Fin 128) => (V9 m ρ c main_v65 : S1x128.Idx → EReal) (ix2 (0 : Fin 1) k))
      = fun k => ((m ((c : Thread nD τ).loc main_arg16)) : S128.Idx → EReal) (ix1 k) := funext fun k => V9_v65_at m ρ c k
  have hbb : (fun (j : Fin 128) => (V9 m ρ c main_v66 : S1x128.Idx → EReal) (ix2 (0 : Fin 1) j))
      = fun j => ((m ((c : Thread nD τ).loc main_arg18)) : S128.Idx → EReal) (ix1 j) := funext fun j => V9_v66_at m ρ c j
  rw [hWa, hWb, hba, hbb]

/-! ## What the third layer's second region finds -/

/-- Its input is what the first region left in its big output, entry by entry the perceptron's output; -/
theorem V11_v67_0_at (c : Dev nD) (r : Fin 50000) (j : Fin 128) :
    (V11 m ρ c main_v67_0 : S50000x128.Idx → EReal) (ix2 r j) = out4 (V9 m ρ) c r j :=
  congrFun ((carry11_v67_0 m ρ c).trans ((W10_arr m ρ c 6).trans (final4_6 (V9 m ρ) c))) (ix2 r j)

/-- its mean and variance rows are the column means and variances of that output; -/
theorem V11_v67_1_at (c : Dev nD) (j : Fin 128) :
    (V11 m ρ c main_v67_1 : S1x128.Idx → EReal) (ix2 (0 : Fin 1) j) = Cert.Spec.meanK (out4 (V9 m ρ) c) j :=
  (congrFun ((carry11_v67_1 m ρ c).trans ((W10_arr m ρ c 7).trans (final4_7 (V9 m ρ) c))) (ix2 (0 : Fin 1) j)).trans
    (meanArr4_ix2 (V9 m ρ) c j)
theorem V11_v67_2_at (c : Dev nD) (j : Fin 128) :
    (V11 m ρ c main_v67_2 : S1x128.Idx → EReal) (ix2 (0 : Fin 1) j) = Cert.Spec.varK (out4 (V9 m ρ) c) j :=
  (congrFun ((carry11_v67_2 m ρ c).trans ((W10_arr m ρ c 8).trans (final4_8 (V9 m ρ) c))) (ix2 (0 : Fin 1) j)).trans
    (varArr4_ix2 (V9 m ρ) c j)

/-- its scale and shift rows are the arguments as rows. -/
theorem V11_v68_at (c : Dev nD) (j : Fin 128) :
    (V11 m ρ c main_v68 : S1x128.Idx → EReal) (ix2 (0 : Fin 1) j) = ((m ((c : Thread nD τ).loc main_arg19)) : S128.Idx → EReal) (ix1 j) :=
  (host5_v68_at (W10 m ρ c) j).trans (congrFun (W10_main_arg19 m ρ c) (ix1 j))
theorem V11_v69_at (c : Dev nD) (j : Fin 128) :
    (V11 m ρ c main_v69 : S1x128.Idx → EReal) (ix2 (0 : Fin 1) j) = ((m ((c : Thread nD τ).loc main_arg20)) : S128.Idx → EReal) (ix1 j) :=
  (host5_v69_at (W10 m ρ c) j).trans (congrFun (W10_main_arg20 m ρ c) (ix1 j))

/-- THE THIRD LAYER'S RESULT, entry by entry: the normalise-and-rectify step of the perceptron's output with its column
    means and variances. -/
theorem layerK3 (c : Dev nD) (r : Fin 50000) (j : Fin 128) :
    (W12 m ρ c (Proc.devRef .tc main_v70) : S50000x128.Idx → EReal) (ix2 r j)
      = Cert.Spec.bn
          (Cert.Spec.outOf (W8 m ρ c (Proc.devRef .tc main_v50)) (aggK (W8 m ρ c (Proc.devRef .tc main_v50)) (m ((c : Thread nD τ).loc main_arg1)))
            (m ((c : Thread nD τ).loc main_arg15)) (m ((c : Thread nD τ).loc main_arg16)) (m ((c : Thread nD τ).loc main_arg17)) (m ((c : Thread nD τ).loc main_arg18)) r j)
          (Cert.Spec.meanK (Cert.Spec.outOf (W8 m ρ c (Proc.devRef .tc main_v50)) (aggK (W8 m ρ c (Proc.devRef .tc main_v50)) (m ((c : Thread nD τ).loc main_arg1)))
            (m ((c : Thread nD τ).loc main_arg15)) (m ((c : Thread nD τ).loc main_arg16)) (m ((c : Thread nD τ).loc main_arg17)) (m ((c : Thread nD τ).loc main_arg18))) j)
          (Cert.Spec.varK (Cert.Spec.outOf (W8 m ρ c (Proc.devRef .tc main_v50)) (aggK (W8 m ρ c (Proc.devRef .tc main_v50)) (m ((c : Thread nD τ).loc main_arg1)))
            (m ((c : Thread nD τ).loc main_arg15)) (m ((c : Thread nD τ).loc main_arg16)) (m ((c : Thread nD τ).loc main_arg17)) (m ((c : Thread nD τ).loc main_arg18))) j)
          (((m ((c : Thread nD τ).loc main_arg19)) : S128.Idx → EReal) (ix1 j)) (((m ((c : Thread nD τ).loc main_arg20)) : S128.Idx → EReal) (ix1 j)) := by
  refine (congrFun ((W12_arr m ρ c 5).trans (final5_5 (V11 m ρ) c)) (ix2 r j)).trans ?_
  rw [bnReluArr_ix2, V11_v67_0_at, V11_v67_1_at, V11_v67_2_at, V11_v68_at, V11_v69_at, out4_eq]

/-! ## The tail -/

/-- The pooled features the last region finds: the three layers' results pooled by the batch argument. -/
theorem V13_v87_eq (c : Dev nD) :
    (V13 m ρ c main_v87 : S512x384.Idx → EReal)
      = pooledCat (W4 m ρ c (Proc.devRef .tc main_v30)) (W8 m ρ c (Proc.devRef .tc main_v50)) (W12 m ρ c (Proc.devRef .tc main_v70))
          (m ((c : Thread nD τ).loc main_arg2)) (cntCol (m ((c : Thread nD τ).loc main_arg2))) := by
  refine (host6_v87_eq (W12 m ρ c)).trans ?_
  rw [carry12_v30, carry12_v50, W12_main_arg2, carry12_v10, W1_v10]

/-- The projection it finds is the argument transposed, the bias row the argument as a row. -/
theorem V13_v89_at (c : Dev nD) (k : Fin 384) (o : Fin 64) :
    (V13 m ρ c main_v89 : S384x64.Idx → EReal) (ix2 k o) = ((m ((c : Thread nD τ).loc main_arg21)) : S64x384.Idx → EReal) (ix2 o k) :=
  (host6_v89_at (W12 m ρ c) k o).trans (congrFun (W12_main_arg21 m ρ c) (ix2 o k))
theorem V13_v90_at (c : Dev nD) (o : Fin 64) :
    (V13 m ρ c main_v90 : S1x64.Idx → EReal) (ix2 (0 : Fin 1) o) = ((m ((c : Thread nD τ).loc main_arg22)) : S64.Idx → EReal) (ix1 o) :=
  (host6_v90_at (W12 m ρ c) o).trans (congrFun (W12_main_arg22 m ρ c) (ix1 o))

/-- So the projection the last region computes is the projection of the pooled features by the arguments. -/
theorem poolProjOut_eq (c : Dev nD) :
    poolProjOut (V13 m ρ c main_v87) (V13 m ρ c main_v89) (V13 m ρ c main_v90)
      = Cert.Spec.proj
          (fun g k => pooledCat (W4 m ρ c (Proc.devRef .tc main_v30)) (W8 m ρ c (Proc.devRef .tc main_v50)) (W12 m ρ c (Proc.devRef .tc main_v70))
            (m ((c : Thread nD τ).loc main_arg2)) (cntCol (m ((c : Thread nD τ).loc main_arg2))) (ix2 g k))
          (fun o k => ((m ((c : Thread nD τ).loc main_arg21)) : S64x384.Idx → EReal) (ix2 o k))
          (fun o => ((m ((c : Thread nD τ).loc main_arg22)) : S64.Idx → EReal) (ix1 o)) := by
  funext g o
  unfold poolProjOut
  have hW : (fun (o : Fin 64) (k : Fin 384) => (V13 m ρ c main_v89 : S384x64.Idx → EReal) (ix2 k o))
      = fun o k => ((m ((c : Thread nD τ).loc main_arg21)) : S64x384.Idx → EReal) (ix2 o k) := funext fun o => funext fun k => V13_v89_at m ρ c k o
  have hB : (fun (o : Fin 64) => (V13 m ρ c main_v90 : S1x64.Idx → EReal) (ix2 (0 : Fin 1) o))
      = fun o => ((m ((c : Thread nD τ).loc main_arg22)) : S64.Idx → EReal) (ix1 o) := funext fun o => V13_v90_at m ρ c o
  rw [hW, hB, V13_v87_eq]

/-- THE PROGRAM'S RESULT, entry by entry: the projection of the pooled features with each row divided by its Euclidean
    norm, kept away from zero. -/
theorem tailK (c : Dev nD) (g : Fin 512) (o : Fin 64) :
    (W14 m ρ c (Proc.devRef .tc main_v91) : S512x64.Idx → EReal) (ix2 g o)
      = Cert.Spec.l2normalize
          (Cert.Spec.proj
            (fun g k => pooledCat (W4 m ρ c (Proc.devRef .tc main_v30)) (W8 m ρ c (Proc.devRef .tc main_v50)) (W12 m ρ c (Proc.devRef .tc main_v70))
              (m ((c : Thread nD τ).loc main_arg2)) (cntCol (m ((c : Thread nD τ).loc main_arg2))) (ix2 g k))
            (fun o k => ((m ((c : Thread nD τ).loc main_arg21)) : S64x384.Idx → EReal) (ix2 o k))
            (fun o => ((m ((c : Thread nD τ).loc main_arg22)) : S64.Idx → EReal) (ix1 o)))
          (fun g => ∑ o' : Fin 64,
            Cert.Spec.proj
              (fun g k => pooledCat (W4 m ρ c (Proc.devRef .tc main_v30)) (W8 m ρ c (Proc.devRef .tc main_v50)) (W12 m ρ c (Proc.devRef .tc main_v70))
                (m ((c : Thread nD τ).loc main_arg2)) (cntCol (m ((c : Thread nD τ).loc main_arg2))) (ix2 g k))
              (fun o k => ((m ((c : Thread nD τ).loc main_arg21)) : S64x384.Idx → EReal) (ix2 o k))
              (fun o => ((m ((c : Thread nD τ).loc main_arg22)) : S64.Idx → EReal) (ix1 o)) g o'
            * Cert.Spec.proj
              (fun g k => pooledCat (W4 m ρ c (Proc.devRef .tc main_v30)) (W8 m ρ c (Proc.devRef .tc main_v50)) (W12 m ρ c (Proc.devRef .tc main_v70))
                (m ((c : Thread nD τ).loc main_arg2)) (cntCol (m ((c : Thread nD τ).loc main_arg2))) (ix2 g k))
              (fun o k => ((m ((c : Thread nD τ).loc main_arg21)) : S64x384.Idx → EReal) (ix2 o k))
              (fun o => ((m ((c : Thread nD τ).loc main_arg22)) : S64.Idx → EReal) (ix1 o)) g o') g o := by
  refine (congrFun ((W14_main_v91 m ρ c).trans (final6_3 (V13 m ρ) c)) (ix2 g o)).trans ?_
  rw [poolProjArr_ix2, poolProjOut_eq]

end Cert.KernelIdeal.Hand

end
-- ==== Proof.RefValue.lean ====
/-
  The reference's value, stage by stage.

  After the line of 270 operations every buffer holds its operation's value of what the operation's operands hold
  after the line, since each buffer is written once.  Grouping the operations by stage — the edge list's two rows,
  a layer's aggregate, its two-layer perceptron, the column means and variances, the normalise-and-rectify step;
  then the per-graph averages, the projection and the row normalisation — gives each stage's buffer as one term of
  the buffers before it (`st_…`).  On the extended reals each term is read entry by entry: a contraction is a sum
  of products over its one contracted axis, a column sum is the initial value plus the sum down the column, a
  broadcast reads its operand at the kept coordinates, and the variance's guard (is the divisor positive?) holds,
  so the guarded select is the quotient.  The gathers and scatter-adds are kept as they are printed.
  `layerR1`, `layerR2`, `layerR3` and `tailR` state the three layers' results and the final result in the shape
  of the plain functions of Spec.
-/
import proofs.«177104_j19121194402280_1_alg».proof.Proof.RefRun
import proofs.«177104_j19121194402280_1_alg».proof.Proof.LayerJoin
import Idealize.ShloMosaic.Lib.ValueIdx
import Idealize.ShloMosaic.Lib.Pipeline.Value
import Idealize.ShloMosaic.PureOps.Ideal.Laws

set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx
open scoped BigOperators

/-! ## The stages' terms

The printed operations of one layer and of the tail, composed stage by stage, for any float values. -/

section Terms
variable {F : FTy → Type} [FloatOps F]

/-- A row of the edge list as a vector of 600000 node numbers. -/
def edgeRow0 (ei : IVec S2x600000 32) : IVec S600000 32 :=
  shapeCast S600000 (extractStridedSlice S1x600000 ![0, 0] ei slices_S2x600000_S1x600000_0_0) shapeCasts_S1x600000_S600000
def edgeRow1 (ei : IVec S2x600000 32) : IVec S600000 32 :=
  shapeCast S600000 (extractStridedSlice S1x600000 ![1, 0] ei slices_S2x600000_S1x600000_1_0) shapeCasts_S1x600000_S600000

/-- A negative node number wrapped by the node count. -/
def wrapIdx (v : IVec S600000 32) : IVec S600000 32 :=
  select (cmpi .slt v (broadcastInDim S600000 ![] bcast_S_S600000 (constantI S_ 32 0#32)))
    (addi v (broadcastInDim S600000 ![] bcast_S_S600000 (constantI S_ 32 50000#32))) v
/-- The gather's index column: the wrapped node numbers as one column. -/
def srcCol (v : IVec S600000 32) : IVec S600000x1 32 :=
  broadcastInDim S600000x1 ![0] bcast_S600000_S600000x1_0 (wrapIdx v)
/-- The scatter's index column. -/
def dstCol (v : IVec S600000 32) : IVec S600000x1 32 :=
  broadcastInDim S600000x1 ![0] bcast_S600000_S600000x1_0 v

/-- The aggregate of a layer: the rows of h gathered along the edges' sources and added up at their targets. -/
def aggR (h : FVec F S50000x128 .f32) (ei : IVec S2x600000 32) : FVec F S50000x128 .f32 :=
  Host.scatterAdd scatter_S50000x128_S600000x1_S600000x128_1_0_0_1
    (broadcastInDim S50000x128 ![] bcast_S_S50000x128 (constant S_ .f32 0x00000000#32))
    (dstCol (edgeRow1 ei))
    (Host.gather gather_S50000x128_S600000x1_S600000x128_1_0_n_n_0_1_1128 h (srcCol (edgeRow0 ei)))

/-- The two-layer perceptron of h + agg. -/
def mlpT (h agg : FVec F S50000x128 .f32) (Wa : FVec F S128x128 .f32) (ba : FVec F S128 .f32) (Wb : FVec F S128x128 .f32)
    (bb : FVec F S128 .f32) : FVec F S50000x128 .f32 :=
  addf (Host.dotGeneral dot_S50000x128_S128x128_S50000x128_1_0_0_1_n_n none
      (maximumf (addf (Host.dotGeneral dot_S50000x128_S128x128_S50000x128_1_0_0_1_n_n none (addf h agg) (transpose S128x128 [1, 0] Wa transposes_S128x128_S128x128_1_0)) (broadcastInDim S50000x128 ![0, 1] bcast_S1x128_S50000x128_0_1 (broadcastInDim S1x128 ![1] bcast_S128_S1x128_1 ba)))
        (broadcastInDim S50000x128 ![] bcast_S_S50000x128 (constant S_ .f32 0x00000000#32)))
      (transpose S128x128 [1, 0] Wb transposes_S128x128_S128x128_1_0))
    (broadcastInDim S50000x128 ![0, 1] bcast_S1x128_S50000x128_0_1 (broadcastInDim S1x128 ![1] bcast_S128_S1x128_1 bb))

/-- The column means. -/
def meanT (x : FVec F S50000x128 .f32) : FVec F S128 .f32 :=
  Host.divf (Host.reduceAdd x (constant S_ .f32 0x00000000#32) reducesTo_S50000x128_S128_d0 h_S_)
    (broadcastInDim S128 ![] bcast_S_S128 (constant S_ .f32 0x47435000#32))

/-- The count less the (zero) correction, as the variance's divisor. -/
def dofT : FVec F S_ .f32 := subf (constant S_ .f32 0x47435000#32) (sitofp .f32 (constantI S_ 32 0#32))

/-- The column variances: the mean of the squared deviations, guarded by the divisor's sign. -/
def varT (x : FVec F S50000x128 .f32) : FVec F S128 .f32 :=
  select (broadcastInDim S128 ![] bcast_S_S128 (cmpf .ogt (dofT (F := F)) (constant S_ .f32 0x00000000#32)))
    (Host.divf
      (Host.reduceAdd
        (mulf (subf x (broadcastInDim S50000x128 ![0, 1] bcast_S1x128_S50000x128_0_1
            (Host.divf (broadcastInDim S1x128 ![1] bcast_S128_S1x128_1 (Host.reduceAdd x (constant S_ .f32 0x00000000#32) reducesTo_S50000x128_S128_d0 h_S_))
              (broadcastInDim S1x128 ![] bcast_S_S1x128 (constant S_ .f32 0x47435000#32)))))
          (subf x (broadcastInDim S50000x128 ![0, 1] bcast_S1x128_S50000x128_0_1
            (Host.divf (broadcastInDim S1x128 ![1] bcast_S128_S1x128_1 (Host.reduceAdd x (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (dofT (F := F))))
    (broadcastInDim S128 ![] bcast_S_S128 (constant S_ .f32 0x7FC00000#32))

/-- The normalise-and-rectify step. -/
def bnT (x : FVec F S50000x128 .f32) (mu var g be : FVec F S128 .f32) : FVec F S50000x128 .f32 :=
  maximumf
    (addf (mulf (mulf (broadcastInDim S50000x128 ![0, 1] bcast_S1x128_S50000x128_0_1 (broadcastInDim S1x128 ![1] bcast_S128_S1x128_1 g)) (subf x (broadcastInDim S50000x128 ![0, 1] bcast_S1x128_S50000x128_0_1 (broadcastInDim S1x128 ![1] bcast_S128_S1x128_1 mu))))
        (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32)))))))
      (broadcastInDim S50000x128 ![0, 1] bcast_S1x128_S50000x128_0_1 (broadcastInDim S1x128 ![1] bcast_S128_S1x128_1 be)))
    (broadcastInDim S50000x128 ![] bcast_S_S50000x128 (constant S_ .f32 0x00000000#32))

/-- The graphs' node counts, at least one, as a column. -/
def cntCol (batch : IVec S50000 32) : FVec F S512x1 .f32 :=
  broadcastInDim S512x1 ![0] bcast_S512_S512x1_0
    (maximumf (Host.scatterAdd scatter_S512_S50000x1_S50000_n_0_0_1 (broadcastInDim S512 ![] bcast_S_S512 (constant S_ .f32 0x00000000#32))
        (broadcastInDim S50000x1 ![0] bcast_S50000_S50000x1_0 batch)
        (broadcastInDim S50000 ![] bcast_S_S50000 (constant S_ .f32 0x3F800000#32)))
      (broadcastInDim S512 ![] bcast_S_S512 (constant S_ .f32 0x3F800000#32)))

/-- One layer's rows averaged per graph. -/
def poolOne (h : FVec F S50000x128 .f32) (batch : IVec S50000 32) : FVec F S512x128 .f32 :=
  Host.divf (Host.scatterAdd scatter_S512x128_S50000x1_S50000x128_1_0_0_1 (broadcastInDim S512x128 ![] bcast_S_S512x128 (constant S_ .f32 0x00000000#32))
      (broadcastInDim S50000x1 ![0] bcast_S50000_S50000x1_0 batch) h)
    (broadcastInDim S512x128 ![0, 1] bcast_S512x1_S512x128_0_1 (cntCol (F := F) batch))

/-- The three layers' pooled means side by side. -/
def poolR (h1 h2 h3 : FVec F S50000x128 .f32) (batch : IVec S50000 32) : FVec F S512x384 .f32 :=
  concatenate S512x384 1 [⟨S512x128, poolOne h1 batch⟩, ⟨S512x128, poolOne h2 batch⟩, ⟨S512x128, poolOne h3 batch⟩]
    concatenates_S512x128_S512x128_S512x128_S512x384_d1

/-- The projection of the pooled features. -/
def projT (hf : FVec F S512x384 .f32) (W : FVec F S64x384 .f32) (b : FVec F S64 .f32) : FVec F S512x64 .f32 :=
  addf (Host.dotGeneral dot_S512x384_S384x64_S512x64_1_0_0_1_n_n none hf (transpose S384x64 [1, 0] W transposes_S64x384_S384x64_1_0))
    (broadcastInDim S512x64 ![0, 1] bcast_S1x64_S512x64_0_1 (broadcastInDim S1x64 ![1] bcast_S64_S1x64_1 b))

/-- A row divided by its Euclidean length, the length kept above 1e-12. -/
def normT (y : FVec F S512x64 .f32) : FVec F S512x64 .f32 :=
  Host.divf y (broadcastInDim S512x64 ![0, 1] bcast_S512x1_S512x64_0_1
    (maximumf (Host.sqrt (broadcastInDim S512x1 ![0] bcast_S512_S512x1_0
        (Host.reduceAdd (mulf y y) (constant S_ .f32 0x00000000#32) reducesTo_S512x64_S512_d1 h_S_)))
      (broadcastInDim S512x1 ![] bcast_S_S512x1 (constant S_ .f32 0x2B8CBCCC#32))))

end Terms

/-! ## The line of operations, stage by stage

The 270 operations cut into 21 consecutive stretches, each ending where a stage's value is complete. -/

section Stages
variable {F : FTy → Type} [FloatOps F]

/-- Operations 1 … 17 of the line. -/
abbrev w0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

abbrev w0_W : List (Ref sig .tc) := [main_v0, main_v1, main_v2, main_v3, main_c, main_v4, main_v5, main_c_0, main_v6, main_v7, main_v8, main_v9, main_v10, main_cst, main_v11, main_v12, main_v13]
set_option maxRecDepth 8192 in
theorem w0_writes : (w0 : List (HloOp τ sig (Elt F))).Forall fun op => op.writes ⊆ (w0_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_c rfl (by decide),
   writes_sub_of_mem main_v4 rfl (by decide),
   writes_sub_of_mem main_v5 rfl (by decide),
   writes_sub_of_mem main_c_0 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_cst rfl (by decide),
   writes_sub_of_mem main_v11 rfl (by decide),
   writes_sub_of_mem main_v12 rfl (by decide),
   writes_sub_of_mem main_v13 rfl (by decide)⟩

/-- Operations 18 … 31 of the line. -/
abbrev w1 : List (HloOp τ sig (Elt F)) :=
  [ StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((transpose S128x128 [1, 0] · transposes_S128x128_S128x128_1_0) : (⟨S128x128, .f32⟩ : BufTy).Contents (Elt F) → (⟨S128x128, .f32⟩ : BufTy).Contents (Elt F)),
    StableHlo.binary main_v14 main_v15 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v19 : StableHlo.TRef sig ⟨S50000x128, .f32⟩) main_call0.v0 main_call0.v1 maximumf,
    StableHlo.unary main_arg5 main_v21 ((transpose S128x128 [1, 0] · transposes_S128x128_S128x128_1_0) : (⟨S128x128, .f32⟩ : BufTy).Contents (Elt F) → (⟨S128x128, .f32⟩ : BufTy).Contents (Elt F)),
    StableHlo.binary main_v20 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v24 main_v25 (addf : (⟨S50000x128, .f32⟩ : BufTy).Contents (Elt F) → (⟨S50000x128, .f32⟩ : BufTy).Contents (Elt F) → (⟨S50000x128, .f32⟩ : BufTy).Contents (Elt F)) ]

abbrev w1_W : List (Ref sig .tc) := [main_v14, main_v15, main_v16, main_v17, main_v18, main_v19, main_call0_cst, main_call0_v0, main_v20, main_v21, main_v22, main_v23, main_v24, main_v25]
set_option maxRecDepth 8192 in
theorem w1_writes : (w1 : List (HloOp τ sig (Elt F))).Forall fun op => op.writes ⊆ (w1_W.map (Proc.devRef (τ := τ) .tc)).toFinset :=
  ⟨writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem main_v19 rfl (by decide),
   writes_sub_of_mem main_call0_cst rfl (by decide),
   writes_sub_of_mem main_call0_v0 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_v25 rfl (by decide)⟩

/-- Operations 32 … 36 of the line. -/
abbrev w2 : List (HloOp τ sig (Elt F)) :=
  [ StableHlo.nullary main_cst_1 (constant S_ .f32 0x00000000#32),
    StableHlo.binary main_v25 main_cst_1 main_v26 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v27 (broadcastInDim S128 ![] bcast_S_S128 : (⟨S_, .f32⟩ : BufTy).Contents (Elt F) → (⟨S128, .f32⟩ : BufTy).Contents (Elt F)),
    StableHlo.binary main_v26 main_v27 main_v28 (Host.divf : (⟨S128, .f32⟩ : BufTy).Contents (Elt F) → (⟨S128, .f32⟩ : BufTy).Contents (Elt F) → (⟨S128, .f32⟩ : BufTy).Contents (Elt F)) ]

abbrev w2_W : List (Ref sig .tc) := [main_cst_1, main_v26, main_cst_2, main_v27, main_v28]
set_option maxRecDepth 8192 in
theorem w2_writes : (w2 : List (HloOp τ sig (Elt F))).Forall fun op => op.writes ⊆ (w2_W.map (Proc.devRef (τ := τ) .tc)).toFinset :=
  ⟨writes_sub_of_mem main_cst_1 rfl (by decide),
   writes_sub_of_mem main_v26 rfl (by decide),
   writes_sub_of_mem main_cst_2 rfl (by decide),
   writes_sub_of_mem main_v27 rfl (by decide),
   writes_sub_of_mem main_v28 rfl (by decide)⟩

/-- Operations 37 … 59 of the line. -/
abbrev w3 : List (HloOp τ sig (Elt F)) :=
  [ StableHlo.nullary main_c_3 (constantI S_ 32 0#32),
    StableHlo.TRef.nullary main_call1.cst (constant S_ .f32 0x00000000#32),
    StableHlo.TRef.binary (.of main_v25 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v25 : StableHlo.TRef sig ⟨S50000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

abbrev w3_W : List (Ref sig .tc) := [main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v29]
set_option maxRecDepth 8192 in
theorem w3_writes : (w3 : List (HloOp τ sig (Elt F))).Forall fun op => op.writes ⊆ (w3_W.map (Proc.devRef (τ := τ) .tc)).toFinset :=
  ⟨writes_sub_of_mem main_c_3 rfl (by decide),
   writes_sub_of_mem main_call1_cst rfl (by decide),
   writes_sub_of_mem main_call1_v0 rfl (by decide),
   writes_sub_of_mem main_call1_v1 rfl (by decide),
   writes_sub_of_mem main_call1_cst_0 rfl (by decide),
   writes_sub_of_mem main_call1_v2 rfl (by decide),
   writes_sub_of_mem main_call1_v3 rfl (by decide),
   writes_sub_of_mem main_call1_v4 rfl (by decide),
   writes_sub_of_mem main_call1_v5 rfl (by decide),
   writes_sub_of_mem main_call1_v6 rfl (by decide),
   writes_sub_of_mem main_call1_v7 rfl (by decide),
   writes_sub_of_mem main_call1_cst_1 rfl (by decide),
   writes_sub_of_mem main_call1_v8 rfl (by decide),
   writes_sub_of_mem main_call1_cst_2 rfl (by decide),
   writes_sub_of_mem main_call1_v9 rfl (by decide),
   writes_sub_of_mem main_call1_v10 rfl (by decide),
   writes_sub_of_mem main_call1_v11 rfl (by decide),
   writes_sub_of_mem main_call1_cst_3 rfl (by decide),
   writes_sub_of_mem main_call1_v12 rfl (by decide),
   writes_sub_of_mem main_call1_cst_4 rfl (by decide),
   writes_sub_of_mem main_call1_call0_v0 rfl (by decide),
   writes_sub_of_mem main_call1_call0_v1 rfl (by decide),
   writes_sub_of_mem main_v29 rfl (by decide)⟩

/-- Operations 60 … 78 of the line. -/
abbrev w4 : List (HloOp τ sig (Elt F)) :=
  [ StableHlo.unary main_v28 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v31 main_v32 (subf : (⟨S50000x128, .f32⟩ : BufTy).Contents (Elt F) → (⟨S50000x128, .f32⟩ : BufTy).Contents (Elt F) → (⟨S50000x128, .f32⟩ : BufTy).Contents (Elt F)),
    StableHlo.unary main_arg7 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v32 main_v35 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v36 (broadcastInDim S128 ![] bcast_S_S128 : (⟨S_, .f32⟩ : BufTy).Contents (Elt F) → (⟨S128, .f32⟩ : BufTy).Contents (Elt F)),
    StableHlo.binary main_v29 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v40 main_v41 (mulf : (⟨S50000x128, .f32⟩ : BufTy).Contents (Elt F) → (⟨S50000x128, .f32⟩ : BufTy).Contents (Elt F) → (⟨S50000x128, .f32⟩ : BufTy).Contents (Elt F)),
    StableHlo.unary main_arg8 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v44 : StableHlo.TRef sig ⟨S50000x128, .f32⟩) main_call2.v0 main_call2.v1 maximumf ]

abbrev w4_W : List (Ref sig .tc) := [main_v30, main_v31, main_v32, main_v33, main_v34, main_v35, main_cst_4, main_v36, main_v37, main_v38, main_v39, main_v40, main_v41, main_v42, main_v43, main_v44, main_call2_cst, main_call2_v0, main_v45]
set_option maxRecDepth 8192 in
theorem w4_writes : (w4 : List (HloOp τ sig (Elt F))).Forall fun op => op.writes ⊆ (w4_W.map (Proc.devRef (τ := τ) .tc)).toFinset :=
  ⟨writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_cst_4 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_call2_cst rfl (by decide),
   writes_sub_of_mem main_call2_v0 rfl (by decide),
   writes_sub_of_mem main_v45 rfl (by decide)⟩

/-- Operations 79 … 85 of the line. -/
abbrev w5 : List (HloOp τ sig (Elt F)) :=
  [ StableHlo.nullary main_c_5 (constantI S_ 32 0#32),
    StableHlo.unary main_c_5 main_v46 (broadcastInDim S600000 ![] bcast_S_S600000 : (⟨S_, .i32⟩ : BufTy).Contents (Elt F) → (⟨S600000, .i32⟩ : BufTy).Contents (Elt F)),
    StableHlo.binary main_v1 main_v46 main_v47 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v48 (broadcastInDim S600000 ![] bcast_S_S600000 : (⟨S_, .i32⟩ : BufTy).Contents (Elt F) → (⟨S600000, .i32⟩ : BufTy).Contents (Elt F)),
    StableHlo.binary main_v1 main_v48 main_v49 (addi : (⟨S600000, .i32⟩ : BufTy).Contents (Elt F) → (⟨S600000, .i32⟩ : BufTy).Contents (Elt F) → (⟨S600000, .i32⟩ : BufTy).Contents (Elt F)),
    StableHlo.ternary main_v47 main_v49 main_v1 main_v50 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ]

abbrev w5_W : List (Ref sig .tc) := [main_c_5, main_v46, main_v47, main_c_6, main_v48, main_v49, main_v50]
set_option maxRecDepth 8192 in
theorem w5_writes : (w5 : List (HloOp τ sig (Elt F))).Forall fun op => op.writes ⊆ (w5_W.map (Proc.devRef (τ := τ) .tc)).toFinset :=
  ⟨writes_sub_of_mem main_c_5 rfl (by decide),
   writes_sub_of_mem main_v46 rfl (by decide),
   writes_sub_of_mem main_v47 rfl (by decide),
   writes_sub_of_mem main_c_6 rfl (by decide),
   writes_sub_of_mem main_v48 rfl (by decide),
   writes_sub_of_mem main_v49 rfl (by decide),
   writes_sub_of_mem main_v50 rfl (by decide)⟩

/-- Operations 86 … 91 of the line. -/
abbrev w6 : List (HloOp τ sig (Elt F)) :=
  [ StableHlo.unary main_v50 main_v51 (broadcastInDim S600000x1 ![0] bcast_S600000_S600000x1_0 : (⟨S600000, .i32⟩ : BufTy).Contents (Elt F) → (⟨S600000x1, .i32⟩ : BufTy).Contents (Elt F)),
    StableHlo.binary main_v45 main_v51 main_v52 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v53 (broadcastInDim S50000x128 ![] bcast_S_S50000x128 : (⟨S_, .f32⟩ : BufTy).Contents (Elt F) → (⟨S50000x128, .f32⟩ : BufTy).Contents (Elt F)),
    StableHlo.unary main_v3 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

abbrev w6_W : List (Ref sig .tc) := [main_v51, main_v52, main_cst_7, main_v53, main_v54, main_v55]
set_option maxRecDepth 8192 in
theorem w6_writes : (w6 : List (HloOp τ sig (Elt F))).Forall fun op => op.writes ⊆ (w6_W.map (Proc.devRef (τ := τ) .tc)).toFinset :=
  ⟨writes_sub_of_mem main_v51 rfl (by decide),
   writes_sub_of_mem main_v52 rfl (by decide),
   writes_sub_of_mem main_cst_7 rfl (by decide),
   writes_sub_of_mem main_v53 rfl (by decide),
   writes_sub_of_mem main_v54 rfl (by decide),
   writes_sub_of_mem main_v55 rfl (by decide)⟩

/-- Operations 92 … 105 of the line. -/
abbrev w7 : List (HloOp τ sig (Elt F)) :=
  [ StableHlo.binary main_v45 main_v55 main_v56 (addf : (⟨S50000x128, .f32⟩ : BufTy).Contents (Elt F) → (⟨S50000x128, .f32⟩ : BufTy).Contents (Elt F) → (⟨S50000x128, .f32⟩ : BufTy).Contents (Elt F)),
    StableHlo.unary main_arg9 main_v57 ((transpose S128x128 [1, 0] · transposes_S128x128_S128x128_1_0) : (⟨S128x128, .f32⟩ : BufTy).Contents (Elt F) → (⟨S128x128, .f32⟩ : BufTy).Contents (Elt F)),
    StableHlo.binary main_v56 main_v57 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v61 : StableHlo.TRef sig ⟨S50000x128, .f32⟩) main_call3.v0 main_call3.v1 maximumf,
    StableHlo.unary main_arg11 main_v63 ((transpose S128x128 [1, 0] · transposes_S128x128_S128x128_1_0) : (⟨S128x128, .f32⟩ : BufTy).Contents (Elt F) → (⟨S128x128, .f32⟩ : BufTy).Contents (Elt F)),
    StableHlo.binary main_v62 main_v63 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)) ]

abbrev w7_W : List (Ref sig .tc) := [main_v56, main_v57, main_v58, main_v59, main_v60, main_v61, main_call3_cst, main_call3_v0, main_v62, main_v63, main_v64, main_v65, main_v66, main_v67]
set_option maxRecDepth 8192 in
theorem w7_writes : (w7 : List (HloOp τ sig (Elt F))).Forall fun op => op.writes ⊆ (w7_W.map (Proc.devRef (τ := τ) .tc)).toFinset :=
  ⟨writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_call3_cst rfl (by decide),
   writes_sub_of_mem main_call3_v0 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide)⟩

/-- Operations 106 … 110 of the line. -/
abbrev w8 : List (HloOp τ sig (Elt F)) :=
  [ StableHlo.nullary main_cst_8 (constant S_ .f32 0x00000000#32),
    StableHlo.binary main_v67 main_cst_8 main_v68 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)) ]

abbrev w8_W : List (Ref sig .tc) := [main_cst_8, main_v68, main_cst_9, main_v69, main_v70]
set_option maxRecDepth 8192 in
theorem w8_writes : (w8 : List (HloOp τ sig (Elt F))).Forall fun op => op.writes ⊆ (w8_W.map (Proc.devRef (τ := τ) .tc)).toFinset :=
  ⟨writes_sub_of_mem main_cst_8 rfl (by decide),
   writes_sub_of_mem main_v68 rfl (by decide),
   writes_sub_of_mem main_cst_9 rfl (by decide),
   writes_sub_of_mem main_v69 rfl (by decide),
   writes_sub_of_mem main_v70 rfl (by decide)⟩

/-- Operations 111 … 133 of the line. -/
abbrev w9 : List (HloOp τ sig (Elt F)) :=
  [ StableHlo.nullary main_c_10 (constantI S_ 32 0#32),
    StableHlo.TRef.nullary main_call4.cst (constant S_ .f32 0x00000000#32),
    StableHlo.TRef.binary (.of main_v67 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v67 : StableHlo.TRef sig ⟨S50000x128, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

abbrev w9_W : List (Ref sig .tc) := [main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v71]
set_option maxRecDepth 8192 in
theorem w9_writes : (w9 : List (HloOp τ sig (Elt F))).Forall fun op => op.writes ⊆ (w9_W.map (Proc.devRef (τ := τ) .tc)).toFinset :=
  ⟨writes_sub_of_mem main_c_10 rfl (by decide),
   writes_sub_of_mem main_call4_cst rfl (by decide),
   writes_sub_of_mem main_call4_v0 rfl (by decide),
   writes_sub_of_mem main_call4_v1 rfl (by decide),
   writes_sub_of_mem main_call4_cst_0 rfl (by decide),
   writes_sub_of_mem main_call4_v2 rfl (by decide),
   writes_sub_of_mem main_call4_v3 rfl (by decide),
   writes_sub_of_mem main_call4_v4 rfl (by decide),
   writes_sub_of_mem main_call4_v5 rfl (by decide),
   writes_sub_of_mem main_call4_v6 rfl (by decide),
   writes_sub_of_mem main_call4_v7 rfl (by decide),
   writes_sub_of_mem main_call4_cst_1 rfl (by decide),
   writes_sub_of_mem main_call4_v8 rfl (by decide),
   writes_sub_of_mem main_call4_cst_2 rfl (by decide),
   writes_sub_of_mem main_call4_v9 rfl (by decide),
   writes_sub_of_mem main_call4_v10 rfl (by decide),
   writes_sub_of_mem main_call4_v11 rfl (by decide),
   writes_sub_of_mem main_call4_cst_3 rfl (by decide),
   writes_sub_of_mem main_call4_v12 rfl (by decide),
   writes_sub_of_mem main_call4_cst_4 rfl (by decide),
   writes_sub_of_mem main_call4_call0_v0 rfl (by decide),
   writes_sub_of_mem main_call4_call0_v1 rfl (by decide),
   writes_sub_of_mem main_v71 rfl (by decide)⟩

/-- Operations 134 … 152 of the line. -/
abbrev w10 : List (HloOp τ sig (Elt F)) :=
  [ StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v73 main_v74 (subf : (⟨S50000x128, .f32⟩ : BufTy).Contents (Elt F) → (⟨S50000x128, .f32⟩ : BufTy).Contents (Elt F) → (⟨S50000x128, .f32⟩ : BufTy).Contents (Elt F)),
    StableHlo.unary main_arg13 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v74 main_v77 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v78 (broadcastInDim S128 ![] bcast_S_S128 : (⟨S_, .f32⟩ : BufTy).Contents (Elt F) → (⟨S128, .f32⟩ : BufTy).Contents (Elt F)),
    StableHlo.binary main_v71 main_v78 main_v79 (addf : (⟨S128, .f32⟩ : BufTy).Contents (Elt F) → (⟨S128, .f32⟩ : BufTy).Contents (Elt F) → (⟨S128, .f32⟩ : BufTy).Contents (Elt F)),
    StableHlo.unary main_v79 main_v80 (Host.rsqrt : (⟨S128, .f32⟩ : BufTy).Contents (Elt F) → (⟨S128, .f32⟩ : BufTy).Contents (Elt F)),
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v82 main_v83 (mulf : (⟨S50000x128, .f32⟩ : BufTy).Contents (Elt F) → (⟨S50000x128, .f32⟩ : BufTy).Contents (Elt F) → (⟨S50000x128, .f32⟩ : BufTy).Contents (Elt F)),
    StableHlo.unary main_arg14 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v86 : StableHlo.TRef sig ⟨S50000x128, .f32⟩) main_call5.v0 main_call5.v1 maximumf ]

abbrev w10_W : List (Ref sig .tc) := [main_v72, main_v73, main_v74, main_v75, main_v76, main_v77, main_cst_11, main_v78, main_v79, main_v80, main_v81, main_v82, main_v83, main_v84, main_v85, main_v86, main_call5_cst, main_call5_v0, main_v87]
set_option maxRecDepth 8192 in
theorem w10_writes : (w10 : List (HloOp τ sig (Elt F))).Forall fun op => op.writes ⊆ (w10_W.map (Proc.devRef (τ := τ) .tc)).toFinset :=
  ⟨writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_cst_11 rfl (by decide),
   writes_sub_of_mem main_v78 rfl (by decide),
   writes_sub_of_mem main_v79 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_call5_cst rfl (by decide),
   writes_sub_of_mem main_call5_v0 rfl (by decide),
   writes_sub_of_mem main_v87 rfl (by decide)⟩

/-- Operations 153 … 165 of the line. -/
abbrev w11 : List (HloOp τ sig (Elt F)) :=
  [ StableHlo.nullary main_c_12 (constantI S_ 32 0#32),
    StableHlo.unary main_c_12 main_v88 (broadcastInDim S600000 ![] bcast_S_S600000 : (⟨S_, .i32⟩ : BufTy).Contents (Elt F) → (⟨S600000, .i32⟩ : BufTy).Contents (Elt F)),
    StableHlo.binary main_v1 main_v88 main_v89 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v90 (broadcastInDim S600000 ![] bcast_S_S600000 : (⟨S_, .i32⟩ : BufTy).Contents (Elt F) → (⟨S600000, .i32⟩ : BufTy).Contents (Elt F)),
    StableHlo.binary main_v1 main_v90 main_v91 (addi : (⟨S600000, .i32⟩ : BufTy).Contents (Elt F) → (⟨S600000, .i32⟩ : BufTy).Contents (Elt F) → (⟨S600000, .i32⟩ : BufTy).Contents (Elt F)),
    StableHlo.ternary main_v89 main_v91 main_v1 main_v92 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v92 main_v93 (broadcastInDim S600000x1 ![0] bcast_S600000_S600000x1_0 : (⟨S600000, .i32⟩ : BufTy).Contents (Elt F) → (⟨S600000x1, .i32⟩ : BufTy).Contents (Elt F)),
    StableHlo.binary main_v87 main_v93 main_v94 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v95 (broadcastInDim S50000x128 ![] bcast_S_S50000x128 : (⟨S_, .f32⟩ : BufTy).Contents (Elt F) → (⟨S50000x128, .f32⟩ : BufTy).Contents (Elt F)),
    StableHlo.unary main_v3 main_v96 (broadcastInDim S600000x1 ![0] bcast_S600000_S600000x1_0 : (⟨S600000, .i32⟩ : BufTy).Contents (Elt F) → (⟨S600000x1, .i32⟩ : BufTy).Contents (Elt F)),
    StableHlo.ternary main_v95 main_v96 main_v94 main_v97 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

abbrev w11_W : List (Ref sig .tc) := [main_c_12, main_v88, main_v89, main_c_13, main_v90, main_v91, main_v92, main_v93, main_v94, main_cst_14, main_v95, main_v96, main_v97]
set_option maxRecDepth 8192 in
theorem w11_writes : (w11 : List (HloOp τ sig (Elt F))).Forall fun op => op.writes ⊆ (w11_W.map (Proc.devRef (τ := τ) .tc)).toFinset :=
  ⟨writes_sub_of_mem main_c_12 rfl (by decide),
   writes_sub_of_mem main_v88 rfl (by decide),
   writes_sub_of_mem main_v89 rfl (by decide),
   writes_sub_of_mem main_c_13 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_cst_14 rfl (by decide),
   writes_sub_of_mem main_v95 rfl (by decide),
   writes_sub_of_mem main_v96 rfl (by decide),
   writes_sub_of_mem main_v97 rfl (by decide)⟩

/-- Operations 166 … 170 of the line. -/
abbrev w12 : List (HloOp τ sig (Elt F)) :=
  [ StableHlo.binary main_v87 main_v97 main_v98 (addf : (⟨S50000x128, .f32⟩ : BufTy).Contents (Elt F) → (⟨S50000x128, .f32⟩ : BufTy).Contents (Elt F) → (⟨S50000x128, .f32⟩ : BufTy).Contents (Elt F)),
    StableHlo.unary main_arg15 main_v99 ((transpose S128x128 [1, 0] · transposes_S128x128_S128x128_1_0) : (⟨S128x128, .f32⟩ : BufTy).Contents (Elt F) → (⟨S128x128, .f32⟩ : BufTy).Contents (Elt F)),
    StableHlo.binary main_v98 main_v99 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)) ]

abbrev w12_W : List (Ref sig .tc) := [main_v98, main_v99, main_v100, main_v101, main_v102]
set_option maxRecDepth 8192 in
theorem w12_writes : (w12 : List (HloOp τ sig (Elt F))).Forall fun op => op.writes ⊆ (w12_W.map (Proc.devRef (τ := τ) .tc)).toFinset :=
  ⟨writes_sub_of_mem main_v98 rfl (by decide),
   writes_sub_of_mem main_v99 rfl (by decide),
   writes_sub_of_mem main_v100 rfl (by decide),
   writes_sub_of_mem main_v101 rfl (by decide),
   writes_sub_of_mem main_v102 rfl (by decide)⟩

/-- Operations 171 … 179 of the line. -/
abbrev w13 : List (HloOp τ sig (Elt F)) :=
  [ StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v103 : StableHlo.TRef sig ⟨S50000x128, .f32⟩) main_call6.v0 main_call6.v1 maximumf,
    StableHlo.unary main_arg17 main_v105 ((transpose S128x128 [1, 0] · transposes_S128x128_S128x128_1_0) : (⟨S128x128, .f32⟩ : BufTy).Contents (Elt F) → (⟨S128x128, .f32⟩ : BufTy).Contents (Elt F)),
    StableHlo.binary main_v104 main_v105 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg18 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)) ]

abbrev w13_W : List (Ref sig .tc) := [main_v103, main_call6_cst, main_call6_v0, main_v104, main_v105, main_v106, main_v107, main_v108, main_v109]
set_option maxRecDepth 8192 in
theorem w13_writes : (w13 : List (HloOp τ sig (Elt F))).Forall fun op => op.writes ⊆ (w13_W.map (Proc.devRef (τ := τ) .tc)).toFinset :=
  ⟨writes_sub_of_mem main_v103 rfl (by decide),
   writes_sub_of_mem main_call6_cst rfl (by decide),
   writes_sub_of_mem main_call6_v0 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide),
   writes_sub_of_mem main_v109 rfl (by decide)⟩

/-- Operations 180 … 184 of the line. -/
abbrev w14 : List (HloOp τ sig (Elt F)) :=
  [ StableHlo.nullary main_cst_15 (constant S_ .f32 0x00000000#32),
    StableHlo.binary main_v109 main_cst_15 main_v110 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v111 (broadcastInDim S128 ![] bcast_S_S128 : (⟨S_, .f32⟩ : BufTy).Contents (Elt F) → (⟨S128, .f32⟩ : BufTy).Contents (Elt F)),
    StableHlo.binary main_v110 main_v111 main_v112 (Host.divf : (⟨S128, .f32⟩ : BufTy).Contents (Elt F) → (⟨S128, .f32⟩ : BufTy).Contents (Elt F) → (⟨S128, .f32⟩ : BufTy).Contents (Elt F)) ]

abbrev w14_W : List (Ref sig .tc) := [main_cst_15, main_v110, main_cst_16, main_v111, main_v112]
set_option maxRecDepth 8192 in
theorem w14_writes : (w14 : List (HloOp τ sig (Elt F))).Forall fun op => op.writes ⊆ (w14_W.map (Proc.devRef (τ := τ) .tc)).toFinset :=
  ⟨writes_sub_of_mem main_cst_15 rfl (by decide),
   writes_sub_of_mem main_v110 rfl (by decide),
   writes_sub_of_mem main_cst_16 rfl (by decide),
   writes_sub_of_mem main_v111 rfl (by decide),
   writes_sub_of_mem main_v112 rfl (by decide)⟩

/-- Operations 185 … 207 of the line. -/
abbrev w15 : List (HloOp τ sig (Elt F)) :=
  [ StableHlo.nullary main_c_17 (constantI S_ 32 0#32),
    StableHlo.TRef.nullary main_call7.cst (constant S_ .f32 0x00000000#32),
    StableHlo.TRef.binary (.of main_v109 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v109 : StableHlo.TRef sig ⟨S50000x128, .f32⟩) main_call7.v4 main_call7.v5 subf,
    StableHlo.TRef.binary main_call7.v5 main_call7.v5 main_call7.v6 mulf,
    StableHlo.TRef.unary (.of main_c_17 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b) ]

abbrev w15_W : List (Ref sig .tc) := [main_c_17, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v113]
set_option maxRecDepth 8192 in
theorem w15_writes : (w15 : List (HloOp τ sig (Elt F))).Forall fun op => op.writes ⊆ (w15_W.map (Proc.devRef (τ := τ) .tc)).toFinset :=
  ⟨writes_sub_of_mem main_c_17 rfl (by decide),
   writes_sub_of_mem main_call7_cst rfl (by decide),
   writes_sub_of_mem main_call7_v0 rfl (by decide),
   writes_sub_of_mem main_call7_v1 rfl (by decide),
   writes_sub_of_mem main_call7_cst_0 rfl (by decide),
   writes_sub_of_mem main_call7_v2 rfl (by decide),
   writes_sub_of_mem main_call7_v3 rfl (by decide),
   writes_sub_of_mem main_call7_v4 rfl (by decide),
   writes_sub_of_mem main_call7_v5 rfl (by decide),
   writes_sub_of_mem main_call7_v6 rfl (by decide),
   writes_sub_of_mem main_call7_v7 rfl (by decide),
   writes_sub_of_mem main_call7_cst_1 rfl (by decide),
   writes_sub_of_mem main_call7_v8 rfl (by decide),
   writes_sub_of_mem main_call7_cst_2 rfl (by decide),
   writes_sub_of_mem main_call7_v9 rfl (by decide),
   writes_sub_of_mem main_call7_v10 rfl (by decide),
   writes_sub_of_mem main_call7_v11 rfl (by decide),
   writes_sub_of_mem main_call7_cst_3 rfl (by decide),
   writes_sub_of_mem main_call7_v12 rfl (by decide),
   writes_sub_of_mem main_call7_cst_4 rfl (by decide),
   writes_sub_of_mem main_call7_call0_v0 rfl (by decide),
   writes_sub_of_mem main_call7_call0_v1 rfl (by decide),
   writes_sub_of_mem main_v113 rfl (by decide)⟩

/-- Operations 208 … 226 of the line. -/
abbrev w16 : List (HloOp τ sig (Elt F)) :=
  [ StableHlo.unary main_v112 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v115 main_v116 (subf : (⟨S50000x128, .f32⟩ : BufTy).Contents (Elt F) → (⟨S50000x128, .f32⟩ : BufTy).Contents (Elt F) → (⟨S50000x128, .f32⟩ : BufTy).Contents (Elt F)),
    StableHlo.unary main_arg19 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v118 main_v116 main_v119 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v120 (broadcastInDim S128 ![] bcast_S_S128 : (⟨S_, .f32⟩ : BufTy).Contents (Elt F) → (⟨S128, .f32⟩ : BufTy).Contents (Elt F)),
    StableHlo.binary main_v113 main_v120 main_v121 (addf : (⟨S128, .f32⟩ : BufTy).Contents (Elt F) → (⟨S128, .f32⟩ : BufTy).Contents (Elt F) → (⟨S128, .f32⟩ : BufTy).Contents (Elt F)),
    StableHlo.unary main_v121 main_v122 (Host.rsqrt : (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v124 main_v125 (mulf : (⟨S50000x128, .f32⟩ : BufTy).Contents (Elt F) → (⟨S50000x128, .f32⟩ : BufTy).Contents (Elt F) → (⟨S50000x128, .f32⟩ : BufTy).Contents (Elt F)),
    StableHlo.unary main_arg20 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v127 main_v128 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v128 : StableHlo.TRef sig ⟨S50000x128, .f32⟩) main_call8.v0 main_call8.v1 maximumf ]

abbrev w16_W : List (Ref sig .tc) := [main_v114, main_v115, main_v116, main_v117, main_v118, main_v119, main_cst_18, main_v120, main_v121, main_v122, main_v123, main_v124, main_v125, main_v126, main_v127, main_v128, main_call8_cst, main_call8_v0, main_v129]
set_option maxRecDepth 8192 in
theorem w16_writes : (w16 : List (HloOp τ sig (Elt F))).Forall fun op => op.writes ⊆ (w16_W.map (Proc.devRef (τ := τ) .tc)).toFinset :=
  ⟨writes_sub_of_mem main_v114 rfl (by decide),
   writes_sub_of_mem main_v115 rfl (by decide),
   writes_sub_of_mem main_v116 rfl (by decide),
   writes_sub_of_mem main_v117 rfl (by decide),
   writes_sub_of_mem main_v118 rfl (by decide),
   writes_sub_of_mem main_v119 rfl (by decide),
   writes_sub_of_mem main_cst_18 rfl (by decide),
   writes_sub_of_mem main_v120 rfl (by decide),
   writes_sub_of_mem main_v121 rfl (by decide),
   writes_sub_of_mem main_v122 rfl (by decide),
   writes_sub_of_mem main_v123 rfl (by decide),
   writes_sub_of_mem main_v124 rfl (by decide),
   writes_sub_of_mem main_v125 rfl (by decide),
   writes_sub_of_mem main_v126 rfl (by decide),
   writes_sub_of_mem main_v127 rfl (by decide),
   writes_sub_of_mem main_v128 rfl (by decide),
   writes_sub_of_mem main_call8_cst rfl (by decide),
   writes_sub_of_mem main_call8_v0 rfl (by decide),
   writes_sub_of_mem main_v129 rfl (by decide)⟩

/-- Operations 227 … 236 of the line. -/
abbrev w17 : List (HloOp τ sig (Elt F)) :=
  [ StableHlo.nullary main_cst_19 (constant S_ .f32 0x3F800000#32),
    StableHlo.unary main_cst_19 main_v130 (broadcastInDim S50000 ![] bcast_S_S50000 : (⟨S_, .f32⟩ : BufTy).Contents (Elt F) → (⟨S50000, .f32⟩ : BufTy).Contents (Elt F)),
    StableHlo.nullary main_cst_20 (constant S_ .f32 0x00000000#32),
    StableHlo.unary main_cst_20 main_v131 (broadcastInDim S512 ![] bcast_S_S512 : (⟨S_, .f32⟩ : BufTy).Contents (Elt F) → (⟨S512, .f32⟩ : BufTy).Contents (Elt F)),
    StableHlo.unary main_arg2 main_v132 (broadcastInDim S50000x1 ![0] bcast_S50000_S50000x1_0 : (⟨S50000, .i32⟩ : BufTy).Contents (Elt F) → (⟨S50000x1, .i32⟩ : BufTy).Contents (Elt F)),
    StableHlo.ternary main_v131 main_v132 main_v130 main_v133 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_21 (constant S_ .f32 0x3F800000#32),
    StableHlo.unary main_cst_21 main_v134 (broadcastInDim S512 ![] bcast_S_S512 : (⟨S_, .f32⟩ : BufTy).Contents (Elt F) → (⟨S512, .f32⟩ : BufTy).Contents (Elt F)),
    StableHlo.binary main_v133 main_v134 main_v135 (maximumf : (⟨S512, .f32⟩ : BufTy).Contents (Elt F) → (⟨S512, .f32⟩ : BufTy).Contents (Elt F) → (⟨S512, .f32⟩ : BufTy).Contents (Elt F)),
    StableHlo.unary main_v135 main_v136 (broadcastInDim S512x1 ![0] bcast_S512_S512x1_0 : (⟨S512, .f32⟩ : BufTy).Contents (Elt F) → (⟨S512x1, .f32⟩ : BufTy).Contents (Elt F)) ]

abbrev w17_W : List (Ref sig .tc) := [main_cst_19, main_v130, main_cst_20, main_v131, main_v132, main_v133, main_cst_21, main_v134, main_v135, main_v136]
set_option maxRecDepth 8192 in
theorem w17_writes : (w17 : List (HloOp τ sig (Elt F))).Forall fun op => op.writes ⊆ (w17_W.map (Proc.devRef (τ := τ) .tc)).toFinset :=
  ⟨writes_sub_of_mem main_cst_19 rfl (by decide),
   writes_sub_of_mem main_v130 rfl (by decide),
   writes_sub_of_mem main_cst_20 rfl (by decide),
   writes_sub_of_mem main_v131 rfl (by decide),
   writes_sub_of_mem main_v132 rfl (by decide),
   writes_sub_of_mem main_v133 rfl (by decide),
   writes_sub_of_mem main_cst_21 rfl (by decide),
   writes_sub_of_mem main_v134 rfl (by decide),
   writes_sub_of_mem main_v135 rfl (by decide),
   writes_sub_of_mem main_v136 rfl (by decide)⟩

/-- Operations 237 … 255 of the line. -/
abbrev w18 : List (HloOp τ sig (Elt F)) :=
  [ StableHlo.nullary main_cst_22 (constant S_ .f32 0x00000000#32),
    StableHlo.unary main_cst_22 main_v137 (broadcastInDim S512x128 ![] bcast_S_S512x128 : (⟨S_, .f32⟩ : BufTy).Contents (Elt F) → (⟨S512x128, .f32⟩ : BufTy).Contents (Elt F)),
    StableHlo.unary main_arg2 main_v138 (broadcastInDim S50000x1 ![0] bcast_S50000_S50000x1_0 : (⟨S50000, .i32⟩ : BufTy).Contents (Elt F) → (⟨S50000x1, .i32⟩ : BufTy).Contents (Elt F)),
    StableHlo.ternary main_v137 main_v138 main_v45 main_v139 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v136 main_v140 (broadcastInDim S512x128 ![0, 1] bcast_S512x1_S512x128_0_1 : (⟨S512x1, .f32⟩ : BufTy).Contents (Elt F) → (⟨S512x128, .f32⟩ : BufTy).Contents (Elt F)),
    StableHlo.binary main_v139 main_v140 main_v141 (Host.divf : (⟨S512x128, .f32⟩ : BufTy).Contents (Elt F) → (⟨S512x128, .f32⟩ : BufTy).Contents (Elt F) → (⟨S512x128, .f32⟩ : BufTy).Contents (Elt F)),
    StableHlo.nullary main_cst_23 (constant S_ .f32 0x00000000#32),
    StableHlo.unary main_cst_23 main_v142 (broadcastInDim S512x128 ![] bcast_S_S512x128 : (⟨S_, .f32⟩ : BufTy).Contents (Elt F) → (⟨S512x128, .f32⟩ : BufTy).Contents (Elt F)),
    StableHlo.unary main_arg2 main_v143 (broadcastInDim S50000x1 ![0] bcast_S50000_S50000x1_0 : (⟨S50000, .i32⟩ : BufTy).Contents (Elt F) → (⟨S50000x1, .i32⟩ : BufTy).Contents (Elt F)),
    StableHlo.ternary main_v142 main_v143 main_v87 main_v144 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v136 main_v145 (broadcastInDim S512x128 ![0, 1] bcast_S512x1_S512x128_0_1 : (⟨S512x1, .f32⟩ : BufTy).Contents (Elt F) → (⟨S512x128, .f32⟩ : BufTy).Contents (Elt F)),
    StableHlo.binary main_v144 main_v145 main_v146 (Host.divf : (⟨S512x128, .f32⟩ : BufTy).Contents (Elt F) → (⟨S512x128, .f32⟩ : BufTy).Contents (Elt F) → (⟨S512x128, .f32⟩ : BufTy).Contents (Elt F)),
    StableHlo.nullary main_cst_24 (constant S_ .f32 0x00000000#32),
    StableHlo.unary main_cst_24 main_v147 (broadcastInDim S512x128 ![] bcast_S_S512x128 : (⟨S_, .f32⟩ : BufTy).Contents (Elt F) → (⟨S512x128, .f32⟩ : BufTy).Contents (Elt F)),
    StableHlo.unary main_arg2 main_v148 (broadcastInDim S50000x1 ![0] bcast_S50000_S50000x1_0 : (⟨S50000, .i32⟩ : BufTy).Contents (Elt F) → (⟨S50000x1, .i32⟩ : BufTy).Contents (Elt F)),
    StableHlo.ternary main_v147 main_v148 main_v129 main_v149 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v136 main_v150 (broadcastInDim S512x128 ![0, 1] bcast_S512x1_S512x128_0_1 : (⟨S512x1, .f32⟩ : BufTy).Contents (Elt F) → (⟨S512x128, .f32⟩ : BufTy).Contents (Elt F)),
    StableHlo.binary main_v149 main_v150 main_v151 (Host.divf : (⟨S512x128, .f32⟩ : BufTy).Contents (Elt F) → (⟨S512x128, .f32⟩ : BufTy).Contents (Elt F) → (⟨S512x128, .f32⟩ : BufTy).Contents (Elt F)),
    StableHlo.nary ![main_v141, main_v146, main_v151] main_v152 (fun u => concatenate S512x384 1 [⟨S512x128, u 0⟩, ⟨S512x128, u 1⟩, ⟨S512x128, u 2⟩] concatenates_S512x128_S512x128_S512x128_S512x384_d1) ]

abbrev w18_W : List (Ref sig .tc) := [main_cst_22, main_v137, main_v138, main_v139, main_v140, main_v141, main_cst_23, main_v142, main_v143, main_v144, main_v145, main_v146, main_cst_24, main_v147, main_v148, main_v149, main_v150, main_v151, main_v152]
set_option maxRecDepth 8192 in
theorem w18_writes : (w18 : List (HloOp τ sig (Elt F))).Forall fun op => op.writes ⊆ (w18_W.map (Proc.devRef (τ := τ) .tc)).toFinset :=
  ⟨writes_sub_of_mem main_cst_22 rfl (by decide),
   writes_sub_of_mem main_v137 rfl (by decide),
   writes_sub_of_mem main_v138 rfl (by decide),
   writes_sub_of_mem main_v139 rfl (by decide),
   writes_sub_of_mem main_v140 rfl (by decide),
   writes_sub_of_mem main_v141 rfl (by decide),
   writes_sub_of_mem main_cst_23 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_cst_24 rfl (by decide),
   writes_sub_of_mem main_v147 rfl (by decide),
   writes_sub_of_mem main_v148 rfl (by decide),
   writes_sub_of_mem main_v149 rfl (by decide),
   writes_sub_of_mem main_v150 rfl (by decide),
   writes_sub_of_mem main_v151 rfl (by decide),
   writes_sub_of_mem main_v152 rfl (by decide)⟩

/-- Operations 256 … 260 of the line. -/
abbrev w19 : List (HloOp τ sig (Elt F)) :=
  [ StableHlo.unary main_arg21 main_v153 ((transpose S384x64 [1, 0] · transposes_S64x384_S384x64_1_0) : (⟨S64x384, .f32⟩ : BufTy).Contents (Elt F) → (⟨S384x64, .f32⟩ : BufTy).Contents (Elt F)),
    StableHlo.binary main_v152 main_v153 main_v154 ((fun l r => Host.dotGeneral dot_S512x384_S384x64_S512x64_1_0_0_1_n_n none l r) : (⟨S512x384, .f32⟩ : BufTy).Contents (Elt F) → (⟨S384x64, .f32⟩ : BufTy).Contents (Elt F) → (⟨S512x64, .f32⟩ : BufTy).Contents (Elt F)),
    StableHlo.unary main_arg22 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S512x64 ![0, 1] bcast_S1x64_S512x64_0_1 : (⟨S1x64, .f32⟩ : BufTy).Contents (Elt F) → (⟨S512x64, .f32⟩ : BufTy).Contents (Elt F)),
    StableHlo.binary main_v154 main_v156 main_v157 (addf : (⟨S512x64, .f32⟩ : BufTy).Contents (Elt F) → (⟨S512x64, .f32⟩ : BufTy).Contents (Elt F) → (⟨S512x64, .f32⟩ : BufTy).Contents (Elt F)) ]

abbrev w19_W : List (Ref sig .tc) := [main_v153, main_v154, main_v155, main_v156, main_v157]
set_option maxRecDepth 8192 in
theorem w19_writes : (w19 : List (HloOp τ sig (Elt F))).Forall fun op => op.writes ⊆ (w19_W.map (Proc.devRef (τ := τ) .tc)).toFinset :=
  ⟨writes_sub_of_mem main_v153 rfl (by decide),
   writes_sub_of_mem main_v154 rfl (by decide),
   writes_sub_of_mem main_v155 rfl (by decide),
   writes_sub_of_mem main_v156 rfl (by decide),
   writes_sub_of_mem main_v157 rfl (by decide)⟩

/-- Operations 261 … 270 of the line. -/
abbrev w20 : List (HloOp τ sig (Elt F)) :=
  [ StableHlo.TRef.binary (.of main_v157 : StableHlo.TRef sig ⟨S512x64, .f32⟩) (.of main_v157 : StableHlo.TRef sig ⟨S512x64, .f32⟩) main_call9.v0 mulf,
    StableHlo.TRef.nullary main_call9.cst (constant S_ .f32 0x00000000#32),
    StableHlo.TRef.binary main_call9.v0 main_call9.cst main_call9.v1 (fun x v => Host.reduceAdd x v reducesTo_S512x64_S512_d1 h_S_),
    StableHlo.TRef.unary main_call9.v1 main_call9.v2 (broadcastInDim S512x1 ![0] bcast_S512_S512x1_0),
    StableHlo.TRef.unary main_call9.v2 main_call9.v3 Host.sqrt,
    StableHlo.nullary main_cst_25 (constant S_ .f32 0x2B8CBCCC#32),
    StableHlo.unary main_cst_25 main_v159 (broadcastInDim S512x1 ![] bcast_S_S512x1 : (⟨S_, .f32⟩ : BufTy).Contents (Elt F) → (⟨S512x1, .f32⟩ : BufTy).Contents (Elt F)),
    StableHlo.binary main_v158 main_v159 main_v160 (maximumf : (⟨S512x1, .f32⟩ : BufTy).Contents (Elt F) → (⟨S512x1, .f32⟩ : BufTy).Contents (Elt F) → (⟨S512x1, .f32⟩ : BufTy).Contents (Elt F)),
    StableHlo.unary main_v160 main_v161 (broadcastInDim S512x64 ![0, 1] bcast_S512x1_S512x64_0_1 : (⟨S512x1, .f32⟩ : BufTy).Contents (Elt F) → (⟨S512x64, .f32⟩ : BufTy).Contents (Elt F)),
    StableHlo.binary main_v157 main_v161 main_v162 (Host.divf : (⟨S512x64, .f32⟩ : BufTy).Contents (Elt F) → (⟨S512x64, .f32⟩ : BufTy).Contents (Elt F) → (⟨S512x64, .f32⟩ : BufTy).Contents (Elt F)) ]

abbrev w20_W : List (Ref sig .tc) := [main_call9_v0, main_call9_cst, main_call9_v1, main_call9_v2, main_v158, main_cst_25, main_v159, main_v160, main_v161, main_v162]
set_option maxRecDepth 8192 in
theorem w20_writes : (w20 : List (HloOp τ sig (Elt F))).Forall fun op => op.writes ⊆ (w20_W.map (Proc.devRef (τ := τ) .tc)).toFinset :=
  ⟨writes_sub_of_mem main_call9_v0 rfl (by decide),
   writes_sub_of_mem main_call9_cst rfl (by decide),
   writes_sub_of_mem main_call9_v1 rfl (by decide),
   writes_sub_of_mem main_call9_v2 rfl (by decide),
   writes_sub_of_mem main_v158 rfl (by decide),
   writes_sub_of_mem main_cst_25 rfl (by decide),
   writes_sub_of_mem main_v159 rfl (by decide),
   writes_sub_of_mem main_v160 rfl (by decide),
   writes_sub_of_mem main_v161 rfl (by decide),
   writes_sub_of_mem main_v162 rfl (by decide)⟩

set_option maxRecDepth 8192 in
theorem ops_part0_cut : (ops_part0 : List (HloOp τ sig (Elt F))) = w0 ++ (w1 ++ (w2 ++ (w3 ++ (w4 ++ (w5))))) := rfl

set_option maxRecDepth 8192 in
theorem ops_part1_cut : (ops_part1 : List (HloOp τ sig (Elt F))) = w6 ++ (w7 ++ (w8 ++ (w9 ++ (w10 ++ (w11 ++ (w12)))))) := rfl

set_option maxRecDepth 8192 in
theorem ops_part2_cut : (ops_part2 : List (HloOp τ sig (Elt F))) = w13 ++ (w14 ++ (w15 ++ (w16 ++ (w17 ++ (w18))))) := rfl

set_option maxRecDepth 8192 in
theorem ops_part3_cut : (ops_part3 : List (HloOp τ sig (Elt F))) = w19 ++ (w20) := rfl

/-- The buffers' contents before the first stretch, and after each. -/
def B0 (V : Valuation τ sig (Elt F)) : Valuation τ sig (Elt F) := V
def B1 (V : Valuation τ sig (Elt F)) : Valuation τ sig (Elt F) := after w0 (B0 V)
def B2 (V : Valuation τ sig (Elt F)) : Valuation τ sig (Elt F) := after w1 (B1 V)
def B3 (V : Valuation τ sig (Elt F)) : Valuation τ sig (Elt F) := after w2 (B2 V)
def B4 (V : Valuation τ sig (Elt F)) : Valuation τ sig (Elt F) := after w3 (B3 V)
def B5 (V : Valuation τ sig (Elt F)) : Valuation τ sig (Elt F) := after w4 (B4 V)
def B6 (V : Valuation τ sig (Elt F)) : Valuation τ sig (Elt F) := after w5 (B5 V)
def B7 (V : Valuation τ sig (Elt F)) : Valuation τ sig (Elt F) := after w6 (B6 V)
def B8 (V : Valuation τ sig (Elt F)) : Valuation τ sig (Elt F) := after w7 (B7 V)
def B9 (V : Valuation τ sig (Elt F)) : Valuation τ sig (Elt F) := after w8 (B8 V)
def B10 (V : Valuation τ sig (Elt F)) : Valuation τ sig (Elt F) := after w9 (B9 V)
def B11 (V : Valuation τ sig (Elt F)) : Valuation τ sig (Elt F) := after w10 (B10 V)
def B12 (V : Valuation τ sig (Elt F)) : Valuation τ sig (Elt F) := after w11 (B11 V)
def B13 (V : Valuation τ sig (Elt F)) : Valuation τ sig (Elt F) := after w12 (B12 V)
def B14 (V : Valuation τ sig (Elt F)) : Valuation τ sig (Elt F) := after w13 (B13 V)
def B15 (V : Valuation τ sig (Elt F)) : Valuation τ sig (Elt F) := after w14 (B14 V)
def B16 (V : Valuation τ sig (Elt F)) : Valuation τ sig (Elt F) := after w15 (B15 V)
def B17 (V : Valuation τ sig (Elt F)) : Valuation τ sig (Elt F) := after w16 (B16 V)
def B18 (V : Valuation τ sig (Elt F)) : Valuation τ sig (Elt F) := after w17 (B17 V)
def B19 (V : Valuation τ sig (Elt F)) : Valuation τ sig (Elt F) := after w18 (B18 V)
def B20 (V : Valuation τ sig (Elt F)) : Valuation τ sig (Elt F) := after w19 (B19 V)
def B21 (V : Valuation τ sig (Elt F)) : Valuation τ sig (Elt F) := after w20 (B20 V)

/-- After the whole line the buffers hold what they hold after the last stretch. -/
theorem after_ops_cut (V : Valuation τ sig (Elt F)) : after ops V = B21 V := by
  rw [after_ops, ops_part0_cut, ops_part1_cut, ops_part2_cut, ops_part3_cut]
  simp only [after_append]
  rfl

theorem keep0 (V : Valuation τ sig (Elt F)) (r : Ref sig .tc) (h : r ∉ w0_W) : B1 V (Proc.devRef .tc r) = B0 V (Proc.devRef .tc r) :=
  after_of_writes_sub w0 _ w0_writes h
theorem keep1 (V : Valuation τ sig (Elt F)) (r : Ref sig .tc) (h : r ∉ w1_W) : B2 V (Proc.devRef .tc r) = B1 V (Proc.devRef .tc r) :=
  after_of_writes_sub w1 _ w1_writes h
theorem keep2 (V : Valuation τ sig (Elt F)) (r : Ref sig .tc) (h : r ∉ w2_W) : B3 V (Proc.devRef .tc r) = B2 V (Proc.devRef .tc r) :=
  after_of_writes_sub w2 _ w2_writes h
theorem keep3 (V : Valuation τ sig (Elt F)) (r : Ref sig .tc) (h : r ∉ w3_W) : B4 V (Proc.devRef .tc r) = B3 V (Proc.devRef .tc r) :=
  after_of_writes_sub w3 _ w3_writes h
theorem keep4 (V : Valuation τ sig (Elt F)) (r : Ref sig .tc) (h : r ∉ w4_W) : B5 V (Proc.devRef .tc r) = B4 V (Proc.devRef .tc r) :=
  after_of_writes_sub w4 _ w4_writes h
theorem keep5 (V : Valuation τ sig (Elt F)) (r : Ref sig .tc) (h : r ∉ w5_W) : B6 V (Proc.devRef .tc r) = B5 V (Proc.devRef .tc r) :=
  after_of_writes_sub w5 _ w5_writes h
theorem keep6 (V : Valuation τ sig (Elt F)) (r : Ref sig .tc) (h : r ∉ w6_W) : B7 V (Proc.devRef .tc r) = B6 V (Proc.devRef .tc r) :=
  after_of_writes_sub w6 _ w6_writes h
theorem keep7 (V : Valuation τ sig (Elt F)) (r : Ref sig .tc) (h : r ∉ w7_W) : B8 V (Proc.devRef .tc r) = B7 V (Proc.devRef .tc r) :=
  after_of_writes_sub w7 _ w7_writes h
theorem keep8 (V : Valuation τ sig (Elt F)) (r : Ref sig .tc) (h : r ∉ w8_W) : B9 V (Proc.devRef .tc r) = B8 V (Proc.devRef .tc r) :=
  after_of_writes_sub w8 _ w8_writes h
theorem keep9 (V : Valuation τ sig (Elt F)) (r : Ref sig .tc) (h : r ∉ w9_W) : B10 V (Proc.devRef .tc r) = B9 V (Proc.devRef .tc r) :=
  after_of_writes_sub w9 _ w9_writes h
theorem keep10 (V : Valuation τ sig (Elt F)) (r : Ref sig .tc) (h : r ∉ w10_W) : B11 V (Proc.devRef .tc r) = B10 V (Proc.devRef .tc r) :=
  after_of_writes_sub w10 _ w10_writes h
theorem keep11 (V : Valuation τ sig (Elt F)) (r : Ref sig .tc) (h : r ∉ w11_W) : B12 V (Proc.devRef .tc r) = B11 V (Proc.devRef .tc r) :=
  after_of_writes_sub w11 _ w11_writes h
theorem keep12 (V : Valuation τ sig (Elt F)) (r : Ref sig .tc) (h : r ∉ w12_W) : B13 V (Proc.devRef .tc r) = B12 V (Proc.devRef .tc r) :=
  after_of_writes_sub w12 _ w12_writes h
theorem keep13 (V : Valuation τ sig (Elt F)) (r : Ref sig .tc) (h : r ∉ w13_W) : B14 V (Proc.devRef .tc r) = B13 V (Proc.devRef .tc r) :=
  after_of_writes_sub w13 _ w13_writes h
theorem keep14 (V : Valuation τ sig (Elt F)) (r : Ref sig .tc) (h : r ∉ w14_W) : B15 V (Proc.devRef .tc r) = B14 V (Proc.devRef .tc r) :=
  after_of_writes_sub w14 _ w14_writes h
theorem keep15 (V : Valuation τ sig (Elt F)) (r : Ref sig .tc) (h : r ∉ w15_W) : B16 V (Proc.devRef .tc r) = B15 V (Proc.devRef .tc r) :=
  after_of_writes_sub w15 _ w15_writes h
theorem keep16 (V : Valuation τ sig (Elt F)) (r : Ref sig .tc) (h : r ∉ w16_W) : B17 V (Proc.devRef .tc r) = B16 V (Proc.devRef .tc r) :=
  after_of_writes_sub w16 _ w16_writes h
theorem keep17 (V : Valuation τ sig (Elt F)) (r : Ref sig .tc) (h : r ∉ w17_W) : B18 V (Proc.devRef .tc r) = B17 V (Proc.devRef .tc r) :=
  after_of_writes_sub w17 _ w17_writes h
theorem keep18 (V : Valuation τ sig (Elt F)) (r : Ref sig .tc) (h : r ∉ w18_W) : B19 V (Proc.devRef .tc r) = B18 V (Proc.devRef .tc r) :=
  after_of_writes_sub w18 _ w18_writes h
theorem keep19 (V : Valuation τ sig (Elt F)) (r : Ref sig .tc) (h : r ∉ w19_W) : B20 V (Proc.devRef .tc r) = B19 V (Proc.devRef .tc r) :=
  after_of_writes_sub w19 _ w19_writes h
theorem keep20 (V : Valuation τ sig (Elt F)) (r : Ref sig .tc) (h : r ∉ w20_W) : B21 V (Proc.devRef .tc r) = B20 V (Proc.devRef .tc r) :=
  after_of_writes_sub w20 _ w20_writes h

abbrev Wfrom21 : List (Ref sig .tc) := []
abbrev Wfrom20 : List (Ref sig .tc) := w20_W ++ Wfrom21
abbrev Wfrom19 : List (Ref sig .tc) := w19_W ++ Wfrom20
abbrev Wfrom18 : List (Ref sig .tc) := w18_W ++ Wfrom19
abbrev Wfrom17 : List (Ref sig .tc) := w17_W ++ Wfrom18
abbrev Wfrom16 : List (Ref sig .tc) := w16_W ++ Wfrom17
abbrev Wfrom15 : List (Ref sig .tc) := w15_W ++ Wfrom16
abbrev Wfrom14 : List (Ref sig .tc) := w14_W ++ Wfrom15
abbrev Wfrom13 : List (Ref sig .tc) := w13_W ++ Wfrom14
abbrev Wfrom12 : List (Ref sig .tc) := w12_W ++ Wfrom13
abbrev Wfrom11 : List (Ref sig .tc) := w11_W ++ Wfrom12
abbrev Wfrom10 : List (Ref sig .tc) := w10_W ++ Wfrom11
abbrev Wfrom9 : List (Ref sig .tc) := w9_W ++ Wfrom10
abbrev Wfrom8 : List (Ref sig .tc) := w8_W ++ Wfrom9
abbrev Wfrom7 : List (Ref sig .tc) := w7_W ++ Wfrom8
abbrev Wfrom6 : List (Ref sig .tc) := w6_W ++ Wfrom7
abbrev Wfrom5 : List (Ref sig .tc) := w5_W ++ Wfrom6
abbrev Wfrom4 : List (Ref sig .tc) := w4_W ++ Wfrom5
abbrev Wfrom3 : List (Ref sig .tc) := w3_W ++ Wfrom4
abbrev Wfrom2 : List (Ref sig .tc) := w2_W ++ Wfrom3
abbrev Wfrom1 : List (Ref sig .tc) := w1_W ++ Wfrom2
abbrev Wfrom0 : List (Ref sig .tc) := w0_W ++ Wfrom1

/-- A buffer that no stretch from the k-th on writes holds at the end what it held before the k-th. -/
theorem at21 (V : Valuation τ sig (Elt F)) (r : Ref sig .tc) (h : r ∉ Wfrom21) : after ops V (Proc.devRef .tc r) = B21 V (Proc.devRef .tc r) := by rw [after_ops_cut]
theorem at20 (V : Valuation τ sig (Elt F)) (r : Ref sig .tc) (h : r ∉ Wfrom20) : after ops V (Proc.devRef .tc r) = B20 V (Proc.devRef .tc r) :=
  (at21 V r (fun h' => h (List.mem_append_right _ h'))).trans (keep20 V r (fun h' => h (List.mem_append_left _ h')))
theorem at19 (V : Valuation τ sig (Elt F)) (r : Ref sig .tc) (h : r ∉ Wfrom19) : after ops V (Proc.devRef .tc r) = B19 V (Proc.devRef .tc r) :=
  (at20 V r (fun h' => h (List.mem_append_right _ h'))).trans (keep19 V r (fun h' => h (List.mem_append_left _ h')))
theorem at18 (V : Valuation τ sig (Elt F)) (r : Ref sig .tc) (h : r ∉ Wfrom18) : after ops V (Proc.devRef .tc r) = B18 V (Proc.devRef .tc r) :=
  (at19 V r (fun h' => h (List.mem_append_right _ h'))).trans (keep18 V r (fun h' => h (List.mem_append_left _ h')))
theorem at17 (V : Valuation τ sig (Elt F)) (r : Ref sig .tc) (h : r ∉ Wfrom17) : after ops V (Proc.devRef .tc r) = B17 V (Proc.devRef .tc r) :=
  (at18 V r (fun h' => h (List.mem_append_right _ h'))).trans (keep17 V r (fun h' => h (List.mem_append_left _ h')))
theorem at16 (V : Valuation τ sig (Elt F)) (r : Ref sig .tc) (h : r ∉ Wfrom16) : after ops V (Proc.devRef .tc r) = B16 V (Proc.devRef .tc r) :=
  (at17 V r (fun h' => h (List.mem_append_right _ h'))).trans (keep16 V r (fun h' => h (List.mem_append_left _ h')))
theorem at15 (V : Valuation τ sig (Elt F)) (r : Ref sig .tc) (h : r ∉ Wfrom15) : after ops V (Proc.devRef .tc r) = B15 V (Proc.devRef .tc r) :=
  (at16 V r (fun h' => h (List.mem_append_right _ h'))).trans (keep15 V r (fun h' => h (List.mem_append_left _ h')))
theorem at14 (V : Valuation τ sig (Elt F)) (r : Ref sig .tc) (h : r ∉ Wfrom14) : after ops V (Proc.devRef .tc r) = B14 V (Proc.devRef .tc r) :=
  (at15 V r (fun h' => h (List.mem_append_right _ h'))).trans (keep14 V r (fun h' => h (List.mem_append_left _ h')))
theorem at13 (V : Valuation τ sig (Elt F)) (r : Ref sig .tc) (h : r ∉ Wfrom13) : after ops V (Proc.devRef .tc r) = B13 V (Proc.devRef .tc r) :=
  (at14 V r (fun h' => h (List.mem_append_right _ h'))).trans (keep13 V r (fun h' => h (List.mem_append_left _ h')))
theorem at12 (V : Valuation τ sig (Elt F)) (r : Ref sig .tc) (h : r ∉ Wfrom12) : after ops V (Proc.devRef .tc r) = B12 V (Proc.devRef .tc r) :=
  (at13 V r (fun h' => h (List.mem_append_right _ h'))).trans (keep12 V r (fun h' => h (List.mem_append_left _ h')))
theorem at11 (V : Valuation τ sig (Elt F)) (r : Ref sig .tc) (h : r ∉ Wfrom11) : after ops V (Proc.devRef .tc r) = B11 V (Proc.devRef .tc r) :=
  (at12 V r (fun h' => h (List.mem_append_right _ h'))).trans (keep11 V r (fun h' => h (List.mem_append_left _ h')))
theorem at10 (V : Valuation τ sig (Elt F)) (r : Ref sig .tc) (h : r ∉ Wfrom10) : after ops V (Proc.devRef .tc r) = B10 V (Proc.devRef .tc r) :=
  (at11 V r (fun h' => h (List.mem_append_right _ h'))).trans (keep10 V r (fun h' => h (List.mem_append_left _ h')))
theorem at9 (V : Valuation τ sig (Elt F)) (r : Ref sig .tc) (h : r ∉ Wfrom9) : after ops V (Proc.devRef .tc r) = B9 V (Proc.devRef .tc r) :=
  (at10 V r (fun h' => h (List.mem_append_right _ h'))).trans (keep9 V r (fun h' => h (List.mem_append_left _ h')))
theorem at8 (V : Valuation τ sig (Elt F)) (r : Ref sig .tc) (h : r ∉ Wfrom8) : after ops V (Proc.devRef .tc r) = B8 V (Proc.devRef .tc r) :=
  (at9 V r (fun h' => h (List.mem_append_right _ h'))).trans (keep8 V r (fun h' => h (List.mem_append_left _ h')))
theorem at7 (V : Valuation τ sig (Elt F)) (r : Ref sig .tc) (h : r ∉ Wfrom7) : after ops V (Proc.devRef .tc r) = B7 V (Proc.devRef .tc r) :=
  (at8 V r (fun h' => h (List.mem_append_right _ h'))).trans (keep7 V r (fun h' => h (List.mem_append_left _ h')))
theorem at6 (V : Valuation τ sig (Elt F)) (r : Ref sig .tc) (h : r ∉ Wfrom6) : after ops V (Proc.devRef .tc r) = B6 V (Proc.devRef .tc r) :=
  (at7 V r (fun h' => h (List.mem_append_right _ h'))).trans (keep6 V r (fun h' => h (List.mem_append_left _ h')))
theorem at5 (V : Valuation τ sig (Elt F)) (r : Ref sig .tc) (h : r ∉ Wfrom5) : after ops V (Proc.devRef .tc r) = B5 V (Proc.devRef .tc r) :=
  (at6 V r (fun h' => h (List.mem_append_right _ h'))).trans (keep5 V r (fun h' => h (List.mem_append_left _ h')))
theorem at4 (V : Valuation τ sig (Elt F)) (r : Ref sig .tc) (h : r ∉ Wfrom4) : after ops V (Proc.devRef .tc r) = B4 V (Proc.devRef .tc r) :=
  (at5 V r (fun h' => h (List.mem_append_right _ h'))).trans (keep4 V r (fun h' => h (List.mem_append_left _ h')))
theorem at3 (V : Valuation τ sig (Elt F)) (r : Ref sig .tc) (h : r ∉ Wfrom3) : after ops V (Proc.devRef .tc r) = B3 V (Proc.devRef .tc r) :=
  (at4 V r (fun h' => h (List.mem_append_right _ h'))).trans (keep3 V r (fun h' => h (List.mem_append_left _ h')))
theorem at2 (V : Valuation τ sig (Elt F)) (r : Ref sig .tc) (h : r ∉ Wfrom2) : after ops V (Proc.devRef .tc r) = B2 V (Proc.devRef .tc r) :=
  (at3 V r (fun h' => h (List.mem_append_right _ h'))).trans (keep2 V r (fun h' => h (List.mem_append_left _ h')))
theorem at1 (V : Valuation τ sig (Elt F)) (r : Ref sig .tc) (h : r ∉ Wfrom1) : after ops V (Proc.devRef .tc r) = B1 V (Proc.devRef .tc r) :=
  (at2 V r (fun h' => h (List.mem_append_right _ h'))).trans (keep1 V r (fun h' => h (List.mem_append_left _ h')))
theorem at0 (V : Valuation τ sig (Elt F)) (r : Ref sig .tc) (h : r ∉ Wfrom0) : after ops V (Proc.devRef .tc r) = B0 V (Proc.devRef .tc r) :=
  (at1 V r (fun h' => h (List.mem_append_right _ h'))).trans (keep0 V r (fun h' => h (List.mem_append_left _ h')))

set_option maxRecDepth 8192 in
set_option maxHeartbeats 2000000 in
theorem w0_v1 (B : Valuation τ sig (Elt F)) : after w0 B (Proc.devRef .tc main_v1) = edgeRow0 (B (Proc.devRef .tc main_arg1)) := by
  simp only [w0]
  after_results_simp
  all_goals rfl

set_option maxRecDepth 8192 in
/-- What `main_v1` holds after the line, from what its stage's operands hold after the line. -/
theorem st_v1 (V : Valuation τ sig (Elt F)) : after ops V (Proc.devRef .tc main_v1) = edgeRow0 ((after ops V) (Proc.devRef .tc main_arg1)) := by
  rw [at1 V main_v1 (by decide), at0 V main_arg1 (by decide)]
  exact w0_v1 (B0 V)

set_option maxRecDepth 8192 in
set_option maxHeartbeats 2000000 in
theorem w0_v3 (B : Valuation τ sig (Elt F)) : after w0 B (Proc.devRef .tc main_v3) = edgeRow1 (B (Proc.devRef .tc main_arg1)) := by
  simp only [w0]
  after_results_simp
  all_goals rfl

set_option maxRecDepth 8192 in
/-- What `main_v3` holds after the line, from what its stage's operands hold after the line. -/
theorem st_v3 (V : Valuation τ sig (Elt F)) : after ops V (Proc.devRef .tc main_v3) = edgeRow1 ((after ops V) (Proc.devRef .tc main_arg1)) := by
  rw [at1 V main_v3 (by decide), at0 V main_arg1 (by decide)]
  exact w0_v3 (B0 V)

set_option maxRecDepth 8192 in
set_option maxHeartbeats 2000000 in
theorem w0_v13 (B : Valuation τ sig (Elt F)) : after w0 B (Proc.devRef .tc main_v13) = aggR (B (Proc.devRef .tc main_arg0)) (B (Proc.devRef .tc main_arg1)) := by
  simp only [w0]
  after_results_simp
  all_goals rfl

set_option maxRecDepth 8192 in
/-- What `main_v13` holds after the line, from what its stage's operands hold after the line. -/
theorem st_v13 (V : Valuation τ sig (Elt F)) : after ops V (Proc.devRef .tc main_v13) = aggR ((after ops V) (Proc.devRef .tc main_arg0)) ((after ops V) (Proc.devRef .tc main_arg1)) := by
  rw [at1 V main_v13 (by decide), at0 V main_arg0 (by decide), at0 V main_arg1 (by decide)]
  exact w0_v13 (B0 V)

set_option maxRecDepth 8192 in
set_option maxHeartbeats 2000000 in
theorem w1_v25 (B : Valuation τ sig (Elt F)) : after w1 B (Proc.devRef .tc main_v25) = mlpT (B (Proc.devRef .tc main_arg0)) (B (Proc.devRef .tc main_v13)) (B (Proc.devRef .tc main_arg3)) (B (Proc.devRef .tc main_arg4)) (B (Proc.devRef .tc main_arg5)) (B (Proc.devRef .tc main_arg6)) := by
  simp only [w1]
  after_results_simp
  all_goals rfl

set_option maxRecDepth 8192 in
/-- What `main_v25` holds after the line, from what its stage's operands hold after the line. -/
theorem st_v25 (V : Valuation τ sig (Elt F)) : after ops V (Proc.devRef .tc main_v25) = mlpT ((after ops V) (Proc.devRef .tc main_arg0)) ((after ops V) (Proc.devRef .tc main_v13)) ((after ops V) (Proc.devRef .tc main_arg3)) ((after ops V) (Proc.devRef .tc main_arg4)) ((after ops V) (Proc.devRef .tc main_arg5)) ((after ops V) (Proc.devRef .tc main_arg6)) := by
  rw [at2 V main_v25 (by decide), at1 V main_arg0 (by decide), at1 V main_v13 (by decide), at1 V main_arg3 (by decide), at1 V main_arg4 (by decide), at1 V main_arg5 (by decide), at1 V main_arg6 (by decide)]
  exact w1_v25 (B1 V)

set_option maxRecDepth 8192 in
set_option maxHeartbeats 2000000 in
theorem w2_v28 (B : Valuation τ sig (Elt F)) : after w2 B (Proc.devRef .tc main_v28) = meanT (B (Proc.devRef .tc main_v25)) := by
  simp only [w2]
  after_results_simp
  all_goals rfl

set_option maxRecDepth 8192 in
/-- What `main_v28` holds after the line, from what its stage's operands hold after the line. -/
theorem st_v28 (V : Valuation τ sig (Elt F)) : after ops V (Proc.devRef .tc main_v28) = meanT ((after ops V) (Proc.devRef .tc main_v25)) := by
  rw [at3 V main_v28 (by decide), at2 V main_v25 (by decide)]
  exact w2_v28 (B2 V)

set_option maxRecDepth 8192 in
set_option maxHeartbeats 2000000 in
theorem w3_v29 (B : Valuation τ sig (Elt F)) : after w3 B (Proc.devRef .tc main_v29) = varT (B (Proc.devRef .tc main_v25)) := by
  simp only [w3]
  after_results_simp
  all_goals rfl

set_option maxRecDepth 8192 in
/-- What `main_v29` holds after the line, from what its stage's operands hold after the line. -/
theorem st_v29 (V : Valuation τ sig (Elt F)) : after ops V (Proc.devRef .tc main_v29) = varT ((after ops V) (Proc.devRef .tc main_v25)) := by
  rw [at4 V main_v29 (by decide), at3 V main_v25 (by decide)]
  exact w3_v29 (B3 V)

set_option maxRecDepth 8192 in
set_option maxHeartbeats 2000000 in
theorem w4_v45 (B : Valuation τ sig (Elt F)) : after w4 B (Proc.devRef .tc main_v45) = bnT (B (Proc.devRef .tc main_v25)) (B (Proc.devRef .tc main_v28)) (B (Proc.devRef .tc main_v29)) (B (Proc.devRef .tc main_arg7)) (B (Proc.devRef .tc main_arg8)) := by
  simp only [w4]
  after_results_simp
  all_goals rfl

set_option maxRecDepth 8192 in
/-- What `main_v45` holds after the line, from what its stage's operands hold after the line. -/
theorem st_v45 (V : Valuation τ sig (Elt F)) : after ops V (Proc.devRef .tc main_v45) = bnT ((after ops V) (Proc.devRef .tc main_v25)) ((after ops V) (Proc.devRef .tc main_v28)) ((after ops V) (Proc.devRef .tc main_v29)) ((after ops V) (Proc.devRef .tc main_arg7)) ((after ops V) (Proc.devRef .tc main_arg8)) := by
  rw [at5 V main_v45 (by decide), at4 V main_v25 (by decide), at4 V main_v28 (by decide), at4 V main_v29 (by decide), at4 V main_arg7 (by decide), at4 V main_arg8 (by decide)]
  exact w4_v45 (B4 V)

set_option maxRecDepth 8192 in
set_option maxHeartbeats 2000000 in
theorem w5_v50 (B : Valuation τ sig (Elt F)) : after w5 B (Proc.devRef .tc main_v50) = wrapIdx (B (Proc.devRef .tc main_v1)) := by
  simp only [w5]
  after_results_simp
  all_goals rfl

set_option maxRecDepth 8192 in
/-- What `main_v50` holds after the line, from what its stage's operands hold after the line. -/
theorem st_v50 (V : Valuation τ sig (Elt F)) : after ops V (Proc.devRef .tc main_v50) = wrapIdx ((after ops V) (Proc.devRef .tc main_v1)) := by
  rw [at6 V main_v50 (by decide), at5 V main_v1 (by decide)]
  exact w5_v50 (B5 V)

set_option maxRecDepth 8192 in
set_option maxHeartbeats 2000000 in
theorem w6_v55 (B : Valuation τ sig (Elt F)) : after w6 B (Proc.devRef .tc main_v55) = Host.scatterAdd scatter_S50000x128_S600000x1_S600000x128_1_0_0_1 (broadcastInDim S50000x128 ![] bcast_S_S50000x128 (constant S_ .f32 0x00000000#32)) (dstCol (B (Proc.devRef .tc main_v3))) (Host.gather gather_S50000x128_S600000x1_S600000x128_1_0_n_n_0_1_1128 (B (Proc.devRef .tc main_v45)) (broadcastInDim S600000x1 ![0] bcast_S600000_S600000x1_0 (B (Proc.devRef .tc main_v50)))) := by
  simp only [w6]
  after_results_simp
  all_goals rfl

set_option maxRecDepth 8192 in
/-- What `main_v55` holds after the line, from what its stage's operands hold after the line. -/
theorem st_v55 (V : Valuation τ sig (Elt F)) : after ops V (Proc.devRef .tc main_v55) = Host.scatterAdd scatter_S50000x128_S600000x1_S600000x128_1_0_0_1 (broadcastInDim S50000x128 ![] bcast_S_S50000x128 (constant S_ .f32 0x00000000#32)) (dstCol ((after ops V) (Proc.devRef .tc main_v3))) (Host.gather gather_S50000x128_S600000x1_S600000x128_1_0_n_n_0_1_1128 ((after ops V) (Proc.devRef .tc main_v45)) (broadcastInDim S600000x1 ![0] bcast_S600000_S600000x1_0 ((after ops V) (Proc.devRef .tc main_v50)))) := by
  rw [at7 V main_v55 (by decide), at6 V main_v3 (by decide), at6 V main_v45 (by decide), at6 V main_v50 (by decide)]
  exact w6_v55 (B6 V)

set_option maxRecDepth 8192 in
set_option maxHeartbeats 2000000 in
theorem w7_v67 (B : Valuation τ sig (Elt F)) : after w7 B (Proc.devRef .tc main_v67) = mlpT (B (Proc.devRef .tc main_v45)) (B (Proc.devRef .tc main_v55)) (B (Proc.devRef .tc main_arg9)) (B (Proc.devRef .tc main_arg10)) (B (Proc.devRef .tc main_arg11)) (B (Proc.devRef .tc main_arg12)) := by
  simp only [w7]
  after_results_simp
  all_goals rfl

set_option maxRecDepth 8192 in
/-- What `main_v67` holds after the line, from what its stage's operands hold after the line. -/
theorem st_v67 (V : Valuation τ sig (Elt F)) : after ops V (Proc.devRef .tc main_v67) = mlpT ((after ops V) (Proc.devRef .tc main_v45)) ((after ops V) (Proc.devRef .tc main_v55)) ((after ops V) (Proc.devRef .tc main_arg9)) ((after ops V) (Proc.devRef .tc main_arg10)) ((after ops V) (Proc.devRef .tc main_arg11)) ((after ops V) (Proc.devRef .tc main_arg12)) := by
  rw [at8 V main_v67 (by decide), at7 V main_v45 (by decide), at7 V main_v55 (by decide), at7 V main_arg9 (by decide), at7 V main_arg10 (by decide), at7 V main_arg11 (by decide), at7 V main_arg12 (by decide)]
  exact w7_v67 (B7 V)

set_option maxRecDepth 8192 in
set_option maxHeartbeats 2000000 in
theorem w8_v70 (B : Valuation τ sig (Elt F)) : after w8 B (Proc.devRef .tc main_v70) = meanT (B (Proc.devRef .tc main_v67)) := by
  simp only [w8]
  after_results_simp
  all_goals rfl

set_option maxRecDepth 8192 in
/-- What `main_v70` holds after the line, from what its stage's operands hold after the line. -/
theorem st_v70 (V : Valuation τ sig (Elt F)) : after ops V (Proc.devRef .tc main_v70) = meanT ((after ops V) (Proc.devRef .tc main_v67)) := by
  rw [at9 V main_v70 (by decide), at8 V main_v67 (by decide)]
  exact w8_v70 (B8 V)

set_option maxRecDepth 8192 in
set_option maxHeartbeats 2000000 in
theorem w9_v71 (B : Valuation τ sig (Elt F)) : after w9 B (Proc.devRef .tc main_v71) = varT (B (Proc.devRef .tc main_v67)) := by
  simp only [w9]
  after_results_simp
  all_goals rfl

set_option maxRecDepth 8192 in
/-- What `main_v71` holds after the line, from what its stage's operands hold after the line. -/
theorem st_v71 (V : Valuation τ sig (Elt F)) : after ops V (Proc.devRef .tc main_v71) = varT ((after ops V) (Proc.devRef .tc main_v67)) := by
  rw [at10 V main_v71 (by decide), at9 V main_v67 (by decide)]
  exact w9_v71 (B9 V)

set_option maxRecDepth 8192 in
set_option maxHeartbeats 2000000 in
theorem w10_v87 (B : Valuation τ sig (Elt F)) : after w10 B (Proc.devRef .tc main_v87) = bnT (B (Proc.devRef .tc main_v67)) (B (Proc.devRef .tc main_v70)) (B (Proc.devRef .tc main_v71)) (B (Proc.devRef .tc main_arg13)) (B (Proc.devRef .tc main_arg14)) := by
  simp only [w10]
  after_results_simp
  all_goals rfl

set_option maxRecDepth 8192 in
/-- What `main_v87` holds after the line, from what its stage's operands hold after the line. -/
theorem st_v87 (V : Valuation τ sig (Elt F)) : after ops V (Proc.devRef .tc main_v87) = bnT ((after ops V) (Proc.devRef .tc main_v67)) ((after ops V) (Proc.devRef .tc main_v70)) ((after ops V) (Proc.devRef .tc main_v71)) ((after ops V) (Proc.devRef .tc main_arg13)) ((after ops V) (Proc.devRef .tc main_arg14)) := by
  rw [at11 V main_v87 (by decide), at10 V main_v67 (by decide), at10 V main_v70 (by decide), at10 V main_v71 (by decide), at10 V main_arg13 (by decide), at10 V main_arg14 (by decide)]
  exact w10_v87 (B10 V)

set_option maxRecDepth 8192 in
set_option maxHeartbeats 2000000 in
theorem w11_v97 (B : Valuation τ sig (Elt F)) : after w11 B (Proc.devRef .tc main_v97) = Host.scatterAdd scatter_S50000x128_S600000x1_S600000x128_1_0_0_1 (broadcastInDim S50000x128 ![] bcast_S_S50000x128 (constant S_ .f32 0x00000000#32)) (dstCol (B (Proc.devRef .tc main_v3))) (Host.gather gather_S50000x128_S600000x1_S600000x128_1_0_n_n_0_1_1128 (B (Proc.devRef .tc main_v87)) (srcCol (B (Proc.devRef .tc main_v1)))) := by
  simp only [w11]
  after_results_simp
  all_goals rfl

set_option maxRecDepth 8192 in
/-- What `main_v97` holds after the line, from what its stage's operands hold after the line. -/
theorem st_v97 (V : Valuation τ sig (Elt F)) : after ops V (Proc.devRef .tc main_v97) = Host.scatterAdd scatter_S50000x128_S600000x1_S600000x128_1_0_0_1 (broadcastInDim S50000x128 ![] bcast_S_S50000x128 (constant S_ .f32 0x00000000#32)) (dstCol ((after ops V) (Proc.devRef .tc main_v3))) (Host.gather gather_S50000x128_S600000x1_S600000x128_1_0_n_n_0_1_1128 ((after ops V) (Proc.devRef .tc main_v87)) (srcCol ((after ops V) (Proc.devRef .tc main_v1)))) := by
  rw [at12 V main_v97 (by decide), at11 V main_v3 (by decide), at11 V main_v87 (by decide), at11 V main_v1 (by decide)]
  exact w11_v97 (B11 V)

set_option maxRecDepth 8192 in
set_option maxHeartbeats 2000000 in
theorem w12_v100 (B : Valuation τ sig (Elt F)) : after w12 B (Proc.devRef .tc main_v100) = Host.dotGeneral dot_S50000x128_S128x128_S50000x128_1_0_0_1_n_n none (addf (B (Proc.devRef .tc main_v87)) (B (Proc.devRef .tc main_v97))) (transpose S128x128 [1, 0] (B (Proc.devRef .tc main_arg15)) transposes_S128x128_S128x128_1_0) := by
  simp only [w12]
  after_results_simp
  all_goals rfl

set_option maxRecDepth 8192 in
/-- What `main_v100` holds after the line, from what its stage's operands hold after the line. -/
theorem st_v100 (V : Valuation τ sig (Elt F)) : after ops V (Proc.devRef .tc main_v100) = Host.dotGeneral dot_S50000x128_S128x128_S50000x128_1_0_0_1_n_n none (addf ((after ops V) (Proc.devRef .tc main_v87)) ((after ops V) (Proc.devRef .tc main_v97))) (transpose S128x128 [1, 0] ((after ops V) (Proc.devRef .tc main_arg15)) transposes_S128x128_S128x128_1_0) := by
  rw [at13 V main_v100 (by decide), at12 V main_v87 (by decide), at12 V main_v97 (by decide), at12 V main_arg15 (by decide)]
  exact w12_v100 (B12 V)

set_option maxRecDepth 8192 in
set_option maxHeartbeats 2000000 in
theorem w12_v102 (B : Valuation τ sig (Elt F)) : after w12 B (Proc.devRef .tc main_v102) = (broadcastInDim S50000x128 ![0, 1] bcast_S1x128_S50000x128_0_1 (broadcastInDim S1x128 ![1] bcast_S128_S1x128_1 (B (Proc.devRef .tc main_arg16)))) := by
  simp only [w12]
  after_results_simp
  all_goals rfl

set_option maxRecDepth 8192 in
/-- What `main_v102` holds after the line, from what its stage's operands hold after the line. -/
theorem st_v102 (V : Valuation τ sig (Elt F)) : after ops V (Proc.devRef .tc main_v102) = (broadcastInDim S50000x128 ![0, 1] bcast_S1x128_S50000x128_0_1 (broadcastInDim S1x128 ![1] bcast_S128_S1x128_1 ((after ops V) (Proc.devRef .tc main_arg16)))) := by
  rw [at13 V main_v102 (by decide), at12 V main_arg16 (by decide)]
  exact w12_v102 (B12 V)

set_option maxRecDepth 8192 in
set_option maxHeartbeats 2000000 in
theorem w13_v109 (B : Valuation τ sig (Elt F)) : after w13 B (Proc.devRef .tc main_v109) = addf (Host.dotGeneral dot_S50000x128_S128x128_S50000x128_1_0_0_1_n_n none (maximumf (addf (B (Proc.devRef .tc main_v100)) (B (Proc.devRef .tc main_v102))) (broadcastInDim S50000x128 ![] bcast_S_S50000x128 (constant S_ .f32 0x00000000#32))) (transpose S128x128 [1, 0] (B (Proc.devRef .tc main_arg17)) transposes_S128x128_S128x128_1_0)) (broadcastInDim S50000x128 ![0, 1] bcast_S1x128_S50000x128_0_1 (broadcastInDim S1x128 ![1] bcast_S128_S1x128_1 (B (Proc.devRef .tc main_arg18)))) := by
  simp only [w13]
  after_results_simp
  all_goals rfl

set_option maxRecDepth 8192 in
/-- What `main_v109` holds after the line, from what its stage's operands hold after the line. -/
theorem st_v109 (V : Valuation τ sig (Elt F)) : after ops V (Proc.devRef .tc main_v109) = addf (Host.dotGeneral dot_S50000x128_S128x128_S50000x128_1_0_0_1_n_n none (maximumf (addf ((after ops V) (Proc.devRef .tc main_v100)) ((after ops V) (Proc.devRef .tc main_v102))) (broadcastInDim S50000x128 ![] bcast_S_S50000x128 (constant S_ .f32 0x00000000#32))) (transpose S128x128 [1, 0] ((after ops V) (Proc.devRef .tc main_arg17)) transposes_S128x128_S128x128_1_0)) (broadcastInDim S50000x128 ![0, 1] bcast_S1x128_S50000x128_0_1 (broadcastInDim S1x128 ![1] bcast_S128_S1x128_1 ((after ops V) (Proc.devRef .tc main_arg18)))) := by
  rw [at14 V main_v109 (by decide), at13 V main_v100 (by decide), at13 V main_v102 (by decide), at13 V main_arg17 (by decide), at13 V main_arg18 (by decide)]
  exact w13_v109 (B13 V)

set_option maxRecDepth 8192 in
set_option maxHeartbeats 2000000 in
theorem w14_v112 (B : Valuation τ sig (Elt F)) : after w14 B (Proc.devRef .tc main_v112) = meanT (B (Proc.devRef .tc main_v109)) := by
  simp only [w14]
  after_results_simp
  all_goals rfl

set_option maxRecDepth 8192 in
/-- What `main_v112` holds after the line, from what its stage's operands hold after the line. -/
theorem st_v112 (V : Valuation τ sig (Elt F)) : after ops V (Proc.devRef .tc main_v112) = meanT ((after ops V) (Proc.devRef .tc main_v109)) := by
  rw [at15 V main_v112 (by decide), at14 V main_v109 (by decide)]
  exact w14_v112 (B14 V)

set_option maxRecDepth 8192 in
set_option maxHeartbeats 2000000 in
theorem w15_v113 (B : Valuation τ sig (Elt F)) : after w15 B (Proc.devRef .tc main_v113) = varT (B (Proc.devRef .tc main_v109)) := by
  simp only [w15]
  after_results_simp
  all_goals rfl

set_option maxRecDepth 8192 in
/-- What `main_v113` holds after the line, from what its stage's operands hold after the line. -/
theorem st_v113 (V : Valuation τ sig (Elt F)) : after ops V (Proc.devRef .tc main_v113) = varT ((after ops V) (Proc.devRef .tc main_v109)) := by
  rw [at16 V main_v113 (by decide), at15 V main_v109 (by decide)]
  exact w15_v113 (B15 V)

set_option maxRecDepth 8192 in
set_option maxHeartbeats 2000000 in
theorem w16_v129 (B : Valuation τ sig (Elt F)) : after w16 B (Proc.devRef .tc main_v129) = bnT (B (Proc.devRef .tc main_v109)) (B (Proc.devRef .tc main_v112)) (B (Proc.devRef .tc main_v113)) (B (Proc.devRef .tc main_arg19)) (B (Proc.devRef .tc main_arg20)) := by
  simp only [w16]
  after_results_simp
  all_goals rfl

set_option maxRecDepth 8192 in
/-- What `main_v129` holds after the line, from what its stage's operands hold after the line. -/
theorem st_v129 (V : Valuation τ sig (Elt F)) : after ops V (Proc.devRef .tc main_v129) = bnT ((after ops V) (Proc.devRef .tc main_v109)) ((after ops V) (Proc.devRef .tc main_v112)) ((after ops V) (Proc.devRef .tc main_v113)) ((after ops V) (Proc.devRef .tc main_arg19)) ((after ops V) (Proc.devRef .tc main_arg20)) := by
  rw [at17 V main_v129 (by decide), at16 V main_v109 (by decide), at16 V main_v112 (by decide), at16 V main_v113 (by decide), at16 V main_arg19 (by decide), at16 V main_arg20 (by decide)]
  exact w16_v129 (B16 V)

set_option maxRecDepth 8192 in
set_option maxHeartbeats 2000000 in
theorem w17_v136 (B : Valuation τ sig (Elt F)) : after w17 B (Proc.devRef .tc main_v136) = cntCol (B (Proc.devRef .tc main_arg2)) := by
  simp only [w17]
  after_results_simp
  all_goals rfl

set_option maxRecDepth 8192 in
/-- What `main_v136` holds after the line, from what its stage's operands hold after the line. -/
theorem st_v136 (V : Valuation τ sig (Elt F)) : after ops V (Proc.devRef .tc main_v136) = cntCol ((after ops V) (Proc.devRef .tc main_arg2)) := by
  rw [at18 V main_v136 (by decide), at17 V main_arg2 (by decide)]
  exact w17_v136 (B17 V)

set_option maxRecDepth 8192 in
set_option maxHeartbeats 2000000 in
theorem w18_v152 (B : Valuation τ sig (Elt F)) : after w18 B (Proc.devRef .tc main_v152) = concatenate S512x384 1 [⟨S512x128, Host.divf (Host.scatterAdd scatter_S512x128_S50000x1_S50000x128_1_0_0_1 (broadcastInDim S512x128 ![] bcast_S_S512x128 (constant S_ .f32 0x00000000#32)) (broadcastInDim S50000x1 ![0] bcast_S50000_S50000x1_0 (B (Proc.devRef .tc main_arg2))) (B (Proc.devRef .tc main_v45))) (broadcastInDim S512x128 ![0, 1] bcast_S512x1_S512x128_0_1 (B (Proc.devRef .tc main_v136)))⟩, ⟨S512x128, Host.divf (Host.scatterAdd scatter_S512x128_S50000x1_S50000x128_1_0_0_1 (broadcastInDim S512x128 ![] bcast_S_S512x128 (constant S_ .f32 0x00000000#32)) (broadcastInDim S50000x1 ![0] bcast_S50000_S50000x1_0 (B (Proc.devRef .tc main_arg2))) (B (Proc.devRef .tc main_v87))) (broadcastInDim S512x128 ![0, 1] bcast_S512x1_S512x128_0_1 (B (Proc.devRef .tc main_v136)))⟩, ⟨S512x128, Host.divf (Host.scatterAdd scatter_S512x128_S50000x1_S50000x128_1_0_0_1 (broadcastInDim S512x128 ![] bcast_S_S512x128 (constant S_ .f32 0x00000000#32)) (broadcastInDim S50000x1 ![0] bcast_S50000_S50000x1_0 (B (Proc.devRef .tc main_arg2))) (B (Proc.devRef .tc main_v129))) (broadcastInDim S512x128 ![0, 1] bcast_S512x1_S512x128_0_1 (B (Proc.devRef .tc main_v136)))⟩] concatenates_S512x128_S512x128_S512x128_S512x384_d1 := by
  simp only [w18]
  after_results_simp
  all_goals rfl

set_option maxRecDepth 8192 in
/-- What `main_v152` holds after the line, from what its stage's operands hold after the line. -/
theorem st_v152 (V : Valuation τ sig (Elt F)) : after ops V (Proc.devRef .tc main_v152) = concatenate S512x384 1 [⟨S512x128, Host.divf (Host.scatterAdd scatter_S512x128_S50000x1_S50000x128_1_0_0_1 (broadcastInDim S512x128 ![] bcast_S_S512x128 (constant S_ .f32 0x00000000#32)) (broadcastInDim S50000x1 ![0] bcast_S50000_S50000x1_0 ((after ops V) (Proc.devRef .tc main_arg2))) ((after ops V) (Proc.devRef .tc main_v45))) (broadcastInDim S512x128 ![0, 1] bcast_S512x1_S512x128_0_1 ((after ops V) (Proc.devRef .tc main_v136)))⟩, ⟨S512x128, Host.divf (Host.scatterAdd scatter_S512x128_S50000x1_S50000x128_1_0_0_1 (broadcastInDim S512x128 ![] bcast_S_S512x128 (constant S_ .f32 0x00000000#32)) (broadcastInDim S50000x1 ![0] bcast_S50000_S50000x1_0 ((after ops V) (Proc.devRef .tc main_arg2))) ((after ops V) (Proc.devRef .tc main_v87))) (broadcastInDim S512x128 ![0, 1] bcast_S512x1_S512x128_0_1 ((after ops V) (Proc.devRef .tc main_v136)))⟩, ⟨S512x128, Host.divf (Host.scatterAdd scatter_S512x128_S50000x1_S50000x128_1_0_0_1 (broadcastInDim S512x128 ![] bcast_S_S512x128 (constant S_ .f32 0x00000000#32)) (broadcastInDim S50000x1 ![0] bcast_S50000_S50000x1_0 ((after ops V) (Proc.devRef .tc main_arg2))) ((after ops V) (Proc.devRef .tc main_v129))) (broadcastInDim S512x128 ![0, 1] bcast_S512x1_S512x128_0_1 ((after ops V) (Proc.devRef .tc main_v136)))⟩] concatenates_S512x128_S512x128_S512x128_S512x384_d1 := by
  rw [at19 V main_v152 (by decide), at18 V main_arg2 (by decide), at18 V main_v45 (by decide), at18 V main_v136 (by decide), at18 V main_v87 (by decide), at18 V main_v129 (by decide)]
  exact w18_v152 (B18 V)

set_option maxRecDepth 8192 in
set_option maxHeartbeats 2000000 in
theorem w19_v157 (B : Valuation τ sig (Elt F)) : after w19 B (Proc.devRef .tc main_v157) = projT (B (Proc.devRef .tc main_v152)) (B (Proc.devRef .tc main_arg21)) (B (Proc.devRef .tc main_arg22)) := by
  simp only [w19]
  after_results_simp
  all_goals rfl

set_option maxRecDepth 8192 in
/-- What `main_v157` holds after the line, from what its stage's operands hold after the line. -/
theorem st_v157 (V : Valuation τ sig (Elt F)) : after ops V (Proc.devRef .tc main_v157) = projT ((after ops V) (Proc.devRef .tc main_v152)) ((after ops V) (Proc.devRef .tc main_arg21)) ((after ops V) (Proc.devRef .tc main_arg22)) := by
  rw [at20 V main_v157 (by decide), at19 V main_v152 (by decide), at19 V main_arg21 (by decide), at19 V main_arg22 (by decide)]
  exact w19_v157 (B19 V)

set_option maxRecDepth 8192 in
set_option maxHeartbeats 2000000 in
theorem w20_v162 (B : Valuation τ sig (Elt F)) : after w20 B (Proc.devRef .tc main_v162) = normT (B (Proc.devRef .tc main_v157)) := by
  simp only [w20]
  after_results_simp
  all_goals rfl

set_option maxRecDepth 8192 in
/-- What `main_v162` holds after the line, from what its stage's operands hold after the line. -/
theorem st_v162 (V : Valuation τ sig (Elt F)) : after ops V (Proc.devRef .tc main_v162) = normT ((after ops V) (Proc.devRef .tc main_v157)) := by
  rw [at21 V main_v162 (by decide), at20 V main_v157 (by decide)]
  exact w20_v162 (B20 V)

end Stages

/-! ## The elementwise operations at an index, on the extended reals -/

section Elementwise
variable {s : Shape}

theorem hdivf_at (x y : FVec Ideal s .f32) (i : s.Idx) : Host.divf x y i = Ideal.div (x i) (y i) := rfl
theorem addf_at (x y : FVec Ideal s .f32) (i : s.Idx) : addf x y i = x i + y i := rfl
theorem subf_at (x y : FVec Ideal s .f32) (i : s.Idx) : subf x y i = x i - y i := rfl
theorem mulf_at (x y : FVec Ideal s .f32) (i : s.Idx) : mulf x y i = x i * y i := rfl
theorem maxf_at (x y : FVec Ideal s .f32) (i : s.Idx) : maximumf x y i = max (x i) (y i) := rfl
theorem hsqrt_at (x : FVec Ideal s .f32) (i : s.Idx) : Host.sqrt x i = Ideal.sqrt (x i) := rfl
theorem hrsqrt_at (x : FVec Ideal s .f32) (i : s.Idx) : Host.rsqrt x i = Ideal.rsqrt (x i) := rfl
theorem const_at (w : BitVec 32) (i : s.Idx) : constant (F := Ideal) s .f32 w i = Ideal.ofBits .f32 w := rfl

end Elementwise

/-! ## Reading the layout operations at an index -/

section Layout
variable {α : Type}

/-- A scalar's splat reads the scalar everywhere. -/
theorem splat_apply {t : Shape} (dims : Fin S_.rank → Fin t.rank) (h : S_.BroadcastsInDim t dims) (x : S_.Idx → α) (i : t.Idx) :
    broadcastInDim t dims h x i = x ix0 :=
  broadcastInDim_apply dims h x i ix0 (fun a => a.elim0)

/-- A row of 128 laid over one row reads the row. -/
theorem row1_apply (v : S128.Idx → α) (j : Fin 128) :
    broadcastInDim S1x128 ![1] bcast_S128_S1x128_1 v (ix2 (0 : Fin 1) j) = v (ix1 j) :=
  broadcastInDim_apply _ _ v _ (ix1 j) (fun a => match a with
    | ⟨0, _⟩ => by show j.val = if (128 : Nat) = 1 then 0 else j.val; rw [if_neg (by decide)])

/-- One row laid over 50000 rows reads the row. -/
theorem rows_apply (x : S1x128.Idx → α) (r : Fin 50000) (j : Fin 128) :
    broadcastInDim S50000x128 ![0, 1] bcast_S1x128_S50000x128_0_1 x (ix2 r j) = x (ix2 (0 : Fin 1) j) :=
  broadcastInDim_apply _ _ x _ (ix2 (0 : Fin 1) j) (fun a => match a with
    | ⟨0, _⟩ => by show (0 : Nat) = if (1 : Nat) = 1 then 0 else r.val; rw [if_pos rfl]
    | ⟨1, _⟩ => by show j.val = if (128 : Nat) = 1 then 0 else j.val; rw [if_neg (by decide)])

/-- A row of 128 laid over 50000 rows reads the row. -/
theorem rowb_apply (v : S128.Idx → α) (r : Fin 50000) (j : Fin 128) :
    broadcastInDim S50000x128 ![0, 1] bcast_S1x128_S50000x128_0_1 (broadcastInDim S1x128 ![1] bcast_S128_S1x128_1 v) (ix2 r j)
      = v (ix1 j) := by
  rw [rows_apply, row1_apply]

/-- The transpose of a 128 × 128 array. -/
theorem tr128_apply (x : S128x128.Idx → α) (k j : Fin 128) :
    transpose S128x128 [1, 0] x transposes_S128x128_S128x128_1_0 (ix2 k j) = x (ix2 j k) :=
  transpose_apply [1, 0] x transposes_S128x128_S128x128_1_0 (ix2 k j) (ix2 j k) (fun b => match b with
    | ⟨0, _⟩ => rfl
    | ⟨1, _⟩ => rfl)

end Layout

/-! ## Reading the contractions and the column sums at an index, on the extended reals -/

theorem dot1_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem dot1_lhs1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem dot1_rhs0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem dot1_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of a 50000 × 128 array with a 128 × 128 one, at row r and column j. -/
theorem dot1_apply (L : FVec Ideal S50000x128 .f32) (R : FVec Ideal S128x128 .f32) (r : Fin 50000) (j : Fin 128) :
    Host.dotGeneral dot_S50000x128_S128x128_S50000x128_1_0_0_1_n_n none L R (ix2 r j) = ∑ k : Fin 128, L (ix2 r k) * R (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k :=
    funext fun a => Fin.ext (by
      match a with
      | ⟨0, _⟩ => exact dot1_lhs0 _ _
      | ⟨1, _⟩ => exact (dot1_lhs1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j :=
    funext fun a => Fin.ext (by
      match a with
      | ⟨0, _⟩ => exact (dot1_rhs0 _ _).trans hk
      | ⟨1, _⟩ => exact dot1_rhs1 _ _)
  rw [el, er]

/-- The sum of a 50000 × 128 array down its rows, at column j. -/
theorem colsum_apply (x : FVec Ideal S50000x128 .f32) (init : FVec Ideal S_ .f32) (j : Fin 128) :
    Host.reduceAdd x init reducesTo_S50000x128_S128_d0 h_S_ (ix1 j) = init ix0 + ∑ r : Fin 50000, x (ix2 r j) := by
  simp only [Host.reduceAdd, Ideal.hostReduceAdd_def]
  rw [Ideal.hostReduceAdd_single reducesTo_S50000x128_S128_d0 (by decide)]
  refine congrArg₂ (· + ·) (congrArg init (funext fun a => a.elim0)) (Finset.sum_congr rfl fun k _ => ?_)
  exact congrArg x (funext fun a => Fin.ext (by
    match a with
    | ⟨0, _⟩ => rfl
    | ⟨1, _⟩ => rfl))

/-! ## The stages of a layer at an index, on the extended reals -/

/-- The perceptron's term at row r and feature j is the plain function of the arrays' entries. -/
theorem mlpT_apply (h agg : FVec Ideal S50000x128 .f32) (Wa : FVec Ideal S128x128 .f32) (ba : FVec Ideal S128 .f32)
    (Wb : FVec Ideal S128x128 .f32) (bb : FVec Ideal S128 .f32) (r : Fin 50000) (j : Fin 128) :
    mlpT h agg Wa ba Wb bb (ix2 r j) = Cert.Spec.outOf h agg Wa ba Wb bb r j := by
  unfold mlpT Cert.Spec.outOf Cert.Spec.mlp
  rw [addf_at, dot1_apply, rowb_apply]
  refine congrArg (· + bb (ix1 j)) (Finset.sum_congr rfl fun k _ => ?_)
  rw [tr128_apply, maxf_at, addf_at, dot1_apply, rowb_apply, splat_apply, const_at]
  refine congrArg (· * Wb (ix2 j k)) (congrArg₂ max (congrArg (· + ba (ix1 k)) (Finset.sum_congr rfl fun l _ => ?_)) rfl)
  rw [tr128_apply, addf_at]

/-- The mean's term at feature j. -/
theorem meanT_apply (x : FVec Ideal S50000x128 .f32) (j : Fin 128) :
    meanT x (ix1 j) = Cert.Spec.meanR (fun r j => x (ix2 r j)) j := by
  unfold meanT Cert.Spec.meanR
  rw [hdivf_at, colsum_apply, splat_apply, const_at, const_at]

/-- The variance's term at feature j: the guard holds, so the select is the quotient. -/
theorem varT_apply (x : FVec Ideal S50000x128 .f32) (j : Fin 128) :
    varT x (ix1 j) = Cert.Spec.varR (fun r j => x (ix2 r j)) j := by
  unfold varT Cert.Spec.varR Cert.Spec.meanR
  rw [select_apply, splat_apply]
  have hg : cmpf .ogt (dofT (F := Ideal)) (constant S_ .f32 0x00000000#32) ix0 = 1#1 := Cert.Spec.var_guard
  rw [hg]
  have hs : ∀ a b : EReal, Scalar.select (1#1 : BitVec 1) a b = a := fun a b => if_pos (by decide)
  rw [hs, hdivf_at, colsum_apply, splat_apply, const_at]
  refine congrArg₂ Ideal.div (congrArg (Ideal.ofBits .f32 0x00000000#32 + ·) (Finset.sum_congr rfl fun r _ => ?_)) rfl
  rw [mulf_at, subf_at, rows_apply, hdivf_at, row1_apply, colsum_apply, splat_apply, const_at, const_at]

/-- The normalise-and-rectify term at row r and feature j. -/
theorem bnT_apply (x : FVec Ideal S50000x128 .f32) (mu var g be : FVec Ideal S128 .f32) (r : Fin 50000) (j : Fin 128) :
    bnT x mu var g be (ix2 r j) = Cert.Spec.bn (x (ix2 r j)) (mu (ix1 j)) (var (ix1 j)) (g (ix1 j)) (be (ix1 j)) := by
  unfold bnT Cert.Spec.bn
  rw [maxf_at, addf_at, mulf_at, mulf_at, subf_at, rowb_apply, rowb_apply, rowb_apply, rowb_apply, splat_apply, const_at,
    hrsqrt_at, addf_at, splat_apply, const_at]

/-! ## The tail at an index -/

section LayoutTail
variable {α : Type}

theorem col512_apply (v : S512.Idx → α) (g : Fin 512) :
    broadcastInDim S512x1 ![0] bcast_S512_S512x1_0 v (ix2 g (0 : Fin 1)) = v (ix1 g) :=
  broadcastInDim_apply _ _ v _ (ix1 g) (fun a => match a with
    | ⟨0, _⟩ => by show g.val = if (512 : Nat) = 1 then 0 else g.val; rw [if_neg (by decide)])

theorem cols64_apply (x : S512x1.Idx → α) (g : Fin 512) (o : Fin 64) :
    broadcastInDim S512x64 ![0, 1] bcast_S512x1_S512x64_0_1 x (ix2 g o) = x (ix2 g (0 : Fin 1)) :=
  broadcastInDim_apply _ _ x _ (ix2 g (0 : Fin 1)) (fun a => match a with
    | ⟨0, _⟩ => by show g.val = if (512 : Nat) = 1 then 0 else g.val; rw [if_neg (by decide)]
    | ⟨1, _⟩ => by show (0 : Nat) = if (1 : Nat) = 1 then 0 else o.val; rw [if_pos rfl])

theorem rowb64_apply (v : S64.Idx → α) (g : Fin 512) (o : Fin 64) :
    broadcastInDim S512x64 ![0, 1] bcast_S1x64_S512x64_0_1 (broadcastInDim S1x64 ![1] bcast_S64_S1x64_1 v) (ix2 g o) = v (ix1 o) := by
  rw [broadcastInDim_apply _ _ _ (ix2 g o) (ix2 (0 : Fin 1) o) (fun a => match a with
      | ⟨0, _⟩ => by show (0 : Nat) = if (1 : Nat) = 1 then 0 else g.val; rw [if_pos rfl]
      | ⟨1, _⟩ => by show o.val = if (64 : Nat) = 1 then 0 else o.val; rw [if_neg (by decide)]),
    broadcastInDim_apply _ _ _ (ix2 (0 : Fin 1) o) (ix1 o) (fun a => match a with
      | ⟨0, _⟩ => by show o.val = if (64 : Nat) = 1 then 0 else o.val; rw [if_neg (by decide)])]

theorem tr384_apply (x : S64x384.Idx → α) (k : Fin 384) (o : Fin 64) :
    transpose S384x64 [1, 0] x transposes_S64x384_S384x64_1_0 (ix2 k o) = x (ix2 o k) :=
  transpose_apply [1, 0] x transposes_S64x384_S384x64_1_0 (ix2 k o) (ix2 o k) (fun b => match b with
    | ⟨0, _⟩ => rfl
    | ⟨1, _⟩ => rfl)

end LayoutTail

theorem dot2_lhs0 (i : S512x64.Idx) (q : dot_S512x384_S384x64_S512x64_1_0_0_1_n_n.contr.Idx) : (dot_S512x384_S384x64_S512x64_1_0_0_1_n_n.lhsIdx i q 0).val = (i 0).val := by
  unfold DotDims.lhsIdx
  rw [dif_neg (show ¬(0 : Fin S512x384.rank) ∈ dot_S512x384_S384x64_S512x64_1_0_0_1_n_n.lhsBatch by decide),
    dif_pos (show (0 : Fin S512x384.rank) ∈ dot_S512x384_S384x64_S512x64_1_0_0_1_n_n.lhsNonContracting by decide)]
  rfl
theorem dot2_lhs1 (i : S512x64.Idx) (q : dot_S512x384_S384x64_S512x64_1_0_0_1_n_n.contr.Idx) : (dot_S512x384_S384x64_S512x64_1_0_0_1_n_n.lhsIdx i q 1).val = (q ⟨0, by decide⟩).val :=
  dot_S512x384_S384x64_S512x64_1_0_0_1_n_n.lhsIdx_val_of_single rfl i q
theorem dot2_rhs0 (i : S512x64.Idx) (q : dot_S512x384_S384x64_S512x64_1_0_0_1_n_n.contr.Idx) : (dot_S512x384_S384x64_S512x64_1_0_0_1_n_n.rhsIdx i q 0).val = (q ⟨0, by decide⟩).val :=
  dot_S512x384_S384x64_S512x64_1_0_0_1_n_n.rhsIdx_val_of_single rfl i q
theorem dot2_rhs1 (i : S512x64.Idx) (q : dot_S512x384_S384x64_S512x64_1_0_0_1_n_n.contr.Idx) : (dot_S512x384_S384x64_S512x64_1_0_0_1_n_n.rhsIdx i q 1).val = (i 1).val := by
  unfold DotDims.rhsIdx
  rw [dif_neg (show ¬(1 : Fin S384x64.rank) ∈ dot_S512x384_S384x64_S512x64_1_0_0_1_n_n.rhsBatch by decide),
    dif_pos (show (1 : Fin S384x64.rank) ∈ dot_S512x384_S384x64_S512x64_1_0_0_1_n_n.rhsNonContracting by decide)]
  rfl

/-- The product of a 512 × 384 array with a 384 × 64 one, at row g and column o. -/
theorem dot2_apply (L : FVec Ideal S512x384 .f32) (R : FVec Ideal S384x64 .f32) (g : Fin 512) (o : Fin 64) :
    Host.dotGeneral dot_S512x384_S384x64_S512x64_1_0_0_1_n_n none L R (ix2 g o) = ∑ k : Fin 384, L (ix2 g k) * R (ix2 k o) := by
  simp only [Host.dotGeneral]
  rw [Ideal.dotGeneral_apply, ← Equiv.sum_comp (ValueIdx.contrEquiv1 dot_S512x384_S384x64_S512x64_1_0_0_1_n_n 384 rfl rfl).symm]
  refine Finset.sum_congr rfl fun k _ => ?_
  have hk := ValueIdx.contrEquiv1_symm_val dot_S512x384_S384x64_S512x64_1_0_0_1_n_n 384 rfl rfl k
  have el : dot_S512x384_S384x64_S512x64_1_0_0_1_n_n.lhsIdx (ix2 g o) ((ValueIdx.contrEquiv1 dot_S512x384_S384x64_S512x64_1_0_0_1_n_n 384 rfl rfl).symm k) = ix2 g k :=
    funext fun a => Fin.ext (by
      match a with
      | ⟨0, _⟩ => exact dot2_lhs0 _ _
      | ⟨1, _⟩ => exact (dot2_lhs1 _ _).trans hk)
  have er : dot_S512x384_S384x64_S512x64_1_0_0_1_n_n.rhsIdx (ix2 g o) ((ValueIdx.contrEquiv1 dot_S512x384_S384x64_S512x64_1_0_0_1_n_n 384 rfl rfl).symm k) = ix2 k o :=
    funext fun a => Fin.ext (by
      match a with
      | ⟨0, _⟩ => exact (dot2_rhs0 _ _).trans hk
      | ⟨1, _⟩ => exact dot2_rhs1 _ _)
  rw [el, er]

/-- The sum of a 512 × 64 array along its rows, at row g. -/
theorem rowsum_apply (x : FVec Ideal S512x64 .f32) (init : FVec Ideal S_ .f32) (g : Fin 512) :
    Host.reduceAdd x init reducesTo_S512x64_S512_d1 h_S_ (ix1 g) = init ix0 + ∑ o : Fin 64, x (ix2 g o) := by
  simp only [Host.reduceAdd, Ideal.hostReduceAdd_def]
  rw [Ideal.hostReduceAdd_single reducesTo_S512x64_S512_d1 (by decide)]
  refine congrArg₂ (· + ·) (congrArg init (funext fun a => a.elim0)) (Finset.sum_congr rfl fun k _ => ?_)
  exact congrArg x (funext fun a => Fin.ext (by
    match a with
    | ⟨0, _⟩ => rfl
    | ⟨1, _⟩ => rfl))

/-- The projection's term at graph g and output o. -/
theorem projT_apply (hf : FVec Ideal S512x384 .f32) (W : FVec Ideal S64x384 .f32) (b : FVec Ideal S64 .f32) (g : Fin 512) (o : Fin 64) :
    projT hf W b (ix2 g o) = Cert.Spec.proj (fun g k => hf (ix2 g k)) (fun o k => W (ix2 o k)) (fun o => b (ix1 o)) g o := by
  unfold projT Cert.Spec.proj
  rw [addf_at, dot2_apply, rowb64_apply]
  refine congrArg (· + b (ix1 o)) (Finset.sum_congr rfl fun k _ => ?_)
  rw [tr384_apply]

/-- The row normalisation's term at graph g and output o. -/
theorem normT_apply (y : FVec Ideal S512x64 .f32) (g : Fin 512) (o : Fin 64) :
    normT y (ix2 g o) = Cert.Spec.l2normalize (fun g o => y (ix2 g o))
      (fun g => Cert.Spec.zeroW + ∑ o' : Fin 64, y (ix2 g o') * y (ix2 g o')) g o := by
  unfold normT Cert.Spec.l2normalize
  rw [hdivf_at, cols64_apply, maxf_at, hsqrt_at, col512_apply, rowsum_apply, splat_apply, const_at, const_at]
  refine congrArg (fun t => Ideal.div (y (ix2 g o)) (max (Ideal.sqrt (Ideal.ofBits .f32 0x00000000#32 + t)) (Ideal.ofBits .f32 0x2B8CBCCC#32)))
    (Finset.sum_congr rfl fun o' _ => ?_)
  rw [mulf_at]

/-! ## The three layers and the tail, entry by entry -/

section Final

/-- The layer's result buffer after the line, entry by entry: the perceptron of h + agg, normalised by the column
    statistics taken the reference's way, scaled, shifted and rectified. -/
theorem layerR1 (V : Valuation τ sig (Elt Ideal)) (r : Fin 50000) (j : Fin 128) :
    (after ops V (Proc.devRef .tc main_v45)) (ix2 r j)
      = Cert.Spec.bn ((Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) r j) (Cert.Spec.meanR (Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) j) (Cert.Spec.varR (Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) j) ((V (Proc.devRef .tc main_arg7)) (ix1 j)) ((V (Proc.devRef .tc main_arg8)) (ix1 j)) := by
  have k1 : after ops V (Proc.devRef .tc main_arg1) = V (Proc.devRef .tc main_arg1) := ops_keep V main_arg1 (by decide) (by decide) (by decide) (by decide)
  have k0 : after ops V (Proc.devRef .tc main_arg0) = V (Proc.devRef .tc main_arg0) := ops_keep V main_arg0 (by decide) (by decide) (by decide) (by decide)
  have k3 : after ops V (Proc.devRef .tc main_arg3) = V (Proc.devRef .tc main_arg3) := ops_keep V main_arg3 (by decide) (by decide) (by decide) (by decide)
  have k4 : after ops V (Proc.devRef .tc main_arg4) = V (Proc.devRef .tc main_arg4) := ops_keep V main_arg4 (by decide) (by decide) (by decide) (by decide)
  have k5 : after ops V (Proc.devRef .tc main_arg5) = V (Proc.devRef .tc main_arg5) := ops_keep V main_arg5 (by decide) (by decide) (by decide) (by decide)
  have k6 : after ops V (Proc.devRef .tc main_arg6) = V (Proc.devRef .tc main_arg6) := ops_keep V main_arg6 (by decide) (by decide) (by decide) (by decide)
  have k7 : after ops V (Proc.devRef .tc main_arg7) = V (Proc.devRef .tc main_arg7) := ops_keep V main_arg7 (by decide) (by decide) (by decide) (by decide)
  have k8 : after ops V (Proc.devRef .tc main_arg8) = V (Proc.devRef .tc main_arg8) := ops_keep V main_arg8 (by decide) (by decide) (by decide) (by decide)
  have eagg : (after ops V (Proc.devRef .tc main_v13)) = aggR (F := Ideal) (V (Proc.devRef .tc main_arg0)) (V (Proc.devRef .tc main_arg1)) := by
    rw [st_v13, k0, k1]
  have eout : (after ops V (Proc.devRef .tc main_v25)) = mlpT (F := Ideal) (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6)) := by
    rw [st_v25, eagg, k0, k3, k4, k5, k6]
  have hout : ∀ (r : Fin 50000) (j : Fin 128), (after ops V (Proc.devRef .tc main_v25)) (ix2 r j) = (Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) r j :=
    fun r j => (congrFun eout (ix2 r j)).trans (mlpT_apply _ _ _ _ _ _ r j)
  have hfun : (fun (r : Fin 50000) (j : Fin 128) => (after ops V (Proc.devRef .tc main_v25)) (ix2 r j)) = (Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) :=
    funext fun r => funext fun j => hout r j
  have ey : (after ops V (Proc.devRef .tc main_v45)) = bnT (F := Ideal) (after ops V (Proc.devRef .tc main_v25)) (meanT (F := Ideal) (after ops V (Proc.devRef .tc main_v25))) (varT (F := Ideal) (after ops V (Proc.devRef .tc main_v25))) (V (Proc.devRef .tc main_arg7)) (V (Proc.devRef .tc main_arg8)) := by
    rw [st_v45, st_v28, st_v29, k7, k8]
  have hm : meanT (F := Ideal) (after ops V (Proc.devRef .tc main_v25)) (ix1 j) = Cert.Spec.meanR (Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) j :=
    (meanT_apply _ j).trans (congrArg (fun o => Cert.Spec.meanR o j) hfun)
  have hv : varT (F := Ideal) (after ops V (Proc.devRef .tc main_v25)) (ix1 j) = Cert.Spec.varR (Cert.Spec.outOf (V (Proc.devRef .tc main_arg0)) (aggR (F := Ideal) (V (Proc.devRef .tc main_arg0)) (V (Proc.devRef .tc main_arg1))) (V (Proc.devRef .tc main_arg3)) (V (Proc.devRef .tc main_arg4)) (V (Proc.devRef .tc main_arg5)) (V (Proc.devRef .tc main_arg6))) j :=
    (varT_apply _ j).trans (congrArg (fun o => Cert.Spec.varR o j) hfun)
  exact (congrFun ey (ix2 r j)).trans ((bnT_apply _ _ _ _ _ r j).trans (by rw [hout r j, hm, hv]))

/-- The layer's result buffer after the line, entry by entry: the perceptron of h + agg, normalised by the column
    statistics taken the reference's way, scaled, shifted and rectified. -/
theorem layerR2 (V : Valuation τ sig (Elt Ideal)) (r : Fin 50000) (j : Fin 128) :
    (after ops V (Proc.devRef .tc main_v87)) (ix2 r j)
      = Cert.Spec.bn ((Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) r j) (Cert.Spec.meanR (Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) j) (Cert.Spec.varR (Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) j) ((V (Proc.devRef .tc main_arg13)) (ix1 j)) ((V (Proc.devRef .tc main_arg14)) (ix1 j)) := by
  have k1 : after ops V (Proc.devRef .tc main_arg1) = V (Proc.devRef .tc main_arg1) := ops_keep V main_arg1 (by decide) (by decide) (by decide) (by decide)
  have k9 : after ops V (Proc.devRef .tc main_arg9) = V (Proc.devRef .tc main_arg9) := ops_keep V main_arg9 (by decide) (by decide) (by decide) (by decide)
  have k10 : after ops V (Proc.devRef .tc main_arg10) = V (Proc.devRef .tc main_arg10) := ops_keep V main_arg10 (by decide) (by decide) (by decide) (by decide)
  have k11 : after ops V (Proc.devRef .tc main_arg11) = V (Proc.devRef .tc main_arg11) := ops_keep V main_arg11 (by decide) (by decide) (by decide) (by decide)
  have k12 : after ops V (Proc.devRef .tc main_arg12) = V (Proc.devRef .tc main_arg12) := ops_keep V main_arg12 (by decide) (by decide) (by decide) (by decide)
  have k13 : after ops V (Proc.devRef .tc main_arg13) = V (Proc.devRef .tc main_arg13) := ops_keep V main_arg13 (by decide) (by decide) (by decide) (by decide)
  have k14 : after ops V (Proc.devRef .tc main_arg14) = V (Proc.devRef .tc main_arg14) := ops_keep V main_arg14 (by decide) (by decide) (by decide) (by decide)
  have eagg : (after ops V (Proc.devRef .tc main_v55)) = aggR (F := Ideal) (after ops V (Proc.devRef .tc main_v45)) (V (Proc.devRef .tc main_arg1)) := by
    rw [st_v55, st_v3, st_v50, st_v1, k1]
    rfl
  have eout : (after ops V (Proc.devRef .tc main_v67)) = mlpT (F := Ideal) (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12)) := by
    rw [st_v67, eagg, k9, k10, k11, k12]
  have hout : ∀ (r : Fin 50000) (j : Fin 128), (after ops V (Proc.devRef .tc main_v67)) (ix2 r j) = (Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) r j :=
    fun r j => (congrFun eout (ix2 r j)).trans (mlpT_apply _ _ _ _ _ _ r j)
  have hfun : (fun (r : Fin 50000) (j : Fin 128) => (after ops V (Proc.devRef .tc main_v67)) (ix2 r j)) = (Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) :=
    funext fun r => funext fun j => hout r j
  have ey : (after ops V (Proc.devRef .tc main_v87)) = bnT (F := Ideal) (after ops V (Proc.devRef .tc main_v67)) (meanT (F := Ideal) (after ops V (Proc.devRef .tc main_v67))) (varT (F := Ideal) (after ops V (Proc.devRef .tc main_v67))) (V (Proc.devRef .tc main_arg13)) (V (Proc.devRef .tc main_arg14)) := by
    rw [st_v87, st_v70, st_v71, k13, k14]
  have hm : meanT (F := Ideal) (after ops V (Proc.devRef .tc main_v67)) (ix1 j) = Cert.Spec.meanR (Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) j :=
    (meanT_apply _ j).trans (congrArg (fun o => Cert.Spec.meanR o j) hfun)
  have hv : varT (F := Ideal) (after ops V (Proc.devRef .tc main_v67)) (ix1 j) = Cert.Spec.varR (Cert.Spec.outOf (after ops V (Proc.devRef .tc main_v45)) (aggR (F := Ideal) (after ops V (Proc.devRef .tc main_v45)) (V (Proc.devRef .tc main_arg1))) (V (Proc.devRef .tc main_arg9)) (V (Proc.devRef .tc main_arg10)) (V (Proc.devRef .tc main_arg11)) (V (Proc.devRef .tc main_arg12))) j :=
    (varT_apply _ j).trans (congrArg (fun o => Cert.Spec.varR o j) hfun)
  exact (congrFun ey (ix2 r j)).trans ((bnT_apply _ _ _ _ _ r j).trans (by rw [hout r j, hm, hv]))

/-- The layer's result buffer after the line, entry by entry: the perceptron of h + agg, normalised by the column
    statistics taken the reference's way, scaled, shifted and rectified. -/
theorem layerR3 (V : Valuation τ sig (Elt Ideal)) (r : Fin 50000) (j : Fin 128) :
    (after ops V (Proc.devRef .tc main_v129)) (ix2 r j)
      = Cert.Spec.bn ((Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) r j) (Cert.Spec.meanR (Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) j) (Cert.Spec.varR (Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) j) ((V (Proc.devRef .tc main_arg19)) (ix1 j)) ((V (Proc.devRef .tc main_arg20)) (ix1 j)) := by
  have k1 : after ops V (Proc.devRef .tc main_arg1) = V (Proc.devRef .tc main_arg1) := ops_keep V main_arg1 (by decide) (by decide) (by decide) (by decide)
  have k15 : after ops V (Proc.devRef .tc main_arg15) = V (Proc.devRef .tc main_arg15) := ops_keep V main_arg15 (by decide) (by decide) (by decide) (by decide)
  have k16 : after ops V (Proc.devRef .tc main_arg16) = V (Proc.devRef .tc main_arg16) := ops_keep V main_arg16 (by decide) (by decide) (by decide) (by decide)
  have k17 : after ops V (Proc.devRef .tc main_arg17) = V (Proc.devRef .tc main_arg17) := ops_keep V main_arg17 (by decide) (by decide) (by decide) (by decide)
  have k18 : after ops V (Proc.devRef .tc main_arg18) = V (Proc.devRef .tc main_arg18) := ops_keep V main_arg18 (by decide) (by decide) (by decide) (by decide)
  have k19 : after ops V (Proc.devRef .tc main_arg19) = V (Proc.devRef .tc main_arg19) := ops_keep V main_arg19 (by decide) (by decide) (by decide) (by decide)
  have k20 : after ops V (Proc.devRef .tc main_arg20) = V (Proc.devRef .tc main_arg20) := ops_keep V main_arg20 (by decide) (by decide) (by decide) (by decide)
  have eagg : (after ops V (Proc.devRef .tc main_v97)) = aggR (F := Ideal) (after ops V (Proc.devRef .tc main_v87)) (V (Proc.devRef .tc main_arg1)) := by
    rw [st_v97, st_v3, st_v1, k1]
    rfl
  have eout : (after ops V (Proc.devRef .tc main_v109)) = mlpT (F := Ideal) (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18)) := by
    rw [st_v109, st_v100, st_v102, eagg, k15, k16, k17, k18]
    rfl
  have hout : ∀ (r : Fin 50000) (j : Fin 128), (after ops V (Proc.devRef .tc main_v109)) (ix2 r j) = (Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) r j :=
    fun r j => (congrFun eout (ix2 r j)).trans (mlpT_apply _ _ _ _ _ _ r j)
  have hfun : (fun (r : Fin 50000) (j : Fin 128) => (after ops V (Proc.devRef .tc main_v109)) (ix2 r j)) = (Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) :=
    funext fun r => funext fun j => hout r j
  have ey : (after ops V (Proc.devRef .tc main_v129)) = bnT (F := Ideal) (after ops V (Proc.devRef .tc main_v109)) (meanT (F := Ideal) (after ops V (Proc.devRef .tc main_v109))) (varT (F := Ideal) (after ops V (Proc.devRef .tc main_v109))) (V (Proc.devRef .tc main_arg19)) (V (Proc.devRef .tc main_arg20)) := by
    rw [st_v129, st_v112, st_v113, k19, k20]
  have hm : meanT (F := Ideal) (after ops V (Proc.devRef .tc main_v109)) (ix1 j) = Cert.Spec.meanR (Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) j :=
    (meanT_apply _ j).trans (congrArg (fun o => Cert.Spec.meanR o j) hfun)
  have hv : varT (F := Ideal) (after ops V (Proc.devRef .tc main_v109)) (ix1 j) = Cert.Spec.varR (Cert.Spec.outOf (after ops V (Proc.devRef .tc main_v87)) (aggR (F := Ideal) (after ops V (Proc.devRef .tc main_v87)) (V (Proc.devRef .tc main_arg1))) (V (Proc.devRef .tc main_arg15)) (V (Proc.devRef .tc main_arg16)) (V (Proc.devRef .tc main_arg17)) (V (Proc.devRef .tc main_arg18))) j :=
    (varT_apply _ j).trans (congrArg (fun o => Cert.Spec.varR o j) hfun)
  exact (congrFun ey (ix2 r j)).trans ((bnT_apply _ _ _ _ _ r j).trans (by rw [hout r j, hm, hv]))

/-- The pooled features after the line: the three layers' results averaged per graph, side by side. -/
theorem pool_eq (V : Valuation τ sig (Elt Ideal)) :
    (after ops V (Proc.devRef .tc main_v152)) = poolR (F := Ideal) (after ops V (Proc.devRef .tc main_v45)) (after ops V (Proc.devRef .tc main_v87)) (after ops V (Proc.devRef .tc main_v129)) (V (Proc.devRef .tc main_arg2)) := by
  have k2 : after ops V (Proc.devRef .tc main_arg2) = V (Proc.devRef .tc main_arg2) := ops_keep V main_arg2 (by decide) (by decide) (by decide) (by decide)
  rw [st_v152, st_v136, k2]
  rfl

/-- The result buffer after the line, entry by entry: the projection of the pooled features, each row divided by
    its Euclidean length (kept above 1e-12), the sum of squares started from the zero it adds. -/
theorem tailR (V : Valuation τ sig (Elt Ideal)) (g : Fin 512) (o : Fin 64) :
    (after ops V (Proc.devRef .tc main_v162)) (ix2 g o)
      = Cert.Spec.l2normalize (Cert.Spec.proj (fun g k => (poolR (F := Ideal) (after ops V (Proc.devRef .tc main_v45)) (after ops V (Proc.devRef .tc main_v87)) (after ops V (Proc.devRef .tc main_v129)) (V (Proc.devRef .tc main_arg2))) (ix2 g k)) (fun o k => (V (Proc.devRef .tc main_arg21)) (ix2 o k)) (fun o => (V (Proc.devRef .tc main_arg22)) (ix1 o)))
          (fun g => Cert.Spec.zeroW + ∑ o' : Fin 64, (Cert.Spec.proj (fun g k => (poolR (F := Ideal) (after ops V (Proc.devRef .tc main_v45)) (after ops V (Proc.devRef .tc main_v87)) (after ops V (Proc.devRef .tc main_v129)) (V (Proc.devRef .tc main_arg2))) (ix2 g k)) (fun o k => (V (Proc.devRef .tc main_arg21)) (ix2 o k)) (fun o => (V (Proc.devRef .tc main_arg22)) (ix1 o))) g o' * (Cert.Spec.proj (fun g k => (poolR (F := Ideal) (after ops V (Proc.devRef .tc main_v45)) (after ops V (Proc.devRef .tc main_v87)) (after ops V (Proc.devRef .tc main_v129)) (V (Proc.devRef .tc main_arg2))) (ix2 g k)) (fun o k => (V (Proc.devRef .tc main_arg21)) (ix2 o k)) (fun o => (V (Proc.devRef .tc main_arg22)) (ix1 o))) g o') g o := by
  have k21 : after ops V (Proc.devRef .tc main_arg21) = V (Proc.devRef .tc main_arg21) := ops_keep V main_arg21 (by decide) (by decide) (by decide) (by decide)
  have k22 : after ops V (Proc.devRef .tc main_arg22) = V (Proc.devRef .tc main_arg22) := ops_keep V main_arg22 (by decide) (by decide) (by decide) (by decide)
  have e157 : (after ops V (Proc.devRef .tc main_v157)) = projT (F := Ideal) (poolR (F := Ideal) (after ops V (Proc.devRef .tc main_v45)) (after ops V (Proc.devRef .tc main_v87)) (after ops V (Proc.devRef .tc main_v129)) (V (Proc.devRef .tc main_arg2))) (V (Proc.devRef .tc main_arg21)) (V (Proc.devRef .tc main_arg22)) := by
    rw [st_v157, pool_eq, k21, k22]
  have hfun : (fun (g : Fin 512) (o : Fin 64) => (after ops V (Proc.devRef .tc main_v157)) (ix2 g o)) = (Cert.Spec.proj (fun g k => (poolR (F := Ideal) (after ops V (Proc.devRef .tc main_v45)) (after ops V (Proc.devRef .tc main_v87)) (after ops V (Proc.devRef .tc main_v129)) (V (Proc.devRef .tc main_arg2))) (ix2 g k)) (fun o k => (V (Proc.devRef .tc main_arg21)) (ix2 o k)) (fun o => (V (Proc.devRef .tc main_arg22)) (ix1 o))) :=
    funext fun g => funext fun o => (congrFun e157 (ix2 g o)).trans (projT_apply _ _ _ g o)
  exact (congrFun (st_v162 V) (ix2 g o)).trans ((normT_apply _ g o).trans
    (congrArg (fun Y : Fin 512 → Fin 64 → EReal => Cert.Spec.l2normalize Y (fun g => Cert.Spec.zeroW + ∑ o' : Fin 64, Y g o' * Y g o') g o) hfun))

end Final

end Cert.ReferenceIdeal.Hand

end
-- ==== Proof.PreReal.lean ====
/-
  The precondition "every float input is finite", read back at the ideal instance.

  The predicate computes, for each of the 21 float argument arrays x, the conjunction over all entries of
  |x| < +inf: the absolute value max x (-x), the f32 word 0x7F800000 (plus infinity) broadcast from a scalar, the
  ordered less-than as a one-bit word, and the reduction of those words by "and", from 1, down to a scalar; the 21
  scalars are then joined by "and".  The two integer arrays are not constrained.  Over the extended reals an entry
  with max x (-x) < +inf is neither infinity, hence a real number.  So the predicate being 1 says that every entry
  of every float argument is real: the fact by which laws of the real numbers that fail at the infinities can be
  used on the values computed from these arguments.
-/
import Idealize.ShloMosaic.Lib.ReduceAll
import Idealize.ShloMosaic.Lib.IdealHost
import proofs.«177104_j19121194402280_1_alg».proof.Defs
import proofs.«177104_j19121194402280_1_alg».proof.Proof.Gen.Pre_finite_inputs
import proofs.«177104_j19121194402280_1_alg».proof.Proof.LibFiniteReal

noncomputable section

namespace Cert.Proof.Parts

open Idealize.ShloMosaic Idealize.ShloMosaic.FiniteReal Idealize.ShloMosaic.ValueIdx
open Cert.Pre_finite_inputs
open Idealize.SL.Sem

/-- The rank-0 shape has one index. -/
instance subsingleton_scalar_idx : Subsingleton (⟨0, ![]⟩ : Shape).Idx := ⟨fun a b => funext fun d => d.elim0⟩

/-- The f32 word with all exponent bits set and no fraction bit is plus infinity. -/
theorem ofBits_inf : Ideal.ofBits .f32 0x7F800000#32 = (⊤ : EReal) := by simp [Ideal.ofBits, Ideal.ieee]

/-- An extended real whose absolute value max x (-x) is below plus infinity is a real number: plus infinity is
    excluded by x itself, minus infinity by its negation. -/
theorem isReal_of_abs_lt_top (x : EReal) (h : max x (-x) < ⊤) : IsReal x := by
  rw [isReal_iff]
  constructor
  · rintro rfl
    exact absurd h (by simp)
  · rintro rfl
    exact absurd h (by simp)

/-- A one-bit word made from a decision is 1 exactly when the decision is true. -/
theorem ofBool_eq_one (b : Bool) : BitVec.ofBool b = 1#1 ↔ b = true := by cases b <;> decide

/-- The element test of the predicate: |x| < +inf, as the comparison word, says x is real. -/
theorem isReal_of_cmp (x : EReal)
    (h : Ideal.cmp .olt (max x (-x)) (Ideal.ofBits .f32 0x7F800000#32) = 1#1) : IsReal x := by
  rw [ofBits_inf] at h
  unfold Ideal.cmp at h
  rw [ofBool_eq_one] at h
  exact isReal_of_abs_lt_top x (of_decide_eq_true h)

/-- ONE block of the predicate, at any shape: if the conjunction over all entries of |x| < +inf (absolute value,
    the infinity word broadcast from a scalar, the ordered less-than, and the reduction by "and" from 1 down to a
    scalar) is 1, then every entry of x is a real number. -/
theorem allReal_of_block {s : Shape} (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (x : FVec Ideal s .f32) (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) :
    AllReal x := by
  intro i
  have hi := Host.reduce_andi_all _ _ hr hu j e i
  exact isReal_of_cmp (x i) hi

/-- THE PREDICATE DECODED: if the predicate "every float input is finite" evaluates to 1 on the 23
    argument arrays, then each of the 21 float arrays has only real entries.  The predicate is the "and" of 21
    blocks, one per float array, nested to the left; a one-bit "and" is 1 exactly when both sides are, so each
    block is 1, and a block that is 1 says its array is real at every index. -/
theorem fn_real (a0 : FVec Ideal S50000x128 .f32) (a1 : IVec S2x600000 32) (a2 : IVec S50000 32) (a3 : FVec Ideal S128x128 .f32) (a4 : FVec Ideal S128 .f32) (a5 : FVec Ideal S128x128 .f32) (a6 : FVec Ideal S128 .f32) (a7 : FVec Ideal S128 .f32) (a8 : FVec Ideal S128 .f32) (a9 : FVec Ideal S128x128 .f32) (a10 : FVec Ideal S128 .f32) (a11 : FVec Ideal S128x128 .f32) (a12 : FVec Ideal S128 .f32) (a13 : FVec Ideal S128 .f32) (a14 : FVec Ideal S128 .f32) (a15 : FVec Ideal S128x128 .f32) (a16 : FVec Ideal S128 .f32) (a17 : FVec Ideal S128x128 .f32) (a18 : FVec Ideal S128 .f32) (a19 : FVec Ideal S128 .f32) (a20 : FVec Ideal S128 .f32) (a21 : FVec Ideal S64x384 .f32) (a22 : FVec Ideal S64 .f32)
    (h : Cert.Pre_finite_inputs.fn (F := Ideal) a0 a1 a2 a3 a4 a5 a6 a7 a8 a9 a10 a11 a12 a13 a14 a15 a16 a17 a18 a19 a20 a21 a22 = fun _ => 1#1) :
    AllReal a0 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  have e := congrFun h ix0
  dsimp only [fn, fn_part1, fn_part2, fn_part3, fn_part4, fn_part5, fn_part6] at e
  simp only [andi, IntOp.andi_eq_one] at e
  obtain ⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩ := e
  exact ⟨allReal_of_block _ _ _ a0 ix0 h0,
    allReal_of_block _ _ _ a3 ix0 h3,
    allReal_of_block _ _ _ a4 ix0 h4,
    allReal_of_block _ _ _ a5 ix0 h5,
    allReal_of_block _ _ _ a6 ix0 h6,
    allReal_of_block _ _ _ a7 ix0 h7,
    allReal_of_block _ _ _ a8 ix0 h8,
    allReal_of_block _ _ _ a9 ix0 h9,
    allReal_of_block _ _ _ a10 ix0 h10,
    allReal_of_block _ _ _ a11 ix0 h11,
    allReal_of_block _ _ _ a12 ix0 h12,
    allReal_of_block _ _ _ a13 ix0 h13,
    allReal_of_block _ _ _ a14 ix0 h14,
    allReal_of_block _ _ _ a15 ix0 h15,
    allReal_of_block _ _ _ a16 ix0 h16,
    allReal_of_block _ _ _ a17 ix0 h17,
    allReal_of_block _ _ _ a18 ix0 h18,
    allReal_of_block _ _ _ a19 ix0 h19,
    allReal_of_block _ _ _ a20 ix0 h20,
    allReal_of_block _ _ _ a21 ix0 h21,
    allReal_of_block _ _ _ a22 ix0 h22⟩

/-- The precondition of the ideal kernel program, decoded: on every core, each of the 21 float argument buffers of
    the launch memory has only real entries. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11))
    ∧ AllReal (m ((c.tc : Thread Cert.KernelIdeal.nD Cert.KernelIdeal.τ).loc Cert.KernelIdeal.main_arg12))
    ∧ AllReal (m ((c.tc : Thread Cert.KernelIdeal.nD Cert.KernelIdeal.τ).loc Cert.KernelIdeal.main_arg13))
    ∧ AllReal (m ((c.tc : Thread Cert.KernelIdeal.nD Cert.KernelIdeal.τ).loc Cert.KernelIdeal.main_arg14))
    ∧ AllReal (m ((c.tc : Thread Cert.KernelIdeal.nD Cert.KernelIdeal.τ).loc Cert.KernelIdeal.main_arg15))
    ∧ AllReal (m ((c.tc : Thread Cert.KernelIdeal.nD Cert.KernelIdeal.τ).loc Cert.KernelIdeal.main_arg16))
    ∧ AllReal (m ((c.tc : Thread Cert.KernelIdeal.nD Cert.KernelIdeal.τ).loc Cert.KernelIdeal.main_arg17))
    ∧ AllReal (m ((c.tc : Thread Cert.KernelIdeal.nD Cert.KernelIdeal.τ).loc Cert.KernelIdeal.main_arg18))
    ∧ AllReal (m ((c.tc : Thread Cert.KernelIdeal.nD Cert.KernelIdeal.τ).loc Cert.KernelIdeal.main_arg19))
    ∧ AllReal (m ((c.tc : Thread Cert.KernelIdeal.nD Cert.KernelIdeal.τ).loc Cert.KernelIdeal.main_arg20))
    ∧ AllReal (m ((c.tc : Thread Cert.KernelIdeal.nD Cert.KernelIdeal.τ).loc Cert.KernelIdeal.main_arg21))
    ∧ AllReal (m ((c.tc : Thread Cert.KernelIdeal.nD Cert.KernelIdeal.τ).loc Cert.KernelIdeal.main_arg22)) :=
  fn_real (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (h c)

end Cert.Proof.Parts

end
-- ==== Proof.ValueJoin.lean ====
/-
  The whole network, read both ways, is one array.

  Three layers in a row: each takes the previous layer's result h (the input features for the first), adds the
  aggregate of h over the edges, applies the perceptron, normalises and rectifies.  If the two programs' readings
  of each layer have the shapes layer_join asks for — the kernel's with its one-pass statistics, the reference's
  with its two-pass statistics, both over the same aggregate function — then layer by layer the results are the
  same real array (the aggregate of a real array being real), the pooled concatenation of the three results is
  the same, and so is the normalised projection.
-/
import proofs.«177104_j19121194402280_1_alg».proof.Proof.LayerJoin

noncomputable section

namespace Cert.Spec

open Idealize.ShloMosaic Idealize.ShloMosaic.ValueIdx Idealize.ShloMosaic.FiniteReal

/-- What one program's reading of a layer says of its result array hNext, given the layer's input h, the aggregate
    function and the statistics mean / var it uses. -/
def LayerReads (mean var : (Fin 50000 → Fin 128 → EReal) → Fin 128 → EReal) (aggf : (SN.Idx → EReal) → (SN.Idx → EReal))
    (h : SN.Idx → EReal) (Wa : SW.Idx → EReal) (ba : SV.Idx → EReal) (Wb : SW.Idx → EReal) (bb g be : SV.Idx → EReal)
    (hNext : SN.Idx → EReal) : Prop :=
  ∀ r j, hNext (ix2 r j) = bn (outOf h (aggf h) Wa ba Wb bb r j) (mean (outOf h (aggf h) Wa ba Wb bb) j)
    (var (outOf h (aggf h) Wa ba Wb bb) j) (g (ix1 j)) (be (ix1 j))

theorem LayerReads.join {aggf : (SN.Idx → EReal) → (SN.Idx → EReal)} (haggf : ∀ h, AllReal h → AllReal (aggf h))
    {h : SN.Idx → EReal} {Wa Wb : SW.Idx → EReal} {ba bb g be : SV.Idx → EReal}
    (hh : AllReal h) (hWa : AllReal Wa) (hba : AllReal ba) (hWb : AllReal Wb) (hbb : AllReal bb)
    (hg : AllReal g) (hbe : AllReal be) {hK hR : SN.Idx → EReal}
    (eK : LayerReads meanK varK aggf h Wa ba Wb bb g be hK) (eR : LayerReads meanR varR aggf h Wa ba Wb bb g be hR) :
    hK = hR ∧ AllReal hR :=
  layer_join hh (haggf h hh) hWa hba hWb hbb hg hbe hK hR eK eR

/-- The three layers and the tail. -/
theorem network_join {aggf : (SN.Idx → EReal) → (SN.Idx → EReal)} (haggf : ∀ h, AllReal h → AllReal (aggf h))
    (poolf : (SN.Idx → EReal) → (SN.Idx → EReal) → (SN.Idx → EReal) → ((⟨2, ![512, 384]⟩ : Shape).Idx → EReal))
    {x : SN.Idx → EReal} {W11 W12 W21 W22 W31 W32 : SW.Idx → EReal}
    {b11 b12 g1 be1 b21 b22 g2 be2 b31 b32 g3 be3 : SV.Idx → EReal}
    {linW : (⟨2, ![64, 384]⟩ : Shape).Idx → EReal} {linb : (⟨1, ![64]⟩ : Shape).Idx → EReal}
    (hx : AllReal x) (hW11 : AllReal W11) (hb11 : AllReal b11) (hW12 : AllReal W12) (hb12 : AllReal b12)
    (hg1 : AllReal g1) (hbe1 : AllReal be1)
    (hW21 : AllReal W21) (hb21 : AllReal b21) (hW22 : AllReal W22) (hb22 : AllReal b22)
    (hg2 : AllReal g2) (hbe2 : AllReal be2)
    (hW31 : AllReal W31) (hb31 : AllReal b31) (hW32 : AllReal W32) (hb32 : AllReal b32)
    (hg3 : AllReal g3) (hbe3 : AllReal be3)
    {h1K h2K h3K h1R h2R h3R : SN.Idx → EReal} {yK yR : (⟨2, ![512, 64]⟩ : Shape).Idx → EReal}
    (eK1 : LayerReads meanK varK aggf x W11 b11 W12 b12 g1 be1 h1K)
    (eR1 : LayerReads meanR varR aggf x W11 b11 W12 b12 g1 be1 h1R)
    (eK2 : LayerReads meanK varK aggf h1K W21 b21 W22 b22 g2 be2 h2K)
    (eR2 : LayerReads meanR varR aggf h1R W21 b21 W22 b22 g2 be2 h2R)
    (eK3 : LayerReads meanK varK aggf h2K W31 b31 W32 b32 g3 be3 h3K)
    (eR3 : LayerReads meanR varR aggf h2R W31 b31 W32 b32 g3 be3 h3R)
    (eKt : ∀ g o, yK (ix2 g o) = l2normalize
      (proj (fun g k => poolf h1K h2K h3K (ix2 g k)) (fun o k => linW (ix2 o k)) (fun o => linb (ix1 o)))
      (fun g => ∑ o' : Fin 64,
        proj (fun g k => poolf h1K h2K h3K (ix2 g k)) (fun o k => linW (ix2 o k)) (fun o => linb (ix1 o)) g o'
          * proj (fun g k => poolf h1K h2K h3K (ix2 g k)) (fun o k => linW (ix2 o k)) (fun o => linb (ix1 o)) g o') g o)
    (eRt : ∀ g o, yR (ix2 g o) = l2normalize
      (proj (fun g k => poolf h1R h2R h3R (ix2 g k)) (fun o k => linW (ix2 o k)) (fun o => linb (ix1 o)))
      (fun g => zeroW + ∑ o' : Fin 64,
        proj (fun g k => poolf h1R h2R h3R (ix2 g k)) (fun o k => linW (ix2 o k)) (fun o => linb (ix1 o)) g o'
          * proj (fun g k => poolf h1R h2R h3R (ix2 g k)) (fun o k => linW (ix2 o k)) (fun o => linb (ix1 o)) g o') g o) :
    yK = yR := by
  obtain ⟨e1, r1⟩ := LayerReads.join haggf hx hW11 hb11 hW12 hb12 hg1 hbe1 eK1 eR1
  subst e1
  obtain ⟨e2, r2⟩ := LayerReads.join haggf r1 hW21 hb21 hW22 hb22 hg2 hbe2 eK2 eR2
  subst e2
  obtain ⟨e3, _⟩ := LayerReads.join haggf r2 hW31 hb31 hW32 hb32 hg3 hbe3 eK3 eR3
  subst e3
  exact tail_join (poolf h1K h2K h3K) linW linb yK yR eKt eRt

end Cert.Spec

end
-- ==== Proof.Algebraic.lean ====
/-
  The two idealised programs end with equal results.

  The kernel program's run leaves in its result buffer what the last region's write-back leaves (the fold of the
  buffer contents over @main's stretches and regions); the reference's run leaves the composed term of its
  operations.  Read layer by layer, both are: the perceptron of h + aggregate (h) with the same parameters,
  normalised with the kernel's one-pass or the reference's two-pass statistics, then the same pooling,
  projection and row normalisation.  The precondition makes every float argument real, the arguments agree,
  and so the network's two readings are one array (network_join).
-/
import proofs.«177104_j19121194402280_1_alg».proof.Defs
import proofs.«177104_j19121194402280_1_alg».proof.Proof.Gen.KernelIdeal
import proofs.«177104_j19121194402280_1_alg».proof.Proof.Gen.ReferenceIdeal
import proofs.«177104_j19121194402280_1_alg».proof.Proof.Gen.Pre_finite_inputs
import proofs.«177104_j19121194402280_1_alg».proof.Proof.Assembly
import proofs.«177104_j19121194402280_1_alg».proof.Proof.KValue
import proofs.«177104_j19121194402280_1_alg».proof.Proof.KValue2
import proofs.«177104_j19121194402280_1_alg».proof.Proof.KValue3
import proofs.«177104_j19121194402280_1_alg».proof.Proof.RefRun
import proofs.«177104_j19121194402280_1_alg».proof.Proof.RefValue
import proofs.«177104_j19121194402280_1_alg».proof.Proof.PreReal
import proofs.«177104_j19121194402280_1_alg».proof.Proof.ValueJoin

set_option maxRecDepth 16384

noncomputable section

namespace Cert.Proof.Parts

open Idealize.ShloMosaic Idealize.SL.Sem Idealize.ShloMosaic.FiniteReal Idealize.ShloMosaic.ValueIdx

/-- The aggregate of a real array over the edges is real, whatever the edge indices: gathered entries, summed into zeros. -/
theorem aggR_real (ei : IVec Cert.ReferenceIdeal.S2x600000 32) {h : FVec Ideal Cert.ReferenceIdeal.S50000x128 .f32} (hh : AllReal h) :
    AllReal (Cert.ReferenceIdeal.Hand.aggR (F := Ideal) h ei) := by
  unfold Cert.ReferenceIdeal.Hand.aggR
  exact Cert.Spec.scatterAdd_real _ _ (fun _ => Cert.Spec.zero_splat_real _ _) (Cert.Spec.gather_real _ hh _)

/-- From memories agreeing on the arguments, of which the precondition holds, both idealised programs run and end
    with the same result array on every core, the arguments unchanged. -/
theorem algebraic : Cert.algebraic_KernelIdeal_ReferenceIdeal := by
  intro m ρ m' ρ' hpre hagree
  refine ⟨fun c => Cert.KernelIdeal.Hand.W14 m ρ c (Proc.devRef .tc Cert.KernelIdeal.main_v91), Cert.KernelIdeal.Hand.run_value m ρ, ?_⟩
  refine (θ_run (Cert.ReferenceIdeal.defs (F := Ideal)) _ _).mono (fun r h c => ⟨(h c).1.trans ?_, (h c).2⟩)
    (Cert.ReferenceIdeal.Hand.run (F := Ideal) m' ρ')
  obtain ⟨a0, a1, a2, a3, a4, a5, a6, a7, a8, a9, a10, a11, a12, a13, a14, a15, a16, a17, a18, a19, a20, a21, a22⟩ := hagree c
  obtain ⟨r0, r3, r4, r5, r6, r7, r8, r9, r10, r11, r12, r13, r14, r15, r16, r17, r18, r19, r20, r21, r22⟩ := pre_real m hpre c
  generalize hV : StableHlo.launchContents m' c = V
  have hVa : ∀ b, V b = m' (c, b) := fun b => by rw [← hV]
  have e0 : V (Proc.devRef .tc Cert.ReferenceIdeal.main_arg0) = m ((c.tc : Thread Cert.KernelIdeal.nD Cert.KernelIdeal.τ).loc Cert.KernelIdeal.main_arg0) := (hVa _).trans a0
  have e1 : V (Proc.devRef .tc Cert.ReferenceIdeal.main_arg1) = m ((c.tc : Thread Cert.KernelIdeal.nD Cert.KernelIdeal.τ).loc Cert.KernelIdeal.main_arg1) := (hVa _).trans a1
  have e2 : V (Proc.devRef .tc Cert.ReferenceIdeal.main_arg2) = m ((c.tc : Thread Cert.KernelIdeal.nD Cert.KernelIdeal.τ).loc Cert.KernelIdeal.main_arg2) := (hVa _).trans a2
  have e3 : V (Proc.devRef .tc Cert.ReferenceIdeal.main_arg3) = m ((c.tc : Thread Cert.KernelIdeal.nD Cert.KernelIdeal.τ).loc Cert.KernelIdeal.main_arg3) := (hVa _).trans a3
  have e4 : V (Proc.devRef .tc Cert.ReferenceIdeal.main_arg4) = m ((c.tc : Thread Cert.KernelIdeal.nD Cert.KernelIdeal.τ).loc Cert.KernelIdeal.main_arg4) := (hVa _).trans a4
  have e5 : V (Proc.devRef .tc Cert.ReferenceIdeal.main_arg5) = m ((c.tc : Thread Cert.KernelIdeal.nD Cert.KernelIdeal.τ).loc Cert.KernelIdeal.main_arg5) := (hVa _).trans a5
  have e6 : V (Proc.devRef .tc Cert.ReferenceIdeal.main_arg6) = m ((c.tc : Thread Cert.KernelIdeal.nD Cert.KernelIdeal.τ).loc Cert.KernelIdeal.main_arg6) := (hVa _).trans a6
  have e7 : V (Proc.devRef .tc Cert.ReferenceIdeal.main_arg7) = m ((c.tc : Thread Cert.KernelIdeal.nD Cert.KernelIdeal.τ).loc Cert.KernelIdeal.main_arg7) := (hVa _).trans a7
  have e8 : V (Proc.devRef .tc Cert.ReferenceIdeal.main_arg8) = m ((c.tc : Thread Cert.KernelIdeal.nD Cert.KernelIdeal.τ).loc Cert.KernelIdeal.main_arg8) := (hVa _).trans a8
  have e9 : V (Proc.devRef .tc Cert.ReferenceIdeal.main_arg9) = m ((c.tc : Thread Cert.KernelIdeal.nD Cert.KernelIdeal.τ).loc Cert.KernelIdeal.main_arg9) := (hVa _).trans a9
  have e10 : V (Proc.devRef .tc Cert.ReferenceIdeal.main_arg10) = m ((c.tc : Thread Cert.KernelIdeal.nD Cert.KernelIdeal.τ).loc Cert.KernelIdeal.main_arg10) := (hVa _).trans a10
  have e11 : V (Proc.devRef .tc Cert.ReferenceIdeal.main_arg11) = m ((c.tc : Thread Cert.KernelIdeal.nD Cert.KernelIdeal.τ).loc Cert.KernelIdeal.main_arg11) := (hVa _).trans a11
  have e12 : V (Proc.devRef .tc Cert.ReferenceIdeal.main_arg12) = m ((c.tc : Thread Cert.KernelIdeal.nD Cert.KernelIdeal.τ).loc Cert.KernelIdeal.main_arg12) := (hVa _).trans a12
  have e13 : V (Proc.devRef .tc Cert.ReferenceIdeal.main_arg13) = m ((c.tc : Thread Cert.KernelIdeal.nD Cert.KernelIdeal.τ).loc Cert.KernelIdeal.main_arg13) := (hVa _).trans a13
  have e14 : V (Proc.devRef .tc Cert.ReferenceIdeal.main_arg14) = m ((c.tc : Thread Cert.KernelIdeal.nD Cert.KernelIdeal.τ).loc Cert.KernelIdeal.main_arg14) := (hVa _).trans a14
  have e15 : V (Proc.devRef .tc Cert.ReferenceIdeal.main_arg15) = m ((c.tc : Thread Cert.KernelIdeal.nD Cert.KernelIdeal.τ).loc Cert.KernelIdeal.main_arg15) := (hVa _).trans a15
  have e16 : V (Proc.devRef .tc Cert.ReferenceIdeal.main_arg16) = m ((c.tc : Thread Cert.KernelIdeal.nD Cert.KernelIdeal.τ).loc Cert.KernelIdeal.main_arg16) := (hVa _).trans a16
  have e17 : V (Proc.devRef .tc Cert.ReferenceIdeal.main_arg17) = m ((c.tc : Thread Cert.KernelIdeal.nD Cert.KernelIdeal.τ).loc Cert.KernelIdeal.main_arg17) := (hVa _).trans a17
  have e18 : V (Proc.devRef .tc Cert.ReferenceIdeal.main_arg18) = m ((c.tc : Thread Cert.KernelIdeal.nD Cert.KernelIdeal.τ).loc Cert.KernelIdeal.main_arg18) := (hVa _).trans a18
  have e19 : V (Proc.devRef .tc Cert.ReferenceIdeal.main_arg19) = m ((c.tc : Thread Cert.KernelIdeal.nD Cert.KernelIdeal.τ).loc Cert.KernelIdeal.main_arg19) := (hVa _).trans a19
  have e20 : V (Proc.devRef .tc Cert.ReferenceIdeal.main_arg20) = m ((c.tc : Thread Cert.KernelIdeal.nD Cert.KernelIdeal.τ).loc Cert.KernelIdeal.main_arg20) := (hVa _).trans a20
  have e21 : V (Proc.devRef .tc Cert.ReferenceIdeal.main_arg21) = m ((c.tc : Thread Cert.KernelIdeal.nD Cert.KernelIdeal.τ).loc Cert.KernelIdeal.main_arg21) := (hVa _).trans a21
  have e22 : V (Proc.devRef .tc Cert.ReferenceIdeal.main_arg22) = m ((c.tc : Thread Cert.KernelIdeal.nD Cert.KernelIdeal.τ).loc Cert.KernelIdeal.main_arg22) := (hVa _).trans a22
  have R1 := Cert.ReferenceIdeal.Hand.layerR1 V
  have R2 := Cert.ReferenceIdeal.Hand.layerR2 V
  have R3 := Cert.ReferenceIdeal.Hand.layerR3 V
  have Rt := Cert.ReferenceIdeal.Hand.tailR V
  simp only [e0, e1, e2, e3, e4, e5, e6, e7, e8, e9, e10, e11, e12, e13, e14, e15, e16, e17, e18, e19, e20, e21, e22] at R1 R2 R3 Rt
  have K1 : Cert.Spec.LayerReads Cert.Spec.meanK Cert.Spec.varK (fun h => Cert.ReferenceIdeal.Hand.aggR (F := Ideal) h (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.KernelIdeal.Hand.W4 m ρ c (Proc.devRef .tc Cert.KernelIdeal.main_v30)) := fun r j => Cert.KernelIdeal.Hand.layerK1 m ρ c r j
  have K2 : Cert.Spec.LayerReads Cert.Spec.meanK Cert.Spec.varK (fun h => Cert.ReferenceIdeal.Hand.aggR (F := Ideal) h (m ((c.tc : Thread Cert.KernelIdeal.nD Cert.KernelIdeal.τ).loc Cert.KernelIdeal.main_arg1))) (Cert.KernelIdeal.Hand.W4 m ρ c (Proc.devRef .tc Cert.KernelIdeal.main_v30)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (Cert.KernelIdeal.Hand.W8 m ρ c (Proc.devRef .tc Cert.KernelIdeal.main_v50)) := fun r j => Cert.KernelIdeal.Hand.layerK2 m ρ c r j
  have K3 : Cert.Spec.LayerReads Cert.Spec.meanK Cert.Spec.varK (fun h => Cert.ReferenceIdeal.Hand.aggR (F := Ideal) h (m ((c.tc : Thread Cert.KernelIdeal.nD Cert.KernelIdeal.τ).loc Cert.KernelIdeal.main_arg1))) (Cert.KernelIdeal.Hand.W8 m ρ c (Proc.devRef .tc Cert.KernelIdeal.main_v50)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (Cert.KernelIdeal.Hand.W12 m ρ c (Proc.devRef .tc Cert.KernelIdeal.main_v70)) := fun r j => Cert.KernelIdeal.Hand.layerK3 m ρ c r j
  have Kt : ∀ (g : Fin 512) (o : Fin 64), (Cert.KernelIdeal.Hand.W14 m ρ c (Proc.devRef .tc Cert.KernelIdeal.main_v91)) (ix2 g o) = Cert.Spec.l2normalize
      (Cert.Spec.proj (fun g k => (fun h1 h2 h3 => Cert.ReferenceIdeal.Hand.poolR (F := Ideal) h1 h2 h3 (m ((c.tc : Thread Cert.KernelIdeal.nD Cert.KernelIdeal.τ).loc Cert.KernelIdeal.main_arg2))) (Cert.KernelIdeal.Hand.W4 m ρ c (Proc.devRef .tc Cert.KernelIdeal.main_v30)) (Cert.KernelIdeal.Hand.W8 m ρ c (Proc.devRef .tc Cert.KernelIdeal.main_v50)) (Cert.KernelIdeal.Hand.W12 m ρ c (Proc.devRef .tc Cert.KernelIdeal.main_v70)) (ix2 g k)) (fun o k => (m ((c.tc : Thread Cert.KernelIdeal.nD Cert.KernelIdeal.τ).loc Cert.KernelIdeal.main_arg21)) (ix2 o k)) (fun o => (m ((c.tc : Thread Cert.KernelIdeal.nD Cert.KernelIdeal.τ).loc Cert.KernelIdeal.main_arg22)) (ix1 o)))
      (fun g => ∑ o' : Fin 64,
        Cert.Spec.proj (fun g k => (fun h1 h2 h3 => Cert.ReferenceIdeal.Hand.poolR (F := Ideal) h1 h2 h3 (m ((c.tc : Thread Cert.KernelIdeal.nD Cert.KernelIdeal.τ).loc Cert.KernelIdeal.main_arg2))) (Cert.KernelIdeal.Hand.W4 m ρ c (Proc.devRef .tc Cert.KernelIdeal.main_v30)) (Cert.KernelIdeal.Hand.W8 m ρ c (Proc.devRef .tc Cert.KernelIdeal.main_v50)) (Cert.KernelIdeal.Hand.W12 m ρ c (Proc.devRef .tc Cert.KernelIdeal.main_v70)) (ix2 g k)) (fun o k => (m ((c.tc : Thread Cert.KernelIdeal.nD Cert.KernelIdeal.τ).loc Cert.KernelIdeal.main_arg21)) (ix2 o k)) (fun o => (m ((c.tc : Thread Cert.KernelIdeal.nD Cert.KernelIdeal.τ).loc Cert.KernelIdeal.main_arg22)) (ix1 o)) g o'
          * Cert.Spec.proj (fun g k => (fun h1 h2 h3 => Cert.ReferenceIdeal.Hand.poolR (F := Ideal) h1 h2 h3 (m ((c.tc : Thread Cert.KernelIdeal.nD Cert.KernelIdeal.τ).loc Cert.KernelIdeal.main_arg2))) (Cert.KernelIdeal.Hand.W4 m ρ c (Proc.devRef .tc Cert.KernelIdeal.main_v30)) (Cert.KernelIdeal.Hand.W8 m ρ c (Proc.devRef .tc Cert.KernelIdeal.main_v50)) (Cert.KernelIdeal.Hand.W12 m ρ c (Proc.devRef .tc Cert.KernelIdeal.main_v70)) (ix2 g k)) (fun o k => (m ((c.tc : Thread Cert.KernelIdeal.nD Cert.KernelIdeal.τ).loc Cert.KernelIdeal.main_arg21)) (ix2 o k)) (fun o => (m ((c.tc : Thread Cert.KernelIdeal.nD Cert.KernelIdeal.τ).loc Cert.KernelIdeal.main_arg22)) (ix1 o)) g o') g o := fun g o => Cert.KernelIdeal.Hand.tailK m ρ c g o
  exact (Cert.Spec.network_join (aggf := (fun h => Cert.ReferenceIdeal.Hand.aggR (F := Ideal) h (m ((c.tc : Thread Cert.KernelIdeal.nD Cert.KernelIdeal.τ).loc Cert.KernelIdeal.main_arg1)))) (fun h hh => aggR_real _ hh) (fun h1 h2 h3 => Cert.ReferenceIdeal.Hand.poolR (F := Ideal) h1 h2 h3 (m ((c.tc : Thread Cert.KernelIdeal.nD Cert.KernelIdeal.τ).loc Cert.KernelIdeal.main_arg2)))
    r0 r3 r4 r5 r6 r7 r8 r9 r10 r11 r12 r13 r14 r15 r16 r17 r18 r19 r20
    K1 (fun r j => R1 r j) K2 (fun r j => R2 r j) K3 (fun r j => R3 r j) Kt (fun g o => Rt g o)).symm

end Cert.Proof.Parts

end
-- ==== Proof.lean ====
/-
  A three-layer graph network — each layer adds to every node's features the sum of its in-neighbours' features,
  applies a two-layer perceptron, normalises each feature over the 50000 nodes and rectifies — followed by a mean
  pooling of the three layers' results over 512 graphs, a projection to 64 features and a row normalisation.

  The kernel program runs each layer as two launches (the perceptron with running column sums of its output and of
  its squares, from which it takes mean = S/50000 and var = Q/50000 − mean²; then the normalisation), and the tail
  as one launch; the reference computes the mean and the mean of squared deviations directly.  On finite inputs
  every intermediate value is a real number, the two variances are one number, and the two programs' results agree
  entry by entry; the frames are the launches' accounts of what each region reads, writes and gives back.
-/
import proofs.«177104_j19121194402280_1_alg».proof.Defs
import proofs.«177104_j19121194402280_1_alg».proof.Proof.Gen.Kernel
import proofs.«177104_j19121194402280_1_alg».proof.Proof.Gen.KernelIdeal
import proofs.«177104_j19121194402280_1_alg».proof.Proof.Gen.ReferenceIdeal
import proofs.«177104_j19121194402280_1_alg».proof.Proof.Gen.Pre_finite_inputs
import proofs.«177104_j19121194402280_1_alg».proof.Proof.Preserves
import proofs.«177104_j19121194402280_1_alg».proof.Proof.Assembly
import proofs.«177104_j19121194402280_1_alg».proof.Proof.WAssembly
import proofs.«177104_j19121194402280_1_alg».proof.Proof.RefRun
import proofs.«177104_j19121194402280_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Hand.frame_ri,
    Cert.Proof.Parts.preserves,
    Cert.Proof.Parts.algebraic⟩

end Cert.Proof

end
